-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "d_eps_sq" .f32 0x2D0CBCCC#32 ((77371252064649 / 9671406556917033397649408 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S8x8 : Shape := ⟨2, ![8, 8]⟩
abbrev S8x50000 : Shape := ⟨2, ![8, 50000]⟩
abbrev S100000x8 : Shape := ⟨2, ![100000, 8]⟩
abbrev S3000 : Shape := ⟨1, ![3000]⟩
abbrev S500000 : Shape := ⟨1, ![500000]⟩
abbrev S_ : Shape := ⟨0, ![]⟩

class Facts : Prop where
  bcast_S_S50000 : S_.BroadcastsInDim S50000 (![] : Fin 0 → Fin S50000.rank)
  reducesTo_S50000_S_d0 : S50000.ReducesTo [0] S_
  h_S_ : 0 < S_.numel
  bcast_S_S8x8 : S_.BroadcastsInDim S8x8 (![] : Fin 0 → Fin S8x8.rank)
  reducesTo_S8x8_S_d0_1 : S8x8.ReducesTo [0, 1] S_
  bcast_S_S8x50000 : S_.BroadcastsInDim S8x50000 (![] : Fin 0 → Fin S8x50000.rank)
  reducesTo_S8x50000_S_d0_1 : S8x50000.ReducesTo [0, 1] S_
  bcast_S_S100000x8 : S_.BroadcastsInDim S100000x8 (![] : Fin 0 → Fin S100000x8.rank)
  reducesTo_S100000x8_S_d0_1 : S100000x8.ReducesTo [0, 1] S_

variable [Facts]

def fn_part1 {F : FTy → Type} [FloatOps F] (main_arg4 : FVec F S8x50000 .f32) (main_arg5 : FVec F S100000x8 .f32) (main_v13 : IVec S_ 1) (main_v16 : IVec S8x50000 1) : IVec S_ 1 :=
  let main_c_5 : IVec S_ 1 := constantI S_ 1 1#1
  let main_v17 : IVec S_ 1 := (fun x v => Host.reduce IntOp.andi x v reducesTo_S8x50000_S_d0_1 h_S_) main_v16 main_c_5
  let main_v18 : IVec S_ 1 := andi main_v13 main_v17
  let main_v19 : FVec F S8x50000 .f32 := Host.absf main_arg4
  let main_cst_6 : FVec F S_ .f32 := constant S_ .f32 0x7F800000#32
  let main_v20 : FVec F S8x50000 .f32 := broadcastInDim S8x50000 ![] bcast_S_S8x50000 main_cst_6
  let main_v21 : IVec S8x50000 1 := cmpf .olt main_v19 main_v20
  let main_c_7 : IVec S_ 1 := constantI S_ 1 1#1
  let main_v22 : IVec S_ 1 := (fun x v => Host.reduce IntOp.andi x v reducesTo_S8x50000_S_d0_1 h_S_) main_v21 main_c_7
  let main_v23 : IVec S_ 1 := andi main_v18 main_v22
  let main_v24 : FVec F S100000x8 .f32 := Host.absf main_arg5
  let main_cst_8 : FVec F S_ .f32 := constant S_ .f32 0x7F800000#32
  let main_v25 : FVec F S100000x8 .f32 := broadcastInDim S100000x8 ![] bcast_S_S100000x8 main_cst_8
  let main_v26 : IVec S100000x8 1 := cmpf .olt main_v24 main_v25
  let main_c_9 : IVec S_ 1 := constantI S_ 1 1#1
  let main_v27 : IVec S_ 1 := (fun x v => Host.reduce IntOp.andi x v reducesTo_S100000x8_S_d0_1 h_S_) main_v26 main_c_9
  let main_v28 : IVec S_ 1 := andi main_v23 main_v27
  main_v28

def fn {F : FTy → Type} [FloatOps F] (main_arg0 : FVec F S50000 .f32) (main_arg1 : FVec F S50000 .f32) (main_arg2 : FVec F S8x8 .f32) (main_arg3 : FVec F S8x50000 .f32) (main_arg4 : FVec F S8x50000 .f32) (main_arg5 : FVec F S100000x8 .f32) (main_arg6 : IVec S3000 32) (main_arg7 : IVec S3000 32) (main_arg8 : IVec S500000 32) (main_arg9 : IVec S500000 32) : IVec S_ 1 :=
  let main_v0 : FVec F S50000 .f32 := Host.absf main_arg0
  let main_cst : FVec F S_ .f32 := constant S_ .f32 0x7F800000#32
  let main_v1 : FVec F S50000 .f32 := broadcastInDim S50000 ![] bcast_S_S50000 main_cst
  let main_v2 : IVec S50000 1 := cmpf .olt main_v0 main_v1
  let main_c : IVec S_ 1 := constantI S_ 1 1#1
  let main_v3 : IVec S_ 1 := (fun x v => Host.reduce IntOp.andi x v reducesTo_S50000_S_d0 h_S_) main_v2 main_c
  let main_v4 : FVec F S50000 .f32 := Host.absf main_arg1
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S8x8 .f32 := Host.absf main_arg2
  let main_cst_2 : FVec F S_ .f32 := constant S_ .f32 0x7F800000#32
  let main_v10 : FVec F S8x8 .f32 := broadcastInDim S8x8 ![] bcast_S_S8x8 main_cst_2
  let main_v11 : IVec S8x8 1 := cmpf .olt main_v9 main_v10
  let main_c_3 : IVec S_ 1 := constantI S_ 1 1#1
  let main_v12 : IVec S_ 1 := (fun x v => Host.reduce IntOp.andi x v reducesTo_S8x8_S_d0_1 h_S_) main_v11 main_c_3
  let main_v13 : IVec S_ 1 := andi main_v8 main_v12
  let main_v14 : FVec F S8x50000 .f32 := Host.absf main_arg3
  let main_cst_4 : FVec F S_ .f32 := constant S_ .f32 0x7F800000#32
  let main_v15 : FVec F S8x50000 .f32 := broadcastInDim S8x50000 ![] bcast_S_S8x50000 main_cst_4
  let main_v16 : IVec S8x50000 1 := cmpf .olt main_v14 main_v15
  fn_part1 (F := F) main_arg4 main_arg5 main_v13 main_v16
-- ==== Kernel.lean ====
abbrev S50000 : Shape := ⟨1, ![50000]⟩
abbrev S8x8 : Shape := ⟨2, ![8, 8]⟩
abbrev S8x50000 : Shape := ⟨2, ![8, 50000]⟩
abbrev S100000x8 : Shape := ⟨2, ![100000, 8]⟩
abbrev S3000 : Shape := ⟨1, ![3000]⟩
abbrev S500000 : Shape := ⟨1, ![500000]⟩
abbrev S_ : Shape := ⟨0, ![]⟩
abbrev S1x50000 : Shape := ⟨2, ![1, 50000]⟩
abbrev S8x100000 : Shape := ⟨2, ![8, 100000]⟩
abbrev S8 : Shape := ⟨1, ![8]⟩
abbrev S1x8 : Shape := ⟨2, ![1, 8]⟩
abbrev S50000x8 : Shape := ⟨2, ![50000, 8]⟩
abbrev S3000x1 : Shape := ⟨2, ![3000, 1]⟩
abbrev S3000x8 : Shape := ⟨2, ![3000, 8]⟩
abbrev S1x3000 : Shape := ⟨2, ![1, 3000]⟩
abbrev S1x1 : Shape := ⟨2, ![1, 1]⟩
abbrev S200x8 : Shape := ⟨2, ![200, 8]⟩
abbrev S200x1 : Shape := ⟨2, ![200, 1]⟩
abbrev S200 : Shape := ⟨1, ![200]⟩
abbrev S8x3000 : Shape := ⟨2, ![8, 3000]⟩
abbrev S200x3000 : Shape := ⟨2, ![200, 3000]⟩
abbrev S1x200x3000 : Shape := ⟨3, ![1, 200, 3000]⟩
abbrev S1 : Shape := ⟨1, ![1]⟩
abbrev S1x1x1 : Shape := ⟨3, ![1, 1, 1]⟩
abbrev S500000x1 : Shape := ⟨2, ![500000, 1]⟩
abbrev S500000x8 : Shape := ⟨2, ![500000, 8]⟩
abbrev S5000x8 : Shape := ⟨2, ![5000, 8]⟩
abbrev S5000x1 : Shape := ⟨2, ![5000, 1]⟩
abbrev S5000 : Shape := ⟨1, ![5000]⟩
abbrev S1x5000x1 : Shape := ⟨3, ![1, 5000, 1]⟩

abbrev nBuf : Space → Nat
  | .hbm => 142
  | .vmem => 18
  | .smem => 0
  | _ => 0

abbrev hbmTy0_0 (i : Nat) : BufTy := match i % 128 with
  | 0 => ⟨S50000, .f32⟩
  | 1 => ⟨S50000, .f32⟩
  | 2 => ⟨S8x8, .f32⟩
  | 3 => ⟨S8x50000, .f32⟩
  | 4 => ⟨S8x50000, .f32⟩
  | 5 => ⟨S100000x8, .f32⟩
  | 6 => ⟨S3000, .i32⟩
  | 7 => ⟨S3000, .i32⟩
  | 8 => ⟨S500000, .i32⟩
  | 9 => ⟨S500000, .i32⟩
  | 10 => ⟨S_, .f32⟩
  | 11 => ⟨S50000, .f32⟩
  | 12 => ⟨S_, .f32⟩
  | 13 => ⟨S50000, .f32⟩
  | 14 => ⟨S50000, .f32⟩
  | 15 => ⟨S1x50000, .f32⟩
  | 16 => ⟨S8x50000, .f32⟩
  | 17 => ⟨S8x50000, .f32⟩
  | 18 => ⟨S8x50000, .f32⟩
  | 19 => ⟨S_, .f32⟩
  | 20 => ⟨S50000, .f32⟩
  | 21 => ⟨S1x50000, .f32⟩
  | 22 => ⟨S8x50000, .f32⟩
  | 23 => ⟨S8x50000, .f32⟩
  | 24 => ⟨S_, .f32⟩
  | 25 => ⟨S50000, .f32⟩
  | 26 => ⟨S_, .f32⟩
  | 27 => ⟨S50000, .f32⟩
  | 28 => ⟨S50000, .f32⟩
  | 29 => ⟨S1x50000, .f32⟩
  | 30 => ⟨S8x50000, .f32⟩
  | 31 => ⟨S8x50000, .f32⟩
  | 32 => ⟨S8x50000, .f32⟩
  | 33 => ⟨S_, .f32⟩
  | 34 => ⟨S50000, .f32⟩
  | 35 => ⟨S1x50000, .f32⟩
  | 36 => ⟨S8x50000, .f32⟩
  | 37 => ⟨S8x50000, .f32⟩
  | 38 => ⟨S8x100000, .f32⟩
  | 39 => ⟨S100000x8, .f32⟩
  | 40 => ⟨S100000x8, .f32⟩
  | 41 => ⟨S_, .f32⟩
  | 42 => ⟨S100000x8, .f32⟩
  | 43 => ⟨S100000x8, .f32⟩
  | 44 => ⟨S_, .f32⟩
  | 45 => ⟨S100000x8, .f32⟩
  | 46 => ⟨S100000x8, .f32⟩
  | 47 => ⟨S100000x8, .f32⟩
  | 48 => ⟨S100000x8, .f32⟩
  | 49 => ⟨S_, .f32⟩
  | 50 => ⟨S8, .f32⟩
  | 51 => ⟨S8x8, .f32⟩
  | 52 => ⟨S1x8, .f32⟩
  | 53 => ⟨S8x8, .f32⟩
  | 54 => ⟨S8x8, .f32⟩
  | 55 => ⟨S8x8, .f32⟩
  | 56 => ⟨S8x8, .f32⟩
  | 57 => ⟨S8x50000, .f32⟩
  | 58 => ⟨S8x50000, .f32⟩
  | 59 => ⟨S50000x8, .f32⟩
  | 60 => ⟨S50000x8, .f32⟩
  | 61 => ⟨S_, .i32⟩
  | 62 => ⟨S3000, .i32⟩
  | 63 => ⟨S3000, .i1⟩
  | 64 => ⟨S_, .i32⟩
  | 65 => ⟨S3000, .i32⟩
  | 66 => ⟨S3000, .i32⟩
  | 67 => ⟨S3000, .i32⟩
  | 68 => ⟨S3000x1, .i32⟩
  | 69 => ⟨S3000x8, .f32⟩
  | 70 => ⟨S_, .i32⟩
  | 71 => ⟨S3000, .i32⟩
  | 72 => ⟨S3000, .i1⟩
  | 73 => ⟨S_, .i32⟩
  | 74 => ⟨S3000, .i32⟩
  | 75 => ⟨S3000, .i32⟩
  | 76 => ⟨S3000, .i32⟩
  | 77 => ⟨S3000x1, .i32⟩
  | 78 => ⟨S3000x8, .f32⟩
  | 79 => ⟨S_, .i32⟩
  | 80 => ⟨S3000, .i32⟩
  | 81 => ⟨S3000, .i1⟩
  | 82 => ⟨S_, .i32⟩
  | 83 => ⟨S3000, .i32⟩
  | 84 => ⟨S3000, .i32⟩
  | 85 => ⟨S3000, .i32⟩
  | 86 => ⟨S3000x1, .i32⟩
  | 87 => ⟨S3000, .f32⟩
  | 88 => ⟨S3000x1, .f32⟩
  | 89 => ⟨S_, .i32⟩
  | 90 => ⟨S3000, .i32⟩
  | 91 => ⟨S3000, .i1⟩
  | 92 => ⟨S_, .i32⟩
  | 93 => ⟨S3000, .i32⟩
  | 94 => ⟨S3000, .i32⟩
  | 95 => ⟨S3000, .i32⟩
  | 96 => ⟨S3000x1, .i32⟩
  | 97 => ⟨S3000, .f32⟩
  | 98 => ⟨S1x3000, .f32⟩
  | 99 => ⟨S1x1, .f32⟩
  | 100 => ⟨S_, .f32⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S500000x1, .i32⟩
  | 109 => ⟨S500000x8, .f32⟩
  | 110 => ⟨S_, .i32⟩
  | 111 => ⟨S500000, .i32⟩
  | 112 => ⟨S500000, .i1⟩
  | 113 => ⟨S_, .i32⟩
  | 114 => ⟨S500000, .i32⟩
  | 115 => ⟨S500000, .i32⟩
  | 116 => ⟨S500000, .i32⟩
  | 117 => ⟨S500000x1, .i32⟩
  | 118 => ⟨S500000x8, .f32⟩
  | 119 => ⟨S_, .i32⟩
  | 120 => ⟨S500000, .i32⟩
  | 121 => ⟨S500000, .i1⟩
  | 122 => ⟨S_, .i32⟩
  | 123 => ⟨S500000, .i32⟩
  | 124 => ⟨S500000, .i32⟩
  | 125 => ⟨S500000, .i32⟩
  | 126 => ⟨S500000x1, .i32⟩
  | 127 => ⟨S500000, .f32⟩
  | _ => ⟨S50000, .f32⟩

abbrev hbmTy0_1 (i : Nat) : BufTy := match i % 128 with
  | 0 => ⟨S500000x1, .f32⟩
  | 1 => ⟨S_, .i32⟩
  | 2 => ⟨S500000, .i32⟩
  | 3 => ⟨S500000, .i1⟩
  | 4 => ⟨S_, .i32⟩
  | 5 => ⟨S500000, .i32⟩
  | 6 => ⟨S500000, .i32⟩
  | 7 => ⟨S500000, .i32⟩
  | 8 => ⟨S500000x1, .i32⟩
  | 9 => ⟨S500000, .f32⟩
  | 10 => ⟨S500000x1, .f32⟩
  | 11 => ⟨S1x1, .f32⟩
  | 12 => ⟨S_, .f32⟩
  | 13 => ⟨S_, .f32⟩
  | _ => ⟨S50000, .f32⟩

abbrev hbmTy (i : Nat) : BufTy := match i / 128 with
  | 0 => hbmTy0_0 i
  | 1 => hbmTy0_1 i
  | _ => ⟨S50000, .f32⟩

abbrev bufTy : (tb : Table) → Fin (tcTables nBuf tb) → BufTy
  | .hbm, ⟨i, _⟩ => hbmTy i
  | .local _ .vmem, ⟨0, _⟩ => ⟨S200x8, .f32⟩
  | .local _ .vmem, ⟨1, _⟩ => ⟨S200x8, .f32⟩
  | .local _ .vmem, ⟨2, _⟩ => ⟨S3000x8, .f32⟩
  | .local _ .vmem, ⟨3, _⟩ => ⟨S200x1, .f32⟩
  | .local _ .vmem, ⟨4, _⟩ => ⟨S200x1, .f32⟩
  | .local _ .vmem, ⟨5, _⟩ => ⟨S1x3000, .f32⟩
  | .local _ .vmem, ⟨6, _⟩ => ⟨S1x1, .f32⟩
  | .local _ .vmem, ⟨7, _⟩ => ⟨S1x1, .f32⟩
  | .local _ .vmem, ⟨8, _⟩ => ⟨S5000x8, .f32⟩
  | .local _ .vmem, ⟨9, _⟩ => ⟨S5000x8, .f32⟩
  | .local _ .vmem, ⟨10, _⟩ => ⟨S5000x8, .f32⟩
  | .local _ .vmem, ⟨11, _⟩ => ⟨S5000x8, .f32⟩
  | .local _ .vmem, ⟨12, _⟩ => ⟨S5000x1, .f32⟩
  | .local _ .vmem, ⟨13, _⟩ => ⟨S5000x1, .f32⟩
  | .local _ .vmem, ⟨14, _⟩ => ⟨S5000x1, .f32⟩
  | .local _ .vmem, ⟨15, _⟩ => ⟨S5000x1, .f32⟩
  | .local _ .vmem, ⟨16, _⟩ => ⟨S1x1, .f32⟩
  | .local _ .vmem, ⟨17, _⟩ => ⟨S1x1, .f32⟩
  | _, _ => ⟨S50000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_15 : Ref sig .tc := ⟨.hbm, 101, rfl⟩
abbrev main_v74 : Ref sig .tc := ⟨.hbm, 102, rfl⟩
abbrev main_v75 : Ref sig .tc := ⟨.hbm, 103, rfl⟩
abbrev main_c_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_17 : Ref sig .tc := ⟨.hbm, 110, rfl⟩
abbrev main_v81 : Ref sig .tc := ⟨.hbm, 111, rfl⟩
abbrev main_v82 : Ref sig .tc := ⟨.hbm, 112, rfl⟩
abbrev main_c_18 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_c_19 : Ref sig .tc := ⟨.hbm, 119, rfl⟩
abbrev main_v88 : Ref sig .tc := ⟨.hbm, 120, rfl⟩
abbrev main_v89 : Ref sig .tc := ⟨.hbm, 121, rfl⟩
abbrev main_c_20 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_c_21 : Ref sig .tc := ⟨.hbm, 129, rfl⟩
abbrev main_v96 : Ref sig .tc := ⟨.hbm, 130, rfl⟩
abbrev main_v97 : Ref sig .tc := ⟨.hbm, 131, rfl⟩
abbrev main_c_22 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3000x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x3000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  reducesTo_S8x50000_S50000_d0 : S8x50000.ReducesTo [0] S50000
  h_S_ : 0 < S_.numel
  bcast_S_S50000 : S_.BroadcastsInDim S50000 (![] : Fin 0 → Fin S50000.rank)
  bcast_S50000_S1x50000_1 : S50000.BroadcastsInDim S1x50000 (![1] : Fin 1 → Fin S1x50000.rank)
  bcast_S1x50000_S8x50000_0_1 : S1x50000.BroadcastsInDim S8x50000 (![0, 1] : Fin 2 → Fin S8x50000.rank)
  concatenates_S8x50000_S8x50000_S8x100000_d1 : Shape.Concatenates [S8x50000, S8x50000] S8x100000 1
  bcast_S_S100000x8 : S_.BroadcastsInDim S100000x8 (![] : Fin 0 → Fin S100000x8.rank)
  transposes_S8x100000_S100000x8_1_0 : S8x100000.Transposes [1, 0] S100000x8
  reducesTo_S100000x8_S8_d0 : S100000x8.ReducesTo [0] S8
  bcast_S8_S1x8_1 : S8.BroadcastsInDim S1x8 (![1] : Fin 1 → Fin S1x8.rank)
  bcast_S1x8_S8x8_0_1 : S1x8.BroadcastsInDim S8x8 (![0, 1] : Fin 2 → Fin S8x8.rank)
  transposes_S8x8_S8x8_1_0 : S8x8.Transposes [1, 0] S8x8
  transposes_S8x50000_S50000x8_1_0 : S8x50000.Transposes [1, 0] S50000x8
  bcast_S_S3000 : S_.BroadcastsInDim S3000 (![] : Fin 0 → Fin S3000.rank)
  bcast_S3000_S3000x1_0 : S3000.BroadcastsInDim S3000x1 (![0] : Fin 1 → Fin S3000x1.rank)
  shapeCasts_S3000_S3000x1 : S3000.ShapeCasts S3000x1
  shapeCasts_S3000_S1x3000 : S3000.ShapeCasts S1x3000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S200x8_S200x8_0_0 : ∀ a, (![0, 0] : Fin 2 → Nat) a + S200x8.size a ≤ S200x8.size a
  h_S200x8 : 0 < S200x8.numel
  shapeCasts_S200x8_S200x8 : S200x8.ShapeCasts S200x8
  inb_S3000x8_S3000x8_0_0 : ∀ a, (![0, 0] : Fin 2 → Nat) a + S3000x8.size a ≤ S3000x8.size a
  h_S3000x8 : 0 < S3000x8.numel
  shapeCasts_S3000x8_S3000x8 : S3000x8.ShapeCasts S3000x8
  inb_S200x1_S200x1_0_0 : ∀ a, (![0, 0] : Fin 2 → Nat) a + S200x1.size a ≤ S200x1.size a
  h_S200x1 : 0 < S200x1.numel
  shapeCasts_S200x1_S200x1 : S200x1.ShapeCasts S200x1
  inb_S1x3000_S1x3000_0_0 : ∀ a, (![0, 0] : Fin 2 → Nat) a + S1x3000.size a ≤ S1x3000.size a
  h_S1x3000 : 0 < S1x3000.numel
  shapeCasts_S1x3000_S1x3000 : S1x3000.ShapeCasts S1x3000
  reduces_S200x8_S200 : S200x8.Reduces [1] S200
  shapeCasts_S200_S200x1 : S200.ShapeCasts S200x1
  reduces_S3000x8_S3000 : S3000x8.Reduces [1] S3000
  transposes_S3000x1_p1_0_S1x3000 : S3000x1.Transposes [1, 0] S1x3000
  transposes_S3000x8_p1_0_S8x3000 : S3000x8.Transposes [1, 0] S8x3000
  broadcasts_S200x1_S200x3000 : S200x1.Broadcasts S200x3000
  broadcasts_S1x3000_S200x3000 : S1x3000.Broadcasts S200x3000
  shapeCasts_S200x3000_S1x200x3000 : S200x3000.ShapeCasts S1x200x3000
  reduces_S1x200x3000_S1 : S1x200x3000.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  bcast_S_S500000 : S_.BroadcastsInDim S500000 (![] : Fin 0 → Fin S500000.rank)
  bcast_S500000_S500000x1_0 : S500000.BroadcastsInDim S500000x1 (![0] : Fin 1 → Fin S500000x1.rank)
  shapeCasts_S500000_S500000x1 : S500000.ShapeCasts S500000x1
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  reduces_S5000x8_S5000 : S5000x8.Reduces [1] S5000
  shapeCasts_S5000_S5000x1 : S5000.ShapeCasts S5000x1
  shapeCasts_S5000x1_S1x5000x1 : S5000x1.ShapeCasts S1x5000x1
  reduces_S1x5000x1_S1 : S1x5000x1.Reduces [1, 2] S1
  dot_S8x100000_S100000x8_S8x8_1_0_0_1_n_n_wf : DotDims.WF S8x100000 S100000x8 S8x8 [1] [0] [0] [1] [] []
  dot_S8x8_S8x8_S8x8_1_0_0_1_n_n_wf : DotDims.WF S8x8 S8x8 S8x8 [1] [0] [0] [1] [] []
  dot_S8x8_S8x50000_S8x50000_1_0_0_1_n_n_wf : DotDims.WF S8x8 S8x50000 S8x50000 [1] [0] [0] [1] [] []
  gather_S50000x8_S3000x1_S3000x8_1_0_n_n_0_1_18_wf : GatherDims.WF S50000x8 S3000x1 S3000x8 [1] [0] [] [0] [] 1 ![1, 8]
  gather_S50000_S3000x1_S3000_n_0_n_n_0_1_1_wf : GatherDims.WF S50000 S3000x1 S3000 [] [0] [] [0] [] 1 ![1]
  dot_S200x8_S8x3000_S200x3000_1_0_0_1_n_n_wf : DotDims.WF S200x8 S8x3000 S200x3000 [1] [0] [0] [1] [] []
  gather_S50000x8_S500000x1_S500000x8_1_0_n_n_0_1_18_wf : GatherDims.WF S50000x8 S500000x1 S500000x8 [1] [0] [] [0] [] 1 ![1, 8]
  gather_S50000_S500000x1_S500000_n_0_n_n_0_1_1_wf : GatherDims.WF S50000 S500000x1 S500000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x8.size a ≤ S3000x8.size a
  hwx0_0 : ∀ i : grid0.Coords, EltTy.bits .f32 = 32 ∨ (Rect.block (s := S3000x8) S200x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3000x8.size a ≤ S3000x8.size a
  hwx0_1 : ∀ i : grid0.Coords, EltTy.bits .f32 = 32 ∨ (Rect.block (s := S3000x8) S3000x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x1.size a ≤ S3000x1.size a
  hwx0_2 : ∀ i : grid0.Coords, EltTy.bits .f32 = 32 ∨ (Rect.block (s := S3000x1) S200x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x3000.size a ≤ S1x3000.size a
  hwx0_3 : ∀ i : grid0.Coords, EltTy.bits .f32 = 32 ∨ (Rect.block (s := S1x3000) S1x3000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x8.size a ≤ S500000x8.size a
  hwx1_0 : ∀ i : grid1.Coords, EltTy.bits .f32 = 32 ∨ (Rect.block (s := S500000x8) S5000x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x8.size a ≤ S500000x8.size a
  hwx1_1 : ∀ i : grid1.Coords, EltTy.bits .f32 = 32 ∨ (Rect.block (s := S500000x8) S5000x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S500000x1.size a
  hwx1_2 : ∀ i : grid1.Coords, EltTy.bits .f32 = 32 ∨ (Rect.block (s := S500000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S500000x1.size a
  hwx1_3 : ∀ i : grid1.Coords, EltTy.bits .f32 = 32 ∨ (Rect.block (s := S500000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def dot_S8x100000_S100000x8_S8x8_1_0_0_1_n_n : DotDims S8x100000 S100000x8 S8x8 where
  lhsContracting := [1]
  rhsContracting := [0]
  lhsNonContracting := [0]
  rhsNonContracting := [1]
  lhsBatch := []
  rhsBatch := []
  wf := dot_S8x100000_S100000x8_S8x8_1_0_0_1_n_n_wf
def dot_S8x8_S8x8_S8x8_1_0_0_1_n_n : DotDims S8x8 S8x8 S8x8 where
  lhsContracting := [1]
  rhsContracting := [0]
  lhsNonContracting := [0]
  rhsNonContracting := [1]
  lhsBatch := []
  rhsBatch := []
  wf := dot_S8x8_S8x8_S8x8_1_0_0_1_n_n_wf
def dot_S8x8_S8x50000_S8x50000_1_0_0_1_n_n : DotDims S8x8 S8x50000 S8x50000 where
  lhsContracting := [1]
  rhsContracting := [0]
  lhsNonContracting := [0]
  rhsNonContracting := [1]
  lhsBatch := []
  rhsBatch := []
  wf := dot_S8x8_S8x50000_S8x50000_1_0_0_1_n_n_wf
def gather_S50000x8_S3000x1_S3000x8_1_0_n_n_0_1_18 : GatherDims S50000x8 S3000x1 S3000x8 where
  offsetDims := [1]
  collapsedSliceDims := [0]
  operandBatchingDims := []
  startIndicesBatchingDims := []
  startIndexMap := [0]
  indexVectorDim := 1
  sliceSizes := ![1, 8]
  wf := gather_S50000x8_S3000x1_S3000x8_1_0_n_n_0_1_18_wf
def gather_S50000_S3000x1_S3000_n_0_n_n_0_1_1 : GatherDims S50000 S3000x1 S3000 where
  offsetDims := []
  collapsedSliceDims := [0]
  operandBatchingDims := []
  startIndicesBatchingDims := []
  startIndexMap := [0]
  indexVectorDim := 1
  sliceSizes := ![1]
  wf := gather_S50000_S3000x1_S3000_n_0_n_n_0_1_1_wf
def dot_S200x8_S8x3000_S200x3000_1_0_0_1_n_n : DotDims S200x8 S8x3000 S200x3000 where
  lhsContracting := [1]
  rhsContracting := [0]
  lhsNonContracting := [0]
  rhsNonContracting := [1]
  lhsBatch := []
  rhsBatch := []
  wf := dot_S200x8_S8x3000_S200x3000_1_0_0_1_n_n_wf
def gather_S50000x8_S500000x1_S500000x8_1_0_n_n_0_1_18 : GatherDims S50000x8 S500000x1 S500000x8 where
  offsetDims := [1]
  collapsedSliceDims := [0]
  operandBatchingDims := []
  startIndicesBatchingDims := []
  startIndexMap := [0]
  indexVectorDim := 1
  sliceSizes := ![1, 8]
  wf := gather_S50000x8_S500000x1_S500000x8_1_0_n_n_0_1_18_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf

abbrev win0_0 : Pipeline.Window sig grid0 :=
  Pipeline.Window.ofSpec (Memref.whole main_v48) S200x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v55) S3000x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v63) S200x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v71) S1x3000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v72) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v80) S5000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v87) S5000x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v95) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v103) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v104) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000 : Shape := ⟨1, ![50000]⟩
abbrev S8x8 : Shape := ⟨2, ![8, 8]⟩
abbrev S8x50000 : Shape := ⟨2, ![8, 50000]⟩
abbrev S100000x8 : Shape := ⟨2, ![100000, 8]⟩
abbrev S3000 : Shape := ⟨1, ![3000]⟩
abbrev S500000 : Shape := ⟨1, ![500000]⟩
abbrev S_ : Shape := ⟨0, ![]⟩
abbrev S1x50000 : Shape := ⟨2, ![1, 50000]⟩
abbrev S8x100000 : Shape := ⟨2, ![8, 100000]⟩
abbrev S8 : Shape := ⟨1, ![8]⟩
abbrev S1x8 : Shape := ⟨2, ![1, 8]⟩
abbrev S3000x1 : Shape := ⟨2, ![3000, 1]⟩
abbrev S8x3000 : Shape := ⟨2, ![8, 3000]⟩
abbrev S3000x8 : Shape := ⟨2, ![3000, 8]⟩
abbrev S1x3000 : Shape := ⟨2, ![1, 3000]⟩
abbrev S3000x3000 : Shape := ⟨2, ![3000, 3000]⟩
abbrev S3000x1x8 : Shape := ⟨3, ![3000, 1, 8]⟩
abbrev S1x3000x8 : Shape := ⟨3, ![1, 3000, 8]⟩
abbrev S3000x3000x8 : Shape := ⟨3, ![3000, 3000, 8]⟩
abbrev S500000x1 : Shape := ⟨2, ![500000, 1]⟩
abbrev S8x500000 : Shape := ⟨2, ![8, 500000]⟩
abbrev S500000x8 : Shape := ⟨2, ![500000, 8]⟩

abbrev nBuf : Space → Nat
  | .hbm => 170
  | .vmem => 0
  | .smem => 0
  | _ => 0

abbrev hbmTy0_0 (i : Nat) : BufTy := match i % 128 with
  | 0 => ⟨S50000, .f32⟩
  | 1 => ⟨S50000, .f32⟩
  | 2 => ⟨S8x8, .f32⟩
  | 3 => ⟨S8x50000, .f32⟩
  | 4 => ⟨S8x50000, .f32⟩
  | 5 => ⟨S100000x8, .f32⟩
  | 6 => ⟨S3000, .i32⟩
  | 7 => ⟨S3000, .i32⟩
  | 8 => ⟨S500000, .i32⟩
  | 9 => ⟨S500000, .i32⟩
  | 10 => ⟨S_, .f32⟩
  | 11 => ⟨S50000, .f32⟩
  | 12 => ⟨S_, .f32⟩
  | 13 => ⟨S50000, .f32⟩
  | 14 => ⟨S50000, .f32⟩
  | 15 => ⟨S1x50000, .f32⟩
  | 16 => ⟨S8x50000, .f32⟩
  | 17 => ⟨S8x50000, .f32⟩
  | 18 => ⟨S8x50000, .f32⟩
  | 19 => ⟨S_, .f32⟩
  | 20 => ⟨S50000, .f32⟩
  | 21 => ⟨S1x50000, .f32⟩
  | 22 => ⟨S8x50000, .f32⟩
  | 23 => ⟨S8x50000, .f32⟩
  | 24 => ⟨S_, .f32⟩
  | 25 => ⟨S50000, .f32⟩
  | 26 => ⟨S_, .f32⟩
  | 27 => ⟨S50000, .f32⟩
  | 28 => ⟨S50000, .f32⟩
  | 29 => ⟨S1x50000, .f32⟩
  | 30 => ⟨S8x50000, .f32⟩
  | 31 => ⟨S8x50000, .f32⟩
  | 32 => ⟨S8x50000, .f32⟩
  | 33 => ⟨S_, .f32⟩
  | 34 => ⟨S50000, .f32⟩
  | 35 => ⟨S1x50000, .f32⟩
  | 36 => ⟨S8x50000, .f32⟩
  | 37 => ⟨S8x50000, .f32⟩
  | 38 => ⟨S8x100000, .f32⟩
  | 39 => ⟨S100000x8, .f32⟩
  | 40 => ⟨S100000x8, .f32⟩
  | 41 => ⟨S_, .f32⟩
  | 42 => ⟨S100000x8, .f32⟩
  | 43 => ⟨S100000x8, .f32⟩
  | 44 => ⟨S_, .f32⟩
  | 45 => ⟨S100000x8, .f32⟩
  | 46 => ⟨S100000x8, .f32⟩
  | 47 => ⟨S100000x8, .f32⟩
  | 48 => ⟨S100000x8, .f32⟩
  | 49 => ⟨S_, .f32⟩
  | 50 => ⟨S8, .f32⟩
  | 51 => ⟨S1x8, .f32⟩
  | 52 => ⟨S100000x8, .f32⟩
  | 53 => ⟨S100000x8, .f32⟩
  | 54 => ⟨S8x8, .f32⟩
  | 55 => ⟨S8x8, .f32⟩
  | 56 => ⟨S8x8, .f32⟩
  | 57 => ⟨S_, .i32⟩
  | 58 => ⟨S3000, .i32⟩
  | 59 => ⟨S3000, .i1⟩
  | 60 => ⟨S_, .i32⟩
  | 61 => ⟨S3000, .i32⟩
  | 62 => ⟨S3000, .i32⟩
  | 63 => ⟨S3000, .i32⟩
  | 64 => ⟨S3000x1, .i32⟩
  | 65 => ⟨S8x3000, .f32⟩
  | 66 => ⟨S8x3000, .f32⟩
  | 67 => ⟨S3000x8, .f32⟩
  | 68 => ⟨S_, .i32⟩
  | 69 => ⟨S3000, .i32⟩
  | 70 => ⟨S3000, .i1⟩
  | 71 => ⟨S_, .i32⟩
  | 72 => ⟨S3000, .i32⟩
  | 73 => ⟨S3000, .i32⟩
  | 74 => ⟨S3000, .i32⟩
  | 75 => ⟨S3000x1, .i32⟩
  | 76 => ⟨S8x3000, .f32⟩
  | 77 => ⟨S8x3000, .f32⟩
  | 78 => ⟨S3000x8, .f32⟩
  | 79 => ⟨S_, .i32⟩
  | 80 => ⟨S3000, .i32⟩
  | 81 => ⟨S3000, .i1⟩
  | 82 => ⟨S_, .i32⟩
  | 83 => ⟨S3000, .i32⟩
  | 84 => ⟨S3000, .i32⟩
  | 85 => ⟨S3000, .i32⟩
  | 86 => ⟨S3000x1, .i32⟩
  | 87 => ⟨S3000, .f32⟩
  | 88 => ⟨S3000x1, .f32⟩
  | 89 => ⟨S_, .i32⟩
  | 90 => ⟨S3000, .i32⟩
  | 91 => ⟨S3000, .i1⟩
  | 92 => ⟨S_, .i32⟩
  | 93 => ⟨S3000, .i32⟩
  | 94 => ⟨S3000, .i32⟩
  | 95 => ⟨S3000, .i32⟩
  | 96 => ⟨S3000x1, .i32⟩
  | 97 => ⟨S3000, .f32⟩
  | 98 => ⟨S1x3000, .f32⟩
  | 99 => ⟨S3000x3000, .f32⟩
  | 100 => ⟨S3000x3000, .f32⟩
  | 101 => ⟨S3000x3000, .f32⟩
  | 102 => ⟨S3000x1x8, .f32⟩
  | 103 => ⟨S1x3000x8, .f32⟩
  | 104 => ⟨S3000x3000x8, .f32⟩
  | 105 => ⟨S3000x3000x8, .f32⟩
  | 106 => ⟨S3000x3000x8, .f32⟩
  | 107 => ⟨S_, .f32⟩
  | 108 => ⟨S3000x3000x8, .f32⟩
  | 109 => ⟨S3000x3000x8, .f32⟩
  | 110 => ⟨S3000x3000x8, .f32⟩
  | 111 => ⟨S_, .f32⟩
  | 112 => ⟨S3000x3000, .f32⟩
  | 113 => ⟨S3000x3000, .f32⟩
  | 114 => ⟨S3000x3000, .f32⟩
  | 115 => ⟨S3000x3000, .f32⟩
  | 116 => ⟨S_, .f32⟩
  | 117 => ⟨S_, .f32⟩
  | 118 => ⟨S_, .i32⟩
  | 119 => ⟨S500000, .i32⟩
  | 120 => ⟨S500000, .i1⟩
  | 121 => ⟨S_, .i32⟩
  | 122 => ⟨S500000, .i32⟩
  | 123 => ⟨S500000, .i32⟩
  | 124 => ⟨S500000, .i32⟩
  | 125 => ⟨S500000x1, .i32⟩
  | 126 => ⟨S8x500000, .f32⟩
  | 127 => ⟨S8x500000, .f32⟩
  | _ => ⟨S50000, .f32⟩

abbrev hbmTy0_1 (i : Nat) : BufTy := match i % 128 with
  | 0 => ⟨S500000x8, .f32⟩
  | 1 => ⟨S_, .i32⟩
  | 2 => ⟨S500000, .i32⟩
  | 3 => ⟨S500000, .i1⟩
  | 4 => ⟨S_, .i32⟩
  | 5 => ⟨S500000, .i32⟩
  | 6 => ⟨S500000, .i32⟩
  | 7 => ⟨S500000, .i32⟩
  | 8 => ⟨S500000x1, .i32⟩
  | 9 => ⟨S8x500000, .f32⟩
  | 10 => ⟨S8x500000, .f32⟩
  | 11 => ⟨S500000x8, .f32⟩
  | 12 => ⟨S500000x8, .f32⟩
  | 13 => ⟨S_, .f32⟩
  | 14 => ⟨S500000x8, .f32⟩
  | 15 => ⟨S500000x8, .f32⟩
  | 16 => ⟨S500000x8, .f32⟩
  | 17 => ⟨S_, .f32⟩
  | 18 => ⟨S500000, .f32⟩
  | 19 => ⟨S_, .i32⟩
  | 20 => ⟨S500000, .i32⟩
  | 21 => ⟨S500000, .i1⟩
  | 22 => ⟨S_, .i32⟩
  | 23 => ⟨S500000, .i32⟩
  | 24 => ⟨S500000, .i32⟩
  | 25 => ⟨S500000, .i32⟩
  | 26 => ⟨S500000x1, .i32⟩
  | 27 => ⟨S500000, .f32⟩
  | 28 => ⟨S_, .i32⟩
  | 29 => ⟨S500000, .i32⟩
  | 30 => ⟨S500000, .i1⟩
  | 31 => ⟨S_, .i32⟩
  | 32 => ⟨S500000, .i32⟩
  | 33 => ⟨S500000, .i32⟩
  | 34 => ⟨S500000, .i32⟩
  | 35 => ⟨S500000x1, .i32⟩
  | 36 => ⟨S500000, .f32⟩
  | 37 => ⟨S500000, .f32⟩
  | 38 => ⟨S500000, .f32⟩
  | 39 => ⟨S_, .f32⟩
  | 40 => ⟨S_, .f32⟩
  | 41 => ⟨S_, .f32⟩
  | _ => ⟨S50000, .f32⟩

abbrev hbmTy (i : Nat) : BufTy := match i / 128 with
  | 0 => hbmTy0_0 i
  | 1 => hbmTy0_1 i
  | _ => ⟨S50000, .f32⟩

abbrev bufTy : (tb : Table) → Fin (tcTables nBuf tb) → BufTy
  | .hbm, ⟨i, _⟩ => hbmTy i
  | _, _ => ⟨S50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_15 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_16 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_17 : Ref sig .tc := ⟨.hbm, 116, rfl⟩
abbrev main_v87 : Ref sig .tc := ⟨.hbm, 117, rfl⟩
abbrev main_c_18 : Ref sig .tc := ⟨.hbm, 118, rfl⟩
abbrev main_v88 : Ref sig .tc := ⟨.hbm, 119, rfl⟩
abbrev main_v89 : Ref sig .tc := ⟨.hbm, 120, rfl⟩
abbrev main_c_19 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_c_20 : Ref sig .tc := ⟨.hbm, 129, rfl⟩
abbrev main_v97 : Ref sig .tc := ⟨.hbm, 130, rfl⟩
abbrev main_v98 : Ref sig .tc := ⟨.hbm, 131, rfl⟩
abbrev main_c_21 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_cst_22 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_23 : Ref sig .tc := ⟨.hbm, 145, rfl⟩
abbrev main_v110 : Ref sig .tc := ⟨.hbm, 146, rfl⟩
abbrev main_c_24 : Ref sig .tc := ⟨.hbm, 147, rfl⟩
abbrev main_v111 : Ref sig .tc := ⟨.hbm, 148, rfl⟩
abbrev main_v112 : Ref sig .tc := ⟨.hbm, 149, rfl⟩
abbrev main_c_25 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_c_26 : Ref sig .tc := ⟨.hbm, 156, rfl⟩
abbrev main_v118 : Ref sig .tc := ⟨.hbm, 157, rfl⟩
abbrev main_v119 : Ref sig .tc := ⟨.hbm, 158, rfl⟩
abbrev main_c_27 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_28 : Ref sig .tc := ⟨.hbm, 167, rfl⟩
abbrev main_v127 : Ref sig .tc := ⟨.hbm, 168, rfl⟩
abbrev main_v128 : Ref sig .tc := ⟨.hbm, 169, rfl⟩

abbrev nD : Nat := 1
abbrev τ : Topo := Topo.v7x

variable {F : FTy → Type} [FloatOps F]

class Facts₀ : Prop where
  reducesTo_S8x50000_S50000_d0 : S8x50000.ReducesTo [0] S50000
  h_S_ : 0 < S_.numel
  bcast_S_S50000 : S_.BroadcastsInDim S50000 (![] : Fin 0 → Fin S50000.rank)
  bcast_S50000_S1x50000_1 : S50000.BroadcastsInDim S1x50000 (![1] : Fin 1 → Fin S1x50000.rank)
  bcast_S1x50000_S8x50000_0_1 : S1x50000.BroadcastsInDim S8x50000 (![0, 1] : Fin 2 → Fin S8x50000.rank)
  concatenates_S8x50000_S8x50000_S8x100000_d1 : Shape.Concatenates [S8x50000, S8x50000] S8x100000 1
  bcast_S_S100000x8 : S_.BroadcastsInDim S100000x8 (![] : Fin 0 → Fin S100000x8.rank)
  transposes_S8x100000_S100000x8_1_0 : S8x100000.Transposes [1, 0] S100000x8
  reducesTo_S100000x8_S8_d0 : S100000x8.ReducesTo [0] S8
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  transposes_S8x8_S8x8_1_0 : S8x8.Transposes [1, 0] S8x8
  bcast_S_S3000 : S_.BroadcastsInDim S3000 (![] : Fin 0 → Fin S3000.rank)
  bcast_S3000_S3000x1_0 : S3000.BroadcastsInDim S3000x1 (![0] : Fin 1 → Fin S3000x1.rank)
  transposes_S8x3000_S3000x8_1_0 : S8x3000.Transposes [1, 0] S3000x8
  bcast_S3000_S1x3000_1 : S3000.BroadcastsInDim S1x3000 (![1] : Fin 1 → Fin S1x3000.rank)
  bcast_S3000x1_S3000x3000_0_1 : S3000x1.BroadcastsInDim S3000x3000 (![0, 1] : Fin 2 → Fin S3000x3000.rank)
  bcast_S1x3000_S3000x3000_0_1 : S1x3000.BroadcastsInDim S3000x3000 (![0, 1] : Fin 2 → Fin S3000x3000.rank)
  bcast_S3000x8_S3000x1x8_0_2 : S3000x8.BroadcastsInDim S3000x1x8 (![0, 2] : Fin 2 → Fin S3000x1x8.rank)
  bcast_S3000x8_S1x3000x8_1_2 : S3000x8.BroadcastsInDim S1x3000x8 (![1, 2] : Fin 2 → Fin S1x3000x8.rank)
  bcast_S3000x1x8_S3000x3000x8_0_1_2 : S3000x1x8.BroadcastsInDim S3000x3000x8 (![0, 1, 2] : Fin 3 → Fin S3000x3000x8.rank)
  bcast_S1x3000x8_S3000x3000x8_0_1_2 : S1x3000x8.BroadcastsInDim S3000x3000x8 (![0, 1, 2] : Fin 3 → Fin S3000x3000x8.rank)
  bcast_S_S3000x3000x8 : S_.BroadcastsInDim S3000x3000x8 (![] : Fin 0 → Fin S3000x3000x8.rank)
  reducesTo_S3000x3000x8_S3000x3000_d2 : S3000x3000x8.ReducesTo [2] S3000x3000
  reducesTo_S3000x3000_S_d0_1 : S3000x3000.ReducesTo [0, 1] S_
  bcast_S_S500000 : S_.BroadcastsInDim S500000 (![] : Fin 0 → Fin S500000.rank)
  bcast_S500000_S500000x1_0 : S500000.BroadcastsInDim S500000x1 (![0] : Fin 1 → Fin S500000x1.rank)
  transposes_S8x500000_S500000x8_1_0 : S8x500000.Transposes [1, 0] S500000x8
  bcast_S_S500000x8 : S_.BroadcastsInDim S500000x8 (![] : Fin 0 → Fin S500000x8.rank)
  reducesTo_S500000x8_S500000_d1 : S500000x8.ReducesTo [1] S500000
  reducesTo_S500000_S_d0 : S500000.ReducesTo [0] S_
  dot_S8x100000_S100000x8_S8x8_1_0_0_1_n_n_wf : DotDims.WF S8x100000 S100000x8 S8x8 [1] [0] [0] [1] [] []
  dot_S8x8_S8x8_S8x8_1_0_0_1_n_n_wf : DotDims.WF S8x8 S8x8 S8x8 [1] [0] [0] [1] [] []
  gather_S8x50000_S3000x1_S8x3000_0_1_n_n_1_1_81_wf : GatherDims.WF S8x50000 S3000x1 S8x3000 [0] [1] [] [1] [] 1 ![8, 1]
  dot_S8x8_S8x3000_S8x3000_1_0_0_1_n_n_wf : DotDims.WF S8x8 S8x3000 S8x3000 [1] [0] [0] [1] [] []
  gather_S50000_S3000x1_S3000_n_0_n_n_0_1_1_wf : GatherDims.WF S50000 S3000x1 S3000 [] [0] [] [0] [] 1 ![1]
  gather_S8x50000_S500000x1_S8x500000_0_1_n_n_1_1_81_wf : GatherDims.WF S8x50000 S500000x1 S8x500000 [0] [1] [] [1] [] 1 ![8, 1]
  dot_S8x8_S8x500000_S8x500000_1_0_0_1_n_n_wf : DotDims.WF S8x8 S8x500000 S8x500000 [1] [0] [0] [1] [] []
  gather_S50000_S500000x1_S500000_n_0_n_n_0_1_1_wf : GatherDims.WF S50000 S500000x1 S500000 [] [0] [] [0] [] 1 ![1]

variable [Facts₀]

def dot_S8x100000_S100000x8_S8x8_1_0_0_1_n_n : DotDims S8x100000 S100000x8 S8x8 where
  lhsContracting := [1]
  rhsContracting := [0]
  lhsNonContracting := [0]
  rhsNonContracting := [1]
  lhsBatch := []
  rhsBatch := []
  wf := dot_S8x100000_S100000x8_S8x8_1_0_0_1_n_n_wf
def dot_S8x8_S8x8_S8x8_1_0_0_1_n_n : DotDims S8x8 S8x8 S8x8 where
  lhsContracting := [1]
  rhsContracting := [0]
  lhsNonContracting := [0]
  rhsNonContracting := [1]
  lhsBatch := []
  rhsBatch := []
  wf := dot_S8x8_S8x8_S8x8_1_0_0_1_n_n_wf
def gather_S8x50000_S3000x1_S8x3000_0_1_n_n_1_1_81 : GatherDims S8x50000 S3000x1 S8x3000 where
  offsetDims := [0]
  collapsedSliceDims := [1]
  operandBatchingDims := []
  startIndicesBatchingDims := []
  startIndexMap := [1]
  indexVectorDim := 1
  sliceSizes := ![8, 1]
  wf := gather_S8x50000_S3000x1_S8x3000_0_1_n_n_1_1_81_wf
def dot_S8x8_S8x3000_S8x3000_1_0_0_1_n_n : DotDims S8x8 S8x3000 S8x3000 where
  lhsContracting := [1]
  rhsContracting := [0]
  lhsNonContracting := [0]
  rhsNonContracting := [1]
  lhsBatch := []
  rhsBatch := []
  wf := dot_S8x8_S8x3000_S8x3000_1_0_0_1_n_n_wf
def gather_S50000_S3000x1_S3000_n_0_n_n_0_1_1 : GatherDims S50000 S3000x1 S3000 where
  offsetDims := []
  collapsedSliceDims := [0]
  operandBatchingDims := []
  startIndicesBatchingDims := []
  startIndexMap := [0]
  indexVectorDim := 1
  sliceSizes := ![1]
  wf := gather_S50000_S3000x1_S3000_n_0_n_n_0_1_1_wf
def gather_S8x50000_S500000x1_S8x500000_0_1_n_n_1_1_81 : GatherDims S8x50000 S500000x1 S8x500000 where
  offsetDims := [0]
  collapsedSliceDims := [1]
  operandBatchingDims := []
  startIndicesBatchingDims := []
  startIndexMap := [1]
  indexVectorDim := 1
  sliceSizes := ![8, 1]
  wf := gather_S8x50000_S500000x1_S8x500000_0_1_n_n_1_1_81_wf
def dot_S8x8_S8x500000_S8x500000_1_0_0_1_n_n : DotDims S8x8 S8x500000 S8x500000 where
  lhsContracting := [1]
  rhsContracting := [0]
  lhsNonContracting := [0]
  rhsNonContracting := [1]
  lhsBatch := []
  rhsBatch := []
  wf := dot_S8x8_S8x500000_S8x500000_1_0_0_1_n_n_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf

class Facts : Prop extends Facts₀ where

variable [Facts]
-- ==== Proof.KernelData.lean ====
/-
  The proof data of the two kernel regions. Each kernel walks its grid keeping a running total in a one-element
  scratch buffer: at the first point the scratch is set to zero, at every point the total of the point's input blocks
  is added to it, and the new total is copied into the one-element output block. This module names, for any contents
  `V` the arrays hold when a region is entered, the input block of each window at each point (`iblk0`, `iblk1`), the
  running total after each point (`acc0`, `acc1`: what both the scratch and the output block hold after the body at
  that point), the region invariant (`Phi0`, `Phi1`: before the first point every scoped buffer that is no staging
  buffer at anything; afterwards the scratch at the running total and the others still at anything), and the
  pipeline proof data built from them (`dat0`, `dat1`) with the equations that read their fields.
-/
import proofs.«165161_j56453050139080_2_alg».proof.Proof.Gen.KernelIdeal.Launch
import proofs.«165161_j56453050139080_2_alg».proof.Proof.Gen.KernelIdeal.Skeleton
import proofs.«165161_j56453050139080_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The arrays as a region finds them -/

/-- The contents of the TensorCore reference `b` on core `c` under the valuation `V`. -/
abbrev rd (V : Valuation τ sig (Elt F)) (c : Dev nD) (b : Ref sig .tc) : Buf (Elt F) ((c : Thread nD τ).loc b) :=
  V (Proc.devRef .tc b)

/-- Window `w`'s block at point `t` of the first region, read off its array at the contents `V`. -/
def iblk0 (V : Valuation τ sig (Elt F)) (c : Dev nD) (w : Fin cfg0.W) (t : Fin cfg0.N) :
    ((cfg0.win w).xblock (cfg0.grid.coords t)).Idx → Elt F (cfg0.win w).elt :=
  ((cfg0.win w).blk t).view.read (Elt F) (rd V c (Pipeline.arrRef spec0 w))

/-- Window `w`'s block at point `t` of the second region, read off its array at the contents `V`. -/
def iblk1 (V : Valuation τ sig (Elt F)) (c : Dev nD) (w : Fin cfg1.W) (t : Fin cfg1.N) :
    ((cfg1.win w).xblock (cfg1.grid.coords t)).Idx → Elt F (cfg1.win w).elt :=
  ((cfg1.win w).blk t).view.read (Elt F) (rd V c (Pipeline.arrRef spec1 w))

/-! ## The running totals -/

/-- One point of the first kernel: the previous total `s` plus the total of the point's blocks
    (`x0`: 200 rows of the first operand, `x1`: the whole second operand, `x2`, `x3`: their two bias vectors). -/
def step0 (x0 : Vec F S200x8 .f32) (x1 : Vec F S3000x8 .f32) (x2 : Vec F S200x1 .f32) (x3 : Vec F S1x3000 .f32)
    (s : Vec F S1x1 .f32) : Vec F S1x1 .f32 :=
  k0_pay1 (k0_pay3 x2) (k0_pay4 x3) (k0_pay5 x0 x1) (Scalar.ofBits .f32 0x00000000#32) s

/-- One point of the second kernel: the previous total `s` plus the total of the point's four blocks of 5000 rows. -/
def step1 (x0 : Vec F S5000x8 .f32) (x1 : Vec F S5000x8 .f32) (x2 : Vec F S5000x1 .f32) (x3 : Vec F S5000x1 .f32)
    (s : Vec F S1x1 .f32) : Vec F S1x1 .f32 :=
  k1_pay2 x0 x1 x2 x3 s

/-- The first kernel's running total after point `n`: from zero at the first point, one `step0` per point. -/
def acc0 (V : Valuation τ sig (Elt F)) (c : Dev nD) : (n : ℕ) → n < cfg0.N → Vec F S1x1 .f32
  | 0, hn => step0 (iblk0 V c 0 ⟨0, hn⟩) (iblk0 V c 1 ⟨0, hn⟩) (iblk0 V c 2 ⟨0, hn⟩) (iblk0 V c 3 ⟨0, hn⟩) k0_pay2
  | n + 1, hn => step0 (iblk0 V c 0 ⟨n + 1, hn⟩) (iblk0 V c 1 ⟨n + 1, hn⟩) (iblk0 V c 2 ⟨n + 1, hn⟩) (iblk0 V c 3 ⟨n + 1, hn⟩)
      (acc0 V c n (Nat.lt_of_succ_lt hn))

/-- The second kernel's running total after point `n`. -/
def acc1 (V : Valuation τ sig (Elt F)) (c : Dev nD) : (n : ℕ) → n < cfg1.N → Vec F S1x1 .f32
  | 0, hn => step1 (iblk1 V c 0 ⟨0, hn⟩) (iblk1 V c 1 ⟨0, hn⟩) (iblk1 V c 2 ⟨0, hn⟩) (iblk1 V c 3 ⟨0, hn⟩) k1_pay1
  | n + 1, hn => step1 (iblk1 V c 0 ⟨n + 1, hn⟩) (iblk1 V c 1 ⟨n + 1, hn⟩) (iblk1 V c 2 ⟨n + 1, hn⟩) (iblk1 V c 3 ⟨n + 1, hn⟩)
      (acc1 V c n (Nat.lt_of_succ_lt hn))

/-- At the first point the total starts from zero. -/
theorem acc0_first (V : Valuation τ sig (Elt F)) (c : Dev nD) (t : Fin cfg0.N) (h : t.val = 0) :
    acc0 V c t.val t.isLt = step0 (iblk0 V c 0 t) (iblk0 V c 1 t) (iblk0 V c 2 t) (iblk0 V c 3 t) k0_pay2 := by
  obtain ⟨n, hn⟩ := t
  cases n with
  | zero => rfl
  | succ n => exact absurd h (Nat.succ_ne_zero n)

/-- At a later point it continues the total the point before left. -/
theorem acc0_later (V : Valuation τ sig (Elt F)) (c : Dev nD) (t : Fin cfg0.N) (h : t.val ≠ 0) :
    acc0 V c t.val t.isLt = step0 (iblk0 V c 0 t) (iblk0 V c 1 t) (iblk0 V c 2 t) (iblk0 V c 3 t)
      (acc0 V c (t.val - 1) (Nat.lt_of_le_of_lt (Nat.sub_le _ _) t.isLt)) := by
  obtain ⟨n, hn⟩ := t
  cases n with
  | zero => exact absurd rfl h
  | succ n => rfl

theorem acc1_first (V : Valuation τ sig (Elt F)) (c : Dev nD) (t : Fin cfg1.N) (h : t.val = 0) :
    acc1 V c t.val t.isLt = step1 (iblk1 V c 0 t) (iblk1 V c 1 t) (iblk1 V c 2 t) (iblk1 V c 3 t) k1_pay1 := by
  obtain ⟨n, hn⟩ := t
  cases n with
  | zero => rfl
  | succ n => exact absurd h (Nat.succ_ne_zero n)

theorem acc1_later (V : Valuation τ sig (Elt F)) (c : Dev nD) (t : Fin cfg1.N) (h : t.val ≠ 0) :
    acc1 V c t.val t.isLt = step1 (iblk1 V c 0 t) (iblk1 V c 1 t) (iblk1 V c 2 t) (iblk1 V c 3 t)
      (acc1 V c (t.val - 1) (Nat.lt_of_le_of_lt (Nat.sub_le _ _) t.isLt)) := by
  obtain ⟨n, hn⟩ := t
  cases n with
  | zero => exact absurd rfl h
  | succ n => rfl

/-! ## The region invariants -/

/-- The scratch operands, as the whole memrefs the kernels are called with. -/
abbrev scM0 : Memref sig .tc .vmem S1x1 .f32 := Memref.whole cc0_scratch0
abbrev scM1 : Memref sig .tc .vmem S1x1 .f32 := Memref.whole cc1_scratch0

/-- The core's scoped buffers that are neither a staging buffer of the first region nor its scratch — the second
    region's staging buffers and scratch —, each whole at some contents: the first kernel never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_scratch0), ((c : Thread nD τ).loc cc1_scratch0) ↦{fullShare} f))

/-- The same for the second region: the first region's staging buffers and scratch. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_scratch0), ((c : Thread nD τ).loc cc0_scratch0) ↦{fullShare} f))

/-- The class's invariant of the first region with its scratch singled out as a memref owned at some contents. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

/-- The invariant of the first region before position `n`: before the first point the class's (every such buffer at
    anything, the generator register at some state); afterwards the scratch at the running total the point before
    left, the others and the register as before. -/
def Phi0 (V : Valuation τ sig (Elt F)) (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem Phi0_zero (V : Valuation τ sig (Elt F)) (c : Dev nD) (n : ℕ) (h : n ≤ cfg0.N) (hz : n = 0) :
    Phi0 V c n h = Pipeline.ΦA spec0 c := by
  subst hz; rfl

theorem Phi0_succ (V : Valuation τ sig (Elt F)) (c : Dev nD) (n : ℕ) (hn : n < cfg0.N) :
    Phi0 V c (n + 1) hn = iprop(iprop(owns (c : Thread nD τ) scM0 fullShare (acc0 V c n hn) ∗ others0 c) ∗ (∃ r, prngReg c r)) := rfl

theorem Phi0_pos (V : Valuation τ sig (Elt F)) (c : Dev nD) (n : ℕ) (h : n ≤ cfg0.N) (hz : n ≠ 0) :
    Phi0 V c n h = iprop(iprop(owns (c : Thread nD τ) scM0 fullShare (acc0 V c (n - 1) (by omega)) ∗ others0 c) ∗ (∃ r, prngReg c r)) := by
  cases n with
  | zero => exact absurd rfl hz
  | succ n => rfl

/-- The class's invariant of the second region with its scratch singled out as a memref owned at some contents. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA others1; rw [scopedRest1_eq]; simp only [scM1, owns_whole]
  refine BI.equiv_iff.mp ⟨?_, ?_⟩
  · show (_ : sProp 𝕄) ⊢ _
    iintro ⟨⟨H1, H2, H3, H4, H5, H6, H7, H8, HS⟩, Hg⟩
    iframe
  · show (_ : sProp 𝕄) ⊢ _
    iintro ⟨⟨HS, H1, H2, H3, H4, H5, H6, H7, H8⟩, Hg⟩
    iframe

/-- The invariant of the second region before position `n`, as `Phi0`. -/
def Phi1 (V : Valuation τ sig (Elt F)) (c : Dev nD) : (n : ℕ) → n ≤ cfg1.N → sProp 𝕄
  | 0, _ => Pipeline.ΦA spec1 c
  | n + 1, hn => iprop(iprop(owns (c : Thread nD τ) scM1 fullShare (acc1 V c n hn) ∗ others1 c) ∗ (∃ r, prngReg c r))

theorem Phi1_zero (V : Valuation τ sig (Elt F)) (c : Dev nD) (n : ℕ) (h : n ≤ cfg1.N) (hz : n = 0) :
    Phi1 V c n h = Pipeline.ΦA spec1 c := by
  subst hz; rfl

theorem Phi1_succ (V : Valuation τ sig (Elt F)) (c : Dev nD) (n : ℕ) (hn : n < cfg1.N) :
    Phi1 V c (n + 1) hn = iprop(iprop(owns (c : Thread nD τ) scM1 fullShare (acc1 V c n hn) ∗ others1 c) ∗ (∃ r, prngReg c r)) := rfl

theorem Phi1_pos (V : Valuation τ sig (Elt F)) (c : Dev nD) (n : ℕ) (h : n ≤ cfg1.N) (hz : n ≠ 0) :
    Phi1 V c n h = iprop(iprop(owns (c : Thread nD τ) scM1 fullShare (acc1 V c (n - 1) (by omega)) ∗ others1 c) ∗ (∃ r, prngReg c r)) := by
  cases n with
  | zero => exact absurd rfl hz
  | succ n => rfl

/-! ## The pipelines' proof data -/

/-- The first region's proof data on core `c`, for the arrays at `V` when the region is entered: after the body at
    point `t` each input's buffer still holds its block and the output's holds the running total `acc0`; the
    invariant is `Phi0`; full shares, nothing owed. -/
def dat0 (V : Valuation τ sig (Elt F)) (c : Dev nD) : Dat τ (Elt F) Unit ℕ (UR sig nD τ) ℕ cfg0 c where
  A w := rd V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => acc0 V c t.val t.isLt
  Φ t := Phi0 V c t.val (Nat.le_of_lt_succ t.isLt)
  q _ := fullShare
  owed _ := 0

/-- The second region's proof data, likewise. -/
def dat1 (V : Valuation τ sig (Elt F)) (c : Dev nD) : Dat τ (Elt F) Unit ℕ (UR sig nD τ) ℕ cfg1 c where
  A w := rd V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ t := Phi1 V c t.val (Nat.le_of_lt_succ t.isLt)
  q _ := fullShare
  owed _ := 0

/-! ### The fields read off (by `dsimp`, so that neither `V` nor a block is ever unfolded to check them) -/

theorem dat0_A (V : Valuation τ sig (Elt F)) (c : Dev nD) (w : Fin cfg0.W) :
    (dat0 V c).A w = V (Proc.devRef .tc (Pipeline.arrRef spec0 w)) := by dsimp only [dat0]
theorem dat0_q (V : Valuation τ sig (Elt F)) (c : Dev nD) (w : Fin cfg0.W) : (dat0 V c).q w = fullShare := by dsimp only [dat0]
theorem dat0_owed (V : Valuation τ sig (Elt F)) (c : Dev nD) (t : Fin (cfg0.N + 1)) : (dat0 V c).owed t = 0 := by dsimp only [dat0]
theorem dat1_A (V : Valuation τ sig (Elt F)) (c : Dev nD) (w : Fin cfg1.W) :
    (dat1 V c).A w = V (Proc.devRef .tc (Pipeline.arrRef spec1 w)) := by dsimp only [dat1]
theorem dat1_q (V : Valuation τ sig (Elt F)) (c : Dev nD) (w : Fin cfg1.W) : (dat1 V c).q w = fullShare := by dsimp only [dat1]
theorem dat1_owed (V : Valuation τ sig (Elt F)) (c : Dev nD) (t : Fin (cfg1.N + 1)) : (dat1 V c).owed t = 0 := by dsimp only [dat1]

/-- The invariant at a point's start, restated at the point's position. -/
theorem Phi0_castSucc (V : Valuation τ sig (Elt F)) (c : Dev nD) (t : Fin cfg0.N) :
    (dat0 V c).Φ t.castSucc = Phi0 V c t.val (Nat.le_of_lt t.isLt) := by
  dsimp only [dat0]; simp only [Fin.coe_castSucc]
theorem Phi1_castSucc (V : Valuation τ sig (Elt F)) (c : Dev nD) (t : Fin cfg1.N) :
    (dat1 V c).Φ t.castSucc = Phi1 V c t.val (Nat.le_of_lt t.isLt) := by
  dsimp only [dat1]; simp only [Fin.coe_castSucc]

/-- Before the first point the invariant is the class's. -/
theorem dat0_Φ_first (V : Valuation τ sig (Elt F)) (c : Dev nD) : (dat0 V c).Φ 0 = Pipeline.ΦA spec0 c := by
  rw [show (dat0 V c).Φ 0 = Phi0 V c 0 (Nat.zero_le _) from rfl]; rfl
theorem dat1_Φ_first (V : Valuation τ sig (Elt F)) (c : Dev nD) : (dat1 V c).Φ 0 = Pipeline.ΦA spec1 c := by
  rw [show (dat1 V c).Φ 0 = Phi1 V c 0 (Nat.zero_le _) from rfl]; rfl

/-- After any point the invariant gives the class's back: the scratch's named total is forgotten. -/
theorem dat0_Φ_out (V : Valuation τ sig (Elt F)) (c : Dev nD) (t : Fin (cfg0.N + 1)) (ht : t.val ≠ 0) :
    (dat0 V c).Φ t ⊢ Pipeline.ΦA spec0 c := by
  rw [show (dat0 V c).Φ t = Phi0 V c t.val (Nat.le_of_lt_succ t.isLt) from rfl, Phi0_pos V c _ _ ht, PhiA0_eq]
  iintro ⟨⟨HS, Ho⟩, Hg⟩
  isplitr [Hg]
  · isplitl [HS]
    · iexists _; iexact HS
    iexact Ho
  iexact Hg
theorem dat0_Φ_last (V : Valuation τ sig (Elt F)) (c : Dev nD) : (dat0 V c).Φ (Fin.last cfg0.N) ⊢ Pipeline.ΦA spec0 c :=
  dat0_Φ_out V c _ (by rw [Fin.val_last]; have : cfg0.N = 15 := N_0; omega)
theorem dat1_Φ_out (V : Valuation τ sig (Elt F)) (c : Dev nD) (t : Fin (cfg1.N + 1)) (ht : t.val ≠ 0) :
    (dat1 V c).Φ t ⊢ Pipeline.ΦA spec1 c := by
  rw [show (dat1 V c).Φ t = Phi1 V c t.val (Nat.le_of_lt_succ t.isLt) from rfl, Phi1_pos V c _ _ ht, PhiA1_eq]
  iintro ⟨⟨HS, Ho⟩, Hg⟩
  isplitr [Hg]
  · isplitl [HS]
    · iexists _; iexact HS
    iexact Ho
  iexact Hg
theorem dat1_Φ_last (V : Valuation τ sig (Elt F)) (c : Dev nD) : (dat1 V c).Φ (Fin.last cfg1.N) ⊢ Pipeline.ΦA spec1 c :=
  dat1_Φ_out V c _ (by rw [Fin.val_last]; have : cfg1.N = 100 := N_1; omega)

/-- What the body leaves, window by window. -/
theorem after0_0 (V : Valuation τ sig (Elt F)) (c : Dev nD) (t : Fin cfg0.N) : (dat0 V c).after 0 t = iblk0 V c 0 t := by dsimp only [dat0]
theorem after0_1 (V : Valuation τ sig (Elt F)) (c : Dev nD) (t : Fin cfg0.N) : (dat0 V c).after 1 t = iblk0 V c 1 t := by dsimp only [dat0]
theorem after0_2 (V : Valuation τ sig (Elt F)) (c : Dev nD) (t : Fin cfg0.N) : (dat0 V c).after 2 t = iblk0 V c 2 t := by dsimp only [dat0]
theorem after0_3 (V : Valuation τ sig (Elt F)) (c : Dev nD) (t : Fin cfg0.N) : (dat0 V c).after 3 t = iblk0 V c 3 t := by dsimp only [dat0]
theorem after0_4 (V : Valuation τ sig (Elt F)) (c : Dev nD) (t : Fin cfg0.N) : (dat0 V c).after 4 t = acc0 V c t.val t.isLt := by dsimp only [dat0]
theorem after1_0 (V : Valuation τ sig (Elt F)) (c : Dev nD) (t : Fin cfg1.N) : (dat1 V c).after 0 t = iblk1 V c 0 t := by dsimp only [dat1]
theorem after1_1 (V : Valuation τ sig (Elt F)) (c : Dev nD) (t : Fin cfg1.N) : (dat1 V c).after 1 t = iblk1 V c 1 t := by dsimp only [dat1]
theorem after1_2 (V : Valuation τ sig (Elt F)) (c : Dev nD) (t : Fin cfg1.N) : (dat1 V c).after 2 t = iblk1 V c 2 t := by dsimp only [dat1]
theorem after1_3 (V : Valuation τ sig (Elt F)) (c : Dev nD) (t : Fin cfg1.N) : (dat1 V c).after 3 t = iblk1 V c 3 t := by dsimp only [dat1]
theorem after1_4 (V : Valuation τ sig (Elt F)) (c : Dev nD) (t : Fin cfg1.N) : (dat1 V c).after 4 t = acc1 V c t.val t.isLt := by dsimp only [dat1]

/-! ### What the body finds in each buffer

Each input's current staging buffer holds its block at every point, fetched there or not (an input not fetched at a
point has the block index it had at the point before, and the body leaves the block in place). -/
theorem before0_0 (V : Valuation τ sig (Elt F)) (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [dat0_A]; try rfl) t d).trans
    (by unfold Dat.fetched Dat.blockOf iblk0; rw [dat0_A]; try rfl)
theorem before0_1 (V : Valuation τ sig (Elt F)) (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [dat0_A]; try rfl) t d).trans
    (by unfold Dat.fetched Dat.blockOf iblk0; rw [dat0_A]; try rfl)
theorem before0_2 (V : Valuation τ sig (Elt F)) (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [dat0_A]; try rfl) t d).trans
    (by unfold Dat.fetched Dat.blockOf iblk0; rw [dat0_A]; try rfl)
theorem before0_3 (V : Valuation τ sig (Elt F)) (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [dat0_A]; try rfl) t d).trans
    (by unfold Dat.fetched Dat.blockOf iblk0; rw [dat0_A]; try rfl)
theorem before1_0 (V : Valuation τ sig (Elt F)) (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [dat1_A]; try rfl) t d).trans
    (by unfold Dat.fetched Dat.blockOf iblk1; rw [dat1_A]; try rfl)
theorem before1_1 (V : Valuation τ sig (Elt F)) (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [dat1_A]; try rfl) t d).trans
    (by unfold Dat.fetched Dat.blockOf iblk1; rw [dat1_A]; try rfl)
theorem before1_2 (V : Valuation τ sig (Elt F)) (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [dat1_A]; try rfl) t d).trans
    (by unfold Dat.fetched Dat.blockOf iblk1; rw [dat1_A]; try rfl)
theorem before1_3 (V : Valuation τ sig (Elt F)) (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [dat1_A]; try rfl) t d).trans
    (by unfold Dat.fetched Dat.blockOf iblk1; rw [dat1_A]; try rfl)

/-- The output's buffer is written back after the last point only, so at the first point it holds anything -/
theorem before0_4_first (V : Valuation τ sig (Elt F)) (c : Dev nD) (t : Fin cfg0.N) (h : t.val = 0) (d) :
    (dat0 V c).before 4 t d = d :=
  (dat0 V c).before_out_reset 4 rfl t (.inl h) d
/-- and at a later point the running total the point before left. -/
theorem before0_4_later (V : Valuation τ sig (Elt F)) (c : Dev nD) (t : Fin cfg0.N) (h : t.val ≠ 0) (d) :
    (dat0 V c).before 4 t d = acc0 V c (t.val - 1) (Nat.lt_of_le_of_lt (Nat.sub_le _ _) t.isLt) := by
  rw [(dat0 V c).before_out_kept 4 rfl t h
    (Bool.eq_false_iff.mpr fun hf => by
      have h1 := (flush0_4 _).mp hf; have h2 := t.isLt; have hN : cfg0.N = 15 := N_0; dsimp only at h1; omega)
    (fun _ => rfl) (fun _ _ => rfl) d, after0_4]
theorem before1_4_first (V : Valuation τ sig (Elt F)) (c : Dev nD) (t : Fin cfg1.N) (h : t.val = 0) (d) :
    (dat1 V c).before 4 t d = d :=
  (dat1 V c).before_out_reset 4 rfl t (.inl h) d
theorem before1_4_later (V : Valuation τ sig (Elt F)) (c : Dev nD) (t : Fin cfg1.N) (h : t.val ≠ 0) (d) :
    (dat1 V c).before 4 t d = acc1 V c (t.val - 1) (Nat.lt_of_le_of_lt (Nat.sub_le _ _) t.isLt) := by
  rw [(dat1 V c).before_out_kept 4 rfl t h
    (Bool.eq_false_iff.mpr fun hf => by
      have h1 := (flush1_4 _).mp hf; have h2 := t.isLt; have hN : cfg1.N = 100 := N_1; dsimp only at h1; omega)
    (fun _ => rfl) (fun _ _ => rfl) d, after1_4]

end Cert.KernelIdeal.Hand

end
-- ==== Proof.LaunchStates.lean ====
import proofs.«165161_j56453050139080_2_alg».proof.Proof.Gen.KernelIdeal.Launch
import proofs.«165161_j56453050139080_2_alg».proof.Proof.KernelData
import Idealize.ShloMosaic.Lib.Pipeline.Frame
import Idealize.ShloMosaic.Lib.Pipeline.FrameSuffix
import Idealize.ShloMosaic.Lib.Pipeline.Regions

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

variable (m : (ℓ : Loc nD τ sig) → Buf (Elt F) ℓ)

/-! ## The buffer contents at each boundary of @main

The program is  host stretch 0 ; region 0 ; host stretch 1 ; region 1 ; host stretch 2.  The contents of the
TensorCore's buffers at the six boundaries are a fold from the launch memory: a host stretch takes a valuation
to the valuation after its operations; a region leaves every buffer as it found it except its windows' arrays,
which end at what the pipeline's write-backs leave. -/

/-- Core `c`'s buffers at launch. -/
def V0 (c : Dev nD) : Valuation τ sig (Elt F) := fun b => m (c, b)
/-- After host stretch 0: what region 0 is entered from. -/
def V1 (c : Dev nD) : Valuation τ sig (Elt F) := StableHlo.after hostOps0 (V0 m c)
/-- After region 0: its arrays at their final contents, every other buffer as entered. -/
def V2 (c : Dev nD) : Valuation τ sig (Elt F) :=
  Pipeline.withArrays spec0 c (V1 m c) fun w => (dat0 (V1 m c) c).arrAt w cfg0.N
/-- After host stretch 1: what region 1 is entered from. -/
def V3 (c : Dev nD) : Valuation τ sig (Elt F) := StableHlo.after hostOps1 (V2 m c)
/-- After region 1: its arrays at their final contents, every other buffer as entered. -/
def V4 (c : Dev nD) : Valuation τ sig (Elt F) :=
  Pipeline.withArrays spec1 c (V3 m c) fun w => (dat1 (V3 m c) c).arrAt w cfg1.N
/-- After host stretch 2: the contents at the return. -/
def V5 (c : Dev nD) : Valuation τ sig (Elt F) := StableHlo.after hostOps2 (V4 m c)

theorem V0_eq (c : Dev nD) (b : DevRef τ sig) : V0 m c b = m (c, b) := rfl
theorem V1_eq (c : Dev nD) : V1 m c = StableHlo.after hostOps0 (V0 m c) := rfl
theorem V3_eq (c : Dev nD) : V3 m c = StableHlo.after hostOps1 (V2 m c) := rfl
theorem V5_eq (c : Dev nD) : V5 m c = StableHlo.after hostOps2 (V4 m c) := rfl

/-- Region 0 leaves each of its arrays at what the pipeline's write-backs make of it, -/
theorem V2_arr (c : Dev nD) (w : Fin cfg0.W) :
    V2 m c (Proc.devRef .tc (Pipeline.arrRef spec0 w)) = (dat0 (V1 m c) c).arrAt w cfg0.N := by
  unfold V2; exact Pipeline.withArrays_arr spec0 launch0.win.arr_inj c _ _ w
/-- and every other buffer as it found it. -/
theorem V2_of_ne (c : Dev nD) (b : Ref sig .tc) (hb : ∀ w, Pipeline.arrRef spec0 w ≠ b) :
    V2 m c (Proc.devRef .tc b) = V1 m c (Proc.devRef .tc b) := by
  unfold V2; exact Pipeline.withArrays_of_ne spec0 c _ _ b hb
/-- Region 1 likewise. -/
theorem V4_arr (c : Dev nD) (w : Fin cfg1.W) :
    V4 m c (Proc.devRef .tc (Pipeline.arrRef spec1 w)) = (dat1 (V3 m c) c).arrAt w cfg1.N := by
  unfold V4; exact Pipeline.withArrays_arr spec1 launch1.win.arr_inj c _ _ w
theorem V4_of_ne (c : Dev nD) (b : Ref sig .tc) (hb : ∀ w, Pipeline.arrRef spec1 w ≠ b) :
    V4 m c (Proc.devRef .tc b) = V3 m c (Proc.devRef .tc b) := by
  unfold V4; exact Pipeline.withArrays_of_ne spec1 c _ _ b hb

/-! ## What the host stretches write

Every operation of a stretch writes its own result buffer and nothing else, so a buffer that is no operation's
result keeps its contents through the stretch. -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- The result buffers of stretch 0's operations. -/
abbrev hostOps0_W : List (Ref sig .tc) := [main_cst, main_v0, main_cst_0, main_v1, main_v2, main_v3, main_v4, main_v5, main_v6, main_cst_1, main_v7, main_v8, main_v9, main_v10, main_cst_2, main_v11, main_cst_3, main_v12, main_v13, main_v14, main_v15, main_v16, main_v17, main_cst_4, main_v18, main_v19, main_v20, main_v21, main_v22, main_v23, main_v24, main_cst_5, main_v25, main_v26, main_cst_6, main_v27, main_v28, main_v29, main_v30, main_cst_7, main_v31, main_v32, main_v33, main_v34, main_v35, main_v36, main_v37, main_v38, main_v39, main_v40, main_v41, main_c, main_v42, main_v43, main_c_8, main_v44, main_v45, main_v46, main_v47, main_v48, main_c_9, main_v49, main_v50, main_c_10, main_v51, main_v52, main_v53, main_v54, main_v55, main_c_11, main_v56, main_v57, main_c_12, main_v58, main_v59, main_v60, main_v61, main_v62, main_v63, main_c_13, main_v64, main_v65, main_c_14, main_v66, main_v67, main_v68, main_v69, main_v70, main_v71]
/-- The result buffers of stretch 1's operations. -/
abbrev hostOps1_W : List (Ref sig .tc) := [main_v73, main_c_15, main_v74, main_v75, main_c_16, main_v76, main_v77, main_v78, main_v79, main_v80, main_c_17, main_v81, main_v82, main_c_18, main_v83, main_v84, main_v85, main_v86, main_v87, main_c_19, main_v88, main_v89, main_c_20, main_v90, main_v91, main_v92, main_v93, main_v94, main_v95, main_c_21, main_v96, main_v97, main_c_22, main_v98, main_v99, main_v100, main_v101, main_v102, main_v103]
/-- The result buffers of stretch 2's operations. -/
abbrev hostOps2_W : List (Ref sig .tc) := [main_v105, main_v106]

set_option maxHeartbeats 4000000 in
theorem hostOps0_writes : (hostOps0 : List (HloOp τ sig (Elt F))).Forall fun op => op.writes ⊆ (hostOps0_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxHeartbeats 4000000 in
theorem hostOps1_writes : (hostOps1 : List (HloOp τ sig (Elt F))).Forall fun op => op.writes ⊆ (hostOps1_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps2_writes : (hostOps2 : List (HloOp τ sig (Elt F))).Forall fun op => op.writes ⊆ (hostOps2_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem V1_of (c : Dev nD) (r : Ref sig .tc) (h : r ∉ hostOps0_W) : V1 m c (Proc.devRef .tc r) = V0 m c (Proc.devRef .tc r) :=
  StableHlo.after_of_writes_sub hostOps0 _ hostOps0_writes h
theorem V3_of (c : Dev nD) (r : Ref sig .tc) (h : r ∉ hostOps1_W) : V3 m c (Proc.devRef .tc r) = V2 m c (Proc.devRef .tc r) :=
  StableHlo.after_of_writes_sub hostOps1 _ hostOps1_writes h
theorem V5_of (c : Dev nD) (r : Ref sig .tc) (h : r ∉ hostOps2_W) : V5 m c (Proc.devRef .tc r) = V4 m c (Proc.devRef .tc r) :=
  StableHlo.after_of_writes_sub hostOps2 _ hostOps2_writes h

/-- A buffer that no host operation writes and that is no array of either region holds at the return what it
    held at launch: the fold walked back. -/
theorem V5_launch (c : Dev nD) (r : Ref sig .tc) (h0 : r ∉ hostOps0_W) (h1 : r ∉ hostOps1_W) (h2 : r ∉ hostOps2_W)
    (ha0 : ∀ w, Pipeline.arrRef spec0 w ≠ r) (ha1 : ∀ w, Pipeline.arrRef spec1 w ≠ r) :
    V5 m c (Proc.devRef .tc r) = m ((c.tc : Thread nD τ).loc r) :=
  (V5_of m c r h2).trans <| (V4_of_ne m c r ha1).trans <| (V3_of m c r h1).trans <| (V2_of_ne m c r ha0).trans <|
    (V1_of m c r h0).trans rfl

/-! ## The proof data family -/

/-- The prefetched tables' admissible contents: no pipeline has a table. -/
abbrev adm : (p : Fin 2) → (pcfgs (F := F) p).Adm := fun p => (cfgs p).toPCfg_adm

/-- Every pipeline's proof data, each at the contents its region is entered from. -/
def pdats : (p : Fin 2) → (c : Dev nD) → Dat τ (Elt F) Unit ℕ (UR sig nD τ) ℕ (Pipeline.pin (pcfgs (F := F)) adm p) c
  | ⟨0, _⟩ => fun c => dat0 (V1 m c) c
  | ⟨1, _⟩ => fun c => dat1 (V3 m c) c

end Cert.KernelIdeal.Hand

end
-- ==== Proof.KernelWhole.lean ====
/-
  Two facts about a whole buffer accessed through the rectangle of its own sizes at zero offsets, which is how both
  kernels read their input blocks, their scratch and their output block: such a load reads the buffer's contents,
  and after such a store the buffer reads the stored vector, whatever it held and whatever was stored before.
-/
import proofs.«165161_j56453050139080_2_alg».proof.Proof.Gen.KernelIdeal
import Idealize.ShloMosaic.Lib.Pipeline.FrameBody
import Idealize.ShloMosaic.Lib.WholeRead

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Whole

variable {sig' : RefSig} {κ' : Kind} {sp' : Space} {s' : Shape} {e' : EltTy} {Val' : EltTy → Type}

/-- Rank-two offsets written out as two zeros are the zero offsets. -/
theorem off2_zero : (![0, 0] : Fin 2 → ℕ) = fun _ => 0 := by
  funext a; fin_cases a <;> rfl

/-- A load of a whole buffer, held at the contents that read `X`, through the rectangle of its own sizes at zero
    offsets reads `X`. -/
theorem readAt_unit_zero_unread {m : Memref sig' κ' sp' s' e'} (h : m.IsWhole) {off : Fin s'.rank → ℕ} (ho : off = fun _ => 0)
    (inb : ∀ a, off a + s'.size a ≤ s'.size a) (X : s'.Idx → Val' e') :
    m.view.readAt Val' (Rect.unit off s'.size inb).toLoadRect (h.unread X) = X := by
  subst ho
  funext x
  rw [h.readAt_unread X _ x]
  exact congrArg X (Rect.emb_whole_apply s' x)

/-- After an unmasked store of `w` through the rectangle of the buffer's own sizes at zero offsets the buffer reads
    `w`, whatever the earlier stores `L` and the contents `f` before them. -/
theorem read_writes_unit_zero (v : View sig' κ' sp' s' e') {off : Fin s'.rank → ℕ} (ho : off = fun _ => 0)
    (inb : ∀ a, off a + s'.size a ≤ s'.size a) (f : v.ty.Contents Val') (w : s'.Idx → Val' e')
    (L : List (View.Piece Val' s' e')) :
    v.read Val' (v.writes Val' f (⟨Rect.unit off s'.size inb, w⟩ :: L)) = w := by
  subst ho
  funext x
  have h := View.read_writes_cons_emb v f (Rect.whole s') w L x
  rwa [Rect.emb_whole_apply] at h

end Whole

end Cert.KernelIdeal.Hand

end
-- ==== Proof.KernelBody0.lean ====
/-
  The body obligation of the first kernel region. At every grid point the kernel loads the point's four input blocks,
  adds their total to the running total kept in its one-element scratch buffer, and copies the new total into the
  output block; at the first point it first sets the scratch to zero, whatever it held. So after the body at point
  `t` both the scratch and the output block hold `acc0 V c t`, and the input blocks are as they were: the two runs
  below (the first point; every later point) state this on any whole memrefs, and `sound_body0` instantiates them at
  the pipeline's staging buffers and reassembles the region invariant `Phi0`.
-/
import proofs.«165161_j56453050139080_2_alg».proof.Proof.KernelData
import proofs.«165161_j56453050139080_2_alg».proof.Proof.KernelWhole

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The branch on the grid coordinate -/

/-- The condition of the kernel's one conditional: the grid coordinate is zero. -/
abbrev cond0 (i : grid0.Coords) : Prop :=
  (Scalar.cmpi .ne (Scalar.extui (Scalar.cmpi .eq (BitVec.ofNat 32 (i 0).val) 0#32)) 0#32) = 1#1

/-- It holds at the first point only — decided over the grid. -/
theorem hcond0 : ∀ t : Fin cfg0.N, cond0 (grid0.coords t) ↔ t.val % 15 = 0 :=
  (by decide +kernel : ∀ t : Fin grid0.N, cond0 (grid0.coords t) ↔ t.val % 15 = 0)

/-! ## The kernel on any whole memrefs -/

set_option maxHeartbeats 1000000 in
/-- THE FIRST POINT. The scratch, found at any contents \`s\`, is set to zero; the blocks' total is added to it; the scratch and the output block (found at any contents \`y\`) end at that total, the input blocks as they were. -/
theorem run0_A (c : Dev nD) (i : grid0.Coords) (arg1 : Memref sig .tc .vmem S200x8 .f32) (harg1 : arg1.IsWhole) (arg2 : Memref sig .tc .vmem S3000x8 .f32) (harg2 : arg2.IsWhole) (arg3 : Memref sig .tc .vmem S200x1 .f32) (harg3 : arg3.IsWhole) (arg4 : Memref sig .tc .vmem S1x3000 .f32) (harg4 : arg4.IsWhole) (arg5 : Memref sig .tc .vmem S1x1 .f32) (harg5 : arg5.IsWhole) (arg6 : Memref sig .tc .vmem S1x1 .f32) (harg6 : arg6.IsWhole)
    (hc : cond0 i)
    (x0 : Vec F S200x8 .f32) (x1 : Vec F S3000x8 .f32) (x2 : Vec F S200x1 .f32) (x3 : Vec F S1x3000 .f32)
    (y : Vec F S1x1 .f32) (s : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (step0 x0 x1 x2 x3 k0_pay2)
            ∗ owns (c : Thread nD τ) arg6 fullShare (step0 x0 x1 x2 x3 k0_pay2)) -∗ K ⟨⟩))
      ⊢ wp frame (wpE (defs₀ (F := F)) Variants.none c none) E (cc0__sampled_kernel i arg1 harg1 arg2 harg2 arg3 harg3 arg4 harg4 arg5 harg5 arg6 harg6) K := by
  simp only [cc0__sampled_kernel_eq_skeleton]; unfold cc0__sampled_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  have e1 : View.readAt (Elt F) arg1.view (Rect.unit ![0, 0] S200x8.size inb_S200x8_S200x8_0_0).toLoadRect (harg1.unread x0) = x0 :=
    readAt_unit_zero_unread harg1 off2_zero _ x0
  have e2 : View.readAt (Elt F) arg2.view (Rect.unit ![0, 0] S3000x8.size inb_S3000x8_S3000x8_0_0).toLoadRect (harg2.unread x1) = x1 :=
    readAt_unit_zero_unread harg2 off2_zero _ x1
  have e3 : View.readAt (Elt F) arg3.view (Rect.unit ![0, 0] S200x1.size inb_S200x1_S200x1_0_0).toLoadRect (harg3.unread x2) = x2 :=
    readAt_unit_zero_unread harg3 off2_zero _ x2
  have e4 : View.readAt (Elt F) arg4.view (Rect.unit ![0, 0] S1x3000.size inb_S1x3000_S1x3000_0_0).toLoadRect (harg4.unread x3) = x3 :=
    readAt_unit_zero_unread harg4 off2_zero _ x3
  have e6 : View.readAt (Elt F) arg6.view (Rect.unit ![0, 0] S1x1.size inb_S1x1_S1x1_0_0).toLoadRect (harg6.unread s) = s :=
    readAt_unit_zero_unread harg6 off2_zero _ s
  sl_exec (disch := exact hc)
  sl_step
  iapply Hk
  sl_unfold_run_names
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [read_writes_unit_zero arg5.view off2_zero, View.readCov_cons_toLoadRect, View.readCov_cons_toLoadRect]
    rfl
  iexists _; isplitr
  swap; · iexact H6
  ipureintro
  rw [read_writes_unit_zero arg6.view off2_zero, View.readCov_cons_toLoadRect]
  rfl

set_option maxHeartbeats 1000000 in
/-- A LATER POINT. The scratch is found at the running total \`s\`; the blocks' total is added to it; the scratch and the output block (found at any contents \`y\`) end at the new total, the input blocks as they were. -/
theorem run0_B (c : Dev nD) (i : grid0.Coords) (arg1 : Memref sig .tc .vmem S200x8 .f32) (harg1 : arg1.IsWhole) (arg2 : Memref sig .tc .vmem S3000x8 .f32) (harg2 : arg2.IsWhole) (arg3 : Memref sig .tc .vmem S200x1 .f32) (harg3 : arg3.IsWhole) (arg4 : Memref sig .tc .vmem S1x3000 .f32) (harg4 : arg4.IsWhole) (arg5 : Memref sig .tc .vmem S1x1 .f32) (harg5 : arg5.IsWhole) (arg6 : Memref sig .tc .vmem S1x1 .f32) (harg6 : arg6.IsWhole)
    (hc : ¬cond0 i)
    (x0 : Vec F S200x8 .f32) (x1 : Vec F S3000x8 .f32) (x2 : Vec F S200x1 .f32) (x3 : Vec F S1x3000 .f32)
    (y : Vec F S1x1 .f32) (s : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (step0 x0 x1 x2 x3 s)
            ∗ owns (c : Thread nD τ) arg6 fullShare (step0 x0 x1 x2 x3 s)) -∗ K ⟨⟩))
      ⊢ wp frame (wpE (defs₀ (F := F)) Variants.none c none) E (cc0__sampled_kernel i arg1 harg1 arg2 harg2 arg3 harg3 arg4 harg4 arg5 harg5 arg6 harg6) K := by
  simp only [cc0__sampled_kernel_eq_skeleton]; unfold cc0__sampled_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  have e1 : View.readAt (Elt F) arg1.view (Rect.unit ![0, 0] S200x8.size inb_S200x8_S200x8_0_0).toLoadRect (harg1.unread x0) = x0 :=
    readAt_unit_zero_unread harg1 off2_zero _ x0
  have e2 : View.readAt (Elt F) arg2.view (Rect.unit ![0, 0] S3000x8.size inb_S3000x8_S3000x8_0_0).toLoadRect (harg2.unread x1) = x1 :=
    readAt_unit_zero_unread harg2 off2_zero _ x1
  have e3 : View.readAt (Elt F) arg3.view (Rect.unit ![0, 0] S200x1.size inb_S200x1_S200x1_0_0).toLoadRect (harg3.unread x2) = x2 :=
    readAt_unit_zero_unread harg3 off2_zero _ x2
  have e4 : View.readAt (Elt F) arg4.view (Rect.unit ![0, 0] S1x3000.size inb_S1x3000_S1x3000_0_0).toLoadRect (harg4.unread x3) = x3 :=
    readAt_unit_zero_unread harg4 off2_zero _ x3
  have e6 : View.readAt (Elt F) arg6.view (Rect.unit ![0, 0] S1x1.size inb_S1x1_S1x1_0_0).toLoadRect (harg6.unread s) = s :=
    readAt_unit_zero_unread harg6 off2_zero _ s
  sl_exec (disch := exact hc)
  sl_step
  iapply Hk
  sl_unfold_run_names
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [read_writes_unit_zero arg5.view off2_zero, View.readCov_cons_toLoadRect]
    rfl
  iexists _; isplitr
  swap; · iexact H6
  ipureintro
  rw [read_writes_unit_zero arg6.view off2_zero]
  rfl

/-! ## The body at a point of the pipeline -/

/-- Each window's current staging memref at point `t`, as the pipeline passes it to the kernel, and its wholeness. -/
abbrev ms0_0 (t : Fin cfg0.N) : Memref sig .tc .vmem S200x8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3000x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S200x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

/-- What the body is called with at point `t`: the invariant, what the core owes, and each window's current buffer at
    what it then holds, -/
def bodyPre0 (V : Valuation τ sig (Elt F)) (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (V : Valuation τ sig (Elt F)) (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4000000 in
/-- The body at any point. The inputs' buffers hold their blocks; the invariant hands the body the scratch — at
    anything at the first point, at the running total the point before left at a later one —, the other scoped
    buffers and the generator register, which ride along; the run of the point's case applies, and the invariant
    takes the scratch back at this point's total, which is also what the output's buffer is left at. -/
theorem sound_body0 (V : Valuation τ sig (Elt F)) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from rfl, after0_0]
  rw [show (dat0 V c).leavesExact 1 t = owns (c : Thread nD τ) (ms0_1 t) fullShare ((dat0 V c).after 1 t) from rfl, after0_1]
  rw [show (dat0 V c).leavesExact 2 t = owns (c : Thread nD τ) (ms0_2 t) fullShare ((dat0 V c).after 2 t) from rfl, after0_2]
  rw [show (dat0 V c).leavesExact 3 t = owns (c : Thread nD τ) (ms0_3 t) fullShare ((dat0 V c).after 3 t) from rfl, after0_3]
  rw [show (dat0 V c).leavesExact 4 t = owns (c : Thread nD τ) (ms0_4 t) fullShare ((dat0 V c).after 4 t) from rfl, after0_4]
  rw [Phi0_castSucc]
  have hN : t.val < 15 := lt_of_lt_of_eq t.isLt (show cfg0.N = 15 from N_0)
  by_cases hz : t.val = 0
  · rw [Phi0_zero V c _ _ hz, PhiA0_eq, acc0_first V c t hz]
    iintro ⟨⟨⟨⟨%s, HS⟩, Hr⟩, Hg⟩, Ho, ⟨%d0, H0⟩, ⟨%d1, H1⟩, ⟨%d2, H2⟩, ⟨%d3, H3⟩, ⟨%d4, H4⟩⟩
    iapply (run0_A c (grid0.coords t) (ms0_0 t) (hs0_0 t) (ms0_1 t) (hs0_1 t) (ms0_2 t) (hs0_2 t) (ms0_3 t) (hs0_3 t) (ms0_4 t) (hs0_4 t) scM0 (Memref.isWhole_whole _)
      ((hcond0 t).mpr (by rw [hz]))
      (iblk0 V c 0 t) (iblk0 V c 1 t) (iblk0 V c 2 t) (iblk0 V c 3 t) ((dat0 V c).before 4 t d4) s Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hr Hg]
    · isplitr [Hg]
      · isplitl [HS]; · iexact HS
        iexact Hr
      iexact Hg
    isplitl [Ho]; · iexact Ho
    isplitl [H0]; · iexact H0
    isplitl [H1]; · iexact H1
    isplitl [H2]; · iexact H2
    isplitl [H3]; · iexact H3
    iexact H4
  · rw [Phi0_pos V c _ _ hz, acc0_later V c t hz]
    iintro ⟨⟨⟨HS, Hr⟩, Hg⟩, Ho, ⟨%d0, H0⟩, ⟨%d1, H1⟩, ⟨%d2, H2⟩, ⟨%d3, H3⟩, ⟨%d4, H4⟩⟩
    iapply (run0_B c (grid0.coords t) (ms0_0 t) (hs0_0 t) (ms0_1 t) (hs0_1 t) (ms0_2 t) (hs0_2 t) (ms0_3 t) (hs0_3 t) (ms0_4 t) (hs0_4 t) scM0 (Memref.isWhole_whole _)
      (fun h => hz (by have h1 := (hcond0 t).mp h; omega))
      (iblk0 V c 0 t) (iblk0 V c 1 t) (iblk0 V c 2 t) (iblk0 V c 3 t) ((dat0 V c).before 4 t d4)
      (acc0 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hr Hg]
    · isplitr [Hg]
      · isplitl [HS]; · iexact HS
        iexact Hr
      iexact Hg
    isplitl [Ho]; · iexact Ho
    isplitl [H0]; · iexact H0
    isplitl [H1]; · iexact H1
    isplitl [H2]; · iexact H2
    isplitl [H3]; · iexact H3
    iexact H4

/-- The library's body obligation of the region, at every point. -/
theorem body0 (V : Valuation τ sig (Elt F)) (c : Dev nD) :
    BodyObligation (dat0 V c) (defs₀ (F := F)) Variants.none () Set.univ := fun t => by
  rw [bigSep_W0, bigSep_W0]
  exact sound_body0 V c t

end Cert.KernelIdeal.Hand

end
-- ==== Proof.KernelBody1.lean ====
/-
  The body obligation of the second kernel region. At every grid point the kernel loads the point's four input blocks
  of 5000 rows, adds their total to the running total kept in its one-element scratch buffer, and copies the new total
  into the output block; at the first point it first sets the scratch to zero, whatever it held. So after the body at
  point `t` both the scratch and the output block hold `acc1 V c t`, and the input blocks are as they were: the two
  runs below (the first point; every later point) state this on any whole memrefs, and `sound_body1` instantiates
  them at the pipeline's staging buffers and reassembles the region invariant `Phi1`.
-/
import proofs.«165161_j56453050139080_2_alg».proof.Proof.KernelData
import proofs.«165161_j56453050139080_2_alg».proof.Proof.KernelWhole

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The branch on the grid coordinate -/

/-- The condition of the kernel's one conditional: the grid coordinate is zero. -/
abbrev cond1 (i : grid1.Coords) : Prop :=
  (Scalar.cmpi .ne (Scalar.extui (Scalar.cmpi .eq (BitVec.ofNat 32 (i 0).val) 0#32)) 0#32) = 1#1

/-- It holds at the first point only — decided over the grid. -/
theorem hcond1 : ∀ t : Fin cfg1.N, cond1 (grid1.coords t) ↔ t.val % 100 = 0 :=
  (by decide +kernel : ∀ t : Fin grid1.N, cond1 (grid1.coords t) ↔ t.val % 100 = 0)

/-! ## The kernel on any whole memrefs -/

set_option maxHeartbeats 1000000 in
/-- THE FIRST POINT. The scratch, found at any contents \`s\`, is set to zero; the blocks' total is added to it; the scratch and the output block (found at any contents \`y\`) end at that total, the input blocks as they were. -/
theorem run1_A (c : Dev nD) (i : grid1.Coords) (arg1 : Memref sig .tc .vmem S5000x8 .f32) (harg1 : arg1.IsWhole) (arg2 : Memref sig .tc .vmem S5000x8 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S1x1 .f32) (harg5 : arg5.IsWhole) (arg6 : Memref sig .tc .vmem S1x1 .f32) (harg6 : arg6.IsWhole)
    (hc : cond1 i)
    (x0 : Vec F S5000x8 .f32) (x1 : Vec F S5000x8 .f32) (x2 : Vec F S5000x1 .f32) (x3 : Vec F S5000x1 .f32)
    (y : Vec F S1x1 .f32) (s : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (step1 x0 x1 x2 x3 k1_pay1)
            ∗ owns (c : Thread nD τ) arg6 fullShare (step1 x0 x1 x2 x3 k1_pay1)) -∗ K ⟨⟩))
      ⊢ wp frame (wpE (defs₀ (F := F)) Variants.none c none) E (cc1__edges_kernel i arg1 harg1 arg2 harg2 arg3 harg3 arg4 harg4 arg5 harg5 arg6 harg6) K := by
  simp only [cc1__edges_kernel_eq_skeleton]; unfold cc1__edges_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  have e1 : View.readAt (Elt F) arg1.view (Rect.unit ![0, 0] S5000x8.size inb_S5000x8_S5000x8_0_0).toLoadRect (harg1.unread x0) = x0 :=
    readAt_unit_zero_unread harg1 off2_zero _ x0
  have e2 : View.readAt (Elt F) arg2.view (Rect.unit ![0, 0] S5000x8.size inb_S5000x8_S5000x8_0_0).toLoadRect (harg2.unread x1) = x1 :=
    readAt_unit_zero_unread harg2 off2_zero _ x1
  have e3 : View.readAt (Elt F) arg3.view (Rect.unit ![0, 0] S5000x1.size inb_S5000x1_S5000x1_0_0).toLoadRect (harg3.unread x2) = x2 :=
    readAt_unit_zero_unread harg3 off2_zero _ x2
  have e4 : View.readAt (Elt F) arg4.view (Rect.unit ![0, 0] S5000x1.size inb_S5000x1_S5000x1_0_0).toLoadRect (harg4.unread x3) = x3 :=
    readAt_unit_zero_unread harg4 off2_zero _ x3
  have e6 : View.readAt (Elt F) arg6.view (Rect.unit ![0, 0] S1x1.size inb_S1x1_S1x1_0_0).toLoadRect (harg6.unread s) = s :=
    readAt_unit_zero_unread harg6 off2_zero _ s
  sl_exec (disch := exact hc)
  sl_step
  iapply Hk
  sl_unfold_run_names
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [read_writes_unit_zero arg5.view off2_zero, View.readCov_cons_toLoadRect, View.readCov_cons_toLoadRect]
    rfl
  iexists _; isplitr
  swap; · iexact H6
  ipureintro
  rw [read_writes_unit_zero arg6.view off2_zero, View.readCov_cons_toLoadRect]
  rfl

set_option maxHeartbeats 1000000 in
/-- A LATER POINT. The scratch is found at the running total \`s\`; the blocks' total is added to it; the scratch and the output block (found at any contents \`y\`) end at the new total, the input blocks as they were. -/
theorem run1_B (c : Dev nD) (i : grid1.Coords) (arg1 : Memref sig .tc .vmem S5000x8 .f32) (harg1 : arg1.IsWhole) (arg2 : Memref sig .tc .vmem S5000x8 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S1x1 .f32) (harg5 : arg5.IsWhole) (arg6 : Memref sig .tc .vmem S1x1 .f32) (harg6 : arg6.IsWhole)
    (hc : ¬cond1 i)
    (x0 : Vec F S5000x8 .f32) (x1 : Vec F S5000x8 .f32) (x2 : Vec F S5000x1 .f32) (x3 : Vec F S5000x1 .f32)
    (y : Vec F S1x1 .f32) (s : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (step1 x0 x1 x2 x3 s)
            ∗ owns (c : Thread nD τ) arg6 fullShare (step1 x0 x1 x2 x3 s)) -∗ K ⟨⟩))
      ⊢ wp frame (wpE (defs₀ (F := F)) Variants.none c none) E (cc1__edges_kernel i arg1 harg1 arg2 harg2 arg3 harg3 arg4 harg4 arg5 harg5 arg6 harg6) K := by
  simp only [cc1__edges_kernel_eq_skeleton]; unfold cc1__edges_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  have e1 : View.readAt (Elt F) arg1.view (Rect.unit ![0, 0] S5000x8.size inb_S5000x8_S5000x8_0_0).toLoadRect (harg1.unread x0) = x0 :=
    readAt_unit_zero_unread harg1 off2_zero _ x0
  have e2 : View.readAt (Elt F) arg2.view (Rect.unit ![0, 0] S5000x8.size inb_S5000x8_S5000x8_0_0).toLoadRect (harg2.unread x1) = x1 :=
    readAt_unit_zero_unread harg2 off2_zero _ x1
  have e3 : View.readAt (Elt F) arg3.view (Rect.unit ![0, 0] S5000x1.size inb_S5000x1_S5000x1_0_0).toLoadRect (harg3.unread x2) = x2 :=
    readAt_unit_zero_unread harg3 off2_zero _ x2
  have e4 : View.readAt (Elt F) arg4.view (Rect.unit ![0, 0] S5000x1.size inb_S5000x1_S5000x1_0_0).toLoadRect (harg4.unread x3) = x3 :=
    readAt_unit_zero_unread harg4 off2_zero _ x3
  have e6 : View.readAt (Elt F) arg6.view (Rect.unit ![0, 0] S1x1.size inb_S1x1_S1x1_0_0).toLoadRect (harg6.unread s) = s :=
    readAt_unit_zero_unread harg6 off2_zero _ s
  sl_exec (disch := exact hc)
  sl_step
  iapply Hk
  sl_unfold_run_names
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [read_writes_unit_zero arg5.view off2_zero, View.readCov_cons_toLoadRect]
    rfl
  iexists _; isplitr
  swap; · iexact H6
  ipureintro
  rw [read_writes_unit_zero arg6.view off2_zero]
  rfl

/-! ## The body at a point of the pipeline -/

/-- Each window's current staging memref at point `t`, as the pipeline passes it to the kernel, and its wholeness. -/
abbrev ms1_0 (t : Fin cfg1.N) : Memref sig .tc .vmem S5000x8 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x8 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)

/-- What the body is called with at point `t`: the invariant, what the core owes, and each window's current buffer at
    what it then holds, -/
def bodyPre1 (V : Valuation τ sig (Elt F)) (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (V : Valuation τ sig (Elt F)) (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The body at any point. The inputs' buffers hold their blocks; the invariant hands the body the scratch — at
    anything at the first point, at the running total the point before left at a later one —, the other scoped
    buffers and the generator register, which ride along; the run of the point's case applies, and the invariant
    takes the scratch back at this point's total, which is also what the output's buffer is left at. -/
theorem sound_body1 (V : Valuation τ sig (Elt F)) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from rfl, after1_0]
  rw [show (dat1 V c).leavesExact 1 t = owns (c : Thread nD τ) (ms1_1 t) fullShare ((dat1 V c).after 1 t) from rfl, after1_1]
  rw [show (dat1 V c).leavesExact 2 t = owns (c : Thread nD τ) (ms1_2 t) fullShare ((dat1 V c).after 2 t) from rfl, after1_2]
  rw [show (dat1 V c).leavesExact 3 t = owns (c : Thread nD τ) (ms1_3 t) fullShare ((dat1 V c).after 3 t) from rfl, after1_3]
  rw [show (dat1 V c).leavesExact 4 t = owns (c : Thread nD τ) (ms1_4 t) fullShare ((dat1 V c).after 4 t) from rfl, after1_4]
  rw [Phi1_castSucc]
  have hN : t.val < 100 := lt_of_lt_of_eq t.isLt (show cfg1.N = 100 from N_1)
  by_cases hz : t.val = 0
  · rw [Phi1_zero V c _ _ hz, PhiA1_eq, acc1_first V c t hz]
    iintro ⟨⟨⟨⟨%s, HS⟩, Hr⟩, Hg⟩, Ho, ⟨%d0, H0⟩, ⟨%d1, H1⟩, ⟨%d2, H2⟩, ⟨%d3, H3⟩, ⟨%d4, H4⟩⟩
    iapply (run1_A c (grid1.coords t) (ms1_0 t) (hs1_0 t) (ms1_1 t) (hs1_1 t) (ms1_2 t) (hs1_2 t) (ms1_3 t) (hs1_3 t) (ms1_4 t) (hs1_4 t) scM1 (Memref.isWhole_whole _)
      ((hcond1 t).mpr (by rw [hz]))
      (iblk1 V c 0 t) (iblk1 V c 1 t) (iblk1 V c 2 t) (iblk1 V c 3 t) ((dat1 V c).before 4 t d4) s Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hr Hg]
    · isplitr [Hg]
      · isplitl [HS]; · iexact HS
        iexact Hr
      iexact Hg
    isplitl [Ho]; · iexact Ho
    isplitl [H0]; · iexact H0
    isplitl [H1]; · iexact H1
    isplitl [H2]; · iexact H2
    isplitl [H3]; · iexact H3
    iexact H4
  · rw [Phi1_pos V c _ _ hz, acc1_later V c t hz]
    iintro ⟨⟨⟨HS, Hr⟩, Hg⟩, Ho, ⟨%d0, H0⟩, ⟨%d1, H1⟩, ⟨%d2, H2⟩, ⟨%d3, H3⟩, ⟨%d4, H4⟩⟩
    iapply (run1_B c (grid1.coords t) (ms1_0 t) (hs1_0 t) (ms1_1 t) (hs1_1 t) (ms1_2 t) (hs1_2 t) (ms1_3 t) (hs1_3 t) (ms1_4 t) (hs1_4 t) scM1 (Memref.isWhole_whole _)
      (fun h => hz (by have h1 := (hcond1 t).mp h; omega))
      (iblk1 V c 0 t) (iblk1 V c 1 t) (iblk1 V c 2 t) (iblk1 V c 3 t) ((dat1 V c).before 4 t d4)
      (acc1 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hr Hg]
    · isplitr [Hg]
      · isplitl [HS]; · iexact HS
        iexact Hr
      iexact Hg
    isplitl [Ho]; · iexact Ho
    isplitl [H0]; · iexact H0
    isplitl [H1]; · iexact H1
    isplitl [H2]; · iexact H2
    isplitl [H3]; · iexact H3
    iexact H4

/-- The library's body obligation of the region, at every point. -/
theorem body1 (V : Valuation τ sig (Elt F)) (c : Dev nD) :
    BodyObligation (dat1 V c) (defs₀ (F := F)) Variants.none () Set.univ := fun t => by
  rw [bigSep_W1, bigSep_W1]
  exact sound_body1 V c t

end Cert.KernelIdeal.Hand

end
-- ==== Proof.KernelLaunch.lean ====
import proofs.«165161_j56453050139080_2_alg».proof.Proof.Gen.KernelIdeal.Launch
import proofs.«165161_j56453050139080_2_alg».proof.Proof.LaunchStates
import proofs.«165161_j56453050139080_2_alg».proof.Proof.KernelBody0
import proofs.«165161_j56453050139080_2_alg».proof.Proof.KernelBody1
import Idealize.ShloMosaic.Lib.Pipeline.Frame
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The thread state

Between two segments of @main a core holds every unscoped buffer whole at the boundary's contents, its generator
register at some state, and owes nothing. -/

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment. -/
abbrev R (c : Dev nD) : sProp 𝕄 := iprop((∃ r, prngReg c r) ∗ ∃ W, owes (c : Thread nD τ) (0 : CellTallies nD τ sig Unit) W)

/-- A host stretch as a segment over the unscoped references, from the contents `W`: it runs to the contents after
    its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the contents at the return. -/
abbrev Tₙ (c : Dev nD) : sProp 𝕄 := iprop(StableHlo.held (c : Thread nD τ) (Pipeline.ucRefs τ sig) (V5 m c) ∗ ∃ r, prngReg c r)

/-! ## The regions as segments -/

set_option backward.isDefEq.respectTransparency.types false in
/-- REGION 0 as a segment: entered with every unscoped buffer at `V1`, left with them at `V2`. At entry the
    windows' arrays are split out of the unscoped buffers and the rest bypasses the region; the generator register
    enters the region invariant and comes back; at exit the arrays, at their final contents, rejoin the rest. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body0 (V1 m c) c).loose
  hwaits := Pipeline.hwaits_of_owed_zero _ _ _ _ L lv 0 fun c t => dat0_owed (V1 m c) c t
  pre c := iprop(StableHlo.held (c : Thread nD τ) (Pipeline.ucRefs τ sig) (V1 m c) ∗ R c)
  post c := iprop(StableHlo.held (c : Thread nD τ) (Pipeline.ucRefs τ sig) (V2 m c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun w => dat0_q (V1 m c) c w) (fun b => V1 m c b) fun w => dat0_A (V1 m c) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 0 c).owed 0 = 0 from dat0_owed (V1 m c) c 0]
      iexact HO
    isplitl [Hp]; · iexact Hp
    iexact Hrest
  hin c := by
    rw [show (pdats m 0 c).Φ 0 = Pipeline.ΦA spec0 c from dat0_Φ_first (V1 m c) c]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from dat0_Φ_last (V1 m c) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => dat0_q (V1 m c) c w)
      (fun b => V1 m c b) (fun b => V2 m c b) ((pdats m 0 c).arrAt · cfg0.N) (fun w => (V2_arr m c w).symm)
      (fun b hb => V2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 0 c).owed (Fin.last _) = 0 from dat0_owed (V1 m c) c _]
    iexact HO

set_option backward.isDefEq.respectTransparency.types false in
/-- REGION 1 as a segment: entered with every unscoped buffer at `V3`, left with them at `V4`. At entry the
    windows' arrays are split out of the unscoped buffers and the rest bypasses the region; the generator register
    enters the region invariant and comes back; at exit the arrays, at their final contents, rejoin the rest. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body1 (V3 m c) c).loose
  hwaits := Pipeline.hwaits_of_owed_zero _ _ _ _ L lv 1 fun c t => dat1_owed (V3 m c) c t
  pre c := iprop(StableHlo.held (c : Thread nD τ) (Pipeline.ucRefs τ sig) (V3 m c) ∗ R c)
  post c := iprop(StableHlo.held (c : Thread nD τ) (Pipeline.ucRefs τ sig) (V4 m c) ∗ R c)
  X c := iprop(∃ r, prngReg c r)
  Y c := iprop(∃ r, prngReg c r)
  Z c := Pipeline.unscopedRest (Ix := Unit) (Name := ℕ) (U := UR sig nD τ) (Lvl := ℕ) spec1 c (fun b => V3 m c b)
  hentry c := by
    rw [Pipeline.ownSems0_none]
    have hsplit := Pipeline.arrays_of_unscopedBufs (p := 1) (pcfgs (F := F)) adm (pdats m) launch1.win launch1.arr_whole c
      ((pdats m 1 c).share_full fun w => dat1_q (V3 m c) c w) (fun b => V3 m c b) fun w => dat1_A (V3 m c) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 1 c).owed 0 = 0 from dat1_owed (V3 m c) c 0]
      iexact HO
    isplitl [Hp]; · iexact Hp
    iexact Hrest
  hin c := by
    rw [show (pdats m 1 c).Φ 0 = Pipeline.ΦA spec1 c from dat1_Φ_first (V3 m c) c]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from dat1_Φ_last (V3 m c) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => dat1_q (V3 m c) c w)
      (fun b => V3 m c b) (fun b => V4 m c b) ((pdats m 1 c).arrAt · cfg1.N) (fun w => (V4_arr m c w).symm)
      (fun b hb => V4_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 1 c).owed (Fin.last _) = 0 from dat1_owed (V3 m c) c _]
    iexact HO

/-! ## @main as segments, and the launch -/

/-- @main's five segments in order. -/
abbrev segs : List (Pipeline.Seg (pcfgs (F := F)) adm (pdats m) () defs₀ 𝒱₀ L lv) :=
  [ .host (hseg hostOps0 hostOps0_sub hostOps0_fresh (V0 m)),
    .region (reg0 m),
    .host (hseg hostOps1 hostOps1_sub hostOps1_fresh (V2 m)),
    .region (reg1 m),
    .host (hseg hostOps2 hostOps2_sub hostOps2_fresh (V4 m)) ]

/-- @main is the run of the segments: it is the chain of its items, and the segments' run is the chain of
    their fragments, which are those items. -/
theorem main_run (c : Dev nD) : main (F := F) c = Pipeline.Seg.run (segs m) :=
  (main_chain c).trans (Pipeline.Seg.run_eq_chain (segs m)).symm

set_option backward.isDefEq.respectTransparency.types false in
/-- THE RUN: from any memory with zero counters, every weakly fair execution of @main on the TensorCores terminates,
    nothing faulting, and every final state has the result buffer at the contents the fold names and the ten
    argument arrays as launched. -/
theorem run_main : θ_run (defs (F := F)) (onTc (τ := τ) (main (F := F))) ⟨m, fun _ => 0, ρ⟩ (fun r => ∀ c : Dev nD,
      r.2.mem ((c.tc : Thread nD τ).loc main_v106) = V5 m c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := by
      refine ⟨fun _ => .rfl, fun _ => .rfl, fun _ => .rfl, fun _ => .rfl, fun _ => .rfl, fun c => ?_⟩
      show iprop(StableHlo.held (c : Thread nD τ) (Pipeline.ucRefs τ sig) (StableHlo.after hostOps2 (V4 m c)) ∗ R c)
        ⊢ iprop(Tₙ m c ∗ ∃ W, owes (c : Thread nD τ) (0 : CellTallies nD τ sig Unit) W)
      rw [← V5_eq m c]
      iintro ⟨Hh, Hp, HO⟩
      isplitr [HO]
      · isplitl [Hh] <;> iassumption
      · iexact HO)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V5 m c b)
    (hfin := fun c s' => by
      iintro ⟨⟨Hh, -⟩, HSI⟩
      unfold StableHlo.held
      imodintro
      iapply (pointsTo_read_all (Pipeline.ucRefs τ sig) (fun b => (((c : Thread nD τ)).1, b)) (V5 m c) s')
      isplitl [Hh] <;> iassumption)
    (hQ := fun s h c =>
      ⟨h c _ (mem_uc main_v106 (by decide)),
       (h c _ (mem_uc main_arg0 (by decide))).trans (V5_launch m c main_arg0 (by decide) (by decide) (by decide) (by decide) (by decide)),
       (h c _ (mem_uc main_arg1 (by decide))).trans (V5_launch m c main_arg1 (by decide) (by decide) (by decide) (by decide) (by decide)),
       (h c _ (mem_uc main_arg2 (by decide))).trans (V5_launch m c main_arg2 (by decide) (by decide) (by decide) (by decide) (by decide)),
       (h c _ (mem_uc main_arg3 (by decide))).trans (V5_launch m c main_arg3 (by decide) (by decide) (by decide) (by decide) (by decide)),
       (h c _ (mem_uc main_arg4 (by decide))).trans (V5_launch m c main_arg4 (by decide) (by decide) (by decide) (by decide) (by decide)),
       (h c _ (mem_uc main_arg5 (by decide))).trans (V5_launch m c main_arg5 (by decide) (by decide) (by decide) (by decide) (by decide)),
       (h c _ (mem_uc main_arg6 (by decide))).trans (V5_launch m c main_arg6 (by decide) (by decide) (by decide) (by decide) (by decide)),
       (h c _ (mem_uc main_arg7 (by decide))).trans (V5_launch m c main_arg7 (by decide) (by decide) (by decide) (by decide) (by decide)),
       (h c _ (mem_uc main_arg8 (by decide))).trans (V5_launch m c main_arg8 (by decide) (by decide) (by decide) (by decide) (by decide)),
       (h c _ (mem_uc main_arg9 (by decide))).trans (V5_launch m c main_arg9 (by decide) (by decide) (by decide) (by decide) (by decide))⟩)

/-- info: 'Cert.KernelIdeal.Hand.run_main' depends on axioms: [propext, Classical.choice, Quot.sound] -/
#guard_msgs in #print axioms run_main

end Cert.KernelIdeal.Hand

end
-- ==== Proof.KernelDataW.lean ====
/-
  The proof data of the two kernel regions. Each kernel walks its grid keeping a running total in a one-element
  scratch buffer: at the first point the scratch is set to zero, at every point the total of the point's input blocks
  is added to it, and the new total is copied into the one-element output block. This module names, for any contents
  `V` the arrays hold when a region is entered, the input block of each window at each point (`iblk0`, `iblk1`), the
  running total after each point (`acc0`, `acc1`: what both the scratch and the output block hold after the body at
  that point), the region invariant (`Phi0`, `Phi1`: before the first point every scoped buffer that is no staging
  buffer at anything; afterwards the scratch at the running total and the others still at anything), and the
  pipeline proof data built from them (`dat0`, `dat1`) with the equations that read their fields.
-/
import proofs.«165161_j56453050139080_2_alg».proof.Proof.Gen.Kernel.Launch
import proofs.«165161_j56453050139080_2_alg».proof.Proof.Gen.Kernel.Skeleton
import proofs.«165161_j56453050139080_2_alg».proof.Proof.Gen.Kernel.Points
import Idealize.ShloMosaic.Lib.Pipeline.FrameBody
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays as a region finds them -/

/-- The contents of the TensorCore reference `b` on core `c` under the valuation `V`. -/
abbrev rd (V : Valuation τ sig (Elt F)) (c : Dev nD) (b : Ref sig .tc) : Buf (Elt F) ((c : Thread nD τ).loc b) :=
  V (Proc.devRef .tc b)

/-- Window `w`'s block at point `t` of the first region, read off its array at the contents `V`. -/
def iblk0 (V : Valuation τ sig (Elt F)) (c : Dev nD) (w : Fin cfg0.W) (t : Fin cfg0.N) :
    ((cfg0.win w).xblock (cfg0.grid.coords t)).Idx → Elt F (cfg0.win w).elt :=
  ((cfg0.win w).blk t).view.read (Elt F) (rd V c (Pipeline.arrRef spec0 w))

/-- Window `w`'s block at point `t` of the second region, read off its array at the contents `V`. -/
def iblk1 (V : Valuation τ sig (Elt F)) (c : Dev nD) (w : Fin cfg1.W) (t : Fin cfg1.N) :
    ((cfg1.win w).xblock (cfg1.grid.coords t)).Idx → Elt F (cfg1.win w).elt :=
  ((cfg1.win w).blk t).view.read (Elt F) (rd V c (Pipeline.arrRef spec1 w))

/-! ## The running totals -/

/-- One point of the first kernel: the previous total `s` plus the total of the point's blocks
    (`x0`: 200 rows of the first operand, `x1`: the whole second operand, `x2`, `x3`: their two bias vectors). -/
def step0 (x0 : Vec F S200x8 .f32) (x1 : Vec F S3000x8 .f32) (x2 : Vec F S200x1 .f32) (x3 : Vec F S1x3000 .f32)
    (s : Vec F S1x1 .f32) : Vec F S1x1 .f32 :=
  k0_pay1 (k0_pay3 x2) (k0_pay4 x3) (k0_pay5 x0 x1) (Scalar.ofBits .f32 0x00000000#32) s

/-- One point of the second kernel: the previous total `s` plus the total of the point's four blocks of 5000 rows. -/
def step1 (x0 : Vec F S5000x8 .f32) (x1 : Vec F S5000x8 .f32) (x2 : Vec F S5000x1 .f32) (x3 : Vec F S5000x1 .f32)
    (s : Vec F S1x1 .f32) : Vec F S1x1 .f32 :=
  k1_pay2 x0 x1 x2 x3 s

/-- The first kernel's running total after point `n`: from zero at the first point, one `step0` per point. -/
def acc0 (V : Valuation τ sig (Elt F)) (c : Dev nD) : (n : ℕ) → n < cfg0.N → Vec F S1x1 .f32
  | 0, hn => step0 (iblk0 V c 0 ⟨0, hn⟩) (iblk0 V c 1 ⟨0, hn⟩) (iblk0 V c 2 ⟨0, hn⟩) (iblk0 V c 3 ⟨0, hn⟩) k0_pay2
  | n + 1, hn => step0 (iblk0 V c 0 ⟨n + 1, hn⟩) (iblk0 V c 1 ⟨n + 1, hn⟩) (iblk0 V c 2 ⟨n + 1, hn⟩) (iblk0 V c 3 ⟨n + 1, hn⟩)
      (acc0 V c n (Nat.lt_of_succ_lt hn))

/-- The second kernel's running total after point `n`. -/
def acc1 (V : Valuation τ sig (Elt F)) (c : Dev nD) : (n : ℕ) → n < cfg1.N → Vec F S1x1 .f32
  | 0, hn => step1 (iblk1 V c 0 ⟨0, hn⟩) (iblk1 V c 1 ⟨0, hn⟩) (iblk1 V c 2 ⟨0, hn⟩) (iblk1 V c 3 ⟨0, hn⟩) k1_pay1
  | n + 1, hn => step1 (iblk1 V c 0 ⟨n + 1, hn⟩) (iblk1 V c 1 ⟨n + 1, hn⟩) (iblk1 V c 2 ⟨n + 1, hn⟩) (iblk1 V c 3 ⟨n + 1, hn⟩)
      (acc1 V c n (Nat.lt_of_succ_lt hn))

/-- At the first point the total starts from zero. -/
theorem acc0_first (V : Valuation τ sig (Elt F)) (c : Dev nD) (t : Fin cfg0.N) (h : t.val = 0) :
    acc0 V c t.val t.isLt = step0 (iblk0 V c 0 t) (iblk0 V c 1 t) (iblk0 V c 2 t) (iblk0 V c 3 t) k0_pay2 := by
  obtain ⟨n, hn⟩ := t
  cases n with
  | zero => rfl
  | succ n => exact absurd h (Nat.succ_ne_zero n)

/-- At a later point it continues the total the point before left. -/
theorem acc0_later (V : Valuation τ sig (Elt F)) (c : Dev nD) (t : Fin cfg0.N) (h : t.val ≠ 0) :
    acc0 V c t.val t.isLt = step0 (iblk0 V c 0 t) (iblk0 V c 1 t) (iblk0 V c 2 t) (iblk0 V c 3 t)
      (acc0 V c (t.val - 1) (Nat.lt_of_le_of_lt (Nat.sub_le _ _) t.isLt)) := by
  obtain ⟨n, hn⟩ := t
  cases n with
  | zero => exact absurd rfl h
  | succ n => rfl

theorem acc1_first (V : Valuation τ sig (Elt F)) (c : Dev nD) (t : Fin cfg1.N) (h : t.val = 0) :
    acc1 V c t.val t.isLt = step1 (iblk1 V c 0 t) (iblk1 V c 1 t) (iblk1 V c 2 t) (iblk1 V c 3 t) k1_pay1 := by
  obtain ⟨n, hn⟩ := t
  cases n with
  | zero => rfl
  | succ n => exact absurd h (Nat.succ_ne_zero n)

theorem acc1_later (V : Valuation τ sig (Elt F)) (c : Dev nD) (t : Fin cfg1.N) (h : t.val ≠ 0) :
    acc1 V c t.val t.isLt = step1 (iblk1 V c 0 t) (iblk1 V c 1 t) (iblk1 V c 2 t) (iblk1 V c 3 t)
      (acc1 V c (t.val - 1) (Nat.lt_of_le_of_lt (Nat.sub_le _ _) t.isLt)) := by
  obtain ⟨n, hn⟩ := t
  cases n with
  | zero => exact absurd rfl h
  | succ n => rfl

/-! ## The region invariants -/

/-- The scratch operands, as the whole memrefs the kernels are called with. -/
abbrev scM0 : Memref sig .tc .vmem S1x1 .f32 := Memref.whole cc0_scratch0
abbrev scM1 : Memref sig .tc .vmem S1x1 .f32 := Memref.whole cc1_scratch0

/-- The core's scoped buffers that are neither a staging buffer of the first region nor its scratch — the second
    region's staging buffers and scratch —, each whole at some contents: the first kernel never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_scratch0), ((c : Thread nD τ).loc cc1_scratch0) ↦{fullShare} f))

/-- The same for the second region: the first region's staging buffers and scratch. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_scratch0), ((c : Thread nD τ).loc cc0_scratch0) ↦{fullShare} f))

/-- The class's invariant of the first region with its scratch singled out as a memref owned at some contents. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

/-- The invariant of the first region before position `n`: before the first point the class's (every such buffer at
    anything, the generator register at some state); afterwards the scratch at the running total the point before
    left, the others and the register as before. -/
def Phi0 (V : Valuation τ sig (Elt F)) (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem Phi0_zero (V : Valuation τ sig (Elt F)) (c : Dev nD) (n : ℕ) (h : n ≤ cfg0.N) (hz : n = 0) :
    Phi0 V c n h = Pipeline.ΦA spec0 c := by
  subst hz; rfl

theorem Phi0_succ (V : Valuation τ sig (Elt F)) (c : Dev nD) (n : ℕ) (hn : n < cfg0.N) :
    Phi0 V c (n + 1) hn = iprop(iprop(owns (c : Thread nD τ) scM0 fullShare (acc0 V c n hn) ∗ others0 c) ∗ (∃ r, prngReg c r)) := rfl

theorem Phi0_pos (V : Valuation τ sig (Elt F)) (c : Dev nD) (n : ℕ) (h : n ≤ cfg0.N) (hz : n ≠ 0) :
    Phi0 V c n h = iprop(iprop(owns (c : Thread nD τ) scM0 fullShare (acc0 V c (n - 1) (by omega)) ∗ others0 c) ∗ (∃ r, prngReg c r)) := by
  cases n with
  | zero => exact absurd rfl hz
  | succ n => rfl

/-- The class's invariant of the second region with its scratch singled out as a memref owned at some contents. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA others1; rw [scopedRest1_eq]; simp only [scM1, owns_whole]
  refine BI.equiv_iff.mp ⟨?_, ?_⟩
  · show (_ : sProp 𝕄) ⊢ _
    iintro ⟨⟨H1, H2, H3, H4, H5, H6, H7, H8, HS⟩, Hg⟩
    iframe
  · show (_ : sProp 𝕄) ⊢ _
    iintro ⟨⟨HS, H1, H2, H3, H4, H5, H6, H7, H8⟩, Hg⟩
    iframe

/-- The invariant of the second region before position `n`, as `Phi0`. -/
def Phi1 (V : Valuation τ sig (Elt F)) (c : Dev nD) : (n : ℕ) → n ≤ cfg1.N → sProp 𝕄
  | 0, _ => Pipeline.ΦA spec1 c
  | n + 1, hn => iprop(iprop(owns (c : Thread nD τ) scM1 fullShare (acc1 V c n hn) ∗ others1 c) ∗ (∃ r, prngReg c r))

theorem Phi1_zero (V : Valuation τ sig (Elt F)) (c : Dev nD) (n : ℕ) (h : n ≤ cfg1.N) (hz : n = 0) :
    Phi1 V c n h = Pipeline.ΦA spec1 c := by
  subst hz; rfl

theorem Phi1_succ (V : Valuation τ sig (Elt F)) (c : Dev nD) (n : ℕ) (hn : n < cfg1.N) :
    Phi1 V c (n + 1) hn = iprop(iprop(owns (c : Thread nD τ) scM1 fullShare (acc1 V c n hn) ∗ others1 c) ∗ (∃ r, prngReg c r)) := rfl

theorem Phi1_pos (V : Valuation τ sig (Elt F)) (c : Dev nD) (n : ℕ) (h : n ≤ cfg1.N) (hz : n ≠ 0) :
    Phi1 V c n h = iprop(iprop(owns (c : Thread nD τ) scM1 fullShare (acc1 V c (n - 1) (by omega)) ∗ others1 c) ∗ (∃ r, prngReg c r)) := by
  cases n with
  | zero => exact absurd rfl hz
  | succ n => rfl

/-! ## The pipelines' proof data -/

/-- The first region's proof data on core `c`, for the arrays at `V` when the region is entered: after the body at
    point `t` each input's buffer still holds its block and the output's holds the running total `acc0`; the
    invariant is `Phi0`; full shares, nothing owed. -/
def dat0 (V : Valuation τ sig (Elt F)) (c : Dev nD) : Dat τ (Elt F) Unit ℕ (UR sig nD τ) ℕ cfg0 c where
  A w := rd V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => acc0 V c t.val t.isLt
  Φ t := Phi0 V c t.val (Nat.le_of_lt_succ t.isLt)
  q _ := fullShare
  owed _ := 0

/-- The second region's proof data, likewise. -/
def dat1 (V : Valuation τ sig (Elt F)) (c : Dev nD) : Dat τ (Elt F) Unit ℕ (UR sig nD τ) ℕ cfg1 c where
  A w := rd V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ t := Phi1 V c t.val (Nat.le_of_lt_succ t.isLt)
  q _ := fullShare
  owed _ := 0

/-! ### The fields read off (by `dsimp`, so that neither `V` nor a block is ever unfolded to check them) -/

theorem dat0_A (V : Valuation τ sig (Elt F)) (c : Dev nD) (w : Fin cfg0.W) :
    (dat0 V c).A w = V (Proc.devRef .tc (Pipeline.arrRef spec0 w)) := by dsimp only [dat0]
theorem dat0_q (V : Valuation τ sig (Elt F)) (c : Dev nD) (w : Fin cfg0.W) : (dat0 V c).q w = fullShare := by dsimp only [dat0]
theorem dat0_owed (V : Valuation τ sig (Elt F)) (c : Dev nD) (t : Fin (cfg0.N + 1)) : (dat0 V c).owed t = 0 := by dsimp only [dat0]
theorem dat1_A (V : Valuation τ sig (Elt F)) (c : Dev nD) (w : Fin cfg1.W) :
    (dat1 V c).A w = V (Proc.devRef .tc (Pipeline.arrRef spec1 w)) := by dsimp only [dat1]
theorem dat1_q (V : Valuation τ sig (Elt F)) (c : Dev nD) (w : Fin cfg1.W) : (dat1 V c).q w = fullShare := by dsimp only [dat1]
theorem dat1_owed (V : Valuation τ sig (Elt F)) (c : Dev nD) (t : Fin (cfg1.N + 1)) : (dat1 V c).owed t = 0 := by dsimp only [dat1]

/-- The invariant at a point's start, restated at the point's position. -/
theorem Phi0_castSucc (V : Valuation τ sig (Elt F)) (c : Dev nD) (t : Fin cfg0.N) :
    (dat0 V c).Φ t.castSucc = Phi0 V c t.val (Nat.le_of_lt t.isLt) := by
  dsimp only [dat0]; simp only [Fin.coe_castSucc]
theorem Phi1_castSucc (V : Valuation τ sig (Elt F)) (c : Dev nD) (t : Fin cfg1.N) :
    (dat1 V c).Φ t.castSucc = Phi1 V c t.val (Nat.le_of_lt t.isLt) := by
  dsimp only [dat1]; simp only [Fin.coe_castSucc]

/-- Before the first point the invariant is the class's. -/
theorem dat0_Φ_first (V : Valuation τ sig (Elt F)) (c : Dev nD) : (dat0 V c).Φ 0 = Pipeline.ΦA spec0 c := by
  rw [show (dat0 V c).Φ 0 = Phi0 V c 0 (Nat.zero_le _) from rfl]; rfl
theorem dat1_Φ_first (V : Valuation τ sig (Elt F)) (c : Dev nD) : (dat1 V c).Φ 0 = Pipeline.ΦA spec1 c := by
  rw [show (dat1 V c).Φ 0 = Phi1 V c 0 (Nat.zero_le _) from rfl]; rfl

/-- After any point the invariant gives the class's back: the scratch's named total is forgotten. -/
theorem dat0_Φ_out (V : Valuation τ sig (Elt F)) (c : Dev nD) (t : Fin (cfg0.N + 1)) (ht : t.val ≠ 0) :
    (dat0 V c).Φ t ⊢ Pipeline.ΦA spec0 c := by
  rw [show (dat0 V c).Φ t = Phi0 V c t.val (Nat.le_of_lt_succ t.isLt) from rfl, Phi0_pos V c _ _ ht, PhiA0_eq]
  iintro ⟨⟨HS, Ho⟩, Hg⟩
  isplitr [Hg]
  · isplitl [HS]
    · iexists _; iexact HS
    iexact Ho
  iexact Hg
theorem dat0_Φ_last (V : Valuation τ sig (Elt F)) (c : Dev nD) : (dat0 V c).Φ (Fin.last cfg0.N) ⊢ Pipeline.ΦA spec0 c :=
  dat0_Φ_out V c _ (by rw [Fin.val_last]; have : cfg0.N = 15 := N_0; omega)
theorem dat1_Φ_out (V : Valuation τ sig (Elt F)) (c : Dev nD) (t : Fin (cfg1.N + 1)) (ht : t.val ≠ 0) :
    (dat1 V c).Φ t ⊢ Pipeline.ΦA spec1 c := by
  rw [show (dat1 V c).Φ t = Phi1 V c t.val (Nat.le_of_lt_succ t.isLt) from rfl, Phi1_pos V c _ _ ht, PhiA1_eq]
  iintro ⟨⟨HS, Ho⟩, Hg⟩
  isplitr [Hg]
  · isplitl [HS]
    · iexists _; iexact HS
    iexact Ho
  iexact Hg
theorem dat1_Φ_last (V : Valuation τ sig (Elt F)) (c : Dev nD) : (dat1 V c).Φ (Fin.last cfg1.N) ⊢ Pipeline.ΦA spec1 c :=
  dat1_Φ_out V c _ (by rw [Fin.val_last]; have : cfg1.N = 100 := N_1; omega)

/-- What the body leaves, window by window. -/
theorem after0_0 (V : Valuation τ sig (Elt F)) (c : Dev nD) (t : Fin cfg0.N) : (dat0 V c).after 0 t = iblk0 V c 0 t := by dsimp only [dat0]
theorem after0_1 (V : Valuation τ sig (Elt F)) (c : Dev nD) (t : Fin cfg0.N) : (dat0 V c).after 1 t = iblk0 V c 1 t := by dsimp only [dat0]
theorem after0_2 (V : Valuation τ sig (Elt F)) (c : Dev nD) (t : Fin cfg0.N) : (dat0 V c).after 2 t = iblk0 V c 2 t := by dsimp only [dat0]
theorem after0_3 (V : Valuation τ sig (Elt F)) (c : Dev nD) (t : Fin cfg0.N) : (dat0 V c).after 3 t = iblk0 V c 3 t := by dsimp only [dat0]
theorem after0_4 (V : Valuation τ sig (Elt F)) (c : Dev nD) (t : Fin cfg0.N) : (dat0 V c).after 4 t = acc0 V c t.val t.isLt := by dsimp only [dat0]
theorem after1_0 (V : Valuation τ sig (Elt F)) (c : Dev nD) (t : Fin cfg1.N) : (dat1 V c).after 0 t = iblk1 V c 0 t := by dsimp only [dat1]
theorem after1_1 (V : Valuation τ sig (Elt F)) (c : Dev nD) (t : Fin cfg1.N) : (dat1 V c).after 1 t = iblk1 V c 1 t := by dsimp only [dat1]
theorem after1_2 (V : Valuation τ sig (Elt F)) (c : Dev nD) (t : Fin cfg1.N) : (dat1 V c).after 2 t = iblk1 V c 2 t := by dsimp only [dat1]
theorem after1_3 (V : Valuation τ sig (Elt F)) (c : Dev nD) (t : Fin cfg1.N) : (dat1 V c).after 3 t = iblk1 V c 3 t := by dsimp only [dat1]
theorem after1_4 (V : Valuation τ sig (Elt F)) (c : Dev nD) (t : Fin cfg1.N) : (dat1 V c).after 4 t = acc1 V c t.val t.isLt := by dsimp only [dat1]

/-! ### What the body finds in each buffer

Each input's current staging buffer holds its block at every point, fetched there or not (an input not fetched at a
point has the block index it had at the point before, and the body leaves the block in place). -/
theorem before0_0 (V : Valuation τ sig (Elt F)) (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [dat0_A]; try rfl) t d).trans
    (by unfold Dat.fetched Dat.blockOf iblk0; rw [dat0_A]; try rfl)
theorem before0_1 (V : Valuation τ sig (Elt F)) (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [dat0_A]; try rfl) t d).trans
    (by unfold Dat.fetched Dat.blockOf iblk0; rw [dat0_A]; try rfl)
theorem before0_2 (V : Valuation τ sig (Elt F)) (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [dat0_A]; try rfl) t d).trans
    (by unfold Dat.fetched Dat.blockOf iblk0; rw [dat0_A]; try rfl)
theorem before0_3 (V : Valuation τ sig (Elt F)) (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [dat0_A]; try rfl) t d).trans
    (by unfold Dat.fetched Dat.blockOf iblk0; rw [dat0_A]; try rfl)
theorem before1_0 (V : Valuation τ sig (Elt F)) (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [dat1_A]; try rfl) t d).trans
    (by unfold Dat.fetched Dat.blockOf iblk1; rw [dat1_A]; try rfl)
theorem before1_1 (V : Valuation τ sig (Elt F)) (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [dat1_A]; try rfl) t d).trans
    (by unfold Dat.fetched Dat.blockOf iblk1; rw [dat1_A]; try rfl)
theorem before1_2 (V : Valuation τ sig (Elt F)) (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [dat1_A]; try rfl) t d).trans
    (by unfold Dat.fetched Dat.blockOf iblk1; rw [dat1_A]; try rfl)
theorem before1_3 (V : Valuation τ sig (Elt F)) (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [dat1_A]; try rfl) t d).trans
    (by unfold Dat.fetched Dat.blockOf iblk1; rw [dat1_A]; try rfl)

/-- The output's buffer is written back after the last point only, so at the first point it holds anything -/
theorem before0_4_first (V : Valuation τ sig (Elt F)) (c : Dev nD) (t : Fin cfg0.N) (h : t.val = 0) (d) :
    (dat0 V c).before 4 t d = d :=
  (dat0 V c).before_out_reset 4 rfl t (.inl h) d
/-- and at a later point the running total the point before left. -/
theorem before0_4_later (V : Valuation τ sig (Elt F)) (c : Dev nD) (t : Fin cfg0.N) (h : t.val ≠ 0) (d) :
    (dat0 V c).before 4 t d = acc0 V c (t.val - 1) (Nat.lt_of_le_of_lt (Nat.sub_le _ _) t.isLt) := by
  rw [(dat0 V c).before_out_kept 4 rfl t h
    (Bool.eq_false_iff.mpr fun hf => by
      have h1 := (flush0_4 _).mp hf; have h2 := t.isLt; have hN : cfg0.N = 15 := N_0; dsimp only at h1; omega)
    (fun _ => rfl) (fun _ _ => rfl) d, after0_4]
theorem before1_4_first (V : Valuation τ sig (Elt F)) (c : Dev nD) (t : Fin cfg1.N) (h : t.val = 0) (d) :
    (dat1 V c).before 4 t d = d :=
  (dat1 V c).before_out_reset 4 rfl t (.inl h) d
theorem before1_4_later (V : Valuation τ sig (Elt F)) (c : Dev nD) (t : Fin cfg1.N) (h : t.val ≠ 0) (d) :
    (dat1 V c).before 4 t d = acc1 V c (t.val - 1) (Nat.lt_of_le_of_lt (Nat.sub_le _ _) t.isLt) := by
  rw [(dat1 V c).before_out_kept 4 rfl t h
    (Bool.eq_false_iff.mpr fun hf => by
      have h1 := (flush1_4 _).mp hf; have h2 := t.isLt; have hN : cfg1.N = 100 := N_1; dsimp only at h1; omega)
    (fun _ => rfl) (fun _ _ => rfl) d, after1_4]

end Cert.Kernel.Hand

end
-- ==== Proof.LaunchStatesW.lean ====
import proofs.«165161_j56453050139080_2_alg».proof.Proof.Gen.Kernel.Launch
import proofs.«165161_j56453050139080_2_alg».proof.Proof.KernelDataW
import Idealize.ShloMosaic.Lib.Pipeline.Frame
import Idealize.ShloMosaic.Lib.Pipeline.FrameSuffix
import Idealize.ShloMosaic.Lib.Pipeline.Regions

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

variable (m : (ℓ : Loc nD τ sig) → Buf (Elt F) ℓ)

/-! ## The buffer contents at each boundary of @main

The program is  host stretch 0 ; region 0 ; host stretch 1 ; region 1 ; host stretch 2.  The contents of the
TensorCore's buffers at the six boundaries are a fold from the launch memory: a host stretch takes a valuation
to the valuation after its operations; a region leaves every buffer as it found it except its windows' arrays,
which end at what the pipeline's write-backs leave. -/

/-- Core `c`'s buffers at launch. -/
def V0 (c : Dev nD) : Valuation τ sig (Elt F) := fun b => m (c, b)
/-- After host stretch 0: what region 0 is entered from. -/
def V1 (c : Dev nD) : Valuation τ sig (Elt F) := StableHlo.after hostOps0 (V0 m c)
/-- After region 0: its arrays at their final contents, every other buffer as entered. -/
def V2 (c : Dev nD) : Valuation τ sig (Elt F) :=
  Pipeline.withArrays spec0 c (V1 m c) fun w => (dat0 (V1 m c) c).arrAt w cfg0.N
/-- After host stretch 1: what region 1 is entered from. -/
def V3 (c : Dev nD) : Valuation τ sig (Elt F) := StableHlo.after hostOps1 (V2 m c)
/-- After region 1: its arrays at their final contents, every other buffer as entered. -/
def V4 (c : Dev nD) : Valuation τ sig (Elt F) :=
  Pipeline.withArrays spec1 c (V3 m c) fun w => (dat1 (V3 m c) c).arrAt w cfg1.N
/-- After host stretch 2: the contents at the return. -/
def V5 (c : Dev nD) : Valuation τ sig (Elt F) := StableHlo.after hostOps2 (V4 m c)

theorem V0_eq (c : Dev nD) (b : DevRef τ sig) : V0 m c b = m (c, b) := rfl
theorem V1_eq (c : Dev nD) : V1 m c = StableHlo.after hostOps0 (V0 m c) := rfl
theorem V3_eq (c : Dev nD) : V3 m c = StableHlo.after hostOps1 (V2 m c) := rfl
theorem V5_eq (c : Dev nD) : V5 m c = StableHlo.after hostOps2 (V4 m c) := rfl

/-- Region 0 leaves each of its arrays at what the pipeline's write-backs make of it, -/
theorem V2_arr (c : Dev nD) (w : Fin cfg0.W) :
    V2 m c (Proc.devRef .tc (Pipeline.arrRef spec0 w)) = (dat0 (V1 m c) c).arrAt w cfg0.N := by
  unfold V2; exact Pipeline.withArrays_arr spec0 launch0.win.arr_inj c _ _ w
/-- and every other buffer as it found it. -/
theorem V2_of_ne (c : Dev nD) (b : Ref sig .tc) (hb : ∀ w, Pipeline.arrRef spec0 w ≠ b) :
    V2 m c (Proc.devRef .tc b) = V1 m c (Proc.devRef .tc b) := by
  unfold V2; exact Pipeline.withArrays_of_ne spec0 c _ _ b hb
/-- Region 1 likewise. -/
theorem V4_arr (c : Dev nD) (w : Fin cfg1.W) :
    V4 m c (Proc.devRef .tc (Pipeline.arrRef spec1 w)) = (dat1 (V3 m c) c).arrAt w cfg1.N := by
  unfold V4; exact Pipeline.withArrays_arr spec1 launch1.win.arr_inj c _ _ w
theorem V4_of_ne (c : Dev nD) (b : Ref sig .tc) (hb : ∀ w, Pipeline.arrRef spec1 w ≠ b) :
    V4 m c (Proc.devRef .tc b) = V3 m c (Proc.devRef .tc b) := by
  unfold V4; exact Pipeline.withArrays_of_ne spec1 c _ _ b hb

/-! ## What the host stretches write

Every operation of a stretch writes its own result buffer and nothing else, so a buffer that is no operation's
result keeps its contents through the stretch. -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- The result buffers of stretch 0's operations. -/
abbrev hostOps0_W : List (Ref sig .tc) := [main_cst, main_v0, main_cst_0, main_v1, main_v2, main_v3, main_v4, main_v5, main_v6, main_cst_1, main_v7, main_v8, main_v9, main_v10, main_cst_2, main_v11, main_cst_3, main_v12, main_v13, main_v14, main_v15, main_v16, main_v17, main_cst_4, main_v18, main_v19, main_v20, main_v21, main_v22, main_v23, main_v24, main_cst_5, main_v25, main_v26, main_cst_6, main_v27, main_v28, main_v29, main_v30, main_cst_7, main_v31, main_v32, main_v33, main_v34, main_v35, main_v36, main_v37, main_v38, main_v39, main_v40, main_v41, main_c, main_v42, main_v43, main_c_8, main_v44, main_v45, main_v46, main_v47, main_v48, main_c_9, main_v49, main_v50, main_c_10, main_v51, main_v52, main_v53, main_v54, main_v55, main_c_11, main_v56, main_v57, main_c_12, main_v58, main_v59, main_v60, main_v61, main_v62, main_v63, main_c_13, main_v64, main_v65, main_c_14, main_v66, main_v67, main_v68, main_v69, main_v70, main_v71]
/-- The result buffers of stretch 1's operations. -/
abbrev hostOps1_W : List (Ref sig .tc) := [main_v73, main_c_15, main_v74, main_v75, main_c_16, main_v76, main_v77, main_v78, main_v79, main_v80, main_c_17, main_v81, main_v82, main_c_18, main_v83, main_v84, main_v85, main_v86, main_v87, main_c_19, main_v88, main_v89, main_c_20, main_v90, main_v91, main_v92, main_v93, main_v94, main_v95, main_c_21, main_v96, main_v97, main_c_22, main_v98, main_v99, main_v100, main_v101, main_v102, main_v103]
/-- The result buffers of stretch 2's operations. -/
abbrev hostOps2_W : List (Ref sig .tc) := [main_v105, main_v106]

set_option maxHeartbeats 4000000 in
theorem hostOps0_writes : (hostOps0 : List (HloOp τ sig (Elt F))).Forall fun op => op.writes ⊆ (hostOps0_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
set_option maxHeartbeats 4000000 in
theorem hostOps1_writes : (hostOps1 : List (HloOp τ sig (Elt F))).Forall fun op => op.writes ⊆ (hostOps1_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps2_writes : (hostOps2 : List (HloOp τ sig (Elt F))).Forall fun op => op.writes ⊆ (hostOps2_W.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem V1_of (c : Dev nD) (r : Ref sig .tc) (h : r ∉ hostOps0_W) : V1 m c (Proc.devRef .tc r) = V0 m c (Proc.devRef .tc r) :=
  StableHlo.after_of_writes_sub hostOps0 _ hostOps0_writes h
theorem V3_of (c : Dev nD) (r : Ref sig .tc) (h : r ∉ hostOps1_W) : V3 m c (Proc.devRef .tc r) = V2 m c (Proc.devRef .tc r) :=
  StableHlo.after_of_writes_sub hostOps1 _ hostOps1_writes h
theorem V5_of (c : Dev nD) (r : Ref sig .tc) (h : r ∉ hostOps2_W) : V5 m c (Proc.devRef .tc r) = V4 m c (Proc.devRef .tc r) :=
  StableHlo.after_of_writes_sub hostOps2 _ hostOps2_writes h

/-- A buffer that no host operation writes and that is no array of either region holds at the return what it
    held at launch: the fold walked back. -/
theorem V5_launch (c : Dev nD) (r : Ref sig .tc) (h0 : r ∉ hostOps0_W) (h1 : r ∉ hostOps1_W) (h2 : r ∉ hostOps2_W)
    (ha0 : ∀ w, Pipeline.arrRef spec0 w ≠ r) (ha1 : ∀ w, Pipeline.arrRef spec1 w ≠ r) :
    V5 m c (Proc.devRef .tc r) = m ((c.tc : Thread nD τ).loc r) :=
  (V5_of m c r h2).trans <| (V4_of_ne m c r ha1).trans <| (V3_of m c r h1).trans <| (V2_of_ne m c r ha0).trans <|
    (V1_of m c r h0).trans rfl

/-! ## The proof data family -/

/-- The prefetched tables' admissible contents: no pipeline has a table. -/
abbrev adm : (p : Fin 2) → (pcfgs (F := F) p).Adm := fun p => (cfgs p).toPCfg_adm

/-- Every pipeline's proof data, each at the contents its region is entered from. -/
def pdats : (p : Fin 2) → (c : Dev nD) → Dat τ (Elt F) Unit ℕ (UR sig nD τ) ℕ (Pipeline.pin (pcfgs (F := F)) adm p) c
  | ⟨0, _⟩ => fun c => dat0 (V1 m c) c
  | ⟨1, _⟩ => fun c => dat1 (V3 m c) c

end Cert.Kernel.Hand

end
-- ==== Proof.KernelWholeW.lean ====
/-
  Two facts about a whole buffer accessed through the rectangle of its own sizes at zero offsets, which is how both
  kernels read their input blocks, their scratch and their output block: such a load reads the buffer's contents,
  and after such a store the buffer reads the stored vector, whatever it held and whatever was stored before.
-/
import proofs.«165161_j56453050139080_2_alg».proof.Proof.Gen.Kernel
import Idealize.ShloMosaic.Lib.Pipeline.FrameBody
import Idealize.ShloMosaic.Lib.WholeRead

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Whole

variable {sig' : RefSig} {κ' : Kind} {sp' : Space} {s' : Shape} {e' : EltTy} {Val' : EltTy → Type}

/-- Rank-two offsets written out as two zeros are the zero offsets. -/
theorem off2_zero : (![0, 0] : Fin 2 → ℕ) = fun _ => 0 := by
  funext a; fin_cases a <;> rfl

/-- A load of a whole buffer, held at the contents that read `X`, through the rectangle of its own sizes at zero
    offsets reads `X`. -/
theorem readAt_unit_zero_unread {m : Memref sig' κ' sp' s' e'} (h : m.IsWhole) {off : Fin s'.rank → ℕ} (ho : off = fun _ => 0)
    (inb : ∀ a, off a + s'.size a ≤ s'.size a) (X : s'.Idx → Val' e') :
    m.view.readAt Val' (Rect.unit off s'.size inb).toLoadRect (h.unread X) = X := by
  subst ho
  funext x
  rw [h.readAt_unread X _ x]
  exact congrArg X (Rect.emb_whole_apply s' x)

/-- After an unmasked store of `w` through the rectangle of the buffer's own sizes at zero offsets the buffer reads
    `w`, whatever the earlier stores `L` and the contents `f` before them. -/
theorem read_writes_unit_zero (v : View sig' κ' sp' s' e') {off : Fin s'.rank → ℕ} (ho : off = fun _ => 0)
    (inb : ∀ a, off a + s'.size a ≤ s'.size a) (f : v.ty.Contents Val') (w : s'.Idx → Val' e')
    (L : List (View.Piece Val' s' e')) :
    v.read Val' (v.writes Val' f (⟨Rect.unit off s'.size inb, w⟩ :: L)) = w := by
  subst ho
  funext x
  have h := View.read_writes_cons_emb v f (Rect.whole s') w L x
  rwa [Rect.emb_whole_apply] at h

end Whole

end Cert.Kernel.Hand

end
-- ==== Proof.KernelBody0W.lean ====
/-
  The body obligation of the first kernel region. At every grid point the kernel loads the point's four input blocks,
  adds their total to the running total kept in its one-element scratch buffer, and copies the new total into the
  output block; at the first point it first sets the scratch to zero, whatever it held. So after the body at point
  `t` both the scratch and the output block hold `acc0 V c t`, and the input blocks are as they were: the two runs
  below (the first point; every later point) state this on any whole memrefs, and `sound_body0` instantiates them at
  the pipeline's staging buffers and reassembles the region invariant `Phi0`.
-/
import proofs.«165161_j56453050139080_2_alg».proof.Proof.KernelDataW
import proofs.«165161_j56453050139080_2_alg».proof.Proof.KernelWholeW

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch on the grid coordinate -/

/-- The condition of the kernel's one conditional: the grid coordinate is zero. -/
abbrev cond0 (i : grid0.Coords) : Prop :=
  (Scalar.cmpi .ne (Scalar.extui (Scalar.cmpi .eq (BitVec.ofNat 32 (i 0).val) 0#32)) 0#32) = 1#1

/-- It holds at the first point only — decided over the grid. -/
theorem hcond0 : ∀ t : Fin cfg0.N, cond0 (grid0.coords t) ↔ t.val % 15 = 0 :=
  (by decide +kernel : ∀ t : Fin grid0.N, cond0 (grid0.coords t) ↔ t.val % 15 = 0)

/-! ## The kernel on any whole memrefs -/

set_option maxHeartbeats 1000000 in
/-- THE FIRST POINT. The scratch, found at any contents \`s\`, is set to zero; the blocks' total is added to it; the scratch and the output block (found at any contents \`y\`) end at that total, the input blocks as they were. -/
theorem run0_A (c : Dev nD) (i : grid0.Coords) (arg1 : Memref sig .tc .vmem S200x8 .f32) (harg1 : arg1.IsWhole) (arg2 : Memref sig .tc .vmem S3000x8 .f32) (harg2 : arg2.IsWhole) (arg3 : Memref sig .tc .vmem S200x1 .f32) (harg3 : arg3.IsWhole) (arg4 : Memref sig .tc .vmem S1x3000 .f32) (harg4 : arg4.IsWhole) (arg5 : Memref sig .tc .vmem S1x1 .f32) (harg5 : arg5.IsWhole) (arg6 : Memref sig .tc .vmem S1x1 .f32) (harg6 : arg6.IsWhole)
    (hc : cond0 i)
    (x0 : Vec F S200x8 .f32) (x1 : Vec F S3000x8 .f32) (x2 : Vec F S200x1 .f32) (x3 : Vec F S1x3000 .f32)
    (y : Vec F S1x1 .f32) (s : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (step0 x0 x1 x2 x3 k0_pay2)
            ∗ owns (c : Thread nD τ) arg6 fullShare (step0 x0 x1 x2 x3 k0_pay2)) -∗ K ⟨⟩))
      ⊢ wp frame (wpE (defs₀ (F := F)) Variants.none c none) E (cc0__sampled_kernel i arg1 harg1 arg2 harg2 arg3 harg3 arg4 harg4 arg5 harg5 arg6 harg6) K := by
  simp only [cc0__sampled_kernel_eq_skeleton]; unfold cc0__sampled_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  have e1 : View.readAt (Elt F) arg1.view (Rect.unit ![0, 0] S200x8.size inb_S200x8_S200x8_0_0).toLoadRect (harg1.unread x0) = x0 :=
    readAt_unit_zero_unread harg1 off2_zero _ x0
  have e2 : View.readAt (Elt F) arg2.view (Rect.unit ![0, 0] S3000x8.size inb_S3000x8_S3000x8_0_0).toLoadRect (harg2.unread x1) = x1 :=
    readAt_unit_zero_unread harg2 off2_zero _ x1
  have e3 : View.readAt (Elt F) arg3.view (Rect.unit ![0, 0] S200x1.size inb_S200x1_S200x1_0_0).toLoadRect (harg3.unread x2) = x2 :=
    readAt_unit_zero_unread harg3 off2_zero _ x2
  have e4 : View.readAt (Elt F) arg4.view (Rect.unit ![0, 0] S1x3000.size inb_S1x3000_S1x3000_0_0).toLoadRect (harg4.unread x3) = x3 :=
    readAt_unit_zero_unread harg4 off2_zero _ x3
  have e6 : View.readAt (Elt F) arg6.view (Rect.unit ![0, 0] S1x1.size inb_S1x1_S1x1_0_0).toLoadRect (harg6.unread s) = s :=
    readAt_unit_zero_unread harg6 off2_zero _ s
  sl_exec (disch := exact hc)
  sl_step
  iapply Hk
  sl_unfold_run_names
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [read_writes_unit_zero arg5.view off2_zero, View.readCov_cons_toLoadRect, View.readCov_cons_toLoadRect]
    rfl
  iexists _; isplitr
  swap; · iexact H6
  ipureintro
  rw [read_writes_unit_zero arg6.view off2_zero, View.readCov_cons_toLoadRect]
  rfl

set_option maxHeartbeats 1000000 in
/-- A LATER POINT. The scratch is found at the running total \`s\`; the blocks' total is added to it; the scratch and the output block (found at any contents \`y\`) end at the new total, the input blocks as they were. -/
theorem run0_B (c : Dev nD) (i : grid0.Coords) (arg1 : Memref sig .tc .vmem S200x8 .f32) (harg1 : arg1.IsWhole) (arg2 : Memref sig .tc .vmem S3000x8 .f32) (harg2 : arg2.IsWhole) (arg3 : Memref sig .tc .vmem S200x1 .f32) (harg3 : arg3.IsWhole) (arg4 : Memref sig .tc .vmem S1x3000 .f32) (harg4 : arg4.IsWhole) (arg5 : Memref sig .tc .vmem S1x1 .f32) (harg5 : arg5.IsWhole) (arg6 : Memref sig .tc .vmem S1x1 .f32) (harg6 : arg6.IsWhole)
    (hc : ¬cond0 i)
    (x0 : Vec F S200x8 .f32) (x1 : Vec F S3000x8 .f32) (x2 : Vec F S200x1 .f32) (x3 : Vec F S1x3000 .f32)
    (y : Vec F S1x1 .f32) (s : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (step0 x0 x1 x2 x3 s)
            ∗ owns (c : Thread nD τ) arg6 fullShare (step0 x0 x1 x2 x3 s)) -∗ K ⟨⟩))
      ⊢ wp frame (wpE (defs₀ (F := F)) Variants.none c none) E (cc0__sampled_kernel i arg1 harg1 arg2 harg2 arg3 harg3 arg4 harg4 arg5 harg5 arg6 harg6) K := by
  simp only [cc0__sampled_kernel_eq_skeleton]; unfold cc0__sampled_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  have e1 : View.readAt (Elt F) arg1.view (Rect.unit ![0, 0] S200x8.size inb_S200x8_S200x8_0_0).toLoadRect (harg1.unread x0) = x0 :=
    readAt_unit_zero_unread harg1 off2_zero _ x0
  have e2 : View.readAt (Elt F) arg2.view (Rect.unit ![0, 0] S3000x8.size inb_S3000x8_S3000x8_0_0).toLoadRect (harg2.unread x1) = x1 :=
    readAt_unit_zero_unread harg2 off2_zero _ x1
  have e3 : View.readAt (Elt F) arg3.view (Rect.unit ![0, 0] S200x1.size inb_S200x1_S200x1_0_0).toLoadRect (harg3.unread x2) = x2 :=
    readAt_unit_zero_unread harg3 off2_zero _ x2
  have e4 : View.readAt (Elt F) arg4.view (Rect.unit ![0, 0] S1x3000.size inb_S1x3000_S1x3000_0_0).toLoadRect (harg4.unread x3) = x3 :=
    readAt_unit_zero_unread harg4 off2_zero _ x3
  have e6 : View.readAt (Elt F) arg6.view (Rect.unit ![0, 0] S1x1.size inb_S1x1_S1x1_0_0).toLoadRect (harg6.unread s) = s :=
    readAt_unit_zero_unread harg6 off2_zero _ s
  sl_exec (disch := exact hc)
  sl_step
  iapply Hk
  sl_unfold_run_names
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [read_writes_unit_zero arg5.view off2_zero, View.readCov_cons_toLoadRect]
    rfl
  iexists _; isplitr
  swap; · iexact H6
  ipureintro
  rw [read_writes_unit_zero arg6.view off2_zero]
  rfl

/-! ## The body at a point of the pipeline -/

/-- Each window's current staging memref at point `t`, as the pipeline passes it to the kernel, and its wholeness. -/
abbrev ms0_0 (t : Fin cfg0.N) : Memref sig .tc .vmem S200x8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3000x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S200x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

/-- What the body is called with at point `t`: the invariant, what the core owes, and each window's current buffer at
    what it then holds, -/
def bodyPre0 (V : Valuation τ sig (Elt F)) (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (V : Valuation τ sig (Elt F)) (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4000000 in
/-- The body at any point. The inputs' buffers hold their blocks; the invariant hands the body the scratch — at
    anything at the first point, at the running total the point before left at a later one —, the other scoped
    buffers and the generator register, which ride along; the run of the point's case applies, and the invariant
    takes the scratch back at this point's total, which is also what the output's buffer is left at. -/
theorem sound_body0 (V : Valuation τ sig (Elt F)) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from rfl, after0_0]
  rw [show (dat0 V c).leavesExact 1 t = owns (c : Thread nD τ) (ms0_1 t) fullShare ((dat0 V c).after 1 t) from rfl, after0_1]
  rw [show (dat0 V c).leavesExact 2 t = owns (c : Thread nD τ) (ms0_2 t) fullShare ((dat0 V c).after 2 t) from rfl, after0_2]
  rw [show (dat0 V c).leavesExact 3 t = owns (c : Thread nD τ) (ms0_3 t) fullShare ((dat0 V c).after 3 t) from rfl, after0_3]
  rw [show (dat0 V c).leavesExact 4 t = owns (c : Thread nD τ) (ms0_4 t) fullShare ((dat0 V c).after 4 t) from rfl, after0_4]
  rw [Phi0_castSucc]
  have hN : t.val < 15 := lt_of_lt_of_eq t.isLt (show cfg0.N = 15 from N_0)
  by_cases hz : t.val = 0
  · rw [Phi0_zero V c _ _ hz, PhiA0_eq, acc0_first V c t hz]
    iintro ⟨⟨⟨⟨%s, HS⟩, Hr⟩, Hg⟩, Ho, ⟨%d0, H0⟩, ⟨%d1, H1⟩, ⟨%d2, H2⟩, ⟨%d3, H3⟩, ⟨%d4, H4⟩⟩
    iapply (run0_A c (grid0.coords t) (ms0_0 t) (hs0_0 t) (ms0_1 t) (hs0_1 t) (ms0_2 t) (hs0_2 t) (ms0_3 t) (hs0_3 t) (ms0_4 t) (hs0_4 t) scM0 (Memref.isWhole_whole _)
      ((hcond0 t).mpr (by rw [hz]))
      (iblk0 V c 0 t) (iblk0 V c 1 t) (iblk0 V c 2 t) (iblk0 V c 3 t) ((dat0 V c).before 4 t d4) s Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hr Hg]
    · isplitr [Hg]
      · isplitl [HS]; · iexact HS
        iexact Hr
      iexact Hg
    isplitl [Ho]; · iexact Ho
    isplitl [H0]; · iexact H0
    isplitl [H1]; · iexact H1
    isplitl [H2]; · iexact H2
    isplitl [H3]; · iexact H3
    iexact H4
  · rw [Phi0_pos V c _ _ hz, acc0_later V c t hz]
    iintro ⟨⟨⟨HS, Hr⟩, Hg⟩, Ho, ⟨%d0, H0⟩, ⟨%d1, H1⟩, ⟨%d2, H2⟩, ⟨%d3, H3⟩, ⟨%d4, H4⟩⟩
    iapply (run0_B c (grid0.coords t) (ms0_0 t) (hs0_0 t) (ms0_1 t) (hs0_1 t) (ms0_2 t) (hs0_2 t) (ms0_3 t) (hs0_3 t) (ms0_4 t) (hs0_4 t) scM0 (Memref.isWhole_whole _)
      (fun h => hz (by have h1 := (hcond0 t).mp h; omega))
      (iblk0 V c 0 t) (iblk0 V c 1 t) (iblk0 V c 2 t) (iblk0 V c 3 t) ((dat0 V c).before 4 t d4)
      (acc0 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hr Hg]
    · isplitr [Hg]
      · isplitl [HS]; · iexact HS
        iexact Hr
      iexact Hg
    isplitl [Ho]; · iexact Ho
    isplitl [H0]; · iexact H0
    isplitl [H1]; · iexact H1
    isplitl [H2]; · iexact H2
    isplitl [H3]; · iexact H3
    iexact H4

/-- The library's body obligation of the region, at every point. -/
theorem body0 (V : Valuation τ sig (Elt F)) (c : Dev nD) :
    BodyObligation (dat0 V c) (defs₀ (F := F)) Variants.none () Set.univ := fun t => by
  rw [bigSep_W0, bigSep_W0]
  exact sound_body0 V c t

end Cert.Kernel.Hand

end
-- ==== Proof.KernelBody1W.lean ====
/-
  The body obligation of the second kernel region. At every grid point the kernel loads the point's four input blocks
  of 5000 rows, adds their total to the running total kept in its one-element scratch buffer, and copies the new total
  into the output block; at the first point it first sets the scratch to zero, whatever it held. So after the body at
  point `t` both the scratch and the output block hold `acc1 V c t`, and the input blocks are as they were: the two
  runs below (the first point; every later point) state this on any whole memrefs, and `sound_body1` instantiates
  them at the pipeline's staging buffers and reassembles the region invariant `Phi1`.
-/
import proofs.«165161_j56453050139080_2_alg».proof.Proof.KernelDataW
import proofs.«165161_j56453050139080_2_alg».proof.Proof.KernelWholeW

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch on the grid coordinate -/

/-- The condition of the kernel's one conditional: the grid coordinate is zero. -/
abbrev cond1 (i : grid1.Coords) : Prop :=
  (Scalar.cmpi .ne (Scalar.extui (Scalar.cmpi .eq (BitVec.ofNat 32 (i 0).val) 0#32)) 0#32) = 1#1

/-- It holds at the first point only — decided over the grid. -/
theorem hcond1 : ∀ t : Fin cfg1.N, cond1 (grid1.coords t) ↔ t.val % 100 = 0 :=
  (by decide +kernel : ∀ t : Fin grid1.N, cond1 (grid1.coords t) ↔ t.val % 100 = 0)

/-! ## The kernel on any whole memrefs -/

set_option maxHeartbeats 1000000 in
/-- THE FIRST POINT. The scratch, found at any contents \`s\`, is set to zero; the blocks' total is added to it; the scratch and the output block (found at any contents \`y\`) end at that total, the input blocks as they were. -/
theorem run1_A (c : Dev nD) (i : grid1.Coords) (arg1 : Memref sig .tc .vmem S5000x8 .f32) (harg1 : arg1.IsWhole) (arg2 : Memref sig .tc .vmem S5000x8 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S1x1 .f32) (harg5 : arg5.IsWhole) (arg6 : Memref sig .tc .vmem S1x1 .f32) (harg6 : arg6.IsWhole)
    (hc : cond1 i)
    (x0 : Vec F S5000x8 .f32) (x1 : Vec F S5000x8 .f32) (x2 : Vec F S5000x1 .f32) (x3 : Vec F S5000x1 .f32)
    (y : Vec F S1x1 .f32) (s : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (step1 x0 x1 x2 x3 k1_pay1)
            ∗ owns (c : Thread nD τ) arg6 fullShare (step1 x0 x1 x2 x3 k1_pay1)) -∗ K ⟨⟩))
      ⊢ wp frame (wpE (defs₀ (F := F)) Variants.none c none) E (cc1__edges_kernel i arg1 harg1 arg2 harg2 arg3 harg3 arg4 harg4 arg5 harg5 arg6 harg6) K := by
  simp only [cc1__edges_kernel_eq_skeleton]; unfold cc1__edges_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  have e1 : View.readAt (Elt F) arg1.view (Rect.unit ![0, 0] S5000x8.size inb_S5000x8_S5000x8_0_0).toLoadRect (harg1.unread x0) = x0 :=
    readAt_unit_zero_unread harg1 off2_zero _ x0
  have e2 : View.readAt (Elt F) arg2.view (Rect.unit ![0, 0] S5000x8.size inb_S5000x8_S5000x8_0_0).toLoadRect (harg2.unread x1) = x1 :=
    readAt_unit_zero_unread harg2 off2_zero _ x1
  have e3 : View.readAt (Elt F) arg3.view (Rect.unit ![0, 0] S5000x1.size inb_S5000x1_S5000x1_0_0).toLoadRect (harg3.unread x2) = x2 :=
    readAt_unit_zero_unread harg3 off2_zero _ x2
  have e4 : View.readAt (Elt F) arg4.view (Rect.unit ![0, 0] S5000x1.size inb_S5000x1_S5000x1_0_0).toLoadRect (harg4.unread x3) = x3 :=
    readAt_unit_zero_unread harg4 off2_zero _ x3
  have e6 : View.readAt (Elt F) arg6.view (Rect.unit ![0, 0] S1x1.size inb_S1x1_S1x1_0_0).toLoadRect (harg6.unread s) = s :=
    readAt_unit_zero_unread harg6 off2_zero _ s
  sl_exec (disch := exact hc)
  sl_step
  iapply Hk
  sl_unfold_run_names
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [read_writes_unit_zero arg5.view off2_zero, View.readCov_cons_toLoadRect, View.readCov_cons_toLoadRect]
    rfl
  iexists _; isplitr
  swap; · iexact H6
  ipureintro
  rw [read_writes_unit_zero arg6.view off2_zero, View.readCov_cons_toLoadRect]
  rfl

set_option maxHeartbeats 1000000 in
/-- A LATER POINT. The scratch is found at the running total \`s\`; the blocks' total is added to it; the scratch and the output block (found at any contents \`y\`) end at the new total, the input blocks as they were. -/
theorem run1_B (c : Dev nD) (i : grid1.Coords) (arg1 : Memref sig .tc .vmem S5000x8 .f32) (harg1 : arg1.IsWhole) (arg2 : Memref sig .tc .vmem S5000x8 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S1x1 .f32) (harg5 : arg5.IsWhole) (arg6 : Memref sig .tc .vmem S1x1 .f32) (harg6 : arg6.IsWhole)
    (hc : ¬cond1 i)
    (x0 : Vec F S5000x8 .f32) (x1 : Vec F S5000x8 .f32) (x2 : Vec F S5000x1 .f32) (x3 : Vec F S5000x1 .f32)
    (y : Vec F S1x1 .f32) (s : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare y ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (step1 x0 x1 x2 x3 s)
            ∗ owns (c : Thread nD τ) arg6 fullShare (step1 x0 x1 x2 x3 s)) -∗ K ⟨⟩))
      ⊢ wp frame (wpE (defs₀ (F := F)) Variants.none c none) E (cc1__edges_kernel i arg1 harg1 arg2 harg2 arg3 harg3 arg4 harg4 arg5 harg5 arg6 harg6) K := by
  simp only [cc1__edges_kernel_eq_skeleton]; unfold cc1__edges_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  have e1 : View.readAt (Elt F) arg1.view (Rect.unit ![0, 0] S5000x8.size inb_S5000x8_S5000x8_0_0).toLoadRect (harg1.unread x0) = x0 :=
    readAt_unit_zero_unread harg1 off2_zero _ x0
  have e2 : View.readAt (Elt F) arg2.view (Rect.unit ![0, 0] S5000x8.size inb_S5000x8_S5000x8_0_0).toLoadRect (harg2.unread x1) = x1 :=
    readAt_unit_zero_unread harg2 off2_zero _ x1
  have e3 : View.readAt (Elt F) arg3.view (Rect.unit ![0, 0] S5000x1.size inb_S5000x1_S5000x1_0_0).toLoadRect (harg3.unread x2) = x2 :=
    readAt_unit_zero_unread harg3 off2_zero _ x2
  have e4 : View.readAt (Elt F) arg4.view (Rect.unit ![0, 0] S5000x1.size inb_S5000x1_S5000x1_0_0).toLoadRect (harg4.unread x3) = x3 :=
    readAt_unit_zero_unread harg4 off2_zero _ x3
  have e6 : View.readAt (Elt F) arg6.view (Rect.unit ![0, 0] S1x1.size inb_S1x1_S1x1_0_0).toLoadRect (harg6.unread s) = s :=
    readAt_unit_zero_unread harg6 off2_zero _ s
  sl_exec (disch := exact hc)
  sl_step
  iapply Hk
  sl_unfold_run_names
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [read_writes_unit_zero arg5.view off2_zero, View.readCov_cons_toLoadRect]
    rfl
  iexists _; isplitr
  swap; · iexact H6
  ipureintro
  rw [read_writes_unit_zero arg6.view off2_zero]
  rfl

/-! ## The body at a point of the pipeline -/

/-- Each window's current staging memref at point `t`, as the pipeline passes it to the kernel, and its wholeness. -/
abbrev ms1_0 (t : Fin cfg1.N) : Memref sig .tc .vmem S5000x8 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x8 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)

/-- What the body is called with at point `t`: the invariant, what the core owes, and each window's current buffer at
    what it then holds, -/
def bodyPre1 (V : Valuation τ sig (Elt F)) (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (V : Valuation τ sig (Elt F)) (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The body at any point. The inputs' buffers hold their blocks; the invariant hands the body the scratch — at
    anything at the first point, at the running total the point before left at a later one —, the other scoped
    buffers and the generator register, which ride along; the run of the point's case applies, and the invariant
    takes the scratch back at this point's total, which is also what the output's buffer is left at. -/
theorem sound_body1 (V : Valuation τ sig (Elt F)) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from rfl, after1_0]
  rw [show (dat1 V c).leavesExact 1 t = owns (c : Thread nD τ) (ms1_1 t) fullShare ((dat1 V c).after 1 t) from rfl, after1_1]
  rw [show (dat1 V c).leavesExact 2 t = owns (c : Thread nD τ) (ms1_2 t) fullShare ((dat1 V c).after 2 t) from rfl, after1_2]
  rw [show (dat1 V c).leavesExact 3 t = owns (c : Thread nD τ) (ms1_3 t) fullShare ((dat1 V c).after 3 t) from rfl, after1_3]
  rw [show (dat1 V c).leavesExact 4 t = owns (c : Thread nD τ) (ms1_4 t) fullShare ((dat1 V c).after 4 t) from rfl, after1_4]
  rw [Phi1_castSucc]
  have hN : t.val < 100 := lt_of_lt_of_eq t.isLt (show cfg1.N = 100 from N_1)
  by_cases hz : t.val = 0
  · rw [Phi1_zero V c _ _ hz, PhiA1_eq, acc1_first V c t hz]
    iintro ⟨⟨⟨⟨%s, HS⟩, Hr⟩, Hg⟩, Ho, ⟨%d0, H0⟩, ⟨%d1, H1⟩, ⟨%d2, H2⟩, ⟨%d3, H3⟩, ⟨%d4, H4⟩⟩
    iapply (run1_A c (grid1.coords t) (ms1_0 t) (hs1_0 t) (ms1_1 t) (hs1_1 t) (ms1_2 t) (hs1_2 t) (ms1_3 t) (hs1_3 t) (ms1_4 t) (hs1_4 t) scM1 (Memref.isWhole_whole _)
      ((hcond1 t).mpr (by rw [hz]))
      (iblk1 V c 0 t) (iblk1 V c 1 t) (iblk1 V c 2 t) (iblk1 V c 3 t) ((dat1 V c).before 4 t d4) s Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hr Hg]
    · isplitr [Hg]
      · isplitl [HS]; · iexact HS
        iexact Hr
      iexact Hg
    isplitl [Ho]; · iexact Ho
    isplitl [H0]; · iexact H0
    isplitl [H1]; · iexact H1
    isplitl [H2]; · iexact H2
    isplitl [H3]; · iexact H3
    iexact H4
  · rw [Phi1_pos V c _ _ hz, acc1_later V c t hz]
    iintro ⟨⟨⟨HS, Hr⟩, Hg⟩, Ho, ⟨%d0, H0⟩, ⟨%d1, H1⟩, ⟨%d2, H2⟩, ⟨%d3, H3⟩, ⟨%d4, H4⟩⟩
    iapply (run1_B c (grid1.coords t) (ms1_0 t) (hs1_0 t) (ms1_1 t) (hs1_1 t) (ms1_2 t) (hs1_2 t) (ms1_3 t) (hs1_3 t) (ms1_4 t) (hs1_4 t) scM1 (Memref.isWhole_whole _)
      (fun h => hz (by have h1 := (hcond1 t).mp h; omega))
      (iblk1 V c 0 t) (iblk1 V c 1 t) (iblk1 V c 2 t) (iblk1 V c 3 t) ((dat1 V c).before 4 t d4)
      (acc1 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hr Hg]
    · isplitr [Hg]
      · isplitl [HS]; · iexact HS
        iexact Hr
      iexact Hg
    isplitl [Ho]; · iexact Ho
    isplitl [H0]; · iexact H0
    isplitl [H1]; · iexact H1
    isplitl [H2]; · iexact H2
    isplitl [H3]; · iexact H3
    iexact H4

/-- The library's body obligation of the region, at every point. -/
theorem body1 (V : Valuation τ sig (Elt F)) (c : Dev nD) :
    BodyObligation (dat1 V c) (defs₀ (F := F)) Variants.none () Set.univ := fun t => by
  rw [bigSep_W1, bigSep_W1]
  exact sound_body1 V c t

end Cert.Kernel.Hand

end
-- ==== Proof.KernelLaunchW.lean ====
import proofs.«165161_j56453050139080_2_alg».proof.Proof.Gen.Kernel.Launch
import proofs.«165161_j56453050139080_2_alg».proof.Proof.LaunchStatesW
import proofs.«165161_j56453050139080_2_alg».proof.Proof.KernelBody0W
import proofs.«165161_j56453050139080_2_alg».proof.Proof.KernelBody1W
import Idealize.ShloMosaic.Lib.Pipeline.Frame
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The thread state

Between two segments of @main a core holds every unscoped buffer whole at the boundary's contents, its generator
register at some state, and owes nothing. -/

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment. -/
abbrev R (c : Dev nD) : sProp 𝕄 := iprop((∃ r, prngReg c r) ∗ ∃ W, owes (c : Thread nD τ) (0 : CellTallies nD τ sig Unit) W)

/-- A host stretch as a segment over the unscoped references, from the contents `W`: it runs to the contents after
    its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the contents at the return. -/
abbrev Tₙ (c : Dev nD) : sProp 𝕄 := iprop(StableHlo.held (c : Thread nD τ) (Pipeline.ucRefs τ sig) (V5 m c) ∗ ∃ r, prngReg c r)

/-! ## The regions as segments -/

set_option backward.isDefEq.respectTransparency.types false in
/-- REGION 0 as a segment: entered with every unscoped buffer at `V1`, left with them at `V2`. At entry the
    windows' arrays are split out of the unscoped buffers and the rest bypasses the region; the generator register
    enters the region invariant and comes back; at exit the arrays, at their final contents, rejoin the rest. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body0 (V1 m c) c).loose
  hwaits := Pipeline.hwaits_of_owed_zero _ _ _ _ L lv 0 fun c t => dat0_owed (V1 m c) c t
  pre c := iprop(StableHlo.held (c : Thread nD τ) (Pipeline.ucRefs τ sig) (V1 m c) ∗ R c)
  post c := iprop(StableHlo.held (c : Thread nD τ) (Pipeline.ucRefs τ sig) (V2 m c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun w => dat0_q (V1 m c) c w) (fun b => V1 m c b) fun w => dat0_A (V1 m c) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 0 c).owed 0 = 0 from dat0_owed (V1 m c) c 0]
      iexact HO
    isplitl [Hp]; · iexact Hp
    iexact Hrest
  hin c := by
    rw [show (pdats m 0 c).Φ 0 = Pipeline.ΦA spec0 c from dat0_Φ_first (V1 m c) c]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from dat0_Φ_last (V1 m c) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => dat0_q (V1 m c) c w)
      (fun b => V1 m c b) (fun b => V2 m c b) ((pdats m 0 c).arrAt · cfg0.N) (fun w => (V2_arr m c w).symm)
      (fun b hb => V2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 0 c).owed (Fin.last _) = 0 from dat0_owed (V1 m c) c _]
    iexact HO

set_option backward.isDefEq.respectTransparency.types false in
/-- REGION 1 as a segment: entered with every unscoped buffer at `V3`, left with them at `V4`. At entry the
    windows' arrays are split out of the unscoped buffers and the rest bypasses the region; the generator register
    enters the region invariant and comes back; at exit the arrays, at their final contents, rejoin the rest. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body1 (V3 m c) c).loose
  hwaits := Pipeline.hwaits_of_owed_zero _ _ _ _ L lv 1 fun c t => dat1_owed (V3 m c) c t
  pre c := iprop(StableHlo.held (c : Thread nD τ) (Pipeline.ucRefs τ sig) (V3 m c) ∗ R c)
  post c := iprop(StableHlo.held (c : Thread nD τ) (Pipeline.ucRefs τ sig) (V4 m c) ∗ R c)
  X c := iprop(∃ r, prngReg c r)
  Y c := iprop(∃ r, prngReg c r)
  Z c := Pipeline.unscopedRest (Ix := Unit) (Name := ℕ) (U := UR sig nD τ) (Lvl := ℕ) spec1 c (fun b => V3 m c b)
  hentry c := by
    rw [Pipeline.ownSems0_none]
    have hsplit := Pipeline.arrays_of_unscopedBufs (p := 1) (pcfgs (F := F)) adm (pdats m) launch1.win launch1.arr_whole c
      ((pdats m 1 c).share_full fun w => dat1_q (V3 m c) c w) (fun b => V3 m c b) fun w => dat1_A (V3 m c) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      rw [show (pdats m 1 c).owed 0 = 0 from dat1_owed (V3 m c) c 0]
      iexact HO
    isplitl [Hp]; · iexact Hp
    iexact Hrest
  hin c := by
    rw [show (pdats m 1 c).Φ 0 = Pipeline.ΦA spec1 c from dat1_Φ_first (V3 m c) c]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from dat1_Φ_last (V3 m c) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => dat1_q (V3 m c) c w)
      (fun b => V3 m c b) (fun b => V4 m c b) ((pdats m 1 c).arrAt · cfg1.N) (fun w => (V4_arr m c w).symm)
      (fun b hb => V4_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 1 c).owed (Fin.last _) = 0 from dat1_owed (V3 m c) c _]
    iexact HO

/-! ## @main as segments, and the launch -/

/-- @main's five segments in order. -/
abbrev segs : List (Pipeline.Seg (pcfgs (F := F)) adm (pdats m) () defs₀ 𝒱₀ L lv) :=
  [ .host (hseg hostOps0 hostOps0_sub hostOps0_fresh (V0 m)),
    .region (reg0 m),
    .host (hseg hostOps1 hostOps1_sub hostOps1_fresh (V2 m)),
    .region (reg1 m),
    .host (hseg hostOps2 hostOps2_sub hostOps2_fresh (V4 m)) ]

/-- @main is the run of the segments: it is the chain of its items, and the segments' run is the chain of
    their fragments, which are those items. -/
theorem main_run (c : Dev nD) : main (F := F) c = Pipeline.Seg.run (segs m) :=
  (main_chain c).trans (Pipeline.Seg.run_eq_chain (segs m)).symm

set_option backward.isDefEq.respectTransparency.types false in
/-- THE RUN: from any memory with zero counters, every weakly fair execution of @main on the TensorCores terminates,
    nothing faulting, and every final state has the result buffer at the contents the fold names and the ten
    argument arrays as launched. -/
theorem run_main : θ_run (defs (F := F)) (onTc (τ := τ) (main (F := F))) ⟨m, fun _ => 0, ρ⟩ (fun r => ∀ c : Dev nD,
      r.2.mem ((c.tc : Thread nD τ).loc main_v106) = V5 m c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := by
      refine ⟨fun _ => .rfl, fun _ => .rfl, fun _ => .rfl, fun _ => .rfl, fun _ => .rfl, fun c => ?_⟩
      show iprop(StableHlo.held (c : Thread nD τ) (Pipeline.ucRefs τ sig) (StableHlo.after hostOps2 (V4 m c)) ∗ R c)
        ⊢ iprop(Tₙ m c ∗ ∃ W, owes (c : Thread nD τ) (0 : CellTallies nD τ sig Unit) W)
      rw [← V5_eq m c]
      iintro ⟨Hh, Hp, HO⟩
      isplitr [HO]
      · isplitl [Hh] <;> iassumption
      · iexact HO)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V5 m c b)
    (hfin := fun c s' => by
      iintro ⟨⟨Hh, -⟩, HSI⟩
      unfold StableHlo.held
      imodintro
      iapply (pointsTo_read_all (Pipeline.ucRefs τ sig) (fun b => (((c : Thread nD τ)).1, b)) (V5 m c) s')
      isplitl [Hh] <;> iassumption)
    (hQ := fun s h c =>
      ⟨h c _ (mem_uc main_v106 (by decide)),
       (h c _ (mem_uc main_arg0 (by decide))).trans (V5_launch m c main_arg0 (by decide) (by decide) (by decide) (by decide) (by decide)),
       (h c _ (mem_uc main_arg1 (by decide))).trans (V5_launch m c main_arg1 (by decide) (by decide) (by decide) (by decide) (by decide)),
       (h c _ (mem_uc main_arg2 (by decide))).trans (V5_launch m c main_arg2 (by decide) (by decide) (by decide) (by decide) (by decide)),
       (h c _ (mem_uc main_arg3 (by decide))).trans (V5_launch m c main_arg3 (by decide) (by decide) (by decide) (by decide) (by decide)),
       (h c _ (mem_uc main_arg4 (by decide))).trans (V5_launch m c main_arg4 (by decide) (by decide) (by decide) (by decide) (by decide)),
       (h c _ (mem_uc main_arg5 (by decide))).trans (V5_launch m c main_arg5 (by decide) (by decide) (by decide) (by decide) (by decide)),
       (h c _ (mem_uc main_arg6 (by decide))).trans (V5_launch m c main_arg6 (by decide) (by decide) (by decide) (by decide) (by decide)),
       (h c _ (mem_uc main_arg7 (by decide))).trans (V5_launch m c main_arg7 (by decide) (by decide) (by decide) (by decide) (by decide)),
       (h c _ (mem_uc main_arg8 (by decide))).trans (V5_launch m c main_arg8 (by decide) (by decide) (by decide) (by decide) (by decide)),
       (h c _ (mem_uc main_arg9 (by decide))).trans (V5_launch m c main_arg9 (by decide) (by decide) (by decide) (by decide) (by decide))⟩)

/-- info: 'Cert.Kernel.Hand.run_main' depends on axioms: [propext, Classical.choice, Quot.sound] -/
#guard_msgs in #print axioms run_main

end Cert.Kernel.Hand

end
-- ==== Proof.RefRunIsRead.lean ====
/-
  The reference's run, folded over its operations, is the last stage of the program read one operation at a time.

  The program is a straight line of 160 operations, each writing one fresh buffer from the buffers of its operands. Its
  run leaves in the result buffer the operations folded, in order, over the launch contents. Read one operation at a
  time, the program's value is a tower of stages, each stage its operation applied to the stages of its operands. The two
  are the same function of the ten arguments. Compared whole they are two terms in which every shared intermediate value
  is written out once per use, so the operations are cut into fourteen consecutive stretches at the values that later
  stretches read: the two column softmaxes; an 8 × 8 matrix made from their join, the logistic of the sixth argument and
  the third argument; for each of the two short index arrays, the columns it gathers out of a softmax multiplied by that
  matrix, and the entries it gathers out of one of the first two arguments; the sum over all pairs of short indices; for
  each of the two long index arrays the same two gathers; between them the row sums of the squared differences of the
  paired columns; at the end the sum over the long pairs less the sum over the short ones. For each stretch and ARBITRARY
  buffer contents W: a buffer the stretch does not write keeps its contents through it, and the buffer the stretch hands
  on holds its stage whenever the buffers the stretch reads hold theirs. Chained stretch by stretch from the launch
  contents, every buffer a later stretch reads holds its stage, and the result buffer holds the last one.

  The lists cA … cN are the program's operations in consecutive stretches, in program order; their concatenation is the
  program's list of operations (`ops_eq`).
-/
import proofs.«165161_j56453050139080_2_alg».proof.Proof.RefRunPatched
import proofs.«165161_j56453050139080_2_alg».proof.Proof.RefReadPatched

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations run one stretch after the other: the buffers after a concatenation are those after its second part, run
    from the buffers after its first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- One operation writes one buffer, and that buffer is in the stretch's list. -/
macro "one_write" : tactic =>
  `(tactic| (simp only [nullary_writes, unary_writes, binary_writes, ternary_writes, Finset.singleton_subset_iff, List.mem_toFinset]
             exact List.mem_map_of_mem (by decide)))

/-! ### Stretch A: operations main_cst … main_v10 -/

abbrev cA : List (HloOp τ sig (Elt F)) :=
  [ nullary main_cst (constant S_ .f32 0xFF800000#32),
    binary main_arg3 main_cst main_v0 ((fun x v => Host.reduce FloatOps.maximumf x v reducesTo_S8x50000_S50000_d0 h_S_) : (⟨S8x50000, .f32⟩ : BufTy).Contents (Elt F) → (⟨S_, .f32⟩ : BufTy).Contents (Elt F) → (⟨S50000, .f32⟩ : BufTy).Contents (Elt F)),
    nullary main_cst_0 (constant S_ .f32 0xFF800000#32),
    unary main_cst_0 main_v1 (broadcastInDim S50000 ![] bcast_S_S50000 : (⟨S_, .f32⟩ : BufTy).Contents (Elt F) → (⟨S50000, .f32⟩ : BufTy).Contents (Elt F)),
    binary main_v1 main_v0 main_v2 (maximumf : (⟨S50000, .f32⟩ : BufTy).Contents (Elt F) → (⟨S50000, .f32⟩ : BufTy).Contents (Elt F) → (⟨S50000, .f32⟩ : BufTy).Contents (Elt F)),
    unary main_v2 main_v3 (broadcastInDim S1x50000 ![1] bcast_S50000_S1x50000_1 : (⟨S50000, .f32⟩ : BufTy).Contents (Elt F) → (⟨S1x50000, .f32⟩ : BufTy).Contents (Elt F)),
    unary main_v3 main_v4 (broadcastInDim S8x50000 ![0, 1] bcast_S1x50000_S8x50000_0_1 : (⟨S1x50000, .f32⟩ : BufTy).Contents (Elt F) → (⟨S8x50000, .f32⟩ : BufTy).Contents (Elt F)),
    binary main_arg3 main_v4 main_v5 (subf : (⟨S8x50000, .f32⟩ : BufTy).Contents (Elt F) → (⟨S8x50000, .f32⟩ : BufTy).Contents (Elt F) → (⟨S8x50000, .f32⟩ : BufTy).Contents (Elt F)),
    unary main_v5 main_v6 (Host.exp : (⟨S8x50000, .f32⟩ : BufTy).Contents (Elt F) → (⟨S8x50000, .f32⟩ : BufTy).Contents (Elt F)),
    nullary main_cst_1 (constant S_ .f32 0x00000000#32),
    binary main_v6 main_cst_1 main_v7 ((fun x v => Host.reduceAdd x v reducesTo_S8x50000_S50000_d0 h_S_) : (⟨S8x50000, .f32⟩ : BufTy).Contents (Elt F) → (⟨S_, .f32⟩ : BufTy).Contents (Elt F) → (⟨S50000, .f32⟩ : BufTy).Contents (Elt F)),
    unary main_v7 main_v8 (broadcastInDim S1x50000 ![1] bcast_S50000_S1x50000_1 : (⟨S50000, .f32⟩ : BufTy).Contents (Elt F) → (⟨S1x50000, .f32⟩ : BufTy).Contents (Elt F)),
    unary main_v8 main_v9 (broadcastInDim S8x50000 ![0, 1] bcast_S1x50000_S8x50000_0_1 : (⟨S1x50000, .f32⟩ : BufTy).Contents (Elt F) → (⟨S8x50000, .f32⟩ : BufTy).Contents (Elt F)),
    binary main_v6 main_v9 main_v10 (Host.divf : (⟨S8x50000, .f32⟩ : BufTy).Contents (Elt F) → (⟨S8x50000, .f32⟩ : BufTy).Contents (Elt F) → (⟨S8x50000, .f32⟩ : BufTy).Contents (Elt F)) ]

/-- The buffers this stretch writes. -/
abbrev cA_W : List (Ref sig .tc) := [main_cst, main_v0, main_cst_0, main_v1, main_v2, main_v3, main_v4, main_v5, main_v6, main_cst_1, main_v7, main_v8, main_v9, main_v10]
theorem cA_writes : (cA : List (HloOp τ sig (Elt F))).Forall fun op => op.writes ⊆ (cA_W.map (Proc.devRef (τ := τ) .tc)).toFinset := by
  simp only [List.Forall]
  refine ⟨?_, ?_, ?_, ?_, ?_, ?_, ?_, ?_, ?_, ?_, ?_, ?_, ?_, ?_⟩ <;> one_write
/-- A buffer this stretch does not write keeps its contents through it. -/
theorem cA_keep (W : Valuation τ sig (Elt F)) (r : Ref sig .tc) (h : r ∉ cA_W) :
    after (cA (F := F)) W (Proc.devRef .tc r) = W (Proc.devRef .tc r) :=
  after_of_writes_sub cA _ cA_writes h
theorem cA_main_v10 (W : Valuation τ sig (Elt F)) (x3 : (⟨S8x50000, .f32⟩ : BufTy).Contents (Elt F))
    (h_main_arg3 : W (Proc.devRef .tc main_arg3) = x3)
    : after (cA (F := F)) W (Proc.devRef .tc main_v10) = val_main_v10 (F := F) x3 := by
  after_results_simp
  rw [h_main_arg3]
  rfl

/-- The buffers after stretches A … A. -/
def S1 (V : Valuation τ sig (Elt F)) : Valuation τ sig (Elt F) := after (cA (F := F)) V
theorem S1_main_arg4 (V : Valuation τ sig (Elt F)) : S1 V (Proc.devRef .tc main_arg4) = V (Proc.devRef .tc main_arg4) :=
  cA_keep V main_arg4 (by decide)
theorem S1_main_v10 (V : Valuation τ sig (Elt F)) : S1 V (Proc.devRef .tc main_v10) = val_main_v10 (F := F) (V (Proc.devRef .tc main_arg3)) :=
  cA_main_v10 V (V (Proc.devRef .tc main_arg3)) rfl
theorem S1_main_arg5 (V : Valuation τ sig (Elt F)) : S1 V (Proc.devRef .tc main_arg5) = V (Proc.devRef .tc main_arg5) :=
  cA_keep V main_arg5 (by decide)
theorem S1_main_arg2 (V : Valuation τ sig (Elt F)) : S1 V (Proc.devRef .tc main_arg2) = V (Proc.devRef .tc main_arg2) :=
  cA_keep V main_arg2 (by decide)
theorem S1_main_arg6 (V : Valuation τ sig (Elt F)) : S1 V (Proc.devRef .tc main_arg6) = V (Proc.devRef .tc main_arg6) :=
  cA_keep V main_arg6 (by decide)
theorem S1_main_arg7 (V : Valuation τ sig (Elt F)) : S1 V (Proc.devRef .tc main_arg7) = V (Proc.devRef .tc main_arg7) :=
  cA_keep V main_arg7 (by decide)
theorem S1_main_arg0 (V : Valuation τ sig (Elt F)) : S1 V (Proc.devRef .tc main_arg0) = V (Proc.devRef .tc main_arg0) :=
  cA_keep V main_arg0 (by decide)
theorem S1_main_arg1 (V : Valuation τ sig (Elt F)) : S1 V (Proc.devRef .tc main_arg1) = V (Proc.devRef .tc main_arg1) :=
  cA_keep V main_arg1 (by decide)
theorem S1_main_arg8 (V : Valuation τ sig (Elt F)) : S1 V (Proc.devRef .tc main_arg8) = V (Proc.devRef .tc main_arg8) :=
  cA_keep V main_arg8 (by decide)
theorem S1_main_arg9 (V : Valuation τ sig (Elt F)) : S1 V (Proc.devRef .tc main_arg9) = V (Proc.devRef .tc main_arg9) :=
  cA_keep V main_arg9 (by decide)

/-! ### Stretch B: operations main_cst_2 … main_v21 -/

abbrev cB : List (HloOp τ sig (Elt F)) :=
  [ nullary main_cst_2 (constant S_ .f32 0xFF800000#32),
    binary main_arg4 main_cst_2 main_v11 ((fun x v => Host.reduce FloatOps.maximumf x v reducesTo_S8x50000_S50000_d0 h_S_) : (⟨S8x50000, .f32⟩ : BufTy).Contents (Elt F) → (⟨S_, .f32⟩ : BufTy).Contents (Elt F) → (⟨S50000, .f32⟩ : BufTy).Contents (Elt F)),
    nullary main_cst_3 (constant S_ .f32 0xFF800000#32),
    unary main_cst_3 main_v12 (broadcastInDim S50000 ![] bcast_S_S50000 : (⟨S_, .f32⟩ : BufTy).Contents (Elt F) → (⟨S50000, .f32⟩ : BufTy).Contents (Elt F)),
    binary main_v12 main_v11 main_v13 (maximumf : (⟨S50000, .f32⟩ : BufTy).Contents (Elt F) → (⟨S50000, .f32⟩ : BufTy).Contents (Elt F) → (⟨S50000, .f32⟩ : BufTy).Contents (Elt F)),
    unary main_v13 main_v14 (broadcastInDim S1x50000 ![1] bcast_S50000_S1x50000_1 : (⟨S50000, .f32⟩ : BufTy).Contents (Elt F) → (⟨S1x50000, .f32⟩ : BufTy).Contents (Elt F)),
    unary main_v14 main_v15 (broadcastInDim S8x50000 ![0, 1] bcast_S1x50000_S8x50000_0_1 : (⟨S1x50000, .f32⟩ : BufTy).Contents (Elt F) → (⟨S8x50000, .f32⟩ : BufTy).Contents (Elt F)),
    binary main_arg4 main_v15 main_v16 (subf : (⟨S8x50000, .f32⟩ : BufTy).Contents (Elt F) → (⟨S8x50000, .f32⟩ : BufTy).Contents (Elt F) → (⟨S8x50000, .f32⟩ : BufTy).Contents (Elt F)),
    unary main_v16 main_v17 (Host.exp : (⟨S8x50000, .f32⟩ : BufTy).Contents (Elt F) → (⟨S8x50000, .f32⟩ : BufTy).Contents (Elt F)),
    nullary main_cst_4 (constant S_ .f32 0x00000000#32),
    binary main_v17 main_cst_4 main_v18 ((fun x v => Host.reduceAdd x v reducesTo_S8x50000_S50000_d0 h_S_) : (⟨S8x50000, .f32⟩ : BufTy).Contents (Elt F) → (⟨S_, .f32⟩ : BufTy).Contents (Elt F) → (⟨S50000, .f32⟩ : BufTy).Contents (Elt F)),
    unary main_v18 main_v19 (broadcastInDim S1x50000 ![1] bcast_S50000_S1x50000_1 : (⟨S50000, .f32⟩ : BufTy).Contents (Elt F) → (⟨S1x50000, .f32⟩ : BufTy).Contents (Elt F)),
    unary main_v19 main_v20 (broadcastInDim S8x50000 ![0, 1] bcast_S1x50000_S8x50000_0_1 : (⟨S1x50000, .f32⟩ : BufTy).Contents (Elt F) → (⟨S8x50000, .f32⟩ : BufTy).Contents (Elt F)),
    binary main_v17 main_v20 main_v21 (Host.divf : (⟨S8x50000, .f32⟩ : BufTy).Contents (Elt F) → (⟨S8x50000, .f32⟩ : BufTy).Contents (Elt F) → (⟨S8x50000, .f32⟩ : BufTy).Contents (Elt F)) ]

/-- The buffers this stretch writes. -/
abbrev cB_W : List (Ref sig .tc) := [main_cst_2, main_v11, main_cst_3, main_v12, main_v13, main_v14, main_v15, main_v16, main_v17, main_cst_4, main_v18, main_v19, main_v20, main_v21]
theorem cB_writes : (cB : List (HloOp τ sig (Elt F))).Forall fun op => op.writes ⊆ (cB_W.map (Proc.devRef (τ := τ) .tc)).toFinset := by
  simp only [List.Forall]
  refine ⟨?_, ?_, ?_, ?_, ?_, ?_, ?_, ?_, ?_, ?_, ?_, ?_, ?_, ?_⟩ <;> one_write
/-- A buffer this stretch does not write keeps its contents through it. -/
theorem cB_keep (W : Valuation τ sig (Elt F)) (r : Ref sig .tc) (h : r ∉ cB_W) :
    after (cB (F := F)) W (Proc.devRef .tc r) = W (Proc.devRef .tc r) :=
  after_of_writes_sub cB _ cB_writes h
theorem cB_main_v21 (W : Valuation τ sig (Elt F)) (x4 : (⟨S8x50000, .f32⟩ : BufTy).Contents (Elt F))
    (h_main_arg4 : W (Proc.devRef .tc main_arg4) = x4)
    : after (cB (F := F)) W (Proc.devRef .tc main_v21) = val_main_v21 (F := F) x4 := by
  after_results_simp
  rw [h_main_arg4]
  rfl

/-- The buffers after stretches A … B. -/
def S2 (V : Valuation τ sig (Elt F)) : Valuation τ sig (Elt F) := after (cB (F := F)) (S1 V)
theorem S2_main_v10 (V : Valuation τ sig (Elt F)) : S2 V (Proc.devRef .tc main_v10) = val_main_v10 (F := F) (V (Proc.devRef .tc main_arg3)) :=
  (cB_keep (S1 V) main_v10 (by decide)).trans (S1_main_v10 V)
theorem S2_main_v21 (V : Valuation τ sig (Elt F)) : S2 V (Proc.devRef .tc main_v21) = val_main_v21 (F := F) (V (Proc.devRef .tc main_arg4)) :=
  cB_main_v21 (S1 V) (V (Proc.devRef .tc main_arg4)) (S1_main_arg4 V)
theorem S2_main_arg5 (V : Valuation τ sig (Elt F)) : S2 V (Proc.devRef .tc main_arg5) = V (Proc.devRef .tc main_arg5) :=
  (cB_keep (S1 V) main_arg5 (by decide)).trans (S1_main_arg5 V)
theorem S2_main_arg2 (V : Valuation τ sig (Elt F)) : S2 V (Proc.devRef .tc main_arg2) = V (Proc.devRef .tc main_arg2) :=
  (cB_keep (S1 V) main_arg2 (by decide)).trans (S1_main_arg2 V)
theorem S2_main_arg6 (V : Valuation τ sig (Elt F)) : S2 V (Proc.devRef .tc main_arg6) = V (Proc.devRef .tc main_arg6) :=
  (cB_keep (S1 V) main_arg6 (by decide)).trans (S1_main_arg6 V)
theorem S2_main_arg7 (V : Valuation τ sig (Elt F)) : S2 V (Proc.devRef .tc main_arg7) = V (Proc.devRef .tc main_arg7) :=
  (cB_keep (S1 V) main_arg7 (by decide)).trans (S1_main_arg7 V)
theorem S2_main_arg0 (V : Valuation τ sig (Elt F)) : S2 V (Proc.devRef .tc main_arg0) = V (Proc.devRef .tc main_arg0) :=
  (cB_keep (S1 V) main_arg0 (by decide)).trans (S1_main_arg0 V)
theorem S2_main_arg1 (V : Valuation τ sig (Elt F)) : S2 V (Proc.devRef .tc main_arg1) = V (Proc.devRef .tc main_arg1) :=
  (cB_keep (S1 V) main_arg1 (by decide)).trans (S1_main_arg1 V)
theorem S2_main_arg8 (V : Valuation τ sig (Elt F)) : S2 V (Proc.devRef .tc main_arg8) = V (Proc.devRef .tc main_arg8) :=
  (cB_keep (S1 V) main_arg8 (by decide)).trans (S1_main_arg8 V)
theorem S2_main_arg9 (V : Valuation τ sig (Elt F)) : S2 V (Proc.devRef .tc main_arg9) = V (Proc.devRef .tc main_arg9) :=
  (cB_keep (S1 V) main_arg9 (by decide)).trans (S1_main_arg9 V)

/-! ### Stretch C: operations main_v22 … main_v37 -/

abbrev cC : List (HloOp τ sig (Elt F)) :=
  [ binary main_v10 main_v21 main_v22 ((fun a b => concatenate S8x100000 1 [⟨S8x50000, a⟩, ⟨S8x50000, b⟩] concatenates_S8x50000_S8x50000_S8x100000_d1) : (⟨S8x50000, .f32⟩ : BufTy).Contents (Elt F) → (⟨S8x50000, .f32⟩ : BufTy).Contents (Elt F) → (⟨S8x100000, .f32⟩ : BufTy).Contents (Elt F)),
    unary main_arg5 main_v23 (Host.negf : (⟨S100000x8, .f32⟩ : BufTy).Contents (Elt F) → (⟨S100000x8, .f32⟩ : BufTy).Contents (Elt F)),
    unary main_v23 main_v24 (Host.exp : (⟨S100000x8, .f32⟩ : BufTy).Contents (Elt F) → (⟨S100000x8, .f32⟩ : BufTy).Contents (Elt F)),
    nullary main_cst_5 (constant S_ .f32 0x3F800000#32),
    unary main_cst_5 main_v25 (broadcastInDim S100000x8 ![] bcast_S_S100000x8 : (⟨S_, .f32⟩ : BufTy).Contents (Elt F) → (⟨S100000x8, .f32⟩ : BufTy).Contents (Elt F)),
    binary main_v25 main_v24 main_v26 (addf : (⟨S100000x8, .f32⟩ : BufTy).Contents (Elt F) → (⟨S100000x8, .f32⟩ : BufTy).Contents (Elt F) → (⟨S100000x8, .f32⟩ : BufTy).Contents (Elt F)),
    nullary main_cst_6 (constant S_ .f32 0x3F800000#32),
    unary main_cst_6 main_v27 (broadcastInDim S100000x8 ![] bcast_S_S100000x8 : (⟨S_, .f32⟩ : BufTy).Contents (Elt F) → (⟨S100000x8, .f32⟩ : BufTy).Contents (Elt F)),
    binary main_v27 main_v26 main_v28 (Host.divf : (⟨S100000x8, .f32⟩ : BufTy).Contents (Elt F) → (⟨S100000x8, .f32⟩ : BufTy).Contents (Elt F) → (⟨S100000x8, .f32⟩ : BufTy).Contents (Elt F)),
    unary main_v22 main_v29 ((transpose S100000x8 [1, 0] · transposes_S8x100000_S100000x8_1_0) : (⟨S8x100000, .f32⟩ : BufTy).Contents (Elt F) → (⟨S100000x8, .f32⟩ : BufTy).Contents (Elt F)),
    binary main_v29 main_v28 main_v30 (mulf : (⟨S100000x8, .f32⟩ : BufTy).Contents (Elt F) → (⟨S100000x8, .f32⟩ : BufTy).Contents (Elt F) → (⟨S100000x8, .f32⟩ : BufTy).Contents (Elt F)),
    nullary main_cst_7 (constant S_ .f32 0x00000000#32),
    binary main_v30 main_cst_7 main_v31 ((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)),
    unary main_v31 main_v32 (broadcastInDim S1x8 ![1] bcast_S8_S1x8_1 : (⟨S8, .f32⟩ : BufTy).Contents (Elt F) → (⟨S1x8, .f32⟩ : BufTy).Contents (Elt F)),
    unary main_v32 main_v33 (broadcastInDim S100000x8 ![0, 1] bcast_S1x8_S100000x8_0_1 : (⟨S1x8, .f32⟩ : BufTy).Contents (Elt F) → (⟨S100000x8, .f32⟩ : BufTy).Contents (Elt F)),
    binary main_v30 main_v33 main_v34 (Host.divf : (⟨S100000x8, .f32⟩ : BufTy).Contents (Elt F) → (⟨S100000x8, .f32⟩ : BufTy).Contents (Elt F) → (⟨S100000x8, .f32⟩ : BufTy).Contents (Elt F)),
    binary main_v22 main_v34 main_v35 ((fun l r => Host.dotGeneral dot_S8x100000_S100000x8_S8x8_1_0_0_1_n_n none l r) : (⟨S8x100000, .f32⟩ : BufTy).Contents (Elt F) → (⟨S100000x8, .f32⟩ : BufTy).Contents (Elt F) → (⟨S8x8, .f32⟩ : BufTy).Contents (Elt F)),
    binary main_arg2 main_v35 main_v36 ((fun l r => Host.dotGeneral dot_S8x8_S8x8_S8x8_1_0_0_1_n_n none l r) : (⟨S8x8, .f32⟩ : BufTy).Contents (Elt F) → (⟨S8x8, .f32⟩ : BufTy).Contents (Elt F) → (⟨S8x8, .f32⟩ : BufTy).Contents (Elt F)),
    unary main_v36 main_v37 ((transpose S8x8 [1, 0] · transposes_S8x8_S8x8_1_0) : (⟨S8x8, .f32⟩ : BufTy).Contents (Elt F) → (⟨S8x8, .f32⟩ : BufTy).Contents (Elt F)) ]

/-- The buffers this stretch writes. -/
abbrev cC_W : List (Ref sig .tc) := [main_v22, main_v23, main_v24, main_cst_5, main_v25, main_v26, main_cst_6, main_v27, main_v28, main_v29, main_v30, main_cst_7, main_v31, main_v32, main_v33, main_v34, main_v35, main_v36, main_v37]
theorem cC_writes : (cC : List (HloOp τ sig (Elt F))).Forall fun op => op.writes ⊆ (cC_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;> one_write
/-- A buffer this stretch does not write keeps its contents through it. -/
theorem cC_keep (W : Valuation τ sig (Elt F)) (r : Ref sig .tc) (h : r ∉ cC_W) :
    after (cC (F := F)) W (Proc.devRef .tc r) = W (Proc.devRef .tc r) :=
  after_of_writes_sub cC _ cC_writes h
theorem cC_main_v37 (W : Valuation τ sig (Elt F)) (x2 : (⟨S8x8, .f32⟩ : BufTy).Contents (Elt F)) (x3 : (⟨S8x50000, .f32⟩ : BufTy).Contents (Elt F)) (x4 : (⟨S8x50000, .f32⟩ : BufTy).Contents (Elt F)) (x5 : (⟨S100000x8, .f32⟩ : BufTy).Contents (Elt F))
    (h_main_v10 : W (Proc.devRef .tc main_v10) = val_main_v10 (F := F) x3)
    (h_main_v21 : W (Proc.devRef .tc main_v21) = val_main_v21 (F := F) x4)
    (h_main_arg5 : W (Proc.devRef .tc main_arg5) = x5)
    (h_main_arg2 : W (Proc.devRef .tc main_arg2) = x2)
    : after (cC (F := F)) W (Proc.devRef .tc main_v37) = val_main_v37 (F := F) x2 x3 x4 x5 := by
  after_results_simp
  rw [h_main_v10, h_main_v21, h_main_arg5, h_main_arg2]
  rfl

/-- The buffers after stretches A … C. -/
def S3 (V : Valuation τ sig (Elt F)) : Valuation τ sig (Elt F) := after (cC (F := F)) (S2 V)
theorem S3_main_arg6 (V : Valuation τ sig (Elt F)) : S3 V (Proc.devRef .tc main_arg6) = V (Proc.devRef .tc main_arg6) :=
  (cC_keep (S2 V) main_arg6 (by decide)).trans (S2_main_arg6 V)
theorem S3_main_v10 (V : Valuation τ sig (Elt F)) : S3 V (Proc.devRef .tc main_v10) = val_main_v10 (F := F) (V (Proc.devRef .tc main_arg3)) :=
  (cC_keep (S2 V) main_v10 (by decide)).trans (S2_main_v10 V)
theorem S3_main_v37 (V : Valuation τ sig (Elt F)) : S3 V (Proc.devRef .tc main_v37) = val_main_v37 (F := F) (V (Proc.devRef .tc main_arg2)) (V (Proc.devRef .tc main_arg3)) (V (Proc.devRef .tc main_arg4)) (V (Proc.devRef .tc main_arg5)) :=
  cC_main_v37 (S2 V) (V (Proc.devRef .tc main_arg2)) (V (Proc.devRef .tc main_arg3)) (V (Proc.devRef .tc main_arg4)) (V (Proc.devRef .tc main_arg5)) (S2_main_v10 V) (S2_main_v21 V) (S2_main_arg5 V) (S2_main_arg2 V)
theorem S3_main_arg7 (V : Valuation τ sig (Elt F)) : S3 V (Proc.devRef .tc main_arg7) = V (Proc.devRef .tc main_arg7) :=
  (cC_keep (S2 V) main_arg7 (by decide)).trans (S2_main_arg7 V)
theorem S3_main_v21 (V : Valuation τ sig (Elt F)) : S3 V (Proc.devRef .tc main_v21) = val_main_v21 (F := F) (V (Proc.devRef .tc main_arg4)) :=
  (cC_keep (S2 V) main_v21 (by decide)).trans (S2_main_v21 V)
theorem S3_main_arg0 (V : Valuation τ sig (Elt F)) : S3 V (Proc.devRef .tc main_arg0) = V (Proc.devRef .tc main_arg0) :=
  (cC_keep (S2 V) main_arg0 (by decide)).trans (S2_main_arg0 V)
theorem S3_main_arg1 (V : Valuation τ sig (Elt F)) : S3 V (Proc.devRef .tc main_arg1) = V (Proc.devRef .tc main_arg1) :=
  (cC_keep (S2 V) main_arg1 (by decide)).trans (S2_main_arg1 V)
theorem S3_main_arg8 (V : Valuation τ sig (Elt F)) : S3 V (Proc.devRef .tc main_arg8) = V (Proc.devRef .tc main_arg8) :=
  (cC_keep (S2 V) main_arg8 (by decide)).trans (S2_main_arg8 V)
theorem S3_main_arg9 (V : Valuation τ sig (Elt F)) : S3 V (Proc.devRef .tc main_arg9) = V (Proc.devRef .tc main_arg9) :=
  (cC_keep (S2 V) main_arg9 (by decide)).trans (S2_main_arg9 V)

/-! ### Stretch D: operations main_c … main_v46 -/

abbrev cD : List (HloOp τ sig (Elt F)) :=
  [ nullary main_c (constantI S_ 32 0#32),
    unary main_c main_v38 (broadcastInDim S3000 ![] bcast_S_S3000 : (⟨S_, .i32⟩ : BufTy).Contents (Elt F) → (⟨S3000, .i32⟩ : BufTy).Contents (Elt F)),
    binary main_arg6 main_v38 main_v39 (cmpi .slt : (⟨S3000, .i32⟩ : BufTy).Contents (Elt F) → (⟨S3000, .i32⟩ : BufTy).Contents (Elt F) → (⟨S3000, .i1⟩ : BufTy).Contents (Elt F)),
    nullary main_c_8 (constantI S_ 32 50000#32),
    unary main_c_8 main_v40 (broadcastInDim S3000 ![] bcast_S_S3000 : (⟨S_, .i32⟩ : BufTy).Contents (Elt F) → (⟨S3000, .i32⟩ : BufTy).Contents (Elt F)),
    binary main_arg6 main_v40 main_v41 (addi : (⟨S3000, .i32⟩ : BufTy).Contents (Elt F) → (⟨S3000, .i32⟩ : BufTy).Contents (Elt F) → (⟨S3000, .i32⟩ : BufTy).Contents (Elt F)),
    ternary main_v39 main_v41 main_arg6 main_v42 (select : (⟨S3000, .i1⟩ : BufTy).Contents (Elt F) → (⟨S3000, .i32⟩ : BufTy).Contents (Elt F) → (⟨S3000, .i32⟩ : BufTy).Contents (Elt F) → (⟨S3000, .i32⟩ : BufTy).Contents (Elt F)),
    unary main_v42 main_v43 (broadcastInDim S3000x1 ![0] bcast_S3000_S3000x1_0 : (⟨S3000, .i32⟩ : BufTy).Contents (Elt F) → (⟨S3000x1, .i32⟩ : BufTy).Contents (Elt F)),
    binary main_v10 main_v43 main_v44 ((fun x i => Host.gather gather_S8x50000_S3000x1_S8x3000_0_1_n_n_1_1_81 x i) : (⟨S8x50000, .f32⟩ : BufTy).Contents (Elt F) → (⟨S3000x1, .i32⟩ : BufTy).Contents (Elt F) → (⟨S8x3000, .f32⟩ : BufTy).Contents (Elt F)),
    binary main_v37 main_v44 main_v45 ((fun l r => Host.dotGeneral dot_S8x8_S8x3000_S8x3000_1_0_0_1_n_n none l r) : (⟨S8x8, .f32⟩ : BufTy).Contents (Elt F) → (⟨S8x3000, .f32⟩ : BufTy).Contents (Elt F) → (⟨S8x3000, .f32⟩ : BufTy).Contents (Elt F)),
    unary main_v45 main_v46 ((transpose S3000x8 [1, 0] · transposes_S8x3000_S3000x8_1_0) : (⟨S8x3000, .f32⟩ : BufTy).Contents (Elt F) → (⟨S3000x8, .f32⟩ : BufTy).Contents (Elt F)) ]

/-- The buffers this stretch writes. -/
abbrev cD_W : List (Ref sig .tc) := [main_c, main_v38, main_v39, main_c_8, main_v40, main_v41, main_v42, main_v43, main_v44, main_v45, main_v46]
theorem cD_writes : (cD : List (HloOp τ sig (Elt F))).Forall fun op => op.writes ⊆ (cD_W.map (Proc.devRef (τ := τ) .tc)).toFinset := by
  simp only [List.Forall]
  refine ⟨?_, ?_, ?_, ?_, ?_, ?_, ?_, ?_, ?_, ?_, ?_⟩ <;> one_write
/-- A buffer this stretch does not write keeps its contents through it. -/
theorem cD_keep (W : Valuation τ sig (Elt F)) (r : Ref sig .tc) (h : r ∉ cD_W) :
    after (cD (F := F)) W (Proc.devRef .tc r) = W (Proc.devRef .tc r) :=
  after_of_writes_sub cD _ cD_writes h
theorem cD_main_v46 (W : Valuation τ sig (Elt F)) (x2 : (⟨S8x8, .f32⟩ : BufTy).Contents (Elt F)) (x3 : (⟨S8x50000, .f32⟩ : BufTy).Contents (Elt F)) (x4 : (⟨S8x50000, .f32⟩ : BufTy).Contents (Elt F)) (x5 : (⟨S100000x8, .f32⟩ : BufTy).Contents (Elt F)) (x6 : (⟨S3000, .i32⟩ : BufTy).Contents (Elt F))
    (h_main_arg6 : W (Proc.devRef .tc main_arg6) = x6)
    (h_main_v10 : W (Proc.devRef .tc main_v10) = val_main_v10 (F := F) x3)
    (h_main_v37 : W (Proc.devRef .tc main_v37) = val_main_v37 (F := F) x2 x3 x4 x5)
    : after (cD (F := F)) W (Proc.devRef .tc main_v46) = val_main_v46 (F := F) x2 x3 x4 x5 x6 := by
  after_results_simp
  rw [h_main_arg6, h_main_v10, h_main_v37]
  rfl

/-- The buffers after stretches A … D. -/
def S4 (V : Valuation τ sig (Elt F)) : Valuation τ sig (Elt F) := after (cD (F := F)) (S3 V)
theorem S4_main_arg7 (V : Valuation τ sig (Elt F)) : S4 V (Proc.devRef .tc main_arg7) = V (Proc.devRef .tc main_arg7) :=
  (cD_keep (S3 V) main_arg7 (by decide)).trans (S3_main_arg7 V)
theorem S4_main_v21 (V : Valuation τ sig (Elt F)) : S4 V (Proc.devRef .tc main_v21) = val_main_v21 (F := F) (V (Proc.devRef .tc main_arg4)) :=
  (cD_keep (S3 V) main_v21 (by decide)).trans (S3_main_v21 V)
theorem S4_main_v37 (V : Valuation τ sig (Elt F)) : S4 V (Proc.devRef .tc main_v37) = val_main_v37 (F := F) (V (Proc.devRef .tc main_arg2)) (V (Proc.devRef .tc main_arg3)) (V (Proc.devRef .tc main_arg4)) (V (Proc.devRef .tc main_arg5)) :=
  (cD_keep (S3 V) main_v37 (by decide)).trans (S3_main_v37 V)
theorem S4_main_arg6 (V : Valuation τ sig (Elt F)) : S4 V (Proc.devRef .tc main_arg6) = V (Proc.devRef .tc main_arg6) :=
  (cD_keep (S3 V) main_arg6 (by decide)).trans (S3_main_arg6 V)
theorem S4_main_arg0 (V : Valuation τ sig (Elt F)) : S4 V (Proc.devRef .tc main_arg0) = V (Proc.devRef .tc main_arg0) :=
  (cD_keep (S3 V) main_arg0 (by decide)).trans (S3_main_arg0 V)
theorem S4_main_arg1 (V : Valuation τ sig (Elt F)) : S4 V (Proc.devRef .tc main_arg1) = V (Proc.devRef .tc main_arg1) :=
  (cD_keep (S3 V) main_arg1 (by decide)).trans (S3_main_arg1 V)
theorem S4_main_v46 (V : Valuation τ sig (Elt F)) : S4 V (Proc.devRef .tc main_v46) = val_main_v46 (F := F) (V (Proc.devRef .tc main_arg2)) (V (Proc.devRef .tc main_arg3)) (V (Proc.devRef .tc main_arg4)) (V (Proc.devRef .tc main_arg5)) (V (Proc.devRef .tc main_arg6)) :=
  cD_main_v46 (S3 V) (V (Proc.devRef .tc main_arg2)) (V (Proc.devRef .tc main_arg3)) (V (Proc.devRef .tc main_arg4)) (V (Proc.devRef .tc main_arg5)) (V (Proc.devRef .tc main_arg6)) (S3_main_arg6 V) (S3_main_v10 V) (S3_main_v37 V)
theorem S4_main_arg8 (V : Valuation τ sig (Elt F)) : S4 V (Proc.devRef .tc main_arg8) = V (Proc.devRef .tc main_arg8) :=
  (cD_keep (S3 V) main_arg8 (by decide)).trans (S3_main_arg8 V)
theorem S4_main_v10 (V : Valuation τ sig (Elt F)) : S4 V (Proc.devRef .tc main_v10) = val_main_v10 (F := F) (V (Proc.devRef .tc main_arg3)) :=
  (cD_keep (S3 V) main_v10 (by decide)).trans (S3_main_v10 V)
theorem S4_main_arg9 (V : Valuation τ sig (Elt F)) : S4 V (Proc.devRef .tc main_arg9) = V (Proc.devRef .tc main_arg9) :=
  (cD_keep (S3 V) main_arg9 (by decide)).trans (S3_main_arg9 V)

/-! ### Stretch E: operations main_c_9 … main_v55 -/

abbrev cE : List (HloOp τ sig (Elt F)) :=
  [ nullary main_c_9 (constantI S_ 32 0#32),
    unary main_c_9 main_v47 (broadcastInDim S3000 ![] bcast_S_S3000 : (⟨S_, .i32⟩ : BufTy).Contents (Elt F) → (⟨S3000, .i32⟩ : BufTy).Contents (Elt F)),
    binary main_arg7 main_v47 main_v48 (cmpi .slt : (⟨S3000, .i32⟩ : BufTy).Contents (Elt F) → (⟨S3000, .i32⟩ : BufTy).Contents (Elt F) → (⟨S3000, .i1⟩ : BufTy).Contents (Elt F)),
    nullary main_c_10 (constantI S_ 32 50000#32),
    unary main_c_10 main_v49 (broadcastInDim S3000 ![] bcast_S_S3000 : (⟨S_, .i32⟩ : BufTy).Contents (Elt F) → (⟨S3000, .i32⟩ : BufTy).Contents (Elt F)),
    binary main_arg7 main_v49 main_v50 (addi : (⟨S3000, .i32⟩ : BufTy).Contents (Elt F) → (⟨S3000, .i32⟩ : BufTy).Contents (Elt F) → (⟨S3000, .i32⟩ : BufTy).Contents (Elt F)),
    ternary main_v48 main_v50 main_arg7 main_v51 (select : (⟨S3000, .i1⟩ : BufTy).Contents (Elt F) → (⟨S3000, .i32⟩ : BufTy).Contents (Elt F) → (⟨S3000, .i32⟩ : BufTy).Contents (Elt F) → (⟨S3000, .i32⟩ : BufTy).Contents (Elt F)),
    unary main_v51 main_v52 (broadcastInDim S3000x1 ![0] bcast_S3000_S3000x1_0 : (⟨S3000, .i32⟩ : BufTy).Contents (Elt F) → (⟨S3000x1, .i32⟩ : BufTy).Contents (Elt F)),
    binary main_v21 main_v52 main_v53 ((fun x i => Host.gather gather_S8x50000_S3000x1_S8x3000_0_1_n_n_1_1_81 x i) : (⟨S8x50000, .f32⟩ : BufTy).Contents (Elt F) → (⟨S3000x1, .i32⟩ : BufTy).Contents (Elt F) → (⟨S8x3000, .f32⟩ : BufTy).Contents (Elt F)),
    binary main_v37 main_v53 main_v54 ((fun l r => Host.dotGeneral dot_S8x8_S8x3000_S8x3000_1_0_0_1_n_n none l r) : (⟨S8x8, .f32⟩ : BufTy).Contents (Elt F) → (⟨S8x3000, .f32⟩ : BufTy).Contents (Elt F) → (⟨S8x3000, .f32⟩ : BufTy).Contents (Elt F)),
    unary main_v54 main_v55 ((transpose S3000x8 [1, 0] · transposes_S8x3000_S3000x8_1_0) : (⟨S8x3000, .f32⟩ : BufTy).Contents (Elt F) → (⟨S3000x8, .f32⟩ : BufTy).Contents (Elt F)) ]

/-- The buffers this stretch writes. -/
abbrev cE_W : List (Ref sig .tc) := [main_c_9, main_v47, main_v48, main_c_10, main_v49, main_v50, main_v51, main_v52, main_v53, main_v54, main_v55]
theorem cE_writes : (cE : List (HloOp τ sig (Elt F))).Forall fun op => op.writes ⊆ (cE_W.map (Proc.devRef (τ := τ) .tc)).toFinset := by
  simp only [List.Forall]
  refine ⟨?_, ?_, ?_, ?_, ?_, ?_, ?_, ?_, ?_, ?_, ?_⟩ <;> one_write
/-- A buffer this stretch does not write keeps its contents through it. -/
theorem cE_keep (W : Valuation τ sig (Elt F)) (r : Ref sig .tc) (h : r ∉ cE_W) :
    after (cE (F := F)) W (Proc.devRef .tc r) = W (Proc.devRef .tc r) :=
  after_of_writes_sub cE _ cE_writes h
theorem cE_main_v55 (W : Valuation τ sig (Elt F)) (x2 : (⟨S8x8, .f32⟩ : BufTy).Contents (Elt F)) (x3 : (⟨S8x50000, .f32⟩ : BufTy).Contents (Elt F)) (x4 : (⟨S8x50000, .f32⟩ : BufTy).Contents (Elt F)) (x5 : (⟨S100000x8, .f32⟩ : BufTy).Contents (Elt F)) (x7 : (⟨S3000, .i32⟩ : BufTy).Contents (Elt F))
    (h_main_arg7 : W (Proc.devRef .tc main_arg7) = x7)
    (h_main_v21 : W (Proc.devRef .tc main_v21) = val_main_v21 (F := F) x4)
    (h_main_v37 : W (Proc.devRef .tc main_v37) = val_main_v37 (F := F) x2 x3 x4 x5)
    : after (cE (F := F)) W (Proc.devRef .tc main_v55) = val_main_v55 (F := F) x2 x3 x4 x5 x7 := by
  after_results_simp
  rw [h_main_arg7, h_main_v21, h_main_v37]
  rfl

/-- The buffers after stretches A … E. -/
def S5 (V : Valuation τ sig (Elt F)) : Valuation τ sig (Elt F) := after (cE (F := F)) (S4 V)
theorem S5_main_arg6 (V : Valuation τ sig (Elt F)) : S5 V (Proc.devRef .tc main_arg6) = V (Proc.devRef .tc main_arg6) :=
  (cE_keep (S4 V) main_arg6 (by decide)).trans (S4_main_arg6 V)
theorem S5_main_arg0 (V : Valuation τ sig (Elt F)) : S5 V (Proc.devRef .tc main_arg0) = V (Proc.devRef .tc main_arg0) :=
  (cE_keep (S4 V) main_arg0 (by decide)).trans (S4_main_arg0 V)
theorem S5_main_arg7 (V : Valuation τ sig (Elt F)) : S5 V (Proc.devRef .tc main_arg7) = V (Proc.devRef .tc main_arg7) :=
  (cE_keep (S4 V) main_arg7 (by decide)).trans (S4_main_arg7 V)
theorem S5_main_arg1 (V : Valuation τ sig (Elt F)) : S5 V (Proc.devRef .tc main_arg1) = V (Proc.devRef .tc main_arg1) :=
  (cE_keep (S4 V) main_arg1 (by decide)).trans (S4_main_arg1 V)
theorem S5_main_v46 (V : Valuation τ sig (Elt F)) : S5 V (Proc.devRef .tc main_v46) = val_main_v46 (F := F) (V (Proc.devRef .tc main_arg2)) (V (Proc.devRef .tc main_arg3)) (V (Proc.devRef .tc main_arg4)) (V (Proc.devRef .tc main_arg5)) (V (Proc.devRef .tc main_arg6)) :=
  (cE_keep (S4 V) main_v46 (by decide)).trans (S4_main_v46 V)
theorem S5_main_v55 (V : Valuation τ sig (Elt F)) : S5 V (Proc.devRef .tc main_v55) = val_main_v55 (F := F) (V (Proc.devRef .tc main_arg2)) (V (Proc.devRef .tc main_arg3)) (V (Proc.devRef .tc main_arg4)) (V (Proc.devRef .tc main_arg5)) (V (Proc.devRef .tc main_arg7)) :=
  cE_main_v55 (S4 V) (V (Proc.devRef .tc main_arg2)) (V (Proc.devRef .tc main_arg3)) (V (Proc.devRef .tc main_arg4)) (V (Proc.devRef .tc main_arg5)) (V (Proc.devRef .tc main_arg7)) (S4_main_arg7 V) (S4_main_v21 V) (S4_main_v37 V)
theorem S5_main_arg8 (V : Valuation τ sig (Elt F)) : S5 V (Proc.devRef .tc main_arg8) = V (Proc.devRef .tc main_arg8) :=
  (cE_keep (S4 V) main_arg8 (by decide)).trans (S4_main_arg8 V)
theorem S5_main_v10 (V : Valuation τ sig (Elt F)) : S5 V (Proc.devRef .tc main_v10) = val_main_v10 (F := F) (V (Proc.devRef .tc main_arg3)) :=
  (cE_keep (S4 V) main_v10 (by decide)).trans (S4_main_v10 V)
theorem S5_main_v37 (V : Valuation τ sig (Elt F)) : S5 V (Proc.devRef .tc main_v37) = val_main_v37 (F := F) (V (Proc.devRef .tc main_arg2)) (V (Proc.devRef .tc main_arg3)) (V (Proc.devRef .tc main_arg4)) (V (Proc.devRef .tc main_arg5)) :=
  (cE_keep (S4 V) main_v37 (by decide)).trans (S4_main_v37 V)
theorem S5_main_arg9 (V : Valuation τ sig (Elt F)) : S5 V (Proc.devRef .tc main_arg9) = V (Proc.devRef .tc main_arg9) :=
  (cE_keep (S4 V) main_arg9 (by decide)).trans (S4_main_arg9 V)
theorem S5_main_v21 (V : Valuation τ sig (Elt F)) : S5 V (Proc.devRef .tc main_v21) = val_main_v21 (F := F) (V (Proc.devRef .tc main_arg4)) :=
  (cE_keep (S4 V) main_v21 (by decide)).trans (S4_main_v21 V)

/-! ### Stretch F: operations main_c_11 … main_v63 -/

abbrev cF : List (HloOp τ sig (Elt F)) :=
  [ nullary main_c_11 (constantI S_ 32 0#32),
    unary main_c_11 main_v56 (broadcastInDim S3000 ![] bcast_S_S3000 : (⟨S_, .i32⟩ : BufTy).Contents (Elt F) → (⟨S3000, .i32⟩ : BufTy).Contents (Elt F)),
    binary main_arg6 main_v56 main_v57 (cmpi .slt : (⟨S3000, .i32⟩ : BufTy).Contents (Elt F) → (⟨S3000, .i32⟩ : BufTy).Contents (Elt F) → (⟨S3000, .i1⟩ : BufTy).Contents (Elt F)),
    nullary main_c_12 (constantI S_ 32 50000#32),
    unary main_c_12 main_v58 (broadcastInDim S3000 ![] bcast_S_S3000 : (⟨S_, .i32⟩ : BufTy).Contents (Elt F) → (⟨S3000, .i32⟩ : BufTy).Contents (Elt F)),
    binary main_arg6 main_v58 main_v59 (addi : (⟨S3000, .i32⟩ : BufTy).Contents (Elt F) → (⟨S3000, .i32⟩ : BufTy).Contents (Elt F) → (⟨S3000, .i32⟩ : BufTy).Contents (Elt F)),
    ternary main_v57 main_v59 main_arg6 main_v60 (select : (⟨S3000, .i1⟩ : BufTy).Contents (Elt F) → (⟨S3000, .i32⟩ : BufTy).Contents (Elt F) → (⟨S3000, .i32⟩ : BufTy).Contents (Elt F) → (⟨S3000, .i32⟩ : BufTy).Contents (Elt F)),
    unary main_v60 main_v61 (broadcastInDim S3000x1 ![0] bcast_S3000_S3000x1_0 : (⟨S3000, .i32⟩ : BufTy).Contents (Elt F) → (⟨S3000x1, .i32⟩ : BufTy).Contents (Elt F)),
    binary main_arg0 main_v61 main_v62 ((fun x i => Host.gather gather_S50000_S3000x1_S3000_n_0_n_n_0_1_1 x i) : (⟨S50000, .f32⟩ : BufTy).Contents (Elt F) → (⟨S3000x1, .i32⟩ : BufTy).Contents (Elt F) → (⟨S3000, .f32⟩ : BufTy).Contents (Elt F)),
    unary main_v62 main_v63 (broadcastInDim S3000x1 ![0] bcast_S3000_S3000x1_0 : (⟨S3000, .f32⟩ : BufTy).Contents (Elt F) → (⟨S3000x1, .f32⟩ : BufTy).Contents (Elt F)) ]

/-- The buffers this stretch writes. -/
abbrev cF_W : List (Ref sig .tc) := [main_c_11, main_v56, main_v57, main_c_12, main_v58, main_v59, main_v60, main_v61, main_v62, main_v63]
theorem cF_writes : (cF : List (HloOp τ sig (Elt F))).Forall fun op => op.writes ⊆ (cF_W.map (Proc.devRef (τ := τ) .tc)).toFinset := by
  simp only [List.Forall]
  refine ⟨?_, ?_, ?_, ?_, ?_, ?_, ?_, ?_, ?_, ?_⟩ <;> one_write
/-- A buffer this stretch does not write keeps its contents through it. -/
theorem cF_keep (W : Valuation τ sig (Elt F)) (r : Ref sig .tc) (h : r ∉ cF_W) :
    after (cF (F := F)) W (Proc.devRef .tc r) = W (Proc.devRef .tc r) :=
  after_of_writes_sub cF _ cF_writes h
theorem cF_main_v63 (W : Valuation τ sig (Elt F)) (x0 : (⟨S50000, .f32⟩ : BufTy).Contents (Elt F)) (x6 : (⟨S3000, .i32⟩ : BufTy).Contents (Elt F))
    (h_main_arg6 : W (Proc.devRef .tc main_arg6) = x6)
    (h_main_arg0 : W (Proc.devRef .tc main_arg0) = x0)
    : after (cF (F := F)) W (Proc.devRef .tc main_v63) = val_main_v63 (F := F) x0 x6 := by
  after_results_simp
  rw [h_main_arg6, h_main_arg0]
  rfl

/-- The buffers after stretches A … F. -/
def S6 (V : Valuation τ sig (Elt F)) : Valuation τ sig (Elt F) := after (cF (F := F)) (S5 V)
theorem S6_main_arg7 (V : Valuation τ sig (Elt F)) : S6 V (Proc.devRef .tc main_arg7) = V (Proc.devRef .tc main_arg7) :=
  (cF_keep (S5 V) main_arg7 (by decide)).trans (S5_main_arg7 V)
theorem S6_main_arg1 (V : Valuation τ sig (Elt F)) : S6 V (Proc.devRef .tc main_arg1) = V (Proc.devRef .tc main_arg1) :=
  (cF_keep (S5 V) main_arg1 (by decide)).trans (S5_main_arg1 V)
theorem S6_main_v63 (V : Valuation τ sig (Elt F)) : S6 V (Proc.devRef .tc main_v63) = val_main_v63 (F := F) (V (Proc.devRef .tc main_arg0)) (V (Proc.devRef .tc main_arg6)) :=
  cF_main_v63 (S5 V) (V (Proc.devRef .tc main_arg0)) (V (Proc.devRef .tc main_arg6)) (S5_main_arg6 V) (S5_main_arg0 V)
theorem S6_main_v46 (V : Valuation τ sig (Elt F)) : S6 V (Proc.devRef .tc main_v46) = val_main_v46 (F := F) (V (Proc.devRef .tc main_arg2)) (V (Proc.devRef .tc main_arg3)) (V (Proc.devRef .tc main_arg4)) (V (Proc.devRef .tc main_arg5)) (V (Proc.devRef .tc main_arg6)) :=
  (cF_keep (S5 V) main_v46 (by decide)).trans (S5_main_v46 V)
theorem S6_main_v55 (V : Valuation τ sig (Elt F)) : S6 V (Proc.devRef .tc main_v55) = val_main_v55 (F := F) (V (Proc.devRef .tc main_arg2)) (V (Proc.devRef .tc main_arg3)) (V (Proc.devRef .tc main_arg4)) (V (Proc.devRef .tc main_arg5)) (V (Proc.devRef .tc main_arg7)) :=
  (cF_keep (S5 V) main_v55 (by decide)).trans (S5_main_v55 V)
theorem S6_main_arg8 (V : Valuation τ sig (Elt F)) : S6 V (Proc.devRef .tc main_arg8) = V (Proc.devRef .tc main_arg8) :=
  (cF_keep (S5 V) main_arg8 (by decide)).trans (S5_main_arg8 V)
theorem S6_main_v10 (V : Valuation τ sig (Elt F)) : S6 V (Proc.devRef .tc main_v10) = val_main_v10 (F := F) (V (Proc.devRef .tc main_arg3)) :=
  (cF_keep (S5 V) main_v10 (by decide)).trans (S5_main_v10 V)
theorem S6_main_v37 (V : Valuation τ sig (Elt F)) : S6 V (Proc.devRef .tc main_v37) = val_main_v37 (F := F) (V (Proc.devRef .tc main_arg2)) (V (Proc.devRef .tc main_arg3)) (V (Proc.devRef .tc main_arg4)) (V (Proc.devRef .tc main_arg5)) :=
  (cF_keep (S5 V) main_v37 (by decide)).trans (S5_main_v37 V)
theorem S6_main_arg9 (V : Valuation τ sig (Elt F)) : S6 V (Proc.devRef .tc main_arg9) = V (Proc.devRef .tc main_arg9) :=
  (cF_keep (S5 V) main_arg9 (by decide)).trans (S5_main_arg9 V)
theorem S6_main_v21 (V : Valuation τ sig (Elt F)) : S6 V (Proc.devRef .tc main_v21) = val_main_v21 (F := F) (V (Proc.devRef .tc main_arg4)) :=
  (cF_keep (S5 V) main_v21 (by decide)).trans (S5_main_v21 V)
theorem S6_main_arg0 (V : Valuation τ sig (Elt F)) : S6 V (Proc.devRef .tc main_arg0) = V (Proc.devRef .tc main_arg0) :=
  (cF_keep (S5 V) main_arg0 (by decide)).trans (S5_main_arg0 V)

/-! ### Stretch G: operations main_c_13 … main_v71 -/

abbrev cG : List (HloOp τ sig (Elt F)) :=
  [ nullary main_c_13 (constantI S_ 32 0#32),
    unary main_c_13 main_v64 (broadcastInDim S3000 ![] bcast_S_S3000 : (⟨S_, .i32⟩ : BufTy).Contents (Elt F) → (⟨S3000, .i32⟩ : BufTy).Contents (Elt F)),
    binary main_arg7 main_v64 main_v65 (cmpi .slt : (⟨S3000, .i32⟩ : BufTy).Contents (Elt F) → (⟨S3000, .i32⟩ : BufTy).Contents (Elt F) → (⟨S3000, .i1⟩ : BufTy).Contents (Elt F)),
    nullary main_c_14 (constantI S_ 32 50000#32),
    unary main_c_14 main_v66 (broadcastInDim S3000 ![] bcast_S_S3000 : (⟨S_, .i32⟩ : BufTy).Contents (Elt F) → (⟨S3000, .i32⟩ : BufTy).Contents (Elt F)),
    binary main_arg7 main_v66 main_v67 (addi : (⟨S3000, .i32⟩ : BufTy).Contents (Elt F) → (⟨S3000, .i32⟩ : BufTy).Contents (Elt F) → (⟨S3000, .i32⟩ : BufTy).Contents (Elt F)),
    ternary main_v65 main_v67 main_arg7 main_v68 (select : (⟨S3000, .i1⟩ : BufTy).Contents (Elt F) → (⟨S3000, .i32⟩ : BufTy).Contents (Elt F) → (⟨S3000, .i32⟩ : BufTy).Contents (Elt F) → (⟨S3000, .i32⟩ : BufTy).Contents (Elt F)),
    unary main_v68 main_v69 (broadcastInDim S3000x1 ![0] bcast_S3000_S3000x1_0 : (⟨S3000, .i32⟩ : BufTy).Contents (Elt F) → (⟨S3000x1, .i32⟩ : BufTy).Contents (Elt F)),
    binary main_arg1 main_v69 main_v70 ((fun x i => Host.gather gather_S50000_S3000x1_S3000_n_0_n_n_0_1_1 x i) : (⟨S50000, .f32⟩ : BufTy).Contents (Elt F) → (⟨S3000x1, .i32⟩ : BufTy).Contents (Elt F) → (⟨S3000, .f32⟩ : BufTy).Contents (Elt F)),
    unary main_v70 main_v71 (broadcastInDim S1x3000 ![1] bcast_S3000_S1x3000_1 : (⟨S3000, .f32⟩ : BufTy).Contents (Elt F) → (⟨S1x3000, .f32⟩ : BufTy).Contents (Elt F)) ]

/-- The buffers this stretch writes. -/
abbrev cG_W : List (Ref sig .tc) := [main_c_13, main_v64, main_v65, main_c_14, main_v66, main_v67, main_v68, main_v69, main_v70, main_v71]
theorem cG_writes : (cG : List (HloOp τ sig (Elt F))).Forall fun op => op.writes ⊆ (cG_W.map (Proc.devRef (τ := τ) .tc)).toFinset := by
  simp only [List.Forall]
  refine ⟨?_, ?_, ?_, ?_, ?_, ?_, ?_, ?_, ?_, ?_⟩ <;> one_write
/-- A buffer this stretch does not write keeps its contents through it. -/
theorem cG_keep (W : Valuation τ sig (Elt F)) (r : Ref sig .tc) (h : r ∉ cG_W) :
    after (cG (F := F)) W (Proc.devRef .tc r) = W (Proc.devRef .tc r) :=
  after_of_writes_sub cG _ cG_writes h
theorem cG_main_v71 (W : Valuation τ sig (Elt F)) (x1 : (⟨S50000, .f32⟩ : BufTy).Contents (Elt F)) (x7 : (⟨S3000, .i32⟩ : BufTy).Contents (Elt F))
    (h_main_arg7 : W (Proc.devRef .tc main_arg7) = x7)
    (h_main_arg1 : W (Proc.devRef .tc main_arg1) = x1)
    : after (cG (F := F)) W (Proc.devRef .tc main_v71) = val_main_v71 (F := F) x1 x7 := by
  after_results_simp
  rw [h_main_arg7, h_main_arg1]
  rfl

/-- The buffers after stretches A … G. -/
def S7 (V : Valuation τ sig (Elt F)) : Valuation τ sig (Elt F) := after (cG (F := F)) (S6 V)
theorem S7_main_v63 (V : Valuation τ sig (Elt F)) : S7 V (Proc.devRef .tc main_v63) = val_main_v63 (F := F) (V (Proc.devRef .tc main_arg0)) (V (Proc.devRef .tc main_arg6)) :=
  (cG_keep (S6 V) main_v63 (by decide)).trans (S6_main_v63 V)
theorem S7_main_v71 (V : Valuation τ sig (Elt F)) : S7 V (Proc.devRef .tc main_v71) = val_main_v71 (F := F) (V (Proc.devRef .tc main_arg1)) (V (Proc.devRef .tc main_arg7)) :=
  cG_main_v71 (S6 V) (V (Proc.devRef .tc main_arg1)) (V (Proc.devRef .tc main_arg7)) (S6_main_arg7 V) (S6_main_arg1 V)
theorem S7_main_v46 (V : Valuation τ sig (Elt F)) : S7 V (Proc.devRef .tc main_v46) = val_main_v46 (F := F) (V (Proc.devRef .tc main_arg2)) (V (Proc.devRef .tc main_arg3)) (V (Proc.devRef .tc main_arg4)) (V (Proc.devRef .tc main_arg5)) (V (Proc.devRef .tc main_arg6)) :=
  (cG_keep (S6 V) main_v46 (by decide)).trans (S6_main_v46 V)
theorem S7_main_v55 (V : Valuation τ sig (Elt F)) : S7 V (Proc.devRef .tc main_v55) = val_main_v55 (F := F) (V (Proc.devRef .tc main_arg2)) (V (Proc.devRef .tc main_arg3)) (V (Proc.devRef .tc main_arg4)) (V (Proc.devRef .tc main_arg5)) (V (Proc.devRef .tc main_arg7)) :=
  (cG_keep (S6 V) main_v55 (by decide)).trans (S6_main_v55 V)
theorem S7_main_arg8 (V : Valuation τ sig (Elt F)) : S7 V (Proc.devRef .tc main_arg8) = V (Proc.devRef .tc main_arg8) :=
  (cG_keep (S6 V) main_arg8 (by decide)).trans (S6_main_arg8 V)
theorem S7_main_v10 (V : Valuation τ sig (Elt F)) : S7 V (Proc.devRef .tc main_v10) = val_main_v10 (F := F) (V (Proc.devRef .tc main_arg3)) :=
  (cG_keep (S6 V) main_v10 (by decide)).trans (S6_main_v10 V)
theorem S7_main_v37 (V : Valuation τ sig (Elt F)) : S7 V (Proc.devRef .tc main_v37) = val_main_v37 (F := F) (V (Proc.devRef .tc main_arg2)) (V (Proc.devRef .tc main_arg3)) (V (Proc.devRef .tc main_arg4)) (V (Proc.devRef .tc main_arg5)) :=
  (cG_keep (S6 V) main_v37 (by decide)).trans (S6_main_v37 V)
theorem S7_main_arg9 (V : Valuation τ sig (Elt F)) : S7 V (Proc.devRef .tc main_arg9) = V (Proc.devRef .tc main_arg9) :=
  (cG_keep (S6 V) main_arg9 (by decide)).trans (S6_main_arg9 V)
theorem S7_main_v21 (V : Valuation τ sig (Elt F)) : S7 V (Proc.devRef .tc main_v21) = val_main_v21 (F := F) (V (Proc.devRef .tc main_arg4)) :=
  (cG_keep (S6 V) main_v21 (by decide)).trans (S6_main_v21 V)
theorem S7_main_arg0 (V : Valuation τ sig (Elt F)) : S7 V (Proc.devRef .tc main_arg0) = V (Proc.devRef .tc main_arg0) :=
  (cG_keep (S6 V) main_arg0 (by decide)).trans (S6_main_arg0 V)
theorem S7_main_arg1 (V : Valuation τ sig (Elt F)) : S7 V (Proc.devRef .tc main_arg1) = V (Proc.devRef .tc main_arg1) :=
  (cG_keep (S6 V) main_arg1 (by decide)).trans (S6_main_arg1 V)

/-! ### Stretch H: operations main_v72 … main_v87 -/

abbrev cH : List (HloOp τ sig (Elt F)) :=
  [ unary main_v63 main_v72 (broadcastInDim S3000x3000 ![0, 1] bcast_S3000x1_S3000x3000_0_1 : (⟨S3000x1, .f32⟩ : BufTy).Contents (Elt F) → (⟨S3000x3000, .f32⟩ : BufTy).Contents (Elt F)),
    unary main_v71 main_v73 (broadcastInDim S3000x3000 ![0, 1] bcast_S1x3000_S3000x3000_0_1 : (⟨S1x3000, .f32⟩ : BufTy).Contents (Elt F) → (⟨S3000x3000, .f32⟩ : BufTy).Contents (Elt F)),
    binary main_v72 main_v73 main_v74 (addf : (⟨S3000x3000, .f32⟩ : BufTy).Contents (Elt F) → (⟨S3000x3000, .f32⟩ : BufTy).Contents (Elt F) → (⟨S3000x3000, .f32⟩ : BufTy).Contents (Elt F)),
    unary main_v46 main_v75 (broadcastInDim S3000x1x8 ![0, 2] bcast_S3000x8_S3000x1x8_0_2 : (⟨S3000x8, .f32⟩ : BufTy).Contents (Elt F) → (⟨S3000x1x8, .f32⟩ : BufTy).Contents (Elt F)),
    unary main_v55 main_v76 (broadcastInDim S1x3000x8 ![1, 2] bcast_S3000x8_S1x3000x8_1_2 : (⟨S3000x8, .f32⟩ : BufTy).Contents (Elt F) → (⟨S1x3000x8, .f32⟩ : BufTy).Contents (Elt F)),
    unary main_v75 main_v77 (broadcastInDim S3000x3000x8 ![0, 1, 2] bcast_S3000x1x8_S3000x3000x8_0_1_2 : (⟨S3000x1x8, .f32⟩ : BufTy).Contents (Elt F) → (⟨S3000x3000x8, .f32⟩ : BufTy).Contents (Elt F)),
    unary main_v76 main_v78 (broadcastInDim S3000x3000x8 ![0, 1, 2] bcast_S1x3000x8_S3000x3000x8_0_1_2 : (⟨S1x3000x8, .f32⟩ : BufTy).Contents (Elt F) → (⟨S3000x3000x8, .f32⟩ : BufTy).Contents (Elt F)),
    binary main_v77 main_v78 main_v79 (subf : (⟨S3000x3000x8, .f32⟩ : BufTy).Contents (Elt F) → (⟨S3000x3000x8, .f32⟩ : BufTy).Contents (Elt F) → (⟨S3000x3000x8, .f32⟩ : BufTy).Contents (Elt F)),
    nullary main_cst_15 (constant S_ .f32 0x358637BD#32),
    unary main_cst_15 main_v80 (broadcastInDim S3000x3000x8 ![] bcast_S_S3000x3000x8 : (⟨S_, .f32⟩ : BufTy).Contents (Elt F) → (⟨S3000x3000x8, .f32⟩ : BufTy).Contents (Elt F)),
    binary main_v79 main_v80 main_v81 (addf : (⟨S3000x3000x8, .f32⟩ : BufTy).Contents (Elt F) → (⟨S3000x3000x8, .f32⟩ : BufTy).Contents (Elt F) → (⟨S3000x3000x8, .f32⟩ : BufTy).Contents (Elt F)),
    binary main_v81 main_v81 main_v82 (mulf : (⟨S3000x3000x8, .f32⟩ : BufTy).Contents (Elt F) → (⟨S3000x3000x8, .f32⟩ : BufTy).Contents (Elt F) → (⟨S3000x3000x8, .f32⟩ : BufTy).Contents (Elt F)),
    nullary main_cst_16 (constant S_ .f32 0x00000000#32),
    binary main_v82 main_cst_16 main_v83 ((fun x v => Host.reduceAdd x v reducesTo_S3000x3000x8_S3000x3000_d2 h_S_) : (⟨S3000x3000x8, .f32⟩ : BufTy).Contents (Elt F) → (⟨S_, .f32⟩ : BufTy).Contents (Elt F) → (⟨S3000x3000, .f32⟩ : BufTy).Contents (Elt F)),
    unary main_v83 main_v84 (Host.sqrt : (⟨S3000x3000, .f32⟩ : BufTy).Contents (Elt F) → (⟨S3000x3000, .f32⟩ : BufTy).Contents (Elt F)),
    binary main_v74 main_v84 main_v85 (subf : (⟨S3000x3000, .f32⟩ : BufTy).Contents (Elt F) → (⟨S3000x3000, .f32⟩ : BufTy).Contents (Elt F) → (⟨S3000x3000, .f32⟩ : BufTy).Contents (Elt F)),
    unary main_v85 main_v86 (Host.exp : (⟨S3000x3000, .f32⟩ : BufTy).Contents (Elt F) → (⟨S3000x3000, .f32⟩ : BufTy).Contents (Elt F)),
    nullary main_cst_17 (constant S_ .f32 0x00000000#32),
    binary main_v86 main_cst_17 main_v87 ((fun x v => Host.reduceAdd x v reducesTo_S3000x3000_S_d0_1 h_S_) : (⟨S3000x3000, .f32⟩ : BufTy).Contents (Elt F) → (⟨S_, .f32⟩ : BufTy).Contents (Elt F) → (⟨S_, .f32⟩ : BufTy).Contents (Elt F)) ]

/-- The buffers this stretch writes. -/
abbrev cH_W : List (Ref sig .tc) := [main_v72, main_v73, main_v74, main_v75, main_v76, main_v77, main_v78, main_v79, main_cst_15, main_v80, main_v81, main_v82, main_cst_16, main_v83, main_v84, main_v85, main_v86, main_cst_17, main_v87]
theorem cH_writes : (cH : List (HloOp τ sig (Elt F))).Forall fun op => op.writes ⊆ (cH_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;> one_write
/-- A buffer this stretch does not write keeps its contents through it. -/
theorem cH_keep (W : Valuation τ sig (Elt F)) (r : Ref sig .tc) (h : r ∉ cH_W) :
    after (cH (F := F)) W (Proc.devRef .tc r) = W (Proc.devRef .tc r) :=
  after_of_writes_sub cH _ cH_writes h
theorem cH_main_v87 (W : Valuation τ sig (Elt F)) (x0 : (⟨S50000, .f32⟩ : BufTy).Contents (Elt F)) (x1 : (⟨S50000, .f32⟩ : BufTy).Contents (Elt F)) (x2 : (⟨S8x8, .f32⟩ : BufTy).Contents (Elt F)) (x3 : (⟨S8x50000, .f32⟩ : BufTy).Contents (Elt F)) (x4 : (⟨S8x50000, .f32⟩ : BufTy).Contents (Elt F)) (x5 : (⟨S100000x8, .f32⟩ : BufTy).Contents (Elt F)) (x6 : (⟨S3000, .i32⟩ : BufTy).Contents (Elt F)) (x7 : (⟨S3000, .i32⟩ : BufTy).Contents (Elt F))
    (h_main_v63 : W (Proc.devRef .tc main_v63) = val_main_v63 (F := F) x0 x6)
    (h_main_v71 : W (Proc.devRef .tc main_v71) = val_main_v71 (F := F) x1 x7)
    (h_main_v46 : W (Proc.devRef .tc main_v46) = val_main_v46 (F := F) x2 x3 x4 x5 x6)
    (h_main_v55 : W (Proc.devRef .tc main_v55) = val_main_v55 (F := F) x2 x3 x4 x5 x7)
    : after (cH (F := F)) W (Proc.devRef .tc main_v87) = val_main_v87 (F := F) x0 x1 x2 x3 x4 x5 x6 x7 := by
  after_results_simp
  rw [h_main_v63, h_main_v71, h_main_v46, h_main_v55]
  rfl

/-- The buffers after stretches A … H. -/
def S8 (V : Valuation τ sig (Elt F)) : Valuation τ sig (Elt F) := after (cH (F := F)) (S7 V)
theorem S8_main_arg8 (V : Valuation τ sig (Elt F)) : S8 V (Proc.devRef .tc main_arg8) = V (Proc.devRef .tc main_arg8) :=
  (cH_keep (S7 V) main_arg8 (by decide)).trans (S7_main_arg8 V)
theorem S8_main_v10 (V : Valuation τ sig (Elt F)) : S8 V (Proc.devRef .tc main_v10) = val_main_v10 (F := F) (V (Proc.devRef .tc main_arg3)) :=
  (cH_keep (S7 V) main_v10 (by decide)).trans (S7_main_v10 V)
theorem S8_main_v37 (V : Valuation τ sig (Elt F)) : S8 V (Proc.devRef .tc main_v37) = val_main_v37 (F := F) (V (Proc.devRef .tc main_arg2)) (V (Proc.devRef .tc main_arg3)) (V (Proc.devRef .tc main_arg4)) (V (Proc.devRef .tc main_arg5)) :=
  (cH_keep (S7 V) main_v37 (by decide)).trans (S7_main_v37 V)
theorem S8_main_arg9 (V : Valuation τ sig (Elt F)) : S8 V (Proc.devRef .tc main_arg9) = V (Proc.devRef .tc main_arg9) :=
  (cH_keep (S7 V) main_arg9 (by decide)).trans (S7_main_arg9 V)
theorem S8_main_v21 (V : Valuation τ sig (Elt F)) : S8 V (Proc.devRef .tc main_v21) = val_main_v21 (F := F) (V (Proc.devRef .tc main_arg4)) :=
  (cH_keep (S7 V) main_v21 (by decide)).trans (S7_main_v21 V)
theorem S8_main_arg0 (V : Valuation τ sig (Elt F)) : S8 V (Proc.devRef .tc main_arg0) = V (Proc.devRef .tc main_arg0) :=
  (cH_keep (S7 V) main_arg0 (by decide)).trans (S7_main_arg0 V)
theorem S8_main_arg1 (V : Valuation τ sig (Elt F)) : S8 V (Proc.devRef .tc main_arg1) = V (Proc.devRef .tc main_arg1) :=
  (cH_keep (S7 V) main_arg1 (by decide)).trans (S7_main_arg1 V)
theorem S8_main_v87 (V : Valuation τ sig (Elt F)) : S8 V (Proc.devRef .tc main_v87) = val_main_v87 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  cH_main_v87 (S7 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (S7_main_v63 V) (S7_main_v71 V) (S7_main_v46 V) (S7_main_v55 V)

/-! ### Stretch I: operations main_c_18 … main_v96 -/

abbrev cI : List (HloOp τ sig (Elt F)) :=
  [ nullary main_c_18 (constantI S_ 32 0#32),
    unary main_c_18 main_v88 (broadcastInDim S500000 ![] bcast_S_S500000 : (⟨S_, .i32⟩ : BufTy).Contents (Elt F) → (⟨S500000, .i32⟩ : BufTy).Contents (Elt F)),
    binary main_arg8 main_v88 main_v89 (cmpi .slt : (⟨S500000, .i32⟩ : BufTy).Contents (Elt F) → (⟨S500000, .i32⟩ : BufTy).Contents (Elt F) → (⟨S500000, .i1⟩ : BufTy).Contents (Elt F)),
    nullary main_c_19 (constantI S_ 32 50000#32),
    unary main_c_19 main_v90 (broadcastInDim S500000 ![] bcast_S_S500000 : (⟨S_, .i32⟩ : BufTy).Contents (Elt F) → (⟨S500000, .i32⟩ : BufTy).Contents (Elt F)),
    binary main_arg8 main_v90 main_v91 (addi : (⟨S500000, .i32⟩ : BufTy).Contents (Elt F) → (⟨S500000, .i32⟩ : BufTy).Contents (Elt F) → (⟨S500000, .i32⟩ : BufTy).Contents (Elt F)),
    ternary main_v89 main_v91 main_arg8 main_v92 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v92 main_v93 (broadcastInDim S500000x1 ![0] bcast_S500000_S500000x1_0 : (⟨S500000, .i32⟩ : BufTy).Contents (Elt F) → (⟨S500000x1, .i32⟩ : BufTy).Contents (Elt F)),
    binary main_v10 main_v93 main_v94 ((fun x i => Host.gather gather_S8x50000_S500000x1_S8x500000_0_1_n_n_1_1_81 x i) : (⟨S8x50000, .f32⟩ : BufTy).Contents (Elt F) → (⟨S500000x1, .i32⟩ : BufTy).Contents (Elt F) → (⟨S8x500000, .f32⟩ : BufTy).Contents (Elt F)),
    binary main_v37 main_v94 main_v95 ((fun l r => Host.dotGeneral dot_S8x8_S8x500000_S8x500000_1_0_0_1_n_n none l r) : (⟨S8x8, .f32⟩ : BufTy).Contents (Elt F) → (⟨S8x500000, .f32⟩ : BufTy).Contents (Elt F) → (⟨S8x500000, .f32⟩ : BufTy).Contents (Elt F)),
    unary main_v95 main_v96 ((transpose S500000x8 [1, 0] · transposes_S8x500000_S500000x8_1_0) : (⟨S8x500000, .f32⟩ : BufTy).Contents (Elt F) → (⟨S500000x8, .f32⟩ : BufTy).Contents (Elt F)) ]

/-- The buffers this stretch writes. -/
abbrev cI_W : List (Ref sig .tc) := [main_c_18, main_v88, main_v89, main_c_19, main_v90, main_v91, main_v92, main_v93, main_v94, main_v95, main_v96]
theorem cI_writes : (cI : List (HloOp τ sig (Elt F))).Forall fun op => op.writes ⊆ (cI_W.map (Proc.devRef (τ := τ) .tc)).toFinset := by
  simp only [List.Forall]
  refine ⟨?_, ?_, ?_, ?_, ?_, ?_, ?_, ?_, ?_, ?_, ?_⟩ <;> one_write
/-- A buffer this stretch does not write keeps its contents through it. -/
theorem cI_keep (W : Valuation τ sig (Elt F)) (r : Ref sig .tc) (h : r ∉ cI_W) :
    after (cI (F := F)) W (Proc.devRef .tc r) = W (Proc.devRef .tc r) :=
  after_of_writes_sub cI _ cI_writes h
theorem cI_main_v96 (W : Valuation τ sig (Elt F)) (x2 : (⟨S8x8, .f32⟩ : BufTy).Contents (Elt F)) (x3 : (⟨S8x50000, .f32⟩ : BufTy).Contents (Elt F)) (x4 : (⟨S8x50000, .f32⟩ : BufTy).Contents (Elt F)) (x5 : (⟨S100000x8, .f32⟩ : BufTy).Contents (Elt F)) (x8 : (⟨S500000, .i32⟩ : BufTy).Contents (Elt F))
    (h_main_arg8 : W (Proc.devRef .tc main_arg8) = x8)
    (h_main_v10 : W (Proc.devRef .tc main_v10) = val_main_v10 (F := F) x3)
    (h_main_v37 : W (Proc.devRef .tc main_v37) = val_main_v37 (F := F) x2 x3 x4 x5)
    : after (cI (F := F)) W (Proc.devRef .tc main_v96) = val_main_v96 (F := F) x2 x3 x4 x5 x8 := by
  after_results_simp
  rw [h_main_arg8, h_main_v10, h_main_v37]
  rfl

/-- The buffers after stretches A … I. -/
def S9 (V : Valuation τ sig (Elt F)) : Valuation τ sig (Elt F) := after (cI (F := F)) (S8 V)
theorem S9_main_arg9 (V : Valuation τ sig (Elt F)) : S9 V (Proc.devRef .tc main_arg9) = V (Proc.devRef .tc main_arg9) :=
  (cI_keep (S8 V) main_arg9 (by decide)).trans (S8_main_arg9 V)
theorem S9_main_v21 (V : Valuation τ sig (Elt F)) : S9 V (Proc.devRef .tc main_v21) = val_main_v21 (F := F) (V (Proc.devRef .tc main_arg4)) :=
  (cI_keep (S8 V) main_v21 (by decide)).trans (S8_main_v21 V)
theorem S9_main_v37 (V : Valuation τ sig (Elt F)) : S9 V (Proc.devRef .tc main_v37) = val_main_v37 (F := F) (V (Proc.devRef .tc main_arg2)) (V (Proc.devRef .tc main_arg3)) (V (Proc.devRef .tc main_arg4)) (V (Proc.devRef .tc main_arg5)) :=
  (cI_keep (S8 V) main_v37 (by decide)).trans (S8_main_v37 V)
theorem S9_main_v96 (V : Valuation τ sig (Elt F)) : S9 V (Proc.devRef .tc main_v96) = val_main_v96 (F := F) (V (Proc.devRef .tc main_arg2)) (V (Proc.devRef .tc main_arg3)) (V (Proc.devRef .tc main_arg4)) (V (Proc.devRef .tc main_arg5)) (V (Proc.devRef .tc main_arg8)) :=
  cI_main_v96 (S8 V) (V (Proc.devRef .tc main_arg2)) (V (Proc.devRef .tc main_arg3)) (V (Proc.devRef .tc main_arg4)) (V (Proc.devRef .tc main_arg5)) (V (Proc.devRef .tc main_arg8)) (S8_main_arg8 V) (S8_main_v10 V) (S8_main_v37 V)
theorem S9_main_arg8 (V : Valuation τ sig (Elt F)) : S9 V (Proc.devRef .tc main_arg8) = V (Proc.devRef .tc main_arg8) :=
  (cI_keep (S8 V) main_arg8 (by decide)).trans (S8_main_arg8 V)
theorem S9_main_arg0 (V : Valuation τ sig (Elt F)) : S9 V (Proc.devRef .tc main_arg0) = V (Proc.devRef .tc main_arg0) :=
  (cI_keep (S8 V) main_arg0 (by decide)).trans (S8_main_arg0 V)
theorem S9_main_arg1 (V : Valuation τ sig (Elt F)) : S9 V (Proc.devRef .tc main_arg1) = V (Proc.devRef .tc main_arg1) :=
  (cI_keep (S8 V) main_arg1 (by decide)).trans (S8_main_arg1 V)
theorem S9_main_v87 (V : Valuation τ sig (Elt F)) : S9 V (Proc.devRef .tc main_v87) = val_main_v87 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (cI_keep (S8 V) main_v87 (by decide)).trans (S8_main_v87 V)

/-! ### Stretch J: operations main_c_20 … main_v105 -/

abbrev cJ : List (HloOp τ sig (Elt F)) :=
  [ nullary main_c_20 (constantI S_ 32 0#32),
    unary main_c_20 main_v97 (broadcastInDim S500000 ![] bcast_S_S500000 : (⟨S_, .i32⟩ : BufTy).Contents (Elt F) → (⟨S500000, .i32⟩ : BufTy).Contents (Elt F)),
    binary main_arg9 main_v97 main_v98 (cmpi .slt : (⟨S500000, .i32⟩ : BufTy).Contents (Elt F) → (⟨S500000, .i32⟩ : BufTy).Contents (Elt F) → (⟨S500000, .i1⟩ : BufTy).Contents (Elt F)),
    nullary main_c_21 (constantI S_ 32 50000#32),
    unary main_c_21 main_v99 (broadcastInDim S500000 ![] bcast_S_S500000 : (⟨S_, .i32⟩ : BufTy).Contents (Elt F) → (⟨S500000, .i32⟩ : BufTy).Contents (Elt F)),
    binary main_arg9 main_v99 main_v100 (addi : (⟨S500000, .i32⟩ : BufTy).Contents (Elt F) → (⟨S500000, .i32⟩ : BufTy).Contents (Elt F) → (⟨S500000, .i32⟩ : BufTy).Contents (Elt F)),
    ternary main_v98 main_v100 main_arg9 main_v101 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v101 main_v102 (broadcastInDim S500000x1 ![0] bcast_S500000_S500000x1_0 : (⟨S500000, .i32⟩ : BufTy).Contents (Elt F) → (⟨S500000x1, .i32⟩ : BufTy).Contents (Elt F)),
    binary main_v21 main_v102 main_v103 ((fun x i => Host.gather gather_S8x50000_S500000x1_S8x500000_0_1_n_n_1_1_81 x i) : (⟨S8x50000, .f32⟩ : BufTy).Contents (Elt F) → (⟨S500000x1, .i32⟩ : BufTy).Contents (Elt F) → (⟨S8x500000, .f32⟩ : BufTy).Contents (Elt F)),
    binary main_v37 main_v103 main_v104 ((fun l r => Host.dotGeneral dot_S8x8_S8x500000_S8x500000_1_0_0_1_n_n none l r) : (⟨S8x8, .f32⟩ : BufTy).Contents (Elt F) → (⟨S8x500000, .f32⟩ : BufTy).Contents (Elt F) → (⟨S8x500000, .f32⟩ : BufTy).Contents (Elt F)),
    unary main_v104 main_v105 ((transpose S500000x8 [1, 0] · transposes_S8x500000_S500000x8_1_0) : (⟨S8x500000, .f32⟩ : BufTy).Contents (Elt F) → (⟨S500000x8, .f32⟩ : BufTy).Contents (Elt F)) ]

/-- The buffers this stretch writes. -/
abbrev cJ_W : List (Ref sig .tc) := [main_c_20, main_v97, main_v98, main_c_21, main_v99, main_v100, main_v101, main_v102, main_v103, main_v104, main_v105]
theorem cJ_writes : (cJ : List (HloOp τ sig (Elt F))).Forall fun op => op.writes ⊆ (cJ_W.map (Proc.devRef (τ := τ) .tc)).toFinset := by
  simp only [List.Forall]
  refine ⟨?_, ?_, ?_, ?_, ?_, ?_, ?_, ?_, ?_, ?_, ?_⟩ <;> one_write
/-- A buffer this stretch does not write keeps its contents through it. -/
theorem cJ_keep (W : Valuation τ sig (Elt F)) (r : Ref sig .tc) (h : r ∉ cJ_W) :
    after (cJ (F := F)) W (Proc.devRef .tc r) = W (Proc.devRef .tc r) :=
  after_of_writes_sub cJ _ cJ_writes h
theorem cJ_main_v105 (W : Valuation τ sig (Elt F)) (x2 : (⟨S8x8, .f32⟩ : BufTy).Contents (Elt F)) (x3 : (⟨S8x50000, .f32⟩ : BufTy).Contents (Elt F)) (x4 : (⟨S8x50000, .f32⟩ : BufTy).Contents (Elt F)) (x5 : (⟨S100000x8, .f32⟩ : BufTy).Contents (Elt F)) (x9 : (⟨S500000, .i32⟩ : BufTy).Contents (Elt F))
    (h_main_arg9 : W (Proc.devRef .tc main_arg9) = x9)
    (h_main_v21 : W (Proc.devRef .tc main_v21) = val_main_v21 (F := F) x4)
    (h_main_v37 : W (Proc.devRef .tc main_v37) = val_main_v37 (F := F) x2 x3 x4 x5)
    : after (cJ (F := F)) W (Proc.devRef .tc main_v105) = val_main_v105 (F := F) x2 x3 x4 x5 x9 := by
  after_results_simp
  rw [h_main_arg9, h_main_v21, h_main_v37]
  rfl

/-- The buffers after stretches A … J. -/
def S10 (V : Valuation τ sig (Elt F)) : Valuation τ sig (Elt F) := after (cJ (F := F)) (S9 V)
theorem S10_main_v96 (V : Valuation τ sig (Elt F)) : S10 V (Proc.devRef .tc main_v96) = val_main_v96 (F := F) (V (Proc.devRef .tc main_arg2)) (V (Proc.devRef .tc main_arg3)) (V (Proc.devRef .tc main_arg4)) (V (Proc.devRef .tc main_arg5)) (V (Proc.devRef .tc main_arg8)) :=
  (cJ_keep (S9 V) main_v96 (by decide)).trans (S9_main_v96 V)
theorem S10_main_v105 (V : Valuation τ sig (Elt F)) : S10 V (Proc.devRef .tc main_v105) = val_main_v105 (F := F) (V (Proc.devRef .tc main_arg2)) (V (Proc.devRef .tc main_arg3)) (V (Proc.devRef .tc main_arg4)) (V (Proc.devRef .tc main_arg5)) (V (Proc.devRef .tc main_arg9)) :=
  cJ_main_v105 (S9 V) (V (Proc.devRef .tc main_arg2)) (V (Proc.devRef .tc main_arg3)) (V (Proc.devRef .tc main_arg4)) (V (Proc.devRef .tc main_arg5)) (V (Proc.devRef .tc main_arg9)) (S9_main_arg9 V) (S9_main_v21 V) (S9_main_v37 V)
theorem S10_main_arg8 (V : Valuation τ sig (Elt F)) : S10 V (Proc.devRef .tc main_arg8) = V (Proc.devRef .tc main_arg8) :=
  (cJ_keep (S9 V) main_arg8 (by decide)).trans (S9_main_arg8 V)
theorem S10_main_arg0 (V : Valuation τ sig (Elt F)) : S10 V (Proc.devRef .tc main_arg0) = V (Proc.devRef .tc main_arg0) :=
  (cJ_keep (S9 V) main_arg0 (by decide)).trans (S9_main_arg0 V)
theorem S10_main_arg9 (V : Valuation τ sig (Elt F)) : S10 V (Proc.devRef .tc main_arg9) = V (Proc.devRef .tc main_arg9) :=
  (cJ_keep (S9 V) main_arg9 (by decide)).trans (S9_main_arg9 V)
theorem S10_main_arg1 (V : Valuation τ sig (Elt F)) : S10 V (Proc.devRef .tc main_arg1) = V (Proc.devRef .tc main_arg1) :=
  (cJ_keep (S9 V) main_arg1 (by decide)).trans (S9_main_arg1 V)
theorem S10_main_v87 (V : Valuation τ sig (Elt F)) : S10 V (Proc.devRef .tc main_v87) = val_main_v87 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (cJ_keep (S9 V) main_v87 (by decide)).trans (S9_main_v87 V)

/-! ### Stretch K: operations main_v106 … main_v110 -/

abbrev cK : List (HloOp τ sig (Elt F)) :=
  [ binary main_v96 main_v105 main_v106 (subf : (⟨S500000x8, .f32⟩ : BufTy).Contents (Elt F) → (⟨S500000x8, .f32⟩ : BufTy).Contents (Elt F) → (⟨S500000x8, .f32⟩ : BufTy).Contents (Elt F)),
    nullary main_cst_22 (constant S_ .f32 0x358637BD#32),
    unary main_cst_22 main_v107 (broadcastInDim S500000x8 ![] bcast_S_S500000x8 : (⟨S_, .f32⟩ : BufTy).Contents (Elt F) → (⟨S500000x8, .f32⟩ : BufTy).Contents (Elt F)),
    binary main_v106 main_v107 main_v108 (addf : (⟨S500000x8, .f32⟩ : BufTy).Contents (Elt F) → (⟨S500000x8, .f32⟩ : BufTy).Contents (Elt F) → (⟨S500000x8, .f32⟩ : BufTy).Contents (Elt F)),
    binary main_v108 main_v108 main_v109 (mulf : (⟨S500000x8, .f32⟩ : BufTy).Contents (Elt F) → (⟨S500000x8, .f32⟩ : BufTy).Contents (Elt F) → (⟨S500000x8, .f32⟩ : BufTy).Contents (Elt F)),
    nullary main_cst_23 (constant S_ .f32 0x00000000#32),
    binary main_v109 main_cst_23 main_v110 ((fun x v => Host.reduceAdd x v reducesTo_S500000x8_S500000_d1 h_S_) : (⟨S500000x8, .f32⟩ : BufTy).Contents (Elt F) → (⟨S_, .f32⟩ : BufTy).Contents (Elt F) → (⟨S500000, .f32⟩ : BufTy).Contents (Elt F)) ]

/-- The buffers this stretch writes. -/
abbrev cK_W : List (Ref sig .tc) := [main_v106, main_cst_22, main_v107, main_v108, main_v109, main_cst_23, main_v110]
theorem cK_writes : (cK : List (HloOp τ sig (Elt F))).Forall fun op => op.writes ⊆ (cK_W.map (Proc.devRef (τ := τ) .tc)).toFinset := by
  simp only [List.Forall]
  refine ⟨?_, ?_, ?_, ?_, ?_, ?_, ?_⟩ <;> one_write
/-- A buffer this stretch does not write keeps its contents through it. -/
theorem cK_keep (W : Valuation τ sig (Elt F)) (r : Ref sig .tc) (h : r ∉ cK_W) :
    after (cK (F := F)) W (Proc.devRef .tc r) = W (Proc.devRef .tc r) :=
  after_of_writes_sub cK _ cK_writes h
theorem cK_main_v110 (W : Valuation τ sig (Elt F)) (x2 : (⟨S8x8, .f32⟩ : BufTy).Contents (Elt F)) (x3 : (⟨S8x50000, .f32⟩ : BufTy).Contents (Elt F)) (x4 : (⟨S8x50000, .f32⟩ : BufTy).Contents (Elt F)) (x5 : (⟨S100000x8, .f32⟩ : BufTy).Contents (Elt F)) (x8 : (⟨S500000, .i32⟩ : BufTy).Contents (Elt F)) (x9 : (⟨S500000, .i32⟩ : BufTy).Contents (Elt F))
    (h_main_v96 : W (Proc.devRef .tc main_v96) = val_main_v96 (F := F) x2 x3 x4 x5 x8)
    (h_main_v105 : W (Proc.devRef .tc main_v105) = val_main_v105 (F := F) x2 x3 x4 x5 x9)
    : after (cK (F := F)) W (Proc.devRef .tc main_v110) = val_main_v110 (F := F) x2 x3 x4 x5 x8 x9 := by
  after_results_simp
  rw [h_main_v96, h_main_v105]
  rfl

/-- The buffers after stretches A … K. -/
def S11 (V : Valuation τ sig (Elt F)) : Valuation τ sig (Elt F) := after (cK (F := F)) (S10 V)
theorem S11_main_arg8 (V : Valuation τ sig (Elt F)) : S11 V (Proc.devRef .tc main_arg8) = V (Proc.devRef .tc main_arg8) :=
  (cK_keep (S10 V) main_arg8 (by decide)).trans (S10_main_arg8 V)
theorem S11_main_arg0 (V : Valuation τ sig (Elt F)) : S11 V (Proc.devRef .tc main_arg0) = V (Proc.devRef .tc main_arg0) :=
  (cK_keep (S10 V) main_arg0 (by decide)).trans (S10_main_arg0 V)
theorem S11_main_arg9 (V : Valuation τ sig (Elt F)) : S11 V (Proc.devRef .tc main_arg9) = V (Proc.devRef .tc main_arg9) :=
  (cK_keep (S10 V) main_arg9 (by decide)).trans (S10_main_arg9 V)
theorem S11_main_arg1 (V : Valuation τ sig (Elt F)) : S11 V (Proc.devRef .tc main_arg1) = V (Proc.devRef .tc main_arg1) :=
  (cK_keep (S10 V) main_arg1 (by decide)).trans (S10_main_arg1 V)
theorem S11_main_v110 (V : Valuation τ sig (Elt F)) : S11 V (Proc.devRef .tc main_v110) = val_main_v110 (F := F) (V (Proc.devRef .tc main_arg2)) (V (Proc.devRef .tc main_arg3)) (V (Proc.devRef .tc main_arg4)) (V (Proc.devRef .tc main_arg5)) (V (Proc.devRef .tc main_arg8)) (V (Proc.devRef .tc main_arg9)) :=
  cK_main_v110 (S10 V) (V (Proc.devRef .tc main_arg2)) (V (Proc.devRef .tc main_arg3)) (V (Proc.devRef .tc main_arg4)) (V (Proc.devRef .tc main_arg5)) (V (Proc.devRef .tc main_arg8)) (V (Proc.devRef .tc main_arg9)) (S10_main_v96 V) (S10_main_v105 V)
theorem S11_main_v87 (V : Valuation τ sig (Elt F)) : S11 V (Proc.devRef .tc main_v87) = val_main_v87 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (cK_keep (S10 V) main_v87 (by decide)).trans (S10_main_v87 V)

/-! ### Stretch L: operations main_c_24 … main_v117 -/

abbrev cL : List (HloOp τ sig (Elt F)) :=
  [ nullary main_c_24 (constantI S_ 32 0#32),
    unary main_c_24 main_v111 (broadcastInDim S500000 ![] bcast_S_S500000 : (⟨S_, .i32⟩ : BufTy).Contents (Elt F) → (⟨S500000, .i32⟩ : BufTy).Contents (Elt F)),
    binary main_arg8 main_v111 main_v112 (cmpi .slt : (⟨S500000, .i32⟩ : BufTy).Contents (Elt F) → (⟨S500000, .i32⟩ : BufTy).Contents (Elt F) → (⟨S500000, .i1⟩ : BufTy).Contents (Elt F)),
    nullary main_c_25 (constantI S_ 32 50000#32),
    unary main_c_25 main_v113 (broadcastInDim S500000 ![] bcast_S_S500000 : (⟨S_, .i32⟩ : BufTy).Contents (Elt F) → (⟨S500000, .i32⟩ : BufTy).Contents (Elt F)),
    binary main_arg8 main_v113 main_v114 (addi : (⟨S500000, .i32⟩ : BufTy).Contents (Elt F) → (⟨S500000, .i32⟩ : BufTy).Contents (Elt F) → (⟨S500000, .i32⟩ : BufTy).Contents (Elt F)),
    ternary main_v112 main_v114 main_arg8 main_v115 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v115 main_v116 (broadcastInDim S500000x1 ![0] bcast_S500000_S500000x1_0 : (⟨S500000, .i32⟩ : BufTy).Contents (Elt F) → (⟨S500000x1, .i32⟩ : BufTy).Contents (Elt F)),
    binary main_arg0 main_v116 main_v117 ((fun x i => Host.gather gather_S50000_S500000x1_S500000_n_0_n_n_0_1_1 x i) : (⟨S50000, .f32⟩ : BufTy).Contents (Elt F) → (⟨S500000x1, .i32⟩ : BufTy).Contents (Elt F) → (⟨S500000, .f32⟩ : BufTy).Contents (Elt F)) ]

/-- The buffers this stretch writes. -/
abbrev cL_W : List (Ref sig .tc) := [main_c_24, main_v111, main_v112, main_c_25, main_v113, main_v114, main_v115, main_v116, main_v117]
theorem cL_writes : (cL : List (HloOp τ sig (Elt F))).Forall fun op => op.writes ⊆ (cL_W.map (Proc.devRef (τ := τ) .tc)).toFinset := by
  simp only [List.Forall]
  refine ⟨?_, ?_, ?_, ?_, ?_, ?_, ?_, ?_, ?_⟩ <;> one_write
/-- A buffer this stretch does not write keeps its contents through it. -/
theorem cL_keep (W : Valuation τ sig (Elt F)) (r : Ref sig .tc) (h : r ∉ cL_W) :
    after (cL (F := F)) W (Proc.devRef .tc r) = W (Proc.devRef .tc r) :=
  after_of_writes_sub cL _ cL_writes h
theorem cL_main_v117 (W : Valuation τ sig (Elt F)) (x0 : (⟨S50000, .f32⟩ : BufTy).Contents (Elt F)) (x8 : (⟨S500000, .i32⟩ : BufTy).Contents (Elt F))
    (h_main_arg8 : W (Proc.devRef .tc main_arg8) = x8)
    (h_main_arg0 : W (Proc.devRef .tc main_arg0) = x0)
    : after (cL (F := F)) W (Proc.devRef .tc main_v117) = val_main_v117 (F := F) x0 x8 := by
  after_results_simp
  rw [h_main_arg8, h_main_arg0]
  rfl

/-- The buffers after stretches A … L. -/
def S12 (V : Valuation τ sig (Elt F)) : Valuation τ sig (Elt F) := after (cL (F := F)) (S11 V)
theorem S12_main_arg9 (V : Valuation τ sig (Elt F)) : S12 V (Proc.devRef .tc main_arg9) = V (Proc.devRef .tc main_arg9) :=
  (cL_keep (S11 V) main_arg9 (by decide)).trans (S11_main_arg9 V)
theorem S12_main_arg1 (V : Valuation τ sig (Elt F)) : S12 V (Proc.devRef .tc main_arg1) = V (Proc.devRef .tc main_arg1) :=
  (cL_keep (S11 V) main_arg1 (by decide)).trans (S11_main_arg1 V)
theorem S12_main_v117 (V : Valuation τ sig (Elt F)) : S12 V (Proc.devRef .tc main_v117) = val_main_v117 (F := F) (V (Proc.devRef .tc main_arg0)) (V (Proc.devRef .tc main_arg8)) :=
  cL_main_v117 (S11 V) (V (Proc.devRef .tc main_arg0)) (V (Proc.devRef .tc main_arg8)) (S11_main_arg8 V) (S11_main_arg0 V)
theorem S12_main_v110 (V : Valuation τ sig (Elt F)) : S12 V (Proc.devRef .tc main_v110) = val_main_v110 (F := F) (V (Proc.devRef .tc main_arg2)) (V (Proc.devRef .tc main_arg3)) (V (Proc.devRef .tc main_arg4)) (V (Proc.devRef .tc main_arg5)) (V (Proc.devRef .tc main_arg8)) (V (Proc.devRef .tc main_arg9)) :=
  (cL_keep (S11 V) main_v110 (by decide)).trans (S11_main_v110 V)
theorem S12_main_v87 (V : Valuation τ sig (Elt F)) : S12 V (Proc.devRef .tc main_v87) = val_main_v87 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (cL_keep (S11 V) main_v87 (by decide)).trans (S11_main_v87 V)

/-! ### Stretch M: operations main_c_26 … main_v124 -/

abbrev cM : List (HloOp τ sig (Elt F)) :=
  [ nullary main_c_26 (constantI S_ 32 0#32),
    unary main_c_26 main_v118 (broadcastInDim S500000 ![] bcast_S_S500000 : (⟨S_, .i32⟩ : BufTy).Contents (Elt F) → (⟨S500000, .i32⟩ : BufTy).Contents (Elt F)),
    binary main_arg9 main_v118 main_v119 (cmpi .slt : (⟨S500000, .i32⟩ : BufTy).Contents (Elt F) → (⟨S500000, .i32⟩ : BufTy).Contents (Elt F) → (⟨S500000, .i1⟩ : BufTy).Contents (Elt F)),
    nullary main_c_27 (constantI S_ 32 50000#32),
    unary main_c_27 main_v120 (broadcastInDim S500000 ![] bcast_S_S500000 : (⟨S_, .i32⟩ : BufTy).Contents (Elt F) → (⟨S500000, .i32⟩ : BufTy).Contents (Elt F)),
    binary main_arg9 main_v120 main_v121 (addi : (⟨S500000, .i32⟩ : BufTy).Contents (Elt F) → (⟨S500000, .i32⟩ : BufTy).Contents (Elt F) → (⟨S500000, .i32⟩ : BufTy).Contents (Elt F)),
    ternary main_v119 main_v121 main_arg9 main_v122 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v122 main_v123 (broadcastInDim S500000x1 ![0] bcast_S500000_S500000x1_0 : (⟨S500000, .i32⟩ : BufTy).Contents (Elt F) → (⟨S500000x1, .i32⟩ : BufTy).Contents (Elt F)),
    binary main_arg1 main_v123 main_v124 ((fun x i => Host.gather gather_S50000_S500000x1_S500000_n_0_n_n_0_1_1 x i) : (⟨S50000, .f32⟩ : BufTy).Contents (Elt F) → (⟨S500000x1, .i32⟩ : BufTy).Contents (Elt F) → (⟨S500000, .f32⟩ : BufTy).Contents (Elt F)) ]

/-- The buffers this stretch writes. -/
abbrev cM_W : List (Ref sig .tc) := [main_c_26, main_v118, main_v119, main_c_27, main_v120, main_v121, main_v122, main_v123, main_v124]
theorem cM_writes : (cM : List (HloOp τ sig (Elt F))).Forall fun op => op.writes ⊆ (cM_W.map (Proc.devRef (τ := τ) .tc)).toFinset := by
  simp only [List.Forall]
  refine ⟨?_, ?_, ?_, ?_, ?_, ?_, ?_, ?_, ?_⟩ <;> one_write
/-- A buffer this stretch does not write keeps its contents through it. -/
theorem cM_keep (W : Valuation τ sig (Elt F)) (r : Ref sig .tc) (h : r ∉ cM_W) :
    after (cM (F := F)) W (Proc.devRef .tc r) = W (Proc.devRef .tc r) :=
  after_of_writes_sub cM _ cM_writes h
theorem cM_main_v124 (W : Valuation τ sig (Elt F)) (x1 : (⟨S50000, .f32⟩ : BufTy).Contents (Elt F)) (x9 : (⟨S500000, .i32⟩ : BufTy).Contents (Elt F))
    (h_main_arg9 : W (Proc.devRef .tc main_arg9) = x9)
    (h_main_arg1 : W (Proc.devRef .tc main_arg1) = x1)
    : after (cM (F := F)) W (Proc.devRef .tc main_v124) = val_main_v124 (F := F) x1 x9 := by
  after_results_simp
  rw [h_main_arg9, h_main_arg1]
  rfl

/-- The buffers after stretches A … M. -/
def S13 (V : Valuation τ sig (Elt F)) : Valuation τ sig (Elt F) := after (cM (F := F)) (S12 V)
theorem S13_main_v117 (V : Valuation τ sig (Elt F)) : S13 V (Proc.devRef .tc main_v117) = val_main_v117 (F := F) (V (Proc.devRef .tc main_arg0)) (V (Proc.devRef .tc main_arg8)) :=
  (cM_keep (S12 V) main_v117 (by decide)).trans (S12_main_v117 V)
theorem S13_main_v124 (V : Valuation τ sig (Elt F)) : S13 V (Proc.devRef .tc main_v124) = val_main_v124 (F := F) (V (Proc.devRef .tc main_arg1)) (V (Proc.devRef .tc main_arg9)) :=
  cM_main_v124 (S12 V) (V (Proc.devRef .tc main_arg1)) (V (Proc.devRef .tc main_arg9)) (S12_main_arg9 V) (S12_main_arg1 V)
theorem S13_main_v110 (V : Valuation τ sig (Elt F)) : S13 V (Proc.devRef .tc main_v110) = val_main_v110 (F := F) (V (Proc.devRef .tc main_arg2)) (V (Proc.devRef .tc main_arg3)) (V (Proc.devRef .tc main_arg4)) (V (Proc.devRef .tc main_arg5)) (V (Proc.devRef .tc main_arg8)) (V (Proc.devRef .tc main_arg9)) :=
  (cM_keep (S12 V) main_v110 (by decide)).trans (S12_main_v110 V)
theorem S13_main_v87 (V : Valuation τ sig (Elt F)) : S13 V (Proc.devRef .tc main_v87) = val_main_v87 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  (cM_keep (S12 V) main_v87 (by decide)).trans (S12_main_v87 V)

/-! ### Stretch N: operations main_v125 … main_v128 -/

abbrev cN : List (HloOp τ sig (Elt F)) :=
  [ binary main_v117 main_v124 main_v125 (addf : (⟨S500000, .f32⟩ : BufTy).Contents (Elt F) → (⟨S500000, .f32⟩ : BufTy).Contents (Elt F) → (⟨S500000, .f32⟩ : BufTy).Contents (Elt F)),
    binary main_v125 main_v110 main_v126 (subf : (⟨S500000, .f32⟩ : BufTy).Contents (Elt F) → (⟨S500000, .f32⟩ : BufTy).Contents (Elt F) → (⟨S500000, .f32⟩ : BufTy).Contents (Elt F)),
    nullary main_cst_28 (constant S_ .f32 0x00000000#32),
    binary main_v126 main_cst_28 main_v127 ((fun x v => Host.reduceAdd x v reducesTo_S500000_S_d0 h_S_) : (⟨S500000, .f32⟩ : BufTy).Contents (Elt F) → (⟨S_, .f32⟩ : BufTy).Contents (Elt F) → (⟨S_, .f32⟩ : BufTy).Contents (Elt F)),
    binary main_v127 main_v87 main_v128 (subf : (⟨S_, .f32⟩ : BufTy).Contents (Elt F) → (⟨S_, .f32⟩ : BufTy).Contents (Elt F) → (⟨S_, .f32⟩ : BufTy).Contents (Elt F)) ]

/-- The buffers this stretch writes. -/
abbrev cN_W : List (Ref sig .tc) := [main_v125, main_v126, main_cst_28, main_v127, main_v128]
theorem cN_writes : (cN : List (HloOp τ sig (Elt F))).Forall fun op => op.writes ⊆ (cN_W.map (Proc.devRef (τ := τ) .tc)).toFinset := by
  simp only [List.Forall]
  refine ⟨?_, ?_, ?_, ?_, ?_⟩ <;> one_write
/-- A buffer this stretch does not write keeps its contents through it. -/
theorem cN_keep (W : Valuation τ sig (Elt F)) (r : Ref sig .tc) (h : r ∉ cN_W) :
    after (cN (F := F)) W (Proc.devRef .tc r) = W (Proc.devRef .tc r) :=
  after_of_writes_sub cN _ cN_writes h
theorem cN_main_v128 (W : Valuation τ sig (Elt F)) (x0 : (⟨S50000, .f32⟩ : BufTy).Contents (Elt F)) (x1 : (⟨S50000, .f32⟩ : BufTy).Contents (Elt F)) (x2 : (⟨S8x8, .f32⟩ : BufTy).Contents (Elt F)) (x3 : (⟨S8x50000, .f32⟩ : BufTy).Contents (Elt F)) (x4 : (⟨S8x50000, .f32⟩ : BufTy).Contents (Elt F)) (x5 : (⟨S100000x8, .f32⟩ : BufTy).Contents (Elt F)) (x6 : (⟨S3000, .i32⟩ : BufTy).Contents (Elt F)) (x7 : (⟨S3000, .i32⟩ : BufTy).Contents (Elt F)) (x8 : (⟨S500000, .i32⟩ : BufTy).Contents (Elt F)) (x9 : (⟨S500000, .i32⟩ : BufTy).Contents (Elt F))
    (h_main_v117 : W (Proc.devRef .tc main_v117) = val_main_v117 (F := F) x0 x8)
    (h_main_v124 : W (Proc.devRef .tc main_v124) = val_main_v124 (F := F) x1 x9)
    (h_main_v110 : W (Proc.devRef .tc main_v110) = val_main_v110 (F := F) x2 x3 x4 x5 x8 x9)
    (h_main_v87 : W (Proc.devRef .tc main_v87) = val_main_v87 (F := F) x0 x1 x2 x3 x4 x5 x6 x7)
    : after (cN (F := F)) W (Proc.devRef .tc main_v128) = val_main_v128 (F := F) x0 x1 x2 x3 x4 x5 x6 x7 x8 x9 := by
  after_results_simp
  rw [h_main_v117, h_main_v124, h_main_v110, h_main_v87]
  rfl

/-- The buffers after stretches A … N. -/
def S14 (V : Valuation τ sig (Elt F)) : Valuation τ sig (Elt F) := after (cN (F := F)) (S13 V)
theorem S14_main_v128 (V : Valuation τ sig (Elt F)) : S14 V (Proc.devRef .tc main_v128) = val_main_v128 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  cN_main_v128 (S13 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (S13_main_v117 V) (S13_main_v124 V) (S13_main_v110 V) (S13_main_v87 V)
/-! ### The whole program -/

/-- The program's operations are the stretches in order. -/
theorem ops_eq : Cert.ReferenceIdeal.ValueP.ops (F := F) = cA (F := F) ++ (cB (F := F) ++ (cC (F := F) ++ (cD (F := F) ++ (cE (F := F) ++ (cF (F := F) ++ (cG (F := F) ++ (cH (F := F) ++ (cI (F := F) ++ (cJ (F := F) ++ (cK (F := F) ++ (cL (F := F) ++ (cM (F := F) ++ (cN (F := F)))))))))))))) := rfl

/-- So the buffers after the program are those after the last stretch. -/
theorem after_ops (V : Valuation τ sig (Elt F)) : after (Cert.ReferenceIdeal.ValueP.ops (F := F)) V = S14 V := by
  rw [ops_eq]
  simp only [after_append]
  rfl

/-- THE RUN'S RESULT IS THE LAST STAGE: what the program's operations, folded over the launch contents, leave in the result
    buffer is the last stage of the program read one operation at a time, at the ten arguments. -/
theorem fold_is_last_stage (m : (ℓ : Loc nD τ sig) → Buf (Elt F) ℓ) (c : Dev nD) :
    after (Cert.ReferenceIdeal.ValueP.ops (F := F)) (launchContents m c) (Proc.devRef .tc main_v128)
      = val_main_v128 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [after_ops]
  exact S14_main_v128 (launchContents m c)

end Cert.ReferenceIdeal.RefValue

end
-- ==== Proof.RefSide.lean ====
/-
  The reference's half of the claims. Every weakly fair execution of the reference program from a memory with zero
  counters terminates, leaves the ten arguments unchanged, and leaves in the result buffer the last stage of the program
  read one operation at a time, at the ten arguments: the run states the result as the operations folded over the launch
  contents, and that fold is the last stage. Dropping the result gives the frame claim.
-/
import proofs.«165161_j56453050139080_2_alg».proof.Defs
import proofs.«165161_j56453050139080_2_alg».proof.Proof.Gen.Pre_finite_inputs
import proofs.«165161_j56453050139080_2_alg».proof.Proof.RefRunPatched
import proofs.«165161_j56453050139080_2_alg».proof.Proof.RefRunIsRead

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

/-- The reference's run with its result at the last stage of the ten arguments, and the arguments unchanged. -/
theorem ref_run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev nD,
        r.2.mem ((c.tc : Thread nD τ).loc main_v128) = val_main_v128 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) :=
  (θ_run Cert.ReferenceIdeal.defs _ _).mono (fun _ h c => ⟨(h c).1.trans (fold_is_last_stage m c), (h c).2⟩)
    (Cert.ReferenceIdeal.ValueP.run (F := Ideal) m ρ)

/-- The reference runs and its arguments end unchanged. -/
theorem frame_ri : Cert.frame_ReferenceIdeal := fun m ρ _ =>
  (θ_run Cert.ReferenceIdeal.defs _ _).mono (fun _ h c => (h c).2) (Cert.ReferenceIdeal.ValueP.run (F := Ideal) m ρ)

end Cert.ReferenceIdeal.RefValue

end
-- ==== Proof.LibRealSums.lean ====
/-
  Finite sums of extended reals that are all real numbers.

  The coercion of the reals into the extended reals is additive, so it commutes with a sum over any finite set; hence a
  finite sum of extended reals each of which is (the image of) a real number is itself one. This is what lets an
  equation between finite sums and products on the extended reals, whose entries are known to be finite, be proved over
  the reals, where distributivity and cancellation hold.
-/
import Mathlib.Data.EReal.Basic
import Mathlib.Algebra.BigOperators.Group.Finset.Basic

open scoped BigOperators

namespace Cert.LibRealSums

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A finite sum of extended reals that are all real numbers is a real number. -/
theorem exists_real_sum {ι : Type*} (s : Finset ι) (f : ι → EReal) (h : ∀ i, ∃ r : ℝ, f i = r) :
    ∃ r : ℝ, ∑ i ∈ s, f i = r := by
  choose g hg using h
  exact ⟨∑ i ∈ s, g i, by rw [coe_finset_sum]; exact Finset.sum_congr rfl fun i _ => hg i⟩

end Cert.LibRealSums
-- ==== Proof.RealEntries.lean ====
/-
  Extended reals that are real numbers, and those that are positive real numbers.

  An extended real is REAL when it is the image of a real number, and POSITIVE when it is the image of a positive one.
  Both classes are closed under the arithmetic a computation on finite inputs performs: sums, products, differences,
  negations and maxima of reals are real; the exponential of a real is positive; a real divided by a positive is real and
  a positive divided by a positive is positive; a finite sum of reals is real, and of positives over a nonempty index set
  positive; a maximum folded from the bottom element over a nonempty family of reals is real. On real entries the
  extended-real operations agree with the real ones, which is what lets an identity that needs distributivity or
  cancellation be proved over the reals and carried across.

  Also here: the extended reals that a few single-precision bit patterns denote.
-/
import Mathlib.Algebra.BigOperators.Fin
import Idealize.ShloMosaic.PureOps.Ideal
import proofs.«165161_j56453050139080_2_alg».proof.Proof.LibRealSums

noncomputable section

open scoped BigOperators

namespace Cert.Affinity

open Idealize.ShloMosaic

/-- An extended real that is (the image of) a real number. -/
def IsReal (x : EReal) : Prop := ∃ r : ℝ, x = (r : EReal)

/-- An extended real that is (the image of) a positive real number. -/
def IsPos (x : EReal) : Prop := ∃ r : ℝ, 0 < r ∧ x = (r : EReal)

theorem isReal_coe (r : ℝ) : IsReal (r : EReal) := ⟨r, rfl⟩

theorem isPos_coe {r : ℝ} (h : 0 < r) : IsPos (r : EReal) := ⟨r, h, rfl⟩

theorem IsPos.isReal {x : EReal} (h : IsPos x) : IsReal x := by
  obtain ⟨r, _, rfl⟩ := h; exact ⟨r, rfl⟩

theorem isReal_zero : IsReal 0 := ⟨0, EReal.coe_zero.symm⟩

theorem isReal_one : IsReal 1 := ⟨1, EReal.coe_one.symm⟩

theorem isPos_one : IsPos 1 := ⟨1, one_pos, EReal.coe_one.symm⟩

/-- The extended real `2` is the image of the real `2`. -/
theorem two_eq_coe : (2 : EReal) = ((2 : ℝ) : EReal) := by norm_cast

theorem isPos_two : IsPos 2 := ⟨2, two_pos, two_eq_coe⟩

theorem isReal_two : IsReal 2 := isPos_two.isReal

theorem IsReal.ne_bot {x : EReal} (h : IsReal x) : x ≠ ⊥ := by
  obtain ⟨r, rfl⟩ := h; exact EReal.coe_ne_bot r

theorem IsReal.ne_top {x : EReal} (h : IsReal x) : x ≠ ⊤ := by
  obtain ⟨r, rfl⟩ := h; exact EReal.coe_ne_top r

theorem IsPos.pos {x : EReal} (h : IsPos x) : 0 < x := by
  obtain ⟨r, hr, rfl⟩ := h; exact_mod_cast hr

theorem IsPos.ne_zero {x : EReal} (h : IsPos x) : x ≠ 0 := h.pos.ne'

/-! ### Arithmetic -/

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsPos.add {x y : EReal} (hx : IsPos x) (hy : IsPos y) : IsPos (x + y) := by
  obtain ⟨a, ha, rfl⟩ := hx; obtain ⟨b, hb, rfl⟩ := hy; exact ⟨a + b, add_pos ha hb, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsPos.mul {x y : EReal} (hx : IsPos x) (hy : IsPos y) : IsPos (x * y) := by
  obtain ⟨a, ha, rfl⟩ := hx; obtain ⟨b, hb, rfl⟩ := hy; exact ⟨a * b, mul_pos ha hb, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

/-- The maximum of two reals, computed in the reals. -/
theorem max_coe_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The bottom element is neutral for the maximum. -/
theorem max_bot_eq (x : EReal) : max ⊥ x = x := max_bot_left x

theorem max_eq_bot (x : EReal) : max x ⊥ = x := max_bot_right x

/-! ### Exponential, quotient, logistic -/

theorem IsReal.exp_pos {x : EReal} (hx : IsReal x) : IsPos (Ideal.exp x) := by
  obtain ⟨a, rfl⟩ := hx; exact ⟨Real.exp a, Real.exp_pos a, Ideal.exp_coe a⟩

/-- The quotient of two reals with a nonzero divisor, computed in the reals. -/
theorem div_coe_coe (a : ℝ) {b : ℝ} (hb : b ≠ 0) : Ideal.div (a : EReal) (b : EReal) = ((a / b : ℝ) : EReal) := by
  rw [Ideal.div_coe hb, ← EReal.coe_mul, mul_one_div]

theorem IsReal.div {x y : EReal} (hx : IsReal x) (hy : IsPos y) : IsReal (Ideal.div x y) := by
  obtain ⟨a, rfl⟩ := hx; obtain ⟨b, hb, rfl⟩ := hy; exact ⟨a / b, div_coe_coe a hb.ne'⟩

theorem IsPos.div {x y : EReal} (hx : IsPos x) (hy : IsPos y) : IsPos (Ideal.div x y) := by
  obtain ⟨a, ha, rfl⟩ := hx; obtain ⟨b, hb, rfl⟩ := hy; exact ⟨a / b, div_pos ha hb, div_coe_coe a hb.ne'⟩

/-- The logistic function as `1 / (1 + exp (-x))`: positive at every real. -/
theorem IsReal.logistic_pos {x : EReal} (hx : IsReal x) : IsPos (Ideal.div 1 (1 + Ideal.exp (-x))) :=
  isPos_one.div (isPos_one.add hx.neg.exp_pos)

/-- Its value at a real. -/
theorem logistic_coe (a : ℝ) :
    Ideal.div 1 (1 + Ideal.exp (-(a : EReal))) = ((1 / (1 + Real.exp (-a)) : ℝ) : EReal) := by
  have h : (0 : ℝ) < 1 + Real.exp (-a) := by positivity
  rw [← EReal.coe_neg, Ideal.exp_coe, ← EReal.coe_one, ← EReal.coe_add, div_coe_coe 1 h.ne']

/-! ### Finite sums -/

theorem isReal_sum {ι : Type*} (s : Finset ι) (f : ι → EReal) (hf : ∀ i, IsReal (f i)) : IsReal (∑ i ∈ s, f i) :=
  Cert.LibRealSums.exists_real_sum s f hf

theorem isPos_sum {ι : Type*} (s : Finset ι) (hs : s.Nonempty) (f : ι → EReal) (hf : ∀ i, IsPos (f i)) :
    IsPos (∑ i ∈ s, f i) := by
  choose g hg0 hg using hf
  refine ⟨∑ i ∈ s, g i, Finset.sum_pos (fun i _ => hg0 i) hs, ?_⟩
  rw [Cert.LibRealSums.coe_finset_sum]; exact Finset.sum_congr rfl fun i _ => hg i

theorem isReal_sum_univ {ι : Type*} [Fintype ι] (f : ι → EReal) (hf : ∀ i, IsReal (f i)) : IsReal (∑ i, f i) :=
  isReal_sum Finset.univ f hf

theorem isPos_sum_univ {ι : Type*} [Fintype ι] [Nonempty ι] (f : ι → EReal) (hf : ∀ i, IsPos (f i)) :
    IsPos (∑ i, f i) :=
  isPos_sum Finset.univ Finset.univ_nonempty f hf

/-- A sum taken into an accumulator. -/
theorem isReal_acc_sum {ι : Type*} [Fintype ι] {acc : EReal} (hacc : IsReal acc) (f : ι → EReal)
    (hf : ∀ i, IsReal (f i)) : IsReal (acc + ∑ i, f i) :=
  hacc.add (isReal_sum_univ f hf)

theorem isReal_zero_sum {ι : Type*} [Fintype ι] (f : ι → EReal) (hf : ∀ i, IsReal (f i)) : IsReal (0 + ∑ i, f i) :=
  isReal_acc_sum isReal_zero f hf

theorem isPos_acc_sum {ι : Type*} [Fintype ι] [Nonempty ι] {acc : EReal} (hacc : IsPos acc) (f : ι → EReal)
    (hf : ∀ i, IsPos (f i)) : IsPos (acc + ∑ i, f i) :=
  hacc.add (isPos_sum_univ f hf)

theorem isPos_zero_sum {ι : Type*} [Fintype ι] [Nonempty ι] (f : ι → EReal) (hf : ∀ i, IsPos (f i)) :
    IsPos (0 + ∑ i, f i) := by
  rw [zero_add]; exact isPos_sum_univ f hf

/-- A contraction (sum of products) taken into an accumulator. -/
theorem isReal_acc_sum_mul {ι : Type*} [Fintype ι] {acc : EReal} (hacc : IsReal acc) (f g : ι → EReal)
    (hf : ∀ i, IsReal (f i)) (hg : ∀ i, IsReal (g i)) : IsReal (acc + ∑ i, f i * g i) :=
  isReal_acc_sum hacc _ fun i => (hf i).mul (hg i)

theorem isReal_zero_sum_mul {ι : Type*} [Fintype ι] (f g : ι → EReal) (hf : ∀ i, IsReal (f i))
    (hg : ∀ i, IsReal (g i)) : IsReal (0 + ∑ i, f i * g i) :=
  isReal_acc_sum_mul isReal_zero f g hf hg

/-- A contraction of positives over a nonempty index set, into the zero accumulator, is positive. -/
theorem isPos_zero_sum_mul {ι : Type*} [Fintype ι] [Nonempty ι] (f g : ι → EReal) (hf : ∀ i, IsPos (f i))
    (hg : ∀ i, IsPos (g i)) : IsPos (0 + ∑ i, f i * g i) :=
  isPos_zero_sum _ fun i => (hf i).mul (hg i)

/-! ### Maxima folded over a family -/

/-- A maximum folded from a real over any finite family of reals is real. -/
theorem isReal_fold_max {ι : Type*} (s : Finset ι) (f : ι → EReal) {b : EReal} (hb : IsReal b)
    (hf : ∀ i, IsReal (f i)) : IsReal (s.fold max b f) := by
  classical
  refine Finset.induction_on s ?_ ?_
  · rw [Finset.fold_empty]; exact hb
  · intro a s ha ih
    rw [Finset.fold_insert ha]; exact (hf a).max ih

/-- A maximum folded from the bottom element over a finite family of reals is the bottom element or real … -/
theorem fold_max_bot_eq_bot_or_isReal {ι : Type*} (s : Finset ι) (f : ι → EReal) (hf : ∀ i, IsReal (f i)) :
    (s = ∅ ∧ s.fold max ⊥ f = ⊥) ∨ IsReal (s.fold max ⊥ f) := by
  classical
  refine Finset.induction_on s ?_ ?_
  · exact Or.inl ⟨rfl, Finset.fold_empty⟩
  · intro a s ha ih
    refine Or.inr ?_
    rw [Finset.fold_insert ha]
    rcases ih with ⟨_, h⟩ | h
    · rw [h, max_bot_right]; exact hf a
    · exact (hf a).max h

/-- … and over a nonempty family it is real. -/
theorem isReal_fold_max_bot {ι : Type*} (s : Finset ι) (hs : s.Nonempty) (f : ι → EReal) (hf : ∀ i, IsReal (f i)) :
    IsReal (s.fold max ⊥ f) := by
  rcases fold_max_bot_eq_bot_or_isReal s f hf with ⟨h, _⟩ | h
  · exact absurd h hs.ne_empty
  · exact h

theorem isReal_fold_max_bot_univ {ι : Type*} [Fintype ι] [Nonempty ι] (f : ι → EReal) (hf : ∀ i, IsReal (f i)) :
    IsReal ((Finset.univ : Finset ι).fold max ⊥ f) :=
  isReal_fold_max_bot Finset.univ Finset.univ_nonempty f hf

/-- The same for a list folded from the left. -/
theorem isReal_foldl_max (l : List EReal) {b : EReal} (hb : IsReal b) (hl : ∀ x ∈ l, IsReal x) :
    IsReal (l.foldl max b) := by
  induction l generalizing b with
  | nil => exact hb
  | cons x t ih =>
    rw [List.foldl_cons]
    exact ih (hb.max (hl x (List.mem_cons_self ..))) fun y hy => hl y (List.mem_cons_of_mem _ hy)

theorem isReal_foldl_max_bot (l : List EReal) (hne : l ≠ []) (hl : ∀ x ∈ l, IsReal x) : IsReal (l.foldl max ⊥) := by
  cases l with
  | nil => exact absurd rfl hne
  | cons x t =>
    rw [List.foldl_cons, max_bot_left]
    exact isReal_foldl_max t (hl x (List.mem_cons_self ..)) fun y hy => hl y (List.mem_cons_of_mem _ hy)

/-! ### The numbers a few single-precision patterns denote -/

theorem ofBits_one : Ideal.ofBits .f32 0x3F800000#32 = 1 := by
  simp [Ideal.ofBits, Ideal.ieee, -EReal.coe_mul]; norm_num

theorem ofBits_two : Ideal.ofBits .f32 0x40000000#32 = 2 := by
  simp [Ideal.ofBits, Ideal.ieee, -EReal.coe_mul]; norm_num
  exact two_eq_coe.symm

theorem ofBits_neg_inf : Ideal.ofBits .f32 0xFF800000#32 = ⊥ := by
  simp [Ideal.ofBits, Ideal.ieee]

theorem ofBits_eps : Ideal.ofBits .f32 0x358637BD#32 = ((8796093 / 2 ^ 43 : ℝ) : EReal) := by
  simp [Ideal.ofBits, Ideal.ieee, -EReal.coe_mul]; norm_num

theorem ofBits_two_eps : Ideal.ofBits .f32 0x360637BD#32 = ((2 * (8796093 / 2 ^ 43) : ℝ) : EReal) := by
  simp [Ideal.ofBits, Ideal.ieee, -EReal.coe_mul]; norm_num

end Cert.Affinity

end
-- ==== Proof.FiniteInputs.lean ====
/-
  The precondition decoded: when the finiteness predicate of the ten argument arrays is all ones, every entry of the six
  float arrays is a real number.

  The predicate is the conjunction, over the six float arrays, of "every entry x has |x| < +∞": each conjunct is the
  elementwise comparison of max x (-x) with the extended real that the single-precision pattern of +∞ denotes, the top
  element, reduced by `and` over every axis from the constant one. A conjunction that is one has every conjunct one; a
  reduction by `and` that is one met only ones; and an extended real whose absolute value is below the top element is
  neither the top nor the bottom element, so it is the image of a real number.
-/
import proofs.«165161_j56453050139080_2_alg».proof.Pre_finite_inputs
import proofs.«165161_j56453050139080_2_alg».proof.Proof.RealEntries
import Idealize.ShloMosaic.Lib.ReduceAll
import Idealize.ShloMosaic.Lib.ValueIdx

noncomputable section

namespace Cert.ReferenceIdeal.RefValue

open Idealize.ShloMosaic Cert.Pre_finite_inputs Cert.Affinity

instance : Subsingleton S_.Idx := ⟨fun a b => funext fun d => d.elim0⟩

/-- The single-precision pattern of +∞ denotes the top element. -/
theorem ofBits_pos_inf : Ideal.ofBits .f32 0x7F800000#32 = ⊤ := by
  simp [Ideal.ofBits, Ideal.ieee]

/-- An extended real whose absolute value is below the top element is a real number. -/
theorem isReal_of_abs_lt_top (x : EReal) (h : Ideal.cmp .olt (max x (-x)) ⊤ = 1#1) : IsReal x := by
  induction x using EReal.rec with
  | bot => simp [Ideal.cmp] at h
  | coe r => exact ⟨r, rfl⟩
  | top => simp [Ideal.cmp] at h

/-- One conjunct of the predicate: when "every entry has absolute value below +∞", reduced by `and` over every axis, is
    one, every entry of the array is real. -/
theorem isReal_of_all_finite {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant S_ .f32 0x7F800000#32)))
        (constantI S_ 1 1#1) hr hu ValueIdx.ix0 = 1#1) (i : s.Idx) : IsReal (a i) := by
  have h1 := Host.reduce_andi_all _ _ hr hu _ e i
  apply isReal_of_abs_lt_top
  rw [← ofBits_pos_inf]
  exact h1

/-- THE PRECONDITION DECODED: the finiteness predicate all ones makes every entry of the six float arrays real. -/
theorem finite_inputs_real [Facts] (a0 a1 : FVec Ideal S50000 .f32) (a2 : FVec Ideal S8x8 .f32)
    (a3 a4 : FVec Ideal S8x50000 .f32) (a5 : FVec Ideal S100000x8 .f32) (a6 a7 : IVec S3000 32)
    (a8 a9 : IVec S500000 32) (h : fn (F := Ideal) a0 a1 a2 a3 a4 a5 a6 a7 a8 a9 = fun _ => 1#1) :
    (∀ i, IsReal (a0 i)) ∧ (∀ i, IsReal (a1 i)) ∧ (∀ i, IsReal (a2 i)) ∧ (∀ i, IsReal (a3 i)) ∧ (∀ i, IsReal (a4 i)) ∧
      (∀ i, IsReal (a5 i)) := by
  have e := congrFun h ValueIdx.ix0
  dsimp only [fn, fn_part1, andi] at e
  simp only [IntOp.andi_eq_one] at e
  obtain ⟨⟨⟨⟨⟨e0, e1⟩, e2⟩, e3⟩, e4⟩, e5⟩ := e
  exact ⟨isReal_of_all_finite a0 _ _ _ e0, isReal_of_all_finite a1 _ _ _ e1, isReal_of_all_finite a2 _ _ _ e2,
    isReal_of_all_finite a3 _ _ _ e3, isReal_of_all_finite a4 _ _ _ e4, isReal_of_all_finite a5 _ _ _ e5⟩

end Cert.ReferenceIdeal.RefValue

end
-- ==== Proof.PreReal.lean ====
/-
  The precondition, as the claims state it, gives real entries: a launch memory of which the finiteness predicate of the
  argument arrays is all ones on every device has, on every device, six float argument arrays whose every entry is a real
  number. This is the decoded predicate applied to the arrays the claims' precondition names.
-/
import proofs.«165161_j56453050139080_2_alg».proof.Defs
import proofs.«165161_j56453050139080_2_alg».proof.Proof.FiniteInputs

noncomputable section

namespace Cert.ReferenceIdeal.RefValue

open Idealize.ShloMosaic Idealize.SL.Sem Cert.Affinity

/-- Under the finiteness precondition of `ReferenceIdeal`, on every device the six float arguments have real entries. -/
theorem pre_real_ReferenceIdeal [Cert.Pre_finite_inputs.Facts]
    (m : (ℓ : Loc Cert.ReferenceIdeal.nD Cert.ReferenceIdeal.τ Cert.ReferenceIdeal.sig) → Buf (Elt Ideal) ℓ) (h : Cert.Pre_ReferenceIdeal m)
    (c : Dev Cert.ReferenceIdeal.nD) :
    (∀ i, IsReal (m ((c.tc : Thread Cert.ReferenceIdeal.nD Cert.ReferenceIdeal.τ).loc Cert.ReferenceIdeal.main_arg0) i)) ∧ (∀ i, IsReal (m ((c.tc : Thread Cert.ReferenceIdeal.nD Cert.ReferenceIdeal.τ).loc Cert.ReferenceIdeal.main_arg1) i)) ∧
    (∀ i, IsReal (m ((c.tc : Thread Cert.ReferenceIdeal.nD Cert.ReferenceIdeal.τ).loc Cert.ReferenceIdeal.main_arg2) i)) ∧ (∀ i, IsReal (m ((c.tc : Thread Cert.ReferenceIdeal.nD Cert.ReferenceIdeal.τ).loc Cert.ReferenceIdeal.main_arg3) i)) ∧
    (∀ i, IsReal (m ((c.tc : Thread Cert.ReferenceIdeal.nD Cert.ReferenceIdeal.τ).loc Cert.ReferenceIdeal.main_arg4) i)) ∧ (∀ i, IsReal (m ((c.tc : Thread Cert.ReferenceIdeal.nD Cert.ReferenceIdeal.τ).loc Cert.ReferenceIdeal.main_arg5) i)) :=
  finite_inputs_real _ _ _ _ _ _ _ _ _ _ (h c)

/-- Under the finiteness precondition of `KernelIdeal`, on every device the six float arguments have real entries. -/
theorem pre_real_KernelIdeal [Cert.Pre_finite_inputs.Facts]
    (m : (ℓ : Loc Cert.KernelIdeal.nD Cert.KernelIdeal.τ Cert.KernelIdeal.sig) → Buf (Elt Ideal) ℓ) (h : Cert.Pre_KernelIdeal m)
    (c : Dev Cert.KernelIdeal.nD) :
    (∀ i, IsReal (m ((c.tc : Thread Cert.KernelIdeal.nD Cert.KernelIdeal.τ).loc Cert.KernelIdeal.main_arg0) i)) ∧ (∀ i, IsReal (m ((c.tc : Thread Cert.KernelIdeal.nD Cert.KernelIdeal.τ).loc Cert.KernelIdeal.main_arg1) i)) ∧
    (∀ i, IsReal (m ((c.tc : Thread Cert.KernelIdeal.nD Cert.KernelIdeal.τ).loc Cert.KernelIdeal.main_arg2) i)) ∧ (∀ i, IsReal (m ((c.tc : Thread Cert.KernelIdeal.nD Cert.KernelIdeal.τ).loc Cert.KernelIdeal.main_arg3) i)) ∧
    (∀ i, IsReal (m ((c.tc : Thread Cert.KernelIdeal.nD Cert.KernelIdeal.τ).loc Cert.KernelIdeal.main_arg4) i)) ∧ (∀ i, IsReal (m ((c.tc : Thread Cert.KernelIdeal.nD Cert.KernelIdeal.τ).loc Cert.KernelIdeal.main_arg5) i)) :=
  finite_inputs_real _ _ _ _ _ _ _ _ _ _ (h c)

end Cert.ReferenceIdeal.RefValue

end
-- ==== Proof.Spec.lean ====
/-
  What the two programs compute, as plain functions of coordinates on the extended reals.

  Both programs first form, by the SAME operations, two column-softmaxes `Zi`, `Zj` (8 × 50000), their
  concatenation `Z` (8 × 100000), the product `ZG` of `Z` transposed with a logistic (100000 × 8) and its column
  sums `cs`. These enter here as variables: nothing below opens them. From there:

  * one program normalises `ZG` by its column sums and then contracts with `Z` (`mixNormThenSum`), the other contracts
    first and normalises the 8 × 8 product (`mixSumThenNorm`);
  * both multiply by `A` and transpose (`latent`), project the softmax columns (`proj`), and select rows by index;
  * the sampled term sums `exp (bias - distance)` over all pairs, the distance either directly
    (`sqdistDirect`) or through the expansion `|a|² + |b|² - 2 a·b + 2e (Σa - Σb) + 8e²` clamped below at zero
    (`sqdistExpanded`);
  * the edge term sums `bias - squared distance` over the edges; the result is the edge term minus the sampled term.

  Sums are spelled `0 + ∑ …` where a program reduces from a zero initial value or multiplies into a zero accumulator.
-/
import Mathlib.Data.EReal.Basic
import Mathlib.Algebra.BigOperators.Fin
import Idealize.ShloMosaic.PureOps.Ideal

noncomputable section

open Idealize.ShloMosaic

namespace Cert.Affinity

/-- The offset both programs add to a coordinate difference before squaring: the real the f32 word `0x358637BD` denotes. -/
def eps : ℝ := 8796093 / 2 ^ 43

/-- The row (or column) of a 50000-long axis that a gather reads for a start word: the word read as a signed integer
    and clamped into `[0, 49999]`. Both programs apply it to the same wrapped index arrays. -/
def startRow (w : BitVec 32) : Fin 50000 := ⟨min w.toInt.toNat 49999, by omega⟩

/-- `Z · (ZG / cs)`: normalise each column of `ZG` by its sum, then contract over the 100000 rows. -/
def mixNormThenSum (Z : Fin 8 → Fin 100000 → EReal) (ZG : Fin 100000 → Fin 8 → EReal) (cs : Fin 8 → EReal)
    (a k : Fin 8) : EReal :=
  0 + ∑ n, Z a n * Ideal.div (ZG n k) (cs k)

/-- `(Z · ZG) / cs`: contract first, then normalise the 8 × 8 product column by column. -/
def mixSumThenNorm (Z : Fin 8 → Fin 100000 → EReal) (ZG : Fin 100000 → Fin 8 → EReal) (cs : Fin 8 → EReal)
    (a k : Fin 8) : EReal :=
  Ideal.div (0 + ∑ n, Z a n * ZG n k) (cs k)

/-- `(A · M)ᵀ`: entry `(i, j)` is row `j` of `A` against column `i` of `M`. -/
def latent (A M : Fin 8 → Fin 8 → EReal) (i j : Fin 8) : EReal :=
  0 + ∑ k, A j k * M k i

/-- Coordinate `d` of the latent position of node `n`: row `d` of `L` against column `n` of the softmax `Zx`. -/
def proj (L : Fin 8 → Fin 8 → EReal) (Zx : Fin 8 → Fin 50000 → EReal) (n : Fin 50000) (d : Fin 8) : EReal :=
  0 + ∑ k, L d k * Zx k n

/-- The squared distance as the reference spells it: `Σ_d ((a_d - b_d) + e)²`. -/
def sqdistDirect (a b : Fin 8 → EReal) : EReal :=
  0 + ∑ d, ((a d - b d) + (eps : EReal)) * ((a d - b d) + (eps : EReal))

/-- The squared distance as the sampled kernel spells it, before its clamp: the expansion, associated left to right,
    with `c` the constant term. -/
def sqdistExpanded (c : EReal) (a b : Fin 8 → EReal) : EReal :=
  ((((0 + ∑ d, a d * a d) + (0 + ∑ d, b d * b d)) - (2 : EReal) * (0 + ∑ d, a d * b d))
      + ((2 * eps : ℝ) : EReal) * ((0 + ∑ d, a d) - (0 + ∑ d, b d))) + c

/-- The constant term the expansion needs: `8 e²`. -/
def eightEpsSq : ℝ := 77371252064649 / 9671406556917033397649408

/-- One pair's contribution to the sampled term, from a squared distance. -/
def pairTerm (bi gj sq : EReal) : EReal := Ideal.exp ((bi + gj) - Ideal.sqrt sq)

/-- One edge's contribution to the edge term. -/
def edgeTerm (bi gj : EReal) (p q : Fin 8 → EReal) : EReal := (bi + gj) - sqdistDirect p q

/-- The sampled term over all 3000 × 3000 pairs, the distance taken directly. -/
def sampledDirect (bs gs : Fin 3000 → EReal) (Mi Mj : Fin 3000 → Fin 8 → EReal) : EReal :=
  0 + ∑ i, ∑ j, pairTerm (bs i) (gs j) (sqdistDirect (Mi i) (Mj j))

/-- The edge term over all 500000 edges. -/
def edgesDirect (be ge : Fin 500000 → EReal) (P Q : Fin 500000 → Fin 8 → EReal) : EReal :=
  0 + ∑ r, edgeTerm (be r) (ge r) (P r) (Q r)

/-- The sampled term as the kernel accumulates it: 15 blocks of 200 rows, each block's total added to the running
    total, the distance through the clamped expansion. -/
def sampledBlock (c : EReal) (bs gs : Fin 3000 → EReal) (Mi Mj : Fin 3000 → Fin 8 → EReal) (t : Fin 15) : EReal :=
  0 + ∑ i : Fin 200, ∑ j : Fin 3000,
    pairTerm (bs ⟨200 * t.val + i.val, by omega⟩) (gs j)
      (max (sqdistExpanded c (Mi ⟨200 * t.val + i.val, by omega⟩) (Mj j)) 0)

/-- The edge term's block `t`: 5000 edges. -/
def edgesBlock (be ge : Fin 500000 → EReal) (P Q : Fin 500000 → Fin 8 → EReal) (t : Fin 100) : EReal :=
  0 + ∑ r : Fin 5000, edgeTerm (be ⟨5000 * t.val + r.val, by omega⟩) (ge ⟨5000 * t.val + r.val, by omega⟩)
    (P ⟨5000 * t.val + r.val, by omega⟩) (Q ⟨5000 * t.val + r.val, by omega⟩)

/-- A running total: the first block onto zero, each later block onto what the blocks before left. -/
def running {T : ℕ} (s : Fin (T + 1) → EReal) : (n : ℕ) → n < T + 1 → EReal
  | 0, h => 0 + s ⟨0, h⟩
  | n + 1, h => running s n (Nat.lt_of_succ_lt h) + s ⟨n + 1, h⟩

end Cert.Affinity

end
-- ==== Proof.LibGatherAt.lean ====
/-
  Two gathers read at an index, for start indices laid out as a column `[R, 1]`.

  `x[idx]` of a flat array `x : [N]` at an integer column `idx : [R, 1]` (collapsed axis 0, start index map `[0]`,
  slice sizes `[1]`, the index vector on axis 1) reads, at result index `r`, the operand at the start index `idx[r, 0]`
  taken as a signed integer and clamped into `[0, N - 1]`. The same column of start indices applied to the SECOND axis of a
  matrix `x : [K, N]` (offset axis 0 of the result, collapsed axis 1, start index map `[1]`, slice sizes `[K, 1]`) picks
  whole columns: result element `(k, r)` is `x` at `(k, clamp idx[r, 0])`.
-/
import Idealize.ShloMosaic.Lib.ValueIdx

noncomputable section

namespace Idealize.ShloMosaic.ValueIdx

open Idealize.ShloMosaic

section GatherAt
variable {α : Type}

/-- The dimension numbers of an element gather from `[N]` by a column `[R, 1]` of start indices into `[R]`. -/
abbrev elemDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The element gather at `r`: the operand at the start index `idx[r, 0]`, read signed and clamped into `[0, N - 1]`. -/
theorem gather_elem_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (elemDims N R wf) x idx (ix1 r)
      = x (ix1 ⟨min (idx (ix2 r (0 : Fin 1))).toInt.toNat (N - 1), by omega⟩) := by
  unfold Host.gather
  congr 1
  funext a
  obtain rfl : a = 0 := Subsingleton.elim _ _
  refine Fin.ext ?_
  show (elemDims N R wf).start (ix1 r) idx 0 + (elemDims N R wf).batchCoord (ix1 r) 0 + (elemDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemDims N R wf).startIndexMap from List.mem_singleton.mpr rfl)]
  have hsi : (elemDims N R wf).siIdx (ix1 r) ⟨List.idxOf (0 : Fin 1) (elemDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The element gather at `r`, the start word named. -/
theorem gather_elem_apply_of {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) (s : BitVec w)
    (hs : idx (ix2 r (0 : Fin 1)) = s) :
    Host.gather (elemDims N R wf) x idx (ix1 r) = x (ix1 ⟨min s.toInt.toNat (N - 1), by omega⟩) := by
  subst hs
  exact gather_elem_apply hN wf x idx r

/-- The dimension numbers of a column gather from `[K, N]` by a column `[R, 1]` of start indices into `[K, R]`. -/
abbrev colDims (K N R : Nat)
    (wf : GatherDims.WF ⟨2, ![K, N]⟩ ⟨2, ![R, 1]⟩ ⟨2, ![K, R]⟩ [0] [1] [] [1] [] 1 ![K, 1]) :
    GatherDims ⟨2, ![K, N]⟩ ⟨2, ![R, 1]⟩ ⟨2, ![K, R]⟩ where
  offsetDims := [0]
  collapsedSliceDims := [1]
  operandBatchingDims := []
  startIndicesBatchingDims := []
  startIndexMap := [1]
  indexVectorDim := 1
  sliceSizes := ![K, 1]
  wf := wf

/-- The column gather at `(k, r)`: the operand at row `k` and the column the start index `idx[r, 0]` names, read signed
    and clamped into `[0, N - 1]`. -/
theorem gather_col_apply {K N R w : Nat} (hN : 0 < N)
    (wf : GatherDims.WF ⟨2, ![K, N]⟩ ⟨2, ![R, 1]⟩ ⟨2, ![K, R]⟩ [0] [1] [] [1] [] 1 ![K, 1])
    (x : (⟨2, ![K, N]⟩ : Shape).Idx → α) (idx : IVec ⟨2, ![R, 1]⟩ w) (k : Fin K) (r : Fin R) :
    Host.gather (colDims K N R wf) x idx (ix2 k r)
      = x (ix2 k ⟨min (idx (ix2 r (0 : Fin 1))).toInt.toNat (N - 1), by omega⟩) := by
  have h0 : ((colDims K N R wf).operandIdx (ix2 k r) idx (0 : Fin 2)).val = k.val := by
    show (colDims K N R wf).start (ix2 k r) idx (0 : Fin 2) + (colDims K N R wf).batchCoord (ix2 k r) (0 : Fin 2)
      + (colDims K N R wf).offCoord (ix2 k r) (0 : Fin 2) = _
    rw [GatherDims.batchCoord_eq_zero _ _ _ List.not_mem_nil]
    unfold GatherDims.start
    rw [dif_neg (show (0 : Fin 2) ∉ (colDims K N R wf).startIndexMap from fun h => Fin.zero_ne_one (List.mem_singleton.mp h))]
    unfold GatherDims.offCoord
    rw [dif_pos ((GatherDims.mem_sKept _ _).mpr ⟨fun h => Fin.zero_ne_one (List.mem_singleton.mp h), List.not_mem_nil⟩)]
    refine (Nat.zero_add _).trans ?_
    rfl
  have h1 : ((colDims K N R wf).operandIdx (ix2 k r) idx (1 : Fin 2)).val
      = min (idx (ix2 r (0 : Fin 1))).toInt.toNat (N - 1) := by
    show (colDims K N R wf).start (ix2 k r) idx (1 : Fin 2) + (colDims K N R wf).batchCoord (ix2 k r) (1 : Fin 2)
      + (colDims K N R wf).offCoord (ix2 k r) (1 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims K N R wf).startIndexMap from List.mem_singleton.mpr rfl)]
    have hsi : (colDims K N R wf).siIdx (ix2 k r) ⟨List.idxOf (1 : Fin 2) (colDims K N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  unfold Host.gather
  congr 1
  funext a
  refine Fin.ext ?_
  match a with
  | ⟨0, _⟩ => exact h0
  | ⟨1, _⟩ => exact h1

/-- The column gather at `(k, r)`, the start word named. -/
theorem gather_col_apply_of {K N R w : Nat} (hN : 0 < N)
    (wf : GatherDims.WF ⟨2, ![K, N]⟩ ⟨2, ![R, 1]⟩ ⟨2, ![K, R]⟩ [0] [1] [] [1] [] 1 ![K, 1])
    (x : (⟨2, ![K, N]⟩ : Shape).Idx → α) (idx : IVec ⟨2, ![R, 1]⟩ w) (k : Fin K) (r : Fin R) (s : BitVec w)
    (hs : idx (ix2 r (0 : Fin 1)) = s) :
    Host.gather (colDims K N R wf) x idx (ix2 k r) = x (ix2 k ⟨min s.toInt.toNat (N - 1), by omega⟩) := by
  subst hs
  exact gather_col_apply hN wf x idx k r

end GatherAt

end Idealize.ShloMosaic.ValueIdx

end
-- ==== Proof.RefSuffixLatent.lean ====
/-
  The reference's latent positions, read index by index.

  From the five shared arrays (the two column softmaxes, their concatenation, its product with the logistic and that
  product's column sums) the reference forms the 8 × 8 matrix `L = (A · (Z · (ZG / cs)))ᵀ`, and from `L` the latent
  position of a node: row `d` of `L` against the node's softmax column. The rows and columns it reads are named by index
  arrays; a gather reads a start word as a signed integer and clamps it into the axis. Each statement below is one of
  these quantities at explicit coordinates.
-/
import proofs.«165161_j56453050139080_2_alg».proof.Proof.RefReadPatched
import proofs.«165161_j56453050139080_2_alg».proof.Proof.Spec
import proofs.«165161_j56453050139080_2_alg».proof.Proof.LibGatherAt

noncomputable section

open scoped BigOperators

namespace Cert.ReferenceIdeal.RefValue

open Cert Cert.ReferenceIdeal Cert.ReferenceIdeal.Gen Cert.ReferenceIdeal.ReadP Idealize.ShloMosaic Idealize.ShloMosaic.ValueIdx
  Idealize.ShloMosaic.TcCoe Idealize.SL.Sem Idealize.ShloMosaic.StableHlo

/-! ## The arguments' types -/

abbrev Vec50000 := (⟨S50000, .f32⟩ : BufTy).Contents (Elt Ideal)
abbrev Mat8x8 := (⟨S8x8, .f32⟩ : BufTy).Contents (Elt Ideal)
abbrev Mat8x50000 := (⟨S8x50000, .f32⟩ : BufTy).Contents (Elt Ideal)
abbrev Mat100000x8 := (⟨S100000x8, .f32⟩ : BufTy).Contents (Elt Ideal)
abbrev Idx3000 := (⟨S3000, .i32⟩ : BufTy).Contents (Elt Ideal)
abbrev Idx500000 := (⟨S500000, .i32⟩ : BufTy).Contents (Elt Ideal)

/-! ## The five shared arrays, by coordinates -/

/-- The column softmax of the first position array. -/
def Zi (x3 : Mat8x50000) (k : Fin 8) (n : Fin 50000) : EReal := val_main_v10 (F := Ideal) x3 (ix2 k n)
/-- The column softmax of the second position array. -/
def Zj (x4 : Mat8x50000) (k : Fin 8) (n : Fin 50000) : EReal := val_main_v21 (F := Ideal) x4 (ix2 k n)
/-- Their concatenation along the columns. -/
def Z (x3 x4 : Mat8x50000) (a : Fin 8) (n : Fin 100000) : EReal := val_main_v22 (F := Ideal) x3 x4 (ix2 a n)
/-- The concatenation transposed, times the logistic. -/
def ZG (x3 x4 : Mat8x50000) (x5 : Mat100000x8) (n : Fin 100000) (k : Fin 8) : EReal :=
  val_main_v30 (F := Ideal) x3 x4 x5 (ix2 n k)
/-- That product's column sums. -/
def cs (x3 x4 : Mat8x50000) (x5 : Mat100000x8) (k : Fin 8) : EReal := val_main_v31 (F := Ideal) x3 x4 x5 (ix1 k)

/-- `A` by coordinates. -/
def Amat (x2 : Mat8x8) (j k : Fin 8) : EReal := x2 (ix2 j k)

/-- `L = (A · (Z · (ZG / cs)))ᵀ`. -/
def L (x2 : Mat8x8) (x3 x4 : Mat8x50000) (x5 : Mat100000x8) : Fin 8 → Fin 8 → EReal :=
  Affinity.latent (Amat x2) (Affinity.mixNormThenSum (Z x3 x4) (ZG x3 x4 x5) (cs x3 x4 x5))

/-! ## `L` -/

/-- The normalised product at `(n, k)`: the entry over its column's sum. -/
theorem v34_at (x3 x4 : Mat8x50000) (x5 : Mat100000x8) (n : Fin 100000) (k : Fin 8) :
    val_main_v34 (F := Ideal) x3 x4 x5 (ix2 n k) = Ideal.div (ZG x3 x4 x5 n k) (cs x3 x4 x5 k) := by
  have h : idx_main_v32 (idx_main_v33 (ix2 n k)) = ix1 k := funext fun b => by
    match b with
    | ⟨0, _⟩ => rfl
  rw [val_main_v34_apply, val_main_v33_apply, val_main_v32_apply, Ideal.hostDivf_def, h]
  unfold ZG cs
  rfl

/-- The mixing matrix at `(a, k)`. -/
theorem v35_at (x3 x4 : Mat8x50000) (x5 : Mat100000x8) (a k : Fin 8) :
    val_main_v35 (F := Ideal) x3 x4 x5 (ix2 a k)
      = Affinity.mixNormThenSum (Z x3 x4) (ZG x3 x4 x5) (cs x3 x4 x5) a k := by
  rw [val_main_v35_apply]
  unfold Affinity.mixNormThenSum
  rw [zero_add]
  refine Finset.sum_congr rfl fun n _ => ?_
  have hr : ridx_main_v35 (ix2 a k) n = ix2 n k := funext fun b => by
    match b with
    | ⟨0, _⟩ => rfl
    | ⟨1, _⟩ => rfl
  have hl : lidx_main_v35 (ix2 a k) n = ix2 a n := funext fun b => by
    match b with
    | ⟨0, _⟩ => rfl
    | ⟨1, _⟩ => rfl
  rw [hr, hl, v34_at]
  unfold Z
  rfl

/-- `L` at `(i, j)`. -/
theorem v37_at (x2 : Mat8x8) (x3 x4 : Mat8x50000) (x5 : Mat100000x8) (i j : Fin 8) :
    val_main_v37 (F := Ideal) x2 x3 x4 x5 (ix2 i j) = L x2 x3 x4 x5 i j := by
  have ht : idx_main_v37 (ix2 i j) = ix2 j i := funext fun b => by
    match b with
    | ⟨0, _⟩ => rfl
    | ⟨1, _⟩ => rfl
  rw [val_main_v37_apply, ht, val_main_v36_apply]
  unfold L Affinity.latent
  rw [zero_add]
  refine Finset.sum_congr rfl fun k _ => ?_
  have hl : lidx_main_v36 (ix2 j i) k = ix2 j k := funext fun b => by
    match b with
    | ⟨0, _⟩ => rfl
    | ⟨1, _⟩ => rfl
  have hr : ridx_main_v36 (ix2 j i) k = ix2 k i := funext fun b => by
    match b with
    | ⟨0, _⟩ => rfl
    | ⟨1, _⟩ => rfl
  rw [hl, hr, v35_at]
  unfold Amat
  rfl

/-! ## The gathers

A start word is read as a signed integer and clamped into the axis: `Affinity.startRow`. The index arrays reach the
gathers wrapped (a negative index has the axis length added) and laid out as a column; the wrapped arrays stay atoms. -/

/-- The columns of the first softmax the sampled rows name. -/
theorem v44_at (x3 : Mat8x50000) (x6 : Idx3000) (k : Fin 8) (r : Fin 3000) :
    val_main_v44 (F := Ideal) x3 x6 (ix2 k r)
      = Zi x3 k (Affinity.startRow (val_main_v42 (F := Ideal) x6 (ix1 r))) := by
  have hd : gather_S8x50000_S3000x1_S8x3000_0_1_n_n_1_1_81 = colDims 8 50000 3000 Gen.gather_S8x50000_S3000x1_S8x3000_0_1_n_n_1_1_81_wf := rfl
  have h : idx_main_v43 (ix2 r (0 : Fin 1)) = ix1 r := funext fun b => by
    match b with
    | ⟨0, _⟩ => rfl
  have hs : val_main_v43 (F := Ideal) x6 (ix2 r (0 : Fin 1)) = val_main_v42 (F := Ideal) x6 (ix1 r) := by
    rw [val_main_v43_apply, h]
  unfold val_main_v44 Zi Affinity.startRow
  rw [hd]
  exact gather_col_apply_of (by decide) _ _ _ k r _ hs

/-- The columns of the second softmax the sampled columns name. -/
theorem v53_at (x4 : Mat8x50000) (x7 : Idx3000) (k : Fin 8) (r : Fin 3000) :
    val_main_v53 (F := Ideal) x4 x7 (ix2 k r)
      = Zj x4 k (Affinity.startRow (val_main_v51 (F := Ideal) x7 (ix1 r))) := by
  have hd : gather_S8x50000_S3000x1_S8x3000_0_1_n_n_1_1_81 = colDims 8 50000 3000 Gen.gather_S8x50000_S3000x1_S8x3000_0_1_n_n_1_1_81_wf := rfl
  have h : idx_main_v52 (ix2 r (0 : Fin 1)) = ix1 r := funext fun b => by
    match b with
    | ⟨0, _⟩ => rfl
  have hs : val_main_v52 (F := Ideal) x7 (ix2 r (0 : Fin 1)) = val_main_v51 (F := Ideal) x7 (ix1 r) := by
    rw [val_main_v52_apply, h]
  unfold val_main_v53 Zj Affinity.startRow
  rw [hd]
  exact gather_col_apply_of (by decide) _ _ _ k r _ hs

/-- The columns of the first softmax the edges' sources name. -/
theorem v94_at (x3 : Mat8x50000) (x8 : Idx500000) (k : Fin 8) (r : Fin 500000) :
    val_main_v94 (F := Ideal) x3 x8 (ix2 k r)
      = Zi x3 k (Affinity.startRow (val_main_v92 (F := Ideal) x8 (ix1 r))) := by
  have hd : gather_S8x50000_S500000x1_S8x500000_0_1_n_n_1_1_81 = colDims 8 50000 500000 Gen.gather_S8x50000_S500000x1_S8x500000_0_1_n_n_1_1_81_wf := rfl
  have h : idx_main_v93 (ix2 r (0 : Fin 1)) = ix1 r := funext fun b => by
    match b with
    | ⟨0, _⟩ => rfl
  have hs : val_main_v93 (F := Ideal) x8 (ix2 r (0 : Fin 1)) = val_main_v92 (F := Ideal) x8 (ix1 r) := by
    rw [val_main_v93_apply, h]
  unfold val_main_v94 Zi Affinity.startRow
  rw [hd]
  exact gather_col_apply_of (by decide) _ _ _ k r _ hs

/-- The columns of the second softmax the edges' targets name. -/
theorem v103_at (x4 : Mat8x50000) (x9 : Idx500000) (k : Fin 8) (r : Fin 500000) :
    val_main_v103 (F := Ideal) x4 x9 (ix2 k r)
      = Zj x4 k (Affinity.startRow (val_main_v101 (F := Ideal) x9 (ix1 r))) := by
  have hd : gather_S8x50000_S500000x1_S8x500000_0_1_n_n_1_1_81 = colDims 8 50000 500000 Gen.gather_S8x50000_S500000x1_S8x500000_0_1_n_n_1_1_81_wf := rfl
  have h : idx_main_v102 (ix2 r (0 : Fin 1)) = ix1 r := funext fun b => by
    match b with
    | ⟨0, _⟩ => rfl
  have hs : val_main_v102 (F := Ideal) x9 (ix2 r (0 : Fin 1)) = val_main_v101 (F := Ideal) x9 (ix1 r) := by
    rw [val_main_v102_apply, h]
  unfold val_main_v103 Zj Affinity.startRow
  rw [hd]
  exact gather_col_apply_of (by decide) _ _ _ k r _ hs

/-- The first bias at the sampled rows. -/
theorem v62_at (x0 : Vec50000) (x6 : Idx3000) (r : Fin 3000) :
    val_main_v62 (F := Ideal) x0 x6 (ix1 r)
      = x0 (ix1 (Affinity.startRow (val_main_v60 (F := Ideal) x6 (ix1 r)))) := by
  have hd : gather_S50000_S3000x1_S3000_n_0_n_n_0_1_1 = elemDims 50000 3000 Gen.gather_S50000_S3000x1_S3000_n_0_n_n_0_1_1_wf := rfl
  have h : idx_main_v61 (ix2 r (0 : Fin 1)) = ix1 r := funext fun b => by
    match b with
    | ⟨0, _⟩ => rfl
  have hs : val_main_v61 (F := Ideal) x6 (ix2 r (0 : Fin 1)) = val_main_v60 (F := Ideal) x6 (ix1 r) := by
    rw [val_main_v61_apply, h]
  unfold val_main_v62 Affinity.startRow
  rw [hd]
  exact gather_elem_apply_of (by decide) _ _ _ r _ hs

/-- The second bias at the sampled columns. -/
theorem v70_at (x1 : Vec50000) (x7 : Idx3000) (r : Fin 3000) :
    val_main_v70 (F := Ideal) x1 x7 (ix1 r)
      = x1 (ix1 (Affinity.startRow (val_main_v68 (F := Ideal) x7 (ix1 r)))) := by
  have hd : gather_S50000_S3000x1_S3000_n_0_n_n_0_1_1 = elemDims 50000 3000 Gen.gather_S50000_S3000x1_S3000_n_0_n_n_0_1_1_wf := rfl
  have h : idx_main_v69 (ix2 r (0 : Fin 1)) = ix1 r := funext fun b => by
    match b with
    | ⟨0, _⟩ => rfl
  have hs : val_main_v69 (F := Ideal) x7 (ix2 r (0 : Fin 1)) = val_main_v68 (F := Ideal) x7 (ix1 r) := by
    rw [val_main_v69_apply, h]
  unfold val_main_v70 Affinity.startRow
  rw [hd]
  exact gather_elem_apply_of (by decide) _ _ _ r _ hs

/-- The first bias at the edges' sources. -/
theorem v117_at (x0 : Vec50000) (x8 : Idx500000) (r : Fin 500000) :
    val_main_v117 (F := Ideal) x0 x8 (ix1 r)
      = x0 (ix1 (Affinity.startRow (val_main_v115 (F := Ideal) x8 (ix1 r)))) := by
  have hd : gather_S50000_S500000x1_S500000_n_0_n_n_0_1_1 = elemDims 50000 500000 Gen.gather_S50000_S500000x1_S500000_n_0_n_n_0_1_1_wf := rfl
  have h : idx_main_v116 (ix2 r (0 : Fin 1)) = ix1 r := funext fun b => by
    match b with
    | ⟨0, _⟩ => rfl
  have hs : val_main_v116 (F := Ideal) x8 (ix2 r (0 : Fin 1)) = val_main_v115 (F := Ideal) x8 (ix1 r) := by
    rw [val_main_v116_apply, h]
  unfold val_main_v117 Affinity.startRow
  rw [hd]
  exact gather_elem_apply_of (by decide) _ _ _ r _ hs

/-- The second bias at the edges' targets. -/
theorem v124_at (x1 : Vec50000) (x9 : Idx500000) (r : Fin 500000) :
    val_main_v124 (F := Ideal) x1 x9 (ix1 r)
      = x1 (ix1 (Affinity.startRow (val_main_v122 (F := Ideal) x9 (ix1 r)))) := by
  have hd : gather_S50000_S500000x1_S500000_n_0_n_n_0_1_1 = elemDims 50000 500000 Gen.gather_S50000_S500000x1_S500000_n_0_n_n_0_1_1_wf := rfl
  have h : idx_main_v123 (ix2 r (0 : Fin 1)) = ix1 r := funext fun b => by
    match b with
    | ⟨0, _⟩ => rfl
  have hs : val_main_v123 (F := Ideal) x9 (ix2 r (0 : Fin 1)) = val_main_v122 (F := Ideal) x9 (ix1 r) := by
    rw [val_main_v123_apply, h]
  unfold val_main_v124 Affinity.startRow
  rw [hd]
  exact gather_elem_apply_of (by decide) _ _ _ r _ hs

/-! ## The latent positions -/

/-- The latent position of sampled row `r`. -/
def Mi (x2 : Mat8x8) (x3 x4 : Mat8x50000) (x5 : Mat100000x8) (x6 : Idx3000) (r : Fin 3000) (d : Fin 8) : EReal :=
  Affinity.proj (L x2 x3 x4 x5) (Zi x3) (Affinity.startRow (val_main_v42 (F := Ideal) x6 (ix1 r))) d

/-- The transposed projection of the sampled rows, at `(r, d)`. -/
theorem v46_at (x2 : Mat8x8) (x3 x4 : Mat8x50000) (x5 : Mat100000x8) (x6 : Idx3000) (r : Fin 3000) (d : Fin 8) :
    val_main_v46 (F := Ideal) x2 x3 x4 x5 x6 (ix2 r d) = Mi x2 x3 x4 x5 x6 r d := by
  have ht : idx_main_v46 (ix2 r d) = ix2 d r := funext fun b => by
    match b with
    | ⟨0, _⟩ => rfl
    | ⟨1, _⟩ => rfl
  rw [val_main_v46_apply, ht, val_main_v45_apply]
  unfold Mi Affinity.proj
  rw [zero_add]
  refine Finset.sum_congr rfl fun k _ => ?_
  have hl : lidx_main_v45 (ix2 d r) k = ix2 d k := funext fun b => by
    match b with
    | ⟨0, _⟩ => rfl
    | ⟨1, _⟩ => rfl
  have hr : ridx_main_v45 (ix2 d r) k = ix2 k r := funext fun b => by
    match b with
    | ⟨0, _⟩ => rfl
    | ⟨1, _⟩ => rfl
  rw [hl, hr, v37_at, v44_at]

/-- The latent position of sampled column `r`. -/
def Mj (x2 : Mat8x8) (x3 x4 : Mat8x50000) (x5 : Mat100000x8) (x7 : Idx3000) (r : Fin 3000) (d : Fin 8) : EReal :=
  Affinity.proj (L x2 x3 x4 x5) (Zj x4) (Affinity.startRow (val_main_v51 (F := Ideal) x7 (ix1 r))) d

/-- The transposed projection of the sampled columns, at `(r, d)`. -/
theorem v55_at (x2 : Mat8x8) (x3 x4 : Mat8x50000) (x5 : Mat100000x8) (x7 : Idx3000) (r : Fin 3000) (d : Fin 8) :
    val_main_v55 (F := Ideal) x2 x3 x4 x5 x7 (ix2 r d) = Mj x2 x3 x4 x5 x7 r d := by
  have ht : idx_main_v55 (ix2 r d) = ix2 d r := funext fun b => by
    match b with
    | ⟨0, _⟩ => rfl
    | ⟨1, _⟩ => rfl
  rw [val_main_v55_apply, ht, val_main_v54_apply]
  unfold Mj Affinity.proj
  rw [zero_add]
  refine Finset.sum_congr rfl fun k _ => ?_
  have hl : lidx_main_v54 (ix2 d r) k = ix2 d k := funext fun b => by
    match b with
    | ⟨0, _⟩ => rfl
    | ⟨1, _⟩ => rfl
  have hr : ridx_main_v54 (ix2 d r) k = ix2 k r := funext fun b => by
    match b with
    | ⟨0, _⟩ => rfl
    | ⟨1, _⟩ => rfl
  rw [hl, hr, v37_at, v53_at]

/-- The latent position of the source of edge `r`. -/
def Pe (x2 : Mat8x8) (x3 x4 : Mat8x50000) (x5 : Mat100000x8) (x8 : Idx500000) (r : Fin 500000) (d : Fin 8) : EReal :=
  Affinity.proj (L x2 x3 x4 x5) (Zi x3) (Affinity.startRow (val_main_v92 (F := Ideal) x8 (ix1 r))) d

/-- The transposed projection of the edges' sources, at `(r, d)`. -/
theorem v96_at (x2 : Mat8x8) (x3 x4 : Mat8x50000) (x5 : Mat100000x8) (x8 : Idx500000) (r : Fin 500000) (d : Fin 8) :
    val_main_v96 (F := Ideal) x2 x3 x4 x5 x8 (ix2 r d) = Pe x2 x3 x4 x5 x8 r d := by
  have ht : idx_main_v96 (ix2 r d) = ix2 d r := funext fun b => by
    match b with
    | ⟨0, _⟩ => rfl
    | ⟨1, _⟩ => rfl
  rw [val_main_v96_apply, ht, val_main_v95_apply]
  unfold Pe Affinity.proj
  rw [zero_add]
  refine Finset.sum_congr rfl fun k _ => ?_
  have hl : lidx_main_v95 (ix2 d r) k = ix2 d k := funext fun b => by
    match b with
    | ⟨0, _⟩ => rfl
    | ⟨1, _⟩ => rfl
  have hr : ridx_main_v95 (ix2 d r) k = ix2 k r := funext fun b => by
    match b with
    | ⟨0, _⟩ => rfl
    | ⟨1, _⟩ => rfl
  rw [hl, hr, v37_at, v94_at]

/-- The latent position of the target of edge `r`. -/
def Qe (x2 : Mat8x8) (x3 x4 : Mat8x50000) (x5 : Mat100000x8) (x9 : Idx500000) (r : Fin 500000) (d : Fin 8) : EReal :=
  Affinity.proj (L x2 x3 x4 x5) (Zj x4) (Affinity.startRow (val_main_v101 (F := Ideal) x9 (ix1 r))) d

/-- The transposed projection of the edges' targets, at `(r, d)`. -/
theorem v105_at (x2 : Mat8x8) (x3 x4 : Mat8x50000) (x5 : Mat100000x8) (x9 : Idx500000) (r : Fin 500000) (d : Fin 8) :
    val_main_v105 (F := Ideal) x2 x3 x4 x5 x9 (ix2 r d) = Qe x2 x3 x4 x5 x9 r d := by
  have ht : idx_main_v105 (ix2 r d) = ix2 d r := funext fun b => by
    match b with
    | ⟨0, _⟩ => rfl
    | ⟨1, _⟩ => rfl
  rw [val_main_v105_apply, ht, val_main_v104_apply]
  unfold Qe Affinity.proj
  rw [zero_add]
  refine Finset.sum_congr rfl fun k _ => ?_
  have hl : lidx_main_v104 (ix2 d r) k = ix2 d k := funext fun b => by
    match b with
    | ⟨0, _⟩ => rfl
    | ⟨1, _⟩ => rfl
  have hr : ridx_main_v104 (ix2 d r) k = ix2 k r := funext fun b => by
    match b with
    | ⟨0, _⟩ => rfl
    | ⟨1, _⟩ => rfl
  rw [hl, hr, v37_at, v103_at]

end Cert.ReferenceIdeal.RefValue

end
-- ==== Proof.RefSuffixSampled.lean ====
/-
  The reference's sampled term, read index by index.

  For sampled rows `i` and columns `j` the reference adds the two gathered biases, takes the squared distance between the
  latent positions as `Σ_d ((a_d - b_d) + e)²`, and sums `exp (bias - sqrt distance)` over all 3000 × 3000 pairs.
-/
import proofs.«165161_j56453050139080_2_alg».proof.Proof.RefSuffixLatent
import proofs.«165161_j56453050139080_2_alg».proof.Proof.RealEntries

noncomputable section

open scoped BigOperators

namespace Cert.ReferenceIdeal.RefValue

open Cert Cert.ReferenceIdeal Cert.ReferenceIdeal.Gen Cert.ReferenceIdeal.ReadP Idealize.ShloMosaic Idealize.ShloMosaic.ValueIdx
  Idealize.ShloMosaic.TcCoe Idealize.SL.Sem Idealize.ShloMosaic.StableHlo

/-- The first bias at sampled row `i`. -/
def bs (x0 : Vec50000) (x6 : Idx3000) (i : Fin 3000) : EReal :=
  x0 (ix1 (Affinity.startRow (val_main_v60 (F := Ideal) x6 (ix1 i))))
/-- The second bias at sampled column `j`. -/
def gs (x1 : Vec50000) (x7 : Idx3000) (j : Fin 3000) : EReal :=
  x1 (ix1 (Affinity.startRow (val_main_v68 (F := Ideal) x7 (ix1 j))))

/-- The pair's bias. -/
theorem v74_at (x0 x1 : Vec50000) (x6 x7 : Idx3000) (i j : Fin 3000) :
    val_main_v74 (F := Ideal) x0 x1 x6 x7 (ix2 i j) = bs x0 x6 i + gs x1 x7 j := by
  have h72 : idx_main_v63 (idx_main_v72 (ix2 i j)) = ix1 i := funext fun b => by
    match b with
    | ⟨0, _⟩ => rfl
  have h73 : idx_main_v71 (idx_main_v73 (ix2 i j)) = ix1 j := funext fun b => by
    match b with
    | ⟨0, _⟩ => rfl
  rw [val_main_v74_apply, val_main_v72_apply, val_main_v63_apply, h72, val_main_v73_apply, val_main_v71_apply, h73,
    v62_at, v70_at, Ideal.addf_def]
  unfold bs gs
  rfl

/-- One coordinate's offset difference. -/
theorem v81_at (x2 : Mat8x8) (x3 x4 : Mat8x50000) (x5 : Mat100000x8) (x6 x7 : Idx3000) (i j : Fin 3000) (d : Fin 8) :
    val_main_v81 (F := Ideal) x2 x3 x4 x5 x6 x7 (ix3 i j d)
      = (Mi x2 x3 x4 x5 x6 i d - Mj x2 x3 x4 x5 x7 j d) + (Affinity.eps : EReal) := by
  have h77 : idx_main_v75 (idx_main_v77 (ix3 i j d)) = ix2 i d := funext fun b => by
    match b with
    | ⟨0, _⟩ => rfl
    | ⟨1, _⟩ => rfl
  have h78 : idx_main_v76 (idx_main_v78 (ix3 i j d)) = ix2 j d := funext fun b => by
    match b with
    | ⟨0, _⟩ => rfl
    | ⟨1, _⟩ => rfl
  rw [val_main_v81_apply, val_main_v79_apply, val_main_v77_apply, val_main_v75_apply, h77, val_main_v78_apply,
    val_main_v76_apply, h78, v46_at, v55_at, val_main_v80_apply, val_main_cst_15_apply, Ideal.ofBits_def,
    Affinity.ofBits_eps, Ideal.addf_def, Ideal.subf_def]
  unfold Affinity.eps
  rfl

/-- The squared distance of the pair, as the reference spells it. -/
theorem v83_at (x2 : Mat8x8) (x3 x4 : Mat8x50000) (x5 : Mat100000x8) (x6 x7 : Idx3000) (i j : Fin 3000) :
    val_main_v83 (F := Ideal) x2 x3 x4 x5 x6 x7 (ix2 i j)
      = Affinity.sqdistDirect (Mi x2 x3 x4 x5 x6 i) (Mj x2 x3 x4 x5 x7 j) := by
  rw [val_main_v83_apply, val_main_cst_16_apply, Ideal.ofBits_def, Ideal.ofBits_zero_f32]
  unfold Affinity.sqdistDirect
  refine congrArg (0 + ·) (Finset.sum_congr rfl fun d _ => ?_)
  have h83 : idx_main_v83 (ix2 i j) d = ix3 i j d := funext fun b => by
    match b with
    | ⟨0, _⟩ => rfl
    | ⟨1, _⟩ => rfl
    | ⟨2, _⟩ => rfl
  rw [h83, val_main_v82_apply, Ideal.mulf_def, v81_at]

/-- The pair's contribution. -/
theorem v86_at (x0 x1 : Vec50000) (x2 : Mat8x8) (x3 x4 : Mat8x50000) (x5 : Mat100000x8) (x6 x7 : Idx3000) (i j : Fin 3000) :
    val_main_v86 (F := Ideal) x0 x1 x2 x3 x4 x5 x6 x7 (ix2 i j)
      = Affinity.pairTerm (bs x0 x6 i) (gs x1 x7 j)
          (Affinity.sqdistDirect (Mi x2 x3 x4 x5 x6 i) (Mj x2 x3 x4 x5 x7 j)) := by
  rw [val_main_v86_apply, val_main_v85_apply, val_main_v84_apply, v74_at, v83_at, Ideal.hostUnary_exp_def,
    Ideal.hostUnary_sqrt_def, Ideal.subf_def]
  unfold Affinity.pairTerm
  rfl

/-- The sampled term. -/
theorem v87_eq (x0 x1 : Vec50000) (x2 : Mat8x8) (x3 x4 : Mat8x50000) (x5 : Mat100000x8) (x6 x7 : Idx3000) :
    val_main_v87 (F := Ideal) x0 x1 x2 x3 x4 x5 x6 x7 ix0
      = Affinity.sampledDirect (bs x0 x6) (gs x1 x7) (Mi x2 x3 x4 x5 x6) (Mj x2 x3 x4 x5 x7) := by
  rw [val_main_v87_apply, val_main_cst_17_apply, Ideal.ofBits_def, Ideal.ofBits_zero_f32, sum_idx2]
  unfold Affinity.sampledDirect
  refine congrArg (0 + ·) (Finset.sum_congr rfl fun i _ => Finset.sum_congr rfl fun j _ => ?_)
  exact v86_at x0 x1 x2 x3 x4 x5 x6 x7 i j

end Cert.ReferenceIdeal.RefValue

end
-- ==== Proof.RefSuffixEdges.lean ====
/-
  The reference's edge term, read index by index.

  For edge `r` the reference adds the two gathered biases and subtracts the squared distance between the latent positions of
  the edge's ends, spelled `Σ_d ((a_d - b_d) + e)²`; the edge term is the sum over all 500000 edges.
-/
import proofs.«165161_j56453050139080_2_alg».proof.Proof.RefSuffixLatent
import proofs.«165161_j56453050139080_2_alg».proof.Proof.RealEntries

noncomputable section

open scoped BigOperators

namespace Cert.ReferenceIdeal.RefValue

open Cert Cert.ReferenceIdeal Cert.ReferenceIdeal.Gen Cert.ReferenceIdeal.ReadP Idealize.ShloMosaic Idealize.ShloMosaic.ValueIdx
  Idealize.ShloMosaic.TcCoe Idealize.SL.Sem Idealize.ShloMosaic.StableHlo

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The first bias at the source of edge `r`. -/
def be (x0 : Vec50000) (x8 : Idx500000) (r : Fin 500000) : EReal :=
  x0 (ix1 (Affinity.startRow (val_main_v115 (F := Ideal) x8 (ix1 r))))
/-- The second bias at the target of edge `r`. -/
def ge (x1 : Vec50000) (x9 : Idx500000) (r : Fin 500000) : EReal :=
  x1 (ix1 (Affinity.startRow (val_main_v122 (F := Ideal) x9 (ix1 r))))

/-- One coordinate's offset difference. -/
theorem v108_at (x2 : Mat8x8) (x3 x4 : Mat8x50000) (x5 : Mat100000x8) (x8 x9 : Idx500000) (r : Fin 500000) (d : Fin 8) :
    val_main_v108 (F := Ideal) x2 x3 x4 x5 x8 x9 (ix2 r d)
      = (Pe x2 x3 x4 x5 x8 r d - Qe x2 x3 x4 x5 x9 r d) + (Affinity.eps : EReal) := by
  rw [val_main_v108_apply, val_main_v106_apply, v96_at, v105_at, val_main_v107_apply, val_main_cst_22_apply,
    Ideal.ofBits_def, Affinity.ofBits_eps, Ideal.addf_def, Ideal.subf_def]
  unfold Affinity.eps
  rfl

/-- The squared distance along edge `r`, as the reference spells it. -/
theorem v110_at (x2 : Mat8x8) (x3 x4 : Mat8x50000) (x5 : Mat100000x8) (x8 x9 : Idx500000) (r : Fin 500000) :
    val_main_v110 (F := Ideal) x2 x3 x4 x5 x8 x9 (ix1 r)
      = Affinity.sqdistDirect (Pe x2 x3 x4 x5 x8 r) (Qe x2 x3 x4 x5 x9 r) := by
  rw [val_main_v110_apply, val_main_cst_23_apply, Ideal.ofBits_def, Ideal.ofBits_zero_f32]
  unfold Affinity.sqdistDirect
  refine congrArg (0 + ·) (Finset.sum_congr rfl fun d _ => ?_)
  have h : idx_main_v110 (ix1 r) d = ix2 r d := funext fun b => by
    match b with
    | ⟨0, _⟩ => rfl
    | ⟨1, _⟩ => rfl
  rw [h, val_main_v109_apply, Ideal.mulf_def, v108_at]

/-- The edge's contribution. -/
theorem v126_at (x0 x1 : Vec50000) (x2 : Mat8x8) (x3 x4 : Mat8x50000) (x5 : Mat100000x8) (x8 x9 : Idx500000) (r : Fin 500000) :
    val_main_v126 (F := Ideal) x0 x1 x2 x3 x4 x5 x8 x9 (ix1 r)
      = Affinity.edgeTerm (be x0 x8 r) (ge x1 x9 r) (Pe x2 x3 x4 x5 x8 r) (Qe x2 x3 x4 x5 x9 r) := by
  rw [val_main_v126_apply, val_main_v125_apply, v117_at, v124_at, v110_at, Ideal.addf_def, Ideal.subf_def]
  unfold Affinity.edgeTerm be ge
  rfl

/-- The edge term. -/
theorem v127_eq (x0 x1 : Vec50000) (x2 : Mat8x8) (x3 x4 : Mat8x50000) (x5 : Mat100000x8) (x8 x9 : Idx500000) :
    val_main_v127 (F := Ideal) x0 x1 x2 x3 x4 x5 x8 x9 ix0
      = Affinity.edgesDirect (be x0 x8) (ge x1 x9) (Pe x2 x3 x4 x5 x8) (Qe x2 x3 x4 x5 x9) := by
  rw [val_main_v127_apply, val_main_cst_28_apply, Ideal.ofBits_def, Ideal.ofBits_zero_f32, sum_idx1]
  unfold Affinity.edgesDirect
  refine congrArg (0 + ·) (Finset.sum_congr rfl fun r _ => ?_)
  exact v126_at x0 x1 x2 x3 x4 x5 x8 x9 r

end Cert.ReferenceIdeal.RefValue

end
-- ==== Proof.RefSuffix.lean ====
/-
  The reference's result: the edge term minus the sampled term, both as the specification's direct forms over the five
  shared arrays.
-/
import proofs.«165161_j56453050139080_2_alg».proof.Proof.RefSuffixSampled
import proofs.«165161_j56453050139080_2_alg».proof.Proof.RefSuffixEdges

noncomputable section

open scoped BigOperators

namespace Cert.ReferenceIdeal.RefValue

open Cert Cert.ReferenceIdeal Cert.ReferenceIdeal.Gen Cert.ReferenceIdeal.ReadP Idealize.ShloMosaic Idealize.ShloMosaic.ValueIdx
  Idealize.ShloMosaic.TcCoe Idealize.SL.Sem Idealize.ShloMosaic.StableHlo

/-- The reference's result is the edge term minus the sampled term. -/
theorem v128_eq (x0 x1 : Vec50000) (x2 : Mat8x8) (x3 x4 : Mat8x50000) (x5 : Mat100000x8) (x6 x7 : Idx3000) (x8 x9 : Idx500000) :
    val_main_v128 (F := Ideal) x0 x1 x2 x3 x4 x5 x6 x7 x8 x9 ix0
      = Affinity.edgesDirect (be x0 x8) (ge x1 x9) (Pe x2 x3 x4 x5 x8) (Qe x2 x3 x4 x5 x9)
        - Affinity.sampledDirect (bs x0 x6) (gs x1 x7) (Mi x2 x3 x4 x5 x6) (Mj x2 x3 x4 x5 x7) := by
  rw [val_main_v128_apply, v127_eq, v87_eq, Ideal.subf_def]

end Cert.ReferenceIdeal.RefValue

end
-- ==== Proof.RefPrefix.lean ====
/-
  The shared prefix of the reference's program has positive real entries.

  From finite inputs Z_i, Z_j [8, 50000] and G [100000, 8] the program first forms the column softmax of Z_i and of Z_j
  (the column's maximum taken from −∞, the entry less that maximum, its exponential, the column's sum of exponentials
  taken from 0, the quotient), joins the two along the columns, forms the logistic 1 / (1 + exp (−G)), multiplies the
  transposed join by it entry by entry, and sums each of the eight columns of the product over its 100000 rows. At the
  extended reals every one of these entries is a POSITIVE REAL when every input entry is real: a column's maximum from
  −∞ over eight reals is real, a real less a real is real, the exponential of a real is positive, a sum from 0 of
  positives over a nonempty index set is positive, and a quotient or a product of positives is positive. The laws that
  later move a quotient across a sum or expand a product fail at infinities; this is what licenses them.

  The join read at an index is here too: an entry whose column is below 50000 is the first operand's there, any other
  the second operand's at that column less 50000.
-/
import proofs.«165161_j56453050139080_2_alg».proof.Proof.RefReadPatched
import proofs.«165161_j56453050139080_2_alg».proof.Proof.RealEntries

noncomputable section

namespace Cert.ReferenceIdeal.RefValue

open Cert.ReferenceIdeal Cert.ReferenceIdeal.Gen Cert.ReferenceIdeal.ReadP Cert.Affinity Idealize.ShloMosaic

/-! ### A column's maximum from −∞ -/

/-- The maximum of a column of eight reals, folded from the pattern of −∞, is real. -/
theorem isReal_colMax (x : (⟨S8x50000, .f32⟩ : BufTy).Contents (Elt Ideal)) (hx : ∀ i, IsReal (x i))
    (c : (⟨S_, .f32⟩ : BufTy).Contents (Elt Ideal)) (hc : ∀ i, c i = Ideal.ofBits .f32 0xFF800000#32) (i : S50000.Idx) :
    IsReal (Host.reduce (FloatOps.maximumf (F := Ideal) (φ := .f32)) x c reducesTo_S8x50000_S50000_d0 h_S_ i) := by
  rw [Host.reduce_eq_fold_single _ x _ reducesTo_S8x50000_S50000_d0 (by decide) h_S_ i, hc, ofBits_neg_inf]
  haveI : Nonempty (Fin (S8x50000.size 0)) := ⟨⟨0, by decide⟩⟩
  exact isReal_fold_max_bot_univ _ fun k => hx _

/-! ### The column softmax of the first array -/

section First
variable (x3 : (⟨S8x50000, .f32⟩ : BufTy).Contents (Elt Ideal)) (h3 : ∀ i, IsReal (x3 i))
include h3

theorem isReal_v0 (i : S50000.Idx) : IsReal (val_main_v0 (F := Ideal) x3 i) :=
  isReal_colMax x3 h3 _ (fun _ => rfl) i

theorem isReal_v2 (i : S50000.Idx) : IsReal (val_main_v2 (F := Ideal) x3 i) := by
  rw [val_main_v2_apply, val_main_v1_apply, val_main_cst_0_apply]
  show IsReal (max (Ideal.ofBits .f32 0xFF800000#32) _)
  rw [ofBits_neg_inf, max_bot_eq]
  exact isReal_v0 x3 h3 i

theorem isReal_v5 (i : S8x50000.Idx) : IsReal (val_main_v5 (F := Ideal) x3 i) := by
  rw [val_main_v5_apply, val_main_v4_apply, val_main_v3_apply]
  exact (h3 i).sub (isReal_v2 x3 h3 _)

theorem isPos_v6 (i : S8x50000.Idx) : IsPos (val_main_v6 (F := Ideal) x3 i) := by
  rw [val_main_v6_apply]
  exact (isReal_v5 x3 h3 i).exp_pos

theorem isPos_v7 (i : S50000.Idx) : IsPos (val_main_v7 (F := Ideal) x3 i) := by
  rw [val_main_v7_apply, val_main_cst_1_apply]
  show IsPos (Ideal.ofBits .f32 0x00000000#32 + _)
  rw [Ideal.ofBits_zero_f32]
  exact isPos_zero_sum _ fun k => isPos_v6 x3 h3 _

theorem isPos_v10 (i : S8x50000.Idx) : IsPos (val_main_v10 (F := Ideal) x3 i) := by
  rw [val_main_v10_apply, val_main_v9_apply, val_main_v8_apply]
  exact (isPos_v6 x3 h3 i).div (isPos_v7 x3 h3 _)

end First

/-! ### The column softmax of the second array -/

section Second
variable (x4 : (⟨S8x50000, .f32⟩ : BufTy).Contents (Elt Ideal)) (h4 : ∀ i, IsReal (x4 i))
include h4

theorem isReal_v11 (i : S50000.Idx) : IsReal (val_main_v11 (F := Ideal) x4 i) :=
  isReal_colMax x4 h4 _ (fun _ => rfl) i

theorem isReal_v13 (i : S50000.Idx) : IsReal (val_main_v13 (F := Ideal) x4 i) := by
  rw [val_main_v13_apply, val_main_v12_apply, val_main_cst_3_apply]
  show IsReal (max (Ideal.ofBits .f32 0xFF800000#32) _)
  rw [ofBits_neg_inf, max_bot_eq]
  exact isReal_v11 x4 h4 i

theorem isReal_v16 (i : S8x50000.Idx) : IsReal (val_main_v16 (F := Ideal) x4 i) := by
  rw [val_main_v16_apply, val_main_v15_apply, val_main_v14_apply]
  exact (h4 i).sub (isReal_v13 x4 h4 _)

theorem isPos_v17 (i : S8x50000.Idx) : IsPos (val_main_v17 (F := Ideal) x4 i) := by
  rw [val_main_v17_apply]
  exact (isReal_v16 x4 h4 i).exp_pos

theorem isPos_v18 (i : S50000.Idx) : IsPos (val_main_v18 (F := Ideal) x4 i) := by
  rw [val_main_v18_apply, val_main_cst_4_apply]
  show IsPos (Ideal.ofBits .f32 0x00000000#32 + _)
  rw [Ideal.ofBits_zero_f32]
  exact isPos_zero_sum _ fun k => isPos_v17 x4 h4 _

theorem isPos_v21 (i : S8x50000.Idx) : IsPos (val_main_v21 (F := Ideal) x4 i) := by
  rw [val_main_v21_apply, val_main_v20_apply, val_main_v19_apply]
  exact (isPos_v17 x4 h4 i).div (isPos_v18 x4 h4 _)

end Second

/-! ### The join along the columns, read at an index -/

/-- The index (r, c) of an [8, 50000] array. -/
abbrev ixHalf (r : Fin 8) (c : Fin 50000) : S8x50000.Idx := fun a => match a with
  | ⟨0, _⟩ => r
  | ⟨1, _⟩ => c

section Join
variable {F : FTy → Type} [FloatOps F]

/-- An entry of the join whose column is below 50000 is the first operand's entry there. -/
theorem val_main_v22_apply_left (x3 x4 : (⟨S8x50000, .f32⟩ : BufTy).Contents (Elt F)) (j : S8x100000.Idx)
    (hj : (j 1).val < 50000) :
    val_main_v22 (F := F) x3 x4 j = val_main_v10 (F := F) x3 (ixHalf ⟨(j 0).val, (j 0).isLt⟩ ⟨(j 1).val, hj⟩) := by
  unfold val_main_v22
  exact concatenate_pair_apply_left 1 _ _ concatenates_S8x50000_S8x50000_S8x100000_d1 j rfl _
    (fun b => match b with | ⟨0, _⟩ => rfl | ⟨1, _⟩ => rfl)

/-- Any other entry of the join is the second operand's entry at that column less 50000. -/
theorem val_main_v22_apply_right (x3 x4 : (⟨S8x50000, .f32⟩ : BufTy).Contents (Elt F)) (j : S8x100000.Idx)
    (hj : 50000 ≤ (j 1).val) :
    val_main_v22 (F := F) x3 x4 j
      = val_main_v21 (F := F) x4 (ixHalf ⟨(j 0).val, (j 0).isLt⟩ ⟨(j 1).val - 50000, by have := (j 1).isLt; show _ < 50000; change (j 1).val < 100000 at this; omega⟩) := by
  unfold val_main_v22
  exact concatenate_pair_apply_right 1 _ _ concatenates_S8x50000_S8x50000_S8x100000_d1 j rfl rfl _
    (fun b hb => match b, hb with | ⟨0, _⟩, _ => rfl | ⟨1, _⟩, hb => absurd rfl hb)
    (by show (j 1).val - 50000 + 50000 = (j 1).val; omega)

end Join

theorem isPos_v22 (x3 x4 : (⟨S8x50000, .f32⟩ : BufTy).Contents (Elt Ideal)) (h3 : ∀ i, IsReal (x3 i))
    (h4 : ∀ i, IsReal (x4 i)) (j : S8x100000.Idx) : IsPos (val_main_v22 (F := Ideal) x3 x4 j) := by
  rcases Nat.lt_or_ge (j 1).val 50000 with hj | hj
  · rw [val_main_v22_apply_left x3 x4 j hj]; exact isPos_v10 x3 h3 _
  · rw [val_main_v22_apply_right x3 x4 j hj]; exact isPos_v21 x4 h4 _

/-! ### The logistic of the third array -/

theorem isPos_v28 (x5 : (⟨S100000x8, .f32⟩ : BufTy).Contents (Elt Ideal)) (h5 : ∀ i, IsReal (x5 i)) (i : S100000x8.Idx) :
    IsPos (val_main_v28 (F := Ideal) x5 i) := by
  rw [val_main_v28_apply, val_main_v27_apply, val_main_cst_6_apply, val_main_v26_apply, val_main_v25_apply,
    val_main_cst_5_apply, val_main_v24_apply, val_main_v23_apply]
  show IsPos (Ideal.div (Ideal.ofBits .f32 0x3F800000#32) (Ideal.ofBits .f32 0x3F800000#32 + Ideal.exp (-(x5 i))))
  rw [ofBits_one]
  exact (h5 i).logistic_pos

/-! ### The product and its column sums -/

section Product
variable (x3 x4 : (⟨S8x50000, .f32⟩ : BufTy).Contents (Elt Ideal)) (x5 : (⟨S100000x8, .f32⟩ : BufTy).Contents (Elt Ideal))
  (h3 : ∀ i, IsReal (x3 i)) (h4 : ∀ i, IsReal (x4 i)) (h5 : ∀ i, IsReal (x5 i))
include h3 h4 h5

theorem isPos_v30 (i : S100000x8.Idx) : IsPos (val_main_v30 (F := Ideal) x3 x4 x5 i) := by
  rw [val_main_v30_apply, val_main_v29_apply]
  exact (isPos_v22 x3 x4 h3 h4 _).mul (isPos_v28 x5 h5 i)

theorem isPos_v31 (i : S8.Idx) : IsPos (val_main_v31 (F := Ideal) x3 x4 x5 i) := by
  rw [val_main_v31_apply, val_main_cst_7_apply]
  show IsPos (Ideal.ofBits .f32 0x00000000#32 + _)
  rw [Ideal.ofBits_zero_f32]
  exact isPos_zero_sum _ fun k => isPos_v30 x3 x4 x5 h3 h4 h5 _

end Product

end Cert.ReferenceIdeal.RefValue

end
-- ==== Proof.DistanceExpansion.lean ====
/-
  The squared distance between two shifted points, expanded.

  For points `a`, `b` of eight real coordinates and a real shift `e`,
      ∑ d, ((a d - b d) + e)²  =  |a|² + |b|² - 2 (a·b) + (2e) (∑ a - ∑ b) + 8 e² ,
  an identity of real polynomials, term by term. Carried to the extended reals — where the right side is associated
  left to right, as a program that evaluates it one operation at a time does — it holds because every entry is a real
  number. The left side is a sum of squares, hence nonnegative: clamping the right side below at zero changes nothing.
-/
import Mathlib.Algebra.BigOperators.Fin
import Idealize.ShloMosaic.PureOps.Ideal
import proofs.«165161_j56453050139080_2_alg».proof.Proof.RealEntries

noncomputable section

open scoped BigOperators

namespace Cert.Affinity

open Idealize.ShloMosaic

/-- The expansion, over the reals. -/
theorem sqdist_expand_real (a b : Fin 8 → ℝ) (e : ℝ) :
    (∑ d, a d * a d) + (∑ d, b d * b d) - 2 * (∑ d, a d * b d) + (2 * e) * ((∑ d, a d) - (∑ d, b d)) + 8 * e ^ 2
      = ∑ d, ((a d - b d) + e) * ((a d - b d) + e) := by
  have h : ∀ d, ((a d - b d) + e) * ((a d - b d) + e)
      = a d * a d + b d * b d - 2 * (a d * b d) + (2 * e) * (a d - b d) + e ^ 2 := fun d => by ring
  simp only [h, Finset.sum_add_distrib, Finset.sum_sub_distrib, ← Finset.mul_sum, Finset.sum_const, Finset.card_univ,
    Fintype.card_fin, nsmul_eq_mul]
  push_cast
  ring

/-- A sum of squares is nonnegative. -/
theorem sqdist_nonneg (a b : Fin 8 → ℝ) (e : ℝ) : 0 ≤ ∑ d, ((a d - b d) + e) * ((a d - b d) + e) :=
  Finset.sum_nonneg fun _ _ => mul_self_nonneg _

/-- The squares written as second powers. -/
theorem sqdist_sq (a b : Fin 8 → ℝ) (e : ℝ) :
    ∑ d, ((a d - b d) + e) ^ 2 = ∑ d, ((a d - b d) + e) * ((a d - b d) + e) :=
  Finset.sum_congr rfl fun _ _ => sq _

/-- The expansion on the extended reals, associated left to right, its five ingredients named. -/
theorem sqdist_expand_coe (a b : Fin 8 → ℝ) (e : ℝ) (na nb cr sa sb c : ℝ) (hna : na = ∑ d, a d * a d)
    (hnb : nb = ∑ d, b d * b d) (hcr : cr = ∑ d, a d * b d) (hsa : sa = ∑ d, a d) (hsb : sb = ∑ d, b d)
    (hc : c = 8 * e ^ 2) :
    (((((na : EReal) + (nb : EReal)) - 2 * (cr : EReal)) + ((2 * e : ℝ) : EReal) * ((sa : EReal) - (sb : EReal)))
        + (c : EReal))
      = ((∑ d, ((a d - b d) + e) * ((a d - b d) + e) : ℝ) : EReal) := by
  rw [two_eq_coe]
  simp only [← EReal.coe_add, ← EReal.coe_mul, ← EReal.coe_sub]
  rw [hna, hnb, hcr, hsa, hsb, hc]
  exact congrArg _ (sqdist_expand_real a b e)

/-- The same with the ingredients written out as real sums. -/
theorem sqdist_expand_coe' (a b : Fin 8 → ℝ) (e : ℝ) :
    ((((((∑ d, a d * a d : ℝ) : EReal) + ((∑ d, b d * b d : ℝ) : EReal)) - 2 * ((∑ d, a d * b d : ℝ) : EReal))
        + ((2 * e : ℝ) : EReal) * (((∑ d, a d : ℝ) : EReal) - ((∑ d, b d : ℝ) : EReal))) + ((8 * e ^ 2 : ℝ) : EReal))
      = ((∑ d, ((a d - b d) + e) * ((a d - b d) + e) : ℝ) : EReal) :=
  sqdist_expand_coe a b e _ _ _ _ _ _ rfl rfl rfl rfl rfl rfl

/-- A sum of products of reals, taken on the extended reals. -/
theorem sum_coe_mul_coe {ι : Type*} [Fintype ι] (f g : ι → ℝ) :
    ∑ d, (f d : EReal) * (g d : EReal) = ((∑ d, f d * g d : ℝ) : EReal) := by
  rw [Cert.LibRealSums.coe_finset_sum]; exact Finset.sum_congr rfl fun d _ => (EReal.coe_mul _ _).symm

/-- A sum of reals, taken on the extended reals. -/
theorem sum_coe {ι : Type*} [Fintype ι] (f : ι → ℝ) : ∑ d, (f d : EReal) = ((∑ d, f d : ℝ) : EReal) :=
  (Cert.LibRealSums.coe_finset_sum _ _).symm

/-- The squared distance itself, summed on the extended reals. -/
theorem sqdist_coe (a b : Fin 8 → ℝ) (e : ℝ) :
    ∑ d, (((a d : EReal) - (b d : EReal)) + (e : EReal)) * (((a d : EReal) - (b d : EReal)) + (e : EReal))
      = ((∑ d, ((a d - b d) + e) * ((a d - b d) + e) : ℝ) : EReal) := by
  rw [Cert.LibRealSums.coe_finset_sum]
  refine Finset.sum_congr rfl fun d _ => ?_
  rw [← EReal.coe_sub, ← EReal.coe_add, ← EReal.coe_mul]

/-- The expansion with both sides summed on the extended reals. -/
theorem sqdist_expand_ereal (a b : Fin 8 → ℝ) (e : ℝ) :
    (((((∑ d, (a d : EReal) * (a d : EReal)) + (∑ d, (b d : EReal) * (b d : EReal)))
          - 2 * (∑ d, (a d : EReal) * (b d : EReal)))
        + ((2 * e : ℝ) : EReal) * ((∑ d, (a d : EReal)) - (∑ d, (b d : EReal)))) + ((8 * e ^ 2 : ℝ) : EReal))
      = ∑ d, (((a d : EReal) - (b d : EReal)) + (e : EReal)) * (((a d : EReal) - (b d : EReal)) + (e : EReal)) := by
  rw [sum_coe_mul_coe, sum_coe_mul_coe, sum_coe_mul_coe, sum_coe, sum_coe, sqdist_coe]
  exact sqdist_expand_coe' a b e

/-- Clamping a nonnegative real below at zero changes nothing. -/
theorem max_coe_zero {s : ℝ} (hs : 0 ≤ s) : max (s : EReal) 0 = (s : EReal) :=
  max_eq_left (by exact_mod_cast hs)

theorem max_zero_coe {s : ℝ} (hs : 0 ≤ s) : max 0 (s : EReal) = (s : EReal) :=
  max_eq_right (by exact_mod_cast hs)

/-- So the clamped expansion is the squared distance. -/
theorem max_sqdist_zero (a b : Fin 8 → ℝ) (e : ℝ) :
    max ((∑ d, ((a d - b d) + e) * ((a d - b d) + e) : ℝ) : EReal) 0
      = ((∑ d, ((a d - b d) + e) * ((a d - b d) + e) : ℝ) : EReal) :=
  max_coe_zero (sqdist_nonneg a b e)

theorem max_zero_sqdist (a b : Fin 8 → ℝ) (e : ℝ) :
    max 0 ((∑ d, ((a d - b d) + e) * ((a d - b d) + e) : ℝ) : EReal)
      = ((∑ d, ((a d - b d) + e) * ((a d - b d) + e) : ℝ) : EReal) :=
  max_zero_coe (sqdist_nonneg a b e)

/-- The clamped expansion, ingredients named, is the squared distance. -/
theorem max_sqdist_expand_coe (a b : Fin 8 → ℝ) (e : ℝ) (na nb cr sa sb c : ℝ) (hna : na = ∑ d, a d * a d)
    (hnb : nb = ∑ d, b d * b d) (hcr : cr = ∑ d, a d * b d) (hsa : sa = ∑ d, a d) (hsb : sb = ∑ d, b d)
    (hc : c = 8 * e ^ 2) :
    max (((((na : EReal) + (nb : EReal)) - 2 * (cr : EReal)) + ((2 * e : ℝ) : EReal) * ((sa : EReal) - (sb : EReal)))
        + (c : EReal)) 0
      = ((∑ d, ((a d - b d) + e) * ((a d - b d) + e) : ℝ) : EReal) := by
  rw [sqdist_expand_coe a b e na nb cr sa sb c hna hnb hcr hsa hsb hc]; exact max_sqdist_zero a b e

/-- The clamped expansion with its ingredients given as extended reals, each known to be the corresponding sum of
    real entries: it is the squared distance summed on the extended reals. -/
theorem max_sqdist_expand_of_eq (a b : Fin 8 → ℝ) (e : ℝ) (na nb cr sa sb e2 c : EReal)
    (hna : na = ∑ d, (a d : EReal) * (a d : EReal)) (hnb : nb = ∑ d, (b d : EReal) * (b d : EReal))
    (hcr : cr = ∑ d, (a d : EReal) * (b d : EReal)) (hsa : sa = ∑ d, (a d : EReal)) (hsb : sb = ∑ d, (b d : EReal))
    (he2 : e2 = ((2 * e : ℝ) : EReal)) (hc : c = ((8 * e ^ 2 : ℝ) : EReal)) :
    max ((((na + nb) - 2 * cr) + e2 * (sa - sb)) + c) 0
      = ∑ d, (((a d : EReal) - (b d : EReal)) + (e : EReal)) * (((a d : EReal) - (b d : EReal)) + (e : EReal)) := by
  rw [hna, hnb, hcr, hsa, hsb, he2, hc, sqdist_expand_ereal, sqdist_coe]
  exact max_sqdist_zero a b e

/-- The two evaluations side by side: the expansion — its cross term a product sum taken into a zero accumulator —
    clamped below at zero, against the direct sum of squares taken into a zero accumulator. -/
theorem sqdist_two_ways (a b : Fin 8 → ℝ) (e : ℝ) :
    max ((((((∑ d, (a d : EReal) * (a d : EReal)) + (∑ d, (b d : EReal) * (b d : EReal)))
            - 2 * (0 + ∑ d, (a d : EReal) * (b d : EReal)))
          + ((2 * e : ℝ) : EReal) * ((∑ d, (a d : EReal)) - (∑ d, (b d : EReal)))) + ((8 * e ^ 2 : ℝ) : EReal))) 0
      = 0 + ∑ d, (((a d : EReal) - (b d : EReal)) + (e : EReal)) * (((a d : EReal) - (b d : EReal)) + (e : EReal)) := by
  rw [zero_add, zero_add]
  exact max_sqdist_expand_of_eq a b e _ _ _ _ _ _ _ rfl rfl rfl rfl rfl rfl rfl

/-- The square root of a nonnegative real, computed in the reals. -/
theorem sqrt_coe_of_nonneg {r : ℝ} (h : 0 ≤ r) : Ideal.sqrt (r : EReal) = ((Real.sqrt r : ℝ) : EReal) := by
  rw [Ideal.sqrt_coe, if_neg (not_lt.2 h)]

/-- The constant term `8 e²` at the shift `e = 8796093 / 2^43`. -/
theorem eight_eps_sq :
    ((77371252064649 / 9671406556917033397649408 : ℝ)) = 8 * (8796093 / 2 ^ 43 : ℝ) ^ 2 := by
  norm_num

end Cert.Affinity

end
-- ==== Proof.QuotientAcrossSum.lean ====
/-
  A quotient moved across a finite sum.

  For real entries and a nonzero real divisor `c`,
      ∑ k, z k * (g k / c)  =  (∑ k, z k * g k) / c ,
  division by `c` being multiplication by the real `1 / c`, which distributes over a finite sum of reals. On the
  extended reals distributivity fails at the infinities, so the entries are required to be real; then both sides are the
  image of the same real number. This is the step between `A · ((Z · G) / c)` and `A · (Z · (G / c))`.
-/
import Mathlib.Algebra.BigOperators.Fin
import Idealize.ShloMosaic.PureOps.Ideal
import proofs.«165161_j56453050139080_2_alg».proof.Proof.RealEntries

noncomputable section

open scoped BigOperators

namespace Cert.Affinity

open Idealize.ShloMosaic

/-- Over the reals. -/
theorem sum_mul_div_real {ι : Type*} [Fintype ι] (z g : ι → ℝ) (c : ℝ) :
    ∑ k, z k * (g k / c) = (∑ k, z k * g k) / c := by
  rw [Finset.sum_div]; exact Finset.sum_congr rfl fun k _ => (mul_div_assoc _ _ _).symm

/-- On the extended reals, entries given as real numbers. -/
theorem sum_mul_div_coe {ι : Type*} [Fintype ι] (z g : ι → ℝ) {c : ℝ} (hc : c ≠ 0) :
    ∑ k, (z k : EReal) * Ideal.div (g k : EReal) (c : EReal)
      = Ideal.div (∑ k, (z k : EReal) * (g k : EReal)) (c : EReal) := by
  have hl : ∀ k, (z k : EReal) * Ideal.div (g k : EReal) (c : EReal) = ((z k * (g k / c) : ℝ) : EReal) := fun k => by
    rw [div_coe_coe _ hc, ← EReal.coe_mul]
  have hr : ∀ k, (z k : EReal) * (g k : EReal) = ((z k * g k : ℝ) : EReal) := fun k => (EReal.coe_mul _ _).symm
  simp only [hl, hr, ← Cert.LibRealSums.coe_finset_sum]
  rw [div_coe_coe _ hc, sum_mul_div_real]

/-- The same over `Fin n`. -/
theorem sum_mul_div_coe_fin (n : ℕ) (z g : Fin n → ℝ) {c : ℝ} (hc : c ≠ 0) :
    ∑ k, (z k : EReal) * Ideal.div (g k : EReal) (c : EReal)
      = Ideal.div (∑ k, (z k : EReal) * (g k : EReal)) (c : EReal) :=
  sum_mul_div_coe z g hc

/-- Both sides taken into a zero accumulator, as a matrix product into zeros reads. -/
theorem zero_add_sum_mul_div_coe {ι : Type*} [Fintype ι] (z g : ι → ℝ) {c : ℝ} (hc : c ≠ 0) :
    0 + ∑ k, (z k : EReal) * Ideal.div (g k : EReal) (c : EReal)
      = Ideal.div (0 + ∑ k, (z k : EReal) * (g k : EReal)) (c : EReal) := by
  rw [zero_add, zero_add]; exact sum_mul_div_coe z g hc

/-- Entries given as extended reals known to be real, the divisor known to be real and nonzero. -/
theorem sum_mul_div_of_isReal {ι : Type*} [Fintype ι] (z g : ι → EReal) {c : EReal} (hz : ∀ k, IsReal (z k))
    (hg : ∀ k, IsReal (g k)) (hc : IsReal c) (hc0 : c ≠ 0) :
    ∑ k, z k * Ideal.div (g k) c = Ideal.div (∑ k, z k * g k) c := by
  choose z' hz' using hz
  choose g' hg' using hg
  obtain ⟨c', rfl⟩ := hc
  have hc' : c' ≠ 0 := fun h => hc0 (by rw [h, EReal.coe_zero])
  simp only [hz', hg']
  exact sum_mul_div_coe z' g' hc'

theorem zero_add_sum_mul_div_of_isReal {ι : Type*} [Fintype ι] (z g : ι → EReal) {c : EReal}
    (hz : ∀ k, IsReal (z k)) (hg : ∀ k, IsReal (g k)) (hc : IsReal c) (hc0 : c ≠ 0) :
    0 + ∑ k, z k * Ideal.div (g k) c = Ideal.div (0 + ∑ k, z k * g k) c := by
  rw [zero_add, zero_add]; exact sum_mul_div_of_isReal z g hz hg hc hc0

/-- With a positive divisor. -/
theorem sum_mul_div_of_isPos {ι : Type*} [Fintype ι] (z g : ι → EReal) {c : EReal} (hz : ∀ k, IsReal (z k))
    (hg : ∀ k, IsReal (g k)) (hc : IsPos c) :
    ∑ k, z k * Ideal.div (g k) c = Ideal.div (∑ k, z k * g k) c :=
  sum_mul_div_of_isReal z g hz hg hc.isReal hc.ne_zero

theorem zero_add_sum_mul_div_of_isPos {ι : Type*} [Fintype ι] (z g : ι → EReal) {c : EReal}
    (hz : ∀ k, IsReal (z k)) (hg : ∀ k, IsReal (g k)) (hc : IsPos c) :
    0 + ∑ k, z k * Ideal.div (g k) c = Ideal.div (0 + ∑ k, z k * g k) c :=
  zero_add_sum_mul_div_of_isReal z g hz hg hc.isReal hc.ne_zero

end Cert.Affinity

end
-- ==== Proof.LibBlockSum.lean ====
/-
  Sums over array indices, re-indexed through coordinates.

  A rank-3 (rank-4) index set is the product of its coordinate ranges, so a sum over it is the iterated sum over the
  coordinates; and an axis of extent `T * B` cut into `T` blocks of `B` is summed block by block. Together these turn
  "the total over a whole array" into "the total, over the blocks that tile its leading axis, of each block's total" — the
  equation between a reference's one reduction over an array and a kernel's accumulation over a grid of row blocks.
-/
import Idealize.ShloMosaic.Lib.ValueIdx

noncomputable section

open scoped BigOperators

namespace Idealize.ShloMosaic.ValueIdx

open Idealize.ShloMosaic

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl
/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Row `b` of block `t`, of `T` blocks of `B` rows: row `t * B + b` of the whole. -/
def blockRow {T B : Nat} (t : Fin T) (b : Fin B) : Fin (T * B) :=
  ⟨t.val * B + b.val, by
    have ht := t.isLt; have hb := b.isLt
    calc t.val * B + b.val < t.val * B + B := by omega
      _ = (t.val + 1) * B := by ring
      _ ≤ T * B := Nat.mul_le_mul_right B ht⟩

theorem blockRow_val {T B : Nat} (t : Fin T) (b : Fin B) : (blockRow t b).val = t.val * B + b.val := rfl

/-- The rows of an axis of extent `T * B` are the rows of its `T` blocks: a bijection. -/
def blockRowEquiv (T B : Nat) : Fin T × Fin B ≃ Fin (T * B) where
  toFun p := blockRow p.1 p.2
  invFun r := (⟨r.val / B, by
      have hr := r.isLt
      rcases Nat.eq_zero_or_pos B with hB | hB
      · subst hB; simp at hr
      · exact (Nat.div_lt_iff_lt_mul hB).mpr hr⟩,
    ⟨r.val % B, by
      have hr := r.isLt
      rcases Nat.eq_zero_or_pos B with hB | hB
      · subst hB; simp at hr
      · exact Nat.mod_lt _ hB⟩)
  left_inv p := by
    obtain ⟨t, b⟩ := p
    have hb := b.isLt
    have hB : 0 < B := by omega
    refine Prod.ext (Fin.ext ?_) (Fin.ext ?_)
    · show (t.val * B + b.val) / B = t.val
      rw [Nat.add_comm, Nat.add_mul_div_right _ _ hB, Nat.div_eq_of_lt hb, Nat.zero_add]
    · show (t.val * B + b.val) % B = b.val
      rw [Nat.add_comm, Nat.add_mul_mod_self_right, Nat.mod_eq_of_lt hb]
  right_inv r := by
    apply Fin.ext
    show r.val / B * B + r.val % B = r.val
    rw [Nat.mul_comm]; exact Nat.div_add_mod r.val B

/-- A sum over an axis of extent `T * B` is the sum over its `T` blocks of the sum over each block's `B` rows. -/
theorem sum_blockRows {M : Type*} [AddCommMonoid M] (T B : Nat) (f : Fin (T * B) → M) :
    ∑ r, f r = ∑ t : Fin T, ∑ b : Fin B, f (blockRow t b) := by
  rw [← Equiv.sum_comp (blockRowEquiv T B) f, Fintype.sum_prod_type]
  rfl

end Idealize.ShloMosaic.ValueIdx

end
-- ==== Proof.BlockedTotals.lean ====
/-
  Totals taken block by block.

  Addition on the extended reals is commutative and associative (they form a commutative additive monoid), so a finite
  sum may be regrouped freely, with no finiteness assumption on its terms. An axis of extent `T * B` is the disjoint
  union of `T` blocks of `B` consecutive rows, so the total over the axis is the sum over the blocks of each block's
  total; and a running accumulation that starts at `0 + s 0` and adds `s (t+1)` at step `t+1` ends at `∑ t, s t`.
  The two extents used: 3000 rows as 15 blocks of 200, and 500000 rows as 100 blocks of 5000.
-/
import Mathlib.Algebra.BigOperators.Fin
import Mathlib.Algebra.BigOperators.Intervals
import Mathlib.Tactic.NormNum
import Mathlib.Tactic.Ring
import proofs.«165161_j56453050139080_2_alg».proof.Proof.LibBlockSum

noncomputable section

open scoped BigOperators

namespace Cert.Affinity

open Idealize.ShloMosaic Idealize.ShloMosaic.ValueIdx

/-- An axis of extent `N = T * B` summed block by block, the row of block `t` at offset `i` given by any map that
    lands on row `t * B + i`. -/
theorem sum_blocked {M : Type*} [AddCommMonoid M] {T B N : ℕ} (hN : N = T * B) (f : Fin N → M)
    (row : Fin T → Fin B → Fin N) (hrow : ∀ t i, (row t i).val = t.val * B + i.val) :
    ∑ r, f r = ∑ t : Fin T, ∑ i : Fin B, f (row t i) := by
  subst hN
  rw [sum_blockRows T B f]
  refine Finset.sum_congr rfl fun t _ => Finset.sum_congr rfl fun i _ => ?_
  exact congrArg f (Fin.ext (by rw [blockRow_val, hrow]))

/-- The same with the offset written `B * t + i`. -/
theorem sum_blocked' {M : Type*} [AddCommMonoid M] {T B N : ℕ} (hN : N = T * B) (f : Fin N → M)
    (row : Fin T → Fin B → Fin N) (hrow : ∀ t i, (row t i).val = B * t.val + i.val) :
    ∑ r, f r = ∑ t : Fin T, ∑ i : Fin B, f (row t i) :=
  sum_blocked hN f row fun t i => by rw [hrow, Nat.mul_comm]

/-- A sum over pairs (row, column), the rows taken block by block. -/
theorem sum_pairs_blocked {M : Type*} [AddCommMonoid M] {T B N C : ℕ} (hN : N = T * B) (f : Fin N × Fin C → M)
    (row : Fin T → Fin B → Fin N) (hrow : ∀ t i, (row t i).val = t.val * B + i.val) :
    ∑ p, f p = ∑ t : Fin T, ∑ q : Fin B × Fin C, f (row t q.1, q.2) := by
  rw [Fintype.sum_prod_type, sum_blocked hN (fun r => ∑ j, f (r, j)) row hrow]
  refine Finset.sum_congr rfl fun t _ => ?_
  rw [Fintype.sum_prod_type]

/-- Row `200 * t + i` of 3000, for block `t` of 15 and offset `i` of 200. -/
def row3000 (t : Fin 15) (i : Fin 200) : Fin 3000 := ⟨200 * t.val + i.val, by omega⟩

theorem row3000_val (t : Fin 15) (i : Fin 200) : (row3000 t i).val = 200 * t.val + i.val := rfl

/-- Row `5000 * t + r` of 500000, for block `t` of 100 and offset `r` of 5000. -/
def row500000 (t : Fin 100) (r : Fin 5000) : Fin 500000 := ⟨5000 * t.val + r.val, by omega⟩

theorem row500000_val (t : Fin 100) (r : Fin 5000) : (row500000 t r).val = 5000 * t.val + r.val := rfl

/-- A total over 3000 × 3000 pairs is the sum over 15 row blocks of each block's total over 200 × 3000 pairs. -/
theorem sum_3000x3000_blocked {M : Type*} [AddCommMonoid M] (f : Fin 3000 × Fin 3000 → M) :
    ∑ p, f p = ∑ t : Fin 15, ∑ q : Fin 200 × Fin 3000, f (row3000 t q.1, q.2) :=
  sum_pairs_blocked (by norm_num) f row3000 fun t i => by rw [row3000_val, Nat.mul_comm]

/-- The same as iterated sums. -/
theorem sum_3000_3000_blocked {M : Type*} [AddCommMonoid M] (f : Fin 3000 → Fin 3000 → M) :
    ∑ i, ∑ j, f i j = ∑ t : Fin 15, ∑ i : Fin 200, ∑ j, f (row3000 t i) j :=
  sum_blocked' (by norm_num) (fun i => ∑ j, f i j) row3000 row3000_val

/-- A total over 500000 rows is the sum over 100 blocks of each block's total over 5000 rows. -/
theorem sum_500000_blocked {M : Type*} [AddCommMonoid M] (f : Fin 500000 → M) :
    ∑ r, f r = ∑ t : Fin 100, ∑ r : Fin 5000, f (row500000 t r) :=
  sum_blocked' (by norm_num) f row500000 row500000_val

/-! ### A running accumulation -/

/-- An accumulation that starts at `0 + s 0` and adds `s (t+1)` at step `t+1` holds, after step `t`, the sum of
    `s 0, …, s t`. -/
theorem running_sum {M : Type*} [AddCommMonoid M] (n : ℕ) (s acc : ℕ → M) (h0 : acc 0 = 0 + s 0)
    (hstep : ∀ t, t + 1 < n → acc (t + 1) = acc t + s (t + 1)) :
    ∀ t, t < n → acc t = ∑ i ∈ Finset.range (t + 1), s i := by
  intro t
  induction t with
  | zero => intro _; rw [h0, zero_add, Finset.sum_range_one]
  | succ t ih =>
    intro ht
    rw [hstep t ht, ih (by omega), Finset.sum_range_succ _ (t + 1)]

/-- So after the last of `n + 1` steps it holds the whole sum. -/
theorem running_sum_last {M : Type*} [AddCommMonoid M] (n : ℕ) (s acc : ℕ → M) (h0 : acc 0 = 0 + s 0)
    (hstep : ∀ t, t + 1 < n + 1 → acc (t + 1) = acc t + s (t + 1)) :
    acc n = ∑ i ∈ Finset.range (n + 1), s i :=
  running_sum (n + 1) s acc h0 hstep n (Nat.lt_succ_self n)

/-- The same with the steps indexed by `Fin (n + 1)`. -/
theorem running_sum_fin {M : Type*} [AddCommMonoid M] (n : ℕ) (s acc : Fin (n + 1) → M) (h0 : acc 0 = 0 + s 0)
    (hstep : ∀ t : Fin n, acc t.succ = acc t.castSucc + s t.succ) :
    acc (Fin.last n) = ∑ t, s t := by
  let acc' : ℕ → M := fun t => if h : t < n + 1 then acc ⟨t, h⟩ else 0
  let s' : ℕ → M := fun t => if h : t < n + 1 then s ⟨t, h⟩ else 0
  have hs' : ∀ i : Fin (n + 1), s' i.val = s i := fun i => by simp only [s', dif_pos i.isLt, Fin.eta]
  have ha' : ∀ i : Fin (n + 1), acc' i.val = acc i := fun i => by simp only [acc', dif_pos i.isLt, Fin.eta]
  have h0' : acc' 0 = 0 + s' 0 := (ha' 0).trans (h0.trans (by rw [← hs' 0]; rfl))
  have hstep' : ∀ t, t + 1 < n + 1 → acc' (t + 1) = acc' t + s' (t + 1) := by
    intro t ht
    have h := hstep ⟨t, by omega⟩
    simp only [acc', s', dif_pos ht, dif_pos (show t < n + 1 by omega)]
    exact h
  calc acc (Fin.last n) = acc' n := (ha' (Fin.last n)).symm
    _ = ∑ i ∈ Finset.range (n + 1), s' i := running_sum_last n s' acc' h0' hstep'
    _ = ∑ i : Fin (n + 1), s' i.val := Finset.sum_range _
    _ = ∑ i, s i := Finset.sum_congr rfl fun i _ => hs' i

/-- A left fold of additions from zero over the first `n` terms is their sum. -/
theorem foldl_add_range {M : Type*} [AddCommMonoid M] (s : ℕ → M) (n : ℕ) :
    (List.range n).foldl (fun acc t => acc + s t) 0 = ∑ t ∈ Finset.range n, s t := by
  induction n with
  | zero => simp
  | succ n ih => rw [List.range_succ, List.foldl_append, ih, List.foldl_cons, List.foldl_nil, Finset.sum_range_succ]

end Cert.Affinity

end
-- ==== Proof.Bridge.lean ====
/-
  The two spellings of the specification agree on real entries.

  * Normalising `ZG` by its (positive) column sums before or after contracting with `Z` gives one 8 × 8 matrix: a
    quotient by a nonzero real moves across a finite sum of reals.
  * Real entries stay real through `latent` and `proj` (finite sums of products of reals).
  * On real coordinates the expansion `|a|² + |b|² - 2 a·b + 2e (Σa - Σb) + 8e²` IS `Σ_d ((a_d - b_d) + e)²`, which is
    nonnegative, so clamping it below at zero changes nothing.
  * A total over 3000 × 3000 pairs is the running total of its 15 row blocks of 200, and a total over 500000 edges
    the running total of its 100 blocks of 5000: addition on the extended reals is commutative and associative, so
    this regrouping needs no finiteness.
-/
import proofs.«165161_j56453050139080_2_alg».proof.Proof.Spec
import proofs.«165161_j56453050139080_2_alg».proof.Proof.RealEntries
import proofs.«165161_j56453050139080_2_alg».proof.Proof.DistanceExpansion
import proofs.«165161_j56453050139080_2_alg».proof.Proof.QuotientAcrossSum
import proofs.«165161_j56453050139080_2_alg».proof.Proof.BlockedTotals

noncomputable section

open Idealize.ShloMosaic

namespace Cert.Affinity

/-! ## The 8 × 8 mixing matrix -/

/-- Normalise then contract, or contract then normalise: one matrix, on real entries and positive column sums. -/
theorem mix_eq (Z : Fin 8 → Fin 100000 → EReal) (ZG : Fin 100000 → Fin 8 → EReal) (cs : Fin 8 → EReal)
    (hZ : ∀ a n, IsReal (Z a n)) (hZG : ∀ n k, IsReal (ZG n k)) (hcs : ∀ k, IsPos (cs k)) :
    mixNormThenSum Z ZG cs = mixSumThenNorm Z ZG cs := by
  funext a k
  exact zero_add_sum_mul_div_of_isPos (fun n => Z a n) (fun n => ZG n k) (fun n => hZ a n) (fun n => hZG n k) (hcs k)

theorem mixSumThenNorm_real (Z : Fin 8 → Fin 100000 → EReal) (ZG : Fin 100000 → Fin 8 → EReal) (cs : Fin 8 → EReal)
    (hZ : ∀ a n, IsReal (Z a n)) (hZG : ∀ n k, IsReal (ZG n k)) (hcs : ∀ k, IsPos (cs k)) (a k : Fin 8) :
    IsReal (mixSumThenNorm Z ZG cs a k) :=
  IsReal.div (isReal_zero_sum_mul (fun n => Z a n) (fun n => ZG n k) (fun n => hZ a n) (fun n => hZG n k)) (hcs k)

theorem latent_real (A M : Fin 8 → Fin 8 → EReal) (hA : ∀ i j, IsReal (A i j)) (hM : ∀ i j, IsReal (M i j))
    (i j : Fin 8) : IsReal (latent A M i j) :=
  isReal_zero_sum_mul (fun k => A j k) (fun k => M k i) (fun k => hA j k) (fun k => hM k i)

theorem proj_real (L : Fin 8 → Fin 8 → EReal) (Zx : Fin 8 → Fin 50000 → EReal) (hL : ∀ i j, IsReal (L i j))
    (hZ : ∀ k n, IsReal (Zx k n)) (n : Fin 50000) (d : Fin 8) : IsReal (proj L Zx n d) :=
  isReal_zero_sum_mul (fun k => L d k) (fun k => Zx k n) (fun k => hL d k) (fun k => hZ k n)

/-! ## The squared distance -/

theorem eightEpsSq_eq : ((eightEpsSq : ℝ) : EReal) = ((8 * eps ^ 2 : ℝ) : EReal) := by
  unfold eightEpsSq eps; rw [eight_eps_sq]

/-- On real coordinates the clamped expansion is the direct squared distance. -/
theorem sqdist_clamped (a b : Fin 8 → EReal) (ha : ∀ d, IsReal (a d)) (hb : ∀ d, IsReal (b d)) :
    max (sqdistExpanded ((eightEpsSq : ℝ) : EReal) a b) 0 = sqdistDirect a b := by
  choose a' ha' using ha
  choose b' hb' using hb
  obtain rfl : a = fun d => ((a' d : ℝ) : EReal) := funext ha'
  obtain rfl : b = fun d => ((b' d : ℝ) : EReal) := funext hb'
  unfold sqdistExpanded sqdistDirect
  simp only [zero_add]
  exact max_sqdist_expand_of_eq a' b' eps _ _ _ _ _ _ _ rfl rfl rfl rfl rfl rfl eightEpsSq_eq

/-! ## Running totals -/

/-- A running total after step `n` is the sum of the first `n + 1` blocks. -/
theorem running_eq_sum_init {T : ℕ} (s : Fin (T + 1) → EReal) :
    ∀ (n : ℕ) (h : n < T + 1), running s n h = ∑ i : Fin (n + 1), s ⟨i.val, by omega⟩
  | 0, h => by
    rw [running, zero_add, Fin.sum_univ_one]; rfl
  | n + 1, h => by
    rw [running, running_eq_sum_init s n (Nat.lt_of_succ_lt h)]
    exact (Fin.sum_univ_castSucc (fun i : Fin (n + 1 + 1) => s ⟨i.val, by omega⟩)).symm

/-- After the last step it is the sum of all the blocks. -/
theorem running_last {T : ℕ} (s : Fin (T + 1) → EReal) : running s T (Nat.lt_succ_self T) = ∑ t, s t := by
  rw [running_eq_sum_init s T (Nat.lt_succ_self T)]

/-- The sampled term, taken directly over all pairs, is the running total of its 15 row blocks evaluated through the
    clamped expansion, on real latent coordinates. -/
theorem sampled_eq (bs gs : Fin 3000 → EReal) (Mi Mj : Fin 3000 → Fin 8 → EReal)
    (hMi : ∀ i d, IsReal (Mi i d)) (hMj : ∀ j d, IsReal (Mj j d)) :
    sampledDirect bs gs Mi Mj
      = running (T := 14) (sampledBlock ((eightEpsSq : ℝ) : EReal) bs gs Mi Mj) 14 (by omega) := by
  rw [running_last (T := 14)]
  unfold sampledDirect sampledBlock
  rw [zero_add, sum_3000_3000_blocked]
  refine Finset.sum_congr rfl fun t _ => ?_
  rw [zero_add]
  refine Finset.sum_congr rfl fun i _ => Finset.sum_congr rfl fun j _ => ?_
  rw [sqdist_clamped _ _ (hMi _) (hMj j)]
  rfl

/-- The edge term, taken directly over all edges, is the running total of its 100 blocks. -/
theorem edges_eq (be ge : Fin 500000 → EReal) (P Q : Fin 500000 → Fin 8 → EReal) :
    edgesDirect be ge P Q = running (T := 99) (edgesBlock be ge P Q) 99 (by omega) := by
  rw [running_last (T := 99)]
  unfold edgesDirect edgesBlock
  rw [zero_add, sum_500000_blocked]
  refine Finset.sum_congr rfl fun t _ => ?_
  rw [zero_add]
  rfl

end Cert.Affinity

end
-- ==== Proof.SpecEqual.lean ====
/-
  The reference's direct forms are the kernel's blocked forms, on real inputs.

  With real entries in `A`, the two position arrays and `G`, the five shared arrays are positive reals. Then normalising
  before or after the contraction gives one mixing matrix, so the two programs have one `L` and the same latent
  positions; these are real, so the clamped expansion of the squared distance is the direct one; and a total over all
  pairs (all edges) is the running total of its row blocks.
-/
import proofs.«165161_j56453050139080_2_alg».proof.Proof.RefSuffix
import proofs.«165161_j56453050139080_2_alg».proof.Proof.RefPrefix
import proofs.«165161_j56453050139080_2_alg».proof.Proof.Bridge

noncomputable section

open scoped BigOperators

namespace Cert.ReferenceIdeal.RefValue

open Cert Cert.ReferenceIdeal Cert.ReferenceIdeal.Gen Cert.ReferenceIdeal.ReadP Idealize.ShloMosaic Idealize.ShloMosaic.ValueIdx
  Idealize.ShloMosaic.TcCoe Idealize.SL.Sem Idealize.ShloMosaic.StableHlo

/-! ## The kernel-side forms: contract first, then normalise -/

/-- `((A · ((Z · ZG) / cs)))ᵀ`. -/
def Lk (x2 : Mat8x8) (x3 x4 : Mat8x50000) (x5 : Mat100000x8) : Fin 8 → Fin 8 → EReal :=
  Affinity.latent (Amat x2) (Affinity.mixSumThenNorm (Z x3 x4) (ZG x3 x4 x5) (cs x3 x4 x5))

/-- The latent position of sampled row `r`, through `Lk`. -/
def Mik (x2 : Mat8x8) (x3 x4 : Mat8x50000) (x5 : Mat100000x8) (x6 : Idx3000) (r : Fin 3000) (d : Fin 8) : EReal :=
  Affinity.proj (Lk x2 x3 x4 x5) (Zi x3) (Affinity.startRow (val_main_v42 (F := Ideal) x6 (ix1 r))) d

/-- The latent position of sampled column `r`, through `Lk`. -/
def Mjk (x2 : Mat8x8) (x3 x4 : Mat8x50000) (x5 : Mat100000x8) (x7 : Idx3000) (r : Fin 3000) (d : Fin 8) : EReal :=
  Affinity.proj (Lk x2 x3 x4 x5) (Zj x4) (Affinity.startRow (val_main_v51 (F := Ideal) x7 (ix1 r))) d

/-- The latent position of the source of edge `r`, through `Lk`. -/
def Pek (x2 : Mat8x8) (x3 x4 : Mat8x50000) (x5 : Mat100000x8) (x8 : Idx500000) (r : Fin 500000) (d : Fin 8) : EReal :=
  Affinity.proj (Lk x2 x3 x4 x5) (Zi x3) (Affinity.startRow (val_main_v92 (F := Ideal) x8 (ix1 r))) d

/-- The latent position of the target of edge `r`, through `Lk`. -/
def Qek (x2 : Mat8x8) (x3 x4 : Mat8x50000) (x5 : Mat100000x8) (x9 : Idx500000) (r : Fin 500000) (d : Fin 8) : EReal :=
  Affinity.proj (Lk x2 x3 x4 x5) (Zj x4) (Affinity.startRow (val_main_v101 (F := Ideal) x9 (ix1 r))) d

/-! ## Real inputs -/

theorem Zi_real (x3 : Mat8x50000) (h3 : ∀ i, Affinity.IsReal (x3 i)) (k : Fin 8) (n : Fin 50000) : Affinity.IsReal (Zi x3 k n) :=
  (isPos_v10 x3 h3 _).isReal
theorem Zj_real (x4 : Mat8x50000) (h4 : ∀ i, Affinity.IsReal (x4 i)) (k : Fin 8) (n : Fin 50000) : Affinity.IsReal (Zj x4 k n) :=
  (isPos_v21 x4 h4 _).isReal
theorem Z_real (x3 x4 : Mat8x50000) (h3 : ∀ i, Affinity.IsReal (x3 i)) (h4 : ∀ i, Affinity.IsReal (x4 i)) (a : Fin 8) (n : Fin 100000) : Affinity.IsReal (Z x3 x4 a n) :=
  (isPos_v22 x3 x4 h3 h4 _).isReal
theorem ZG_real (x3 x4 : Mat8x50000) (x5 : Mat100000x8) (h3 : ∀ i, Affinity.IsReal (x3 i)) (h4 : ∀ i, Affinity.IsReal (x4 i)) (h5 : ∀ i, Affinity.IsReal (x5 i)) (n : Fin 100000) (k : Fin 8) :
    Affinity.IsReal (ZG x3 x4 x5 n k) :=
  (isPos_v30 x3 x4 x5 h3 h4 h5 _).isReal
theorem cs_pos (x3 x4 : Mat8x50000) (x5 : Mat100000x8) (h3 : ∀ i, Affinity.IsReal (x3 i)) (h4 : ∀ i, Affinity.IsReal (x4 i)) (h5 : ∀ i, Affinity.IsReal (x5 i)) (k : Fin 8) :
    Affinity.IsPos (cs x3 x4 x5 k) :=
  isPos_v31 x3 x4 x5 h3 h4 h5 _

/-- One mixing matrix, hence one `L`. -/
theorem L_eq_Lk (x2 : Mat8x8) (x3 x4 : Mat8x50000) (x5 : Mat100000x8) (h3 : ∀ i, Affinity.IsReal (x3 i)) (h4 : ∀ i, Affinity.IsReal (x4 i)) (h5 : ∀ i, Affinity.IsReal (x5 i)) : L x2 x3 x4 x5 = Lk x2 x3 x4 x5 := by
  unfold L Lk
  rw [Affinity.mix_eq _ _ _ (Z_real x3 x4 h3 h4) (ZG_real x3 x4 x5 h3 h4 h5) (cs_pos x3 x4 x5 h3 h4 h5)]

theorem Lk_real (x2 : Mat8x8) (x3 x4 : Mat8x50000) (x5 : Mat100000x8) (h2 : ∀ i, Affinity.IsReal (x2 i)) (h3 : ∀ i, Affinity.IsReal (x3 i)) (h4 : ∀ i, Affinity.IsReal (x4 i)) (h5 : ∀ i, Affinity.IsReal (x5 i)) (i j : Fin 8) : Affinity.IsReal (Lk x2 x3 x4 x5 i j) :=
  Affinity.latent_real _ _ (fun i j => h2 _)
    (Affinity.mixSumThenNorm_real _ _ _ (Z_real x3 x4 h3 h4) (ZG_real x3 x4 x5 h3 h4 h5) (cs_pos x3 x4 x5 h3 h4 h5)) i j

theorem Mi_eq (x2 : Mat8x8) (x3 x4 : Mat8x50000) (x5 : Mat100000x8) (h3 : ∀ i, Affinity.IsReal (x3 i)) (h4 : ∀ i, Affinity.IsReal (x4 i)) (h5 : ∀ i, Affinity.IsReal (x5 i)) (x6 : Idx3000) :
    Mi x2 x3 x4 x5 x6 = Mik x2 x3 x4 x5 x6 := by
  funext r d
  unfold Mi Mik
  rw [L_eq_Lk x2 x3 x4 x5 h3 h4 h5]

theorem Mik_real (x2 : Mat8x8) (x3 x4 : Mat8x50000) (x5 : Mat100000x8) (h2 : ∀ i, Affinity.IsReal (x2 i)) (h3 : ∀ i, Affinity.IsReal (x3 i)) (h4 : ∀ i, Affinity.IsReal (x4 i)) (h5 : ∀ i, Affinity.IsReal (x5 i)) (x6 : Idx3000) (r : Fin 3000) (d : Fin 8) :
    Affinity.IsReal (Mik x2 x3 x4 x5 x6 r d) :=
  Affinity.proj_real _ _ (Lk_real x2 x3 x4 x5 h2 h3 h4 h5) (Zi_real x3 h3) _ d

theorem Mj_eq (x2 : Mat8x8) (x3 x4 : Mat8x50000) (x5 : Mat100000x8) (h3 : ∀ i, Affinity.IsReal (x3 i)) (h4 : ∀ i, Affinity.IsReal (x4 i)) (h5 : ∀ i, Affinity.IsReal (x5 i)) (x7 : Idx3000) :
    Mj x2 x3 x4 x5 x7 = Mjk x2 x3 x4 x5 x7 := by
  funext r d
  unfold Mj Mjk
  rw [L_eq_Lk x2 x3 x4 x5 h3 h4 h5]

theorem Mjk_real (x2 : Mat8x8) (x3 x4 : Mat8x50000) (x5 : Mat100000x8) (h2 : ∀ i, Affinity.IsReal (x2 i)) (h3 : ∀ i, Affinity.IsReal (x3 i)) (h4 : ∀ i, Affinity.IsReal (x4 i)) (h5 : ∀ i, Affinity.IsReal (x5 i)) (x7 : Idx3000) (r : Fin 3000) (d : Fin 8) :
    Affinity.IsReal (Mjk x2 x3 x4 x5 x7 r d) :=
  Affinity.proj_real _ _ (Lk_real x2 x3 x4 x5 h2 h3 h4 h5) (Zj_real x4 h4) _ d

theorem Pe_eq (x2 : Mat8x8) (x3 x4 : Mat8x50000) (x5 : Mat100000x8) (h3 : ∀ i, Affinity.IsReal (x3 i)) (h4 : ∀ i, Affinity.IsReal (x4 i)) (h5 : ∀ i, Affinity.IsReal (x5 i)) (x8 : Idx500000) :
    Pe x2 x3 x4 x5 x8 = Pek x2 x3 x4 x5 x8 := by
  funext r d
  unfold Pe Pek
  rw [L_eq_Lk x2 x3 x4 x5 h3 h4 h5]

theorem Pek_real (x2 : Mat8x8) (x3 x4 : Mat8x50000) (x5 : Mat100000x8) (h2 : ∀ i, Affinity.IsReal (x2 i)) (h3 : ∀ i, Affinity.IsReal (x3 i)) (h4 : ∀ i, Affinity.IsReal (x4 i)) (h5 : ∀ i, Affinity.IsReal (x5 i)) (x8 : Idx500000) (r : Fin 500000) (d : Fin 8) :
    Affinity.IsReal (Pek x2 x3 x4 x5 x8 r d) :=
  Affinity.proj_real _ _ (Lk_real x2 x3 x4 x5 h2 h3 h4 h5) (Zi_real x3 h3) _ d

theorem Qe_eq (x2 : Mat8x8) (x3 x4 : Mat8x50000) (x5 : Mat100000x8) (h3 : ∀ i, Affinity.IsReal (x3 i)) (h4 : ∀ i, Affinity.IsReal (x4 i)) (h5 : ∀ i, Affinity.IsReal (x5 i)) (x9 : Idx500000) :
    Qe x2 x3 x4 x5 x9 = Qek x2 x3 x4 x5 x9 := by
  funext r d
  unfold Qe Qek
  rw [L_eq_Lk x2 x3 x4 x5 h3 h4 h5]

theorem Qek_real (x2 : Mat8x8) (x3 x4 : Mat8x50000) (x5 : Mat100000x8) (h2 : ∀ i, Affinity.IsReal (x2 i)) (h3 : ∀ i, Affinity.IsReal (x3 i)) (h4 : ∀ i, Affinity.IsReal (x4 i)) (h5 : ∀ i, Affinity.IsReal (x5 i)) (x9 : Idx500000) (r : Fin 500000) (d : Fin 8) :
    Affinity.IsReal (Qek x2 x3 x4 x5 x9 r d) :=
  Affinity.proj_real _ _ (Lk_real x2 x3 x4 x5 h2 h3 h4 h5) (Zj_real x4 h4) _ d

/-- The reference's direct forms are the running totals of the kernel's blocks. -/
theorem spec_equal (x2 : Mat8x8) (x3 x4 : Mat8x50000) (x5 : Mat100000x8)
    (h2 : ∀ i, Affinity.IsReal (x2 i)) (h3 : ∀ i, Affinity.IsReal (x3 i)) (h4 : ∀ i, Affinity.IsReal (x4 i)) (h5 : ∀ i, Affinity.IsReal (x5 i))
    (x0 x1 : Vec50000) (x6 x7 : Idx3000) (x8 x9 : Idx500000) :
    Affinity.edgesDirect (be x0 x8) (ge x1 x9) (Pe x2 x3 x4 x5 x8) (Qe x2 x3 x4 x5 x9)
        - Affinity.sampledDirect (bs x0 x6) (gs x1 x7) (Mi x2 x3 x4 x5 x6) (Mj x2 x3 x4 x5 x7)
      = Affinity.running (T := 99)
          (Affinity.edgesBlock (be x0 x8) (ge x1 x9) (Pek x2 x3 x4 x5 x8) (Qek x2 x3 x4 x5 x9)) 99 (by omega)
        - Affinity.running (T := 14)
          (Affinity.sampledBlock ((Affinity.eightEpsSq : ℝ) : EReal) (bs x0 x6) (gs x1 x7) (Mik x2 x3 x4 x5 x6)
            (Mjk x2 x3 x4 x5 x7)) 14 (by omega) := by
  rw [Mi_eq x2 x3 x4 x5 h3 h4 h5, Mj_eq x2 x3 x4 x5 h3 h4 h5, Pe_eq x2 x3 x4 x5 h3 h4 h5, Qe_eq x2 x3 x4 x5 h3 h4 h5,
    Affinity.sampled_eq _ _ _ _ (Mik_real x2 x3 x4 x5 h2 h3 h4 h5 x6) (Mjk_real x2 x3 x4 x5 h2 h3 h4 h5 x7),
    Affinity.edges_eq]

/-- The reference's result, as the running totals of the kernel's blocks. -/
theorem v128_spec (x2 : Mat8x8) (x3 x4 : Mat8x50000) (x5 : Mat100000x8)
    (h2 : ∀ i, Affinity.IsReal (x2 i)) (h3 : ∀ i, Affinity.IsReal (x3 i)) (h4 : ∀ i, Affinity.IsReal (x4 i)) (h5 : ∀ i, Affinity.IsReal (x5 i))
    (x0 x1 : Vec50000) (x6 x7 : Idx3000) (x8 x9 : Idx500000) :
    val_main_v128 (F := Ideal) x0 x1 x2 x3 x4 x5 x6 x7 x8 x9 ix0
      = Affinity.running (T := 99)
          (Affinity.edgesBlock (be x0 x8) (ge x1 x9) (Pek x2 x3 x4 x5 x8) (Qek x2 x3 x4 x5 x9)) 99 (by omega)
        - Affinity.running (T := 14)
          (Affinity.sampledBlock ((Affinity.eightEpsSq : ℝ) : EReal) (bs x0 x6) (gs x1 x7) (Mik x2 x3 x4 x5 x6)
            (Mjk x2 x3 x4 x5 x7)) 14 (by omega) :=
  (v128_eq x0 x1 x2 x3 x4 x5 x6 x7 x8 x9).trans (spec_equal x2 x3 x4 x5 h2 h3 h4 h5 x0 x1 x6 x7 x8 x9)

end Cert.ReferenceIdeal.RefValue

end
-- ==== Proof.AlgebraicFrom.lean ====
/-
  The algebraic claim, from one fact about the kernel.

  The kernel's run leaves its result buffer at the contents its launch names; the reference's run leaves its result buffer
  at the last stage of the program read one operation at a time, at the ten arguments. Both results are scalars, arrays
  with one index. On real entries the reference's last stage is the difference of two running totals over row blocks: the
  total over the edges' blocks less the total over the sampled pairs' blocks, each block formed from the latent positions
  that the mixing matrix — contracted first, then normalised — gives the gathered columns. The precondition makes the six
  float arguments real, and the two memories agree on the arguments. So the claim follows once the kernel's named result,
  at its one index, is that same difference of the kernel's own arguments: the hypothesis `hK`.
-/
import proofs.«165161_j56453050139080_2_alg».proof.Defs
import proofs.«165161_j56453050139080_2_alg».proof.Proof.RefSide
import proofs.«165161_j56453050139080_2_alg».proof.Proof.PreReal
import proofs.«165161_j56453050139080_2_alg».proof.Proof.SpecEqual
import proofs.«165161_j56453050139080_2_alg».proof.Proof.KernelLaunch

noncomputable section

namespace Cert.Proof.Assembly

open Cert Idealize.ShloMosaic Idealize.ShloMosaic.TcCoe Idealize.SL.Sem Idealize.ShloMosaic.ValueIdx
open Cert.ReferenceIdeal.RefValue Cert.ReferenceIdeal.ReadP

/-- The difference of the two running totals, as a function of ten argument arrays: the total over the 99 blocks of
    edges less the total over the 14 blocks of sampled pairs. -/
def specOf (x0 x1 : Vec50000) (x2 : Mat8x8) (x3 x4 : Mat8x50000) (x5 : Mat100000x8) (x6 x7 : Idx3000)
    (x8 x9 : Idx500000) : EReal :=
  Affinity.running (T := 99)
      (Affinity.edgesBlock (be x0 x8) (ge x1 x9) (Pek x2 x3 x4 x5 x8) (Qek x2 x3 x4 x5 x9)) 99 (by omega)
    - Affinity.running (T := 14)
      (Affinity.sampledBlock ((Affinity.eightEpsSq : ℝ) : EReal) (bs x0 x6) (gs x1 x7) (Mik x2 x3 x4 x5 x6)
        (Mjk x2 x3 x4 x5 x7)) 14 (by omega)

/-- That difference at the kernel's ten arguments on device `c`. -/
def KSpec (m : (ℓ : Loc Cert.KernelIdeal.nD Cert.KernelIdeal.τ Cert.KernelIdeal.sig) → Buf (Elt Ideal) ℓ)
    (c : Dev Cert.KernelIdeal.nD) : EReal :=
  specOf (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))

instance : Subsingleton Cert.ReferenceIdeal.S_.Idx := ⟨fun a b => funext fun d => d.elim0⟩

/-- The algebraic claim, given that the kernel's named result at its one index is the specification of its arguments. -/
theorem algebraic_of
    (hK : ∀ (m : (ℓ : Loc Cert.KernelIdeal.nD Cert.KernelIdeal.τ Cert.KernelIdeal.sig) → Buf (Elt Ideal) ℓ)
      (hpre : Cert.Pre_KernelIdeal m) (c : Dev Cert.KernelIdeal.nD),
      Cert.KernelIdeal.Hand.V5 m c (Proc.devRef .tc Cert.KernelIdeal.main_v106) ValueIdx.ix0 = KSpec m c) :
    Cert.algebraic_KernelIdeal_ReferenceIdeal := by
  intro m ρ m' ρ' hpre hagree
  refine ⟨fun c => Cert.KernelIdeal.Hand.V5 m c (Proc.devRef .tc Cert.KernelIdeal.main_v106),
    Cert.KernelIdeal.Hand.run_main (F := Ideal) m ρ, ?_⟩
  refine (θ_run Cert.ReferenceIdeal.defs _ _).mono (fun _ h c => ⟨(h c).1.trans ?_, (h c).2⟩) (ref_run m' ρ')
  obtain ⟨a0, a1, a2, a3, a4, a5, a6, a7, a8, a9⟩ := hagree c
  obtain ⟨h0, h1, h2, h3, h4, h5⟩ := pre_real_KernelIdeal m hpre c
  rw [a0, a1, a2, a3, a4, a5, a6, a7, a8, a9]
  funext i
  obtain rfl : i = ValueIdx.ix0 := Subsingleton.elim _ _
  exact (v128_spec _ _ _ _ h2 h3 h4 h5 _ _ _ _ _ _).trans (hK m hpre c).symm

end Cert.Proof.Assembly

end
-- ==== Proof.KernelTotals.lean ====
/-
  The kernels' running totals, read into the specification.

  Each kernel walks its grid; at point `t` it is handed one block of each of its input arrays. A block's rows are
  rows `B * t … B * t + B - 1` of the array (`B` = 200 for the first kernel's two row-blocked inputs, 5000 for the
  second kernel's four), or the whole array where the window does not move. Read through these, the running total
  after point `n` is the specification's running total of the per-block terms: the first block's term onto zero, each
  later block's onto what the blocks before left.
-/
import proofs.«165161_j56453050139080_2_alg».proof.Proof.KernelData
import proofs.«165161_j56453050139080_2_alg».proof.Proof.Spec
import Idealize.ShloMosaic.Lib.ValueIdx
import Idealize.ShloMosaic.Lib.Pipeline.Value

set_option maxRecDepth 16384

noncomputable section

open scoped BigOperators

namespace Cert.KernelIdeal.TotalValue

open Cert.KernelIdeal.Gen Cert.KernelIdeal.Hand
open Idealize.ShloMosaic Idealize.ShloMosaic.TcCoe Idealize.ShloMosaic.ValueIdx
open Idealize.SL.Sem

variable {F : FTy → Type} [FloatOps F] [Named F]

/-! ## The index maps, decided over the grids -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)

/-! ## Each block as rows of its array -/

/-- The first kernel's first input at point `t`: rows `200 t … 200 t + 199` of its array. -/
theorem iblk0_0_apply (V : Valuation τ sig (Elt F)) (c : Dev nD) (t : Fin cfg0.N) (x : S200x8.Idx) (k : S3000x8.Idx)
    (hk0 : (k 0).val = 200 * t.val + (x 0).val) (hk1 : (k 1).val = (x 1).val) :
    (iblk0 V c 0 t : Vec F S200x8 .f32) x = (rd V c main_v48 : S3000x8.Idx → Elt F .f32) k := by
  have hi := idx0_0 t
  unfold iblk0
  rw [View.read_apply]
  show rd V c main_v48 _ = rd V c main_v48 _
  congr 1
  funext a
  apply Fin.ext
  match a with
  | ⟨0, _⟩ => show win0_0.index t 0 * 200 + 1 * (x 0).val = (k 0).val; rw [hi.1, hk0]; omega
  | ⟨1, _⟩ => show win0_0.index t 1 * 8 + 1 * (x 1).val = (k 1).val; rw [hi.2, hk1]; omega

/-- Its second input: the whole array at every point. -/
theorem iblk0_1_apply (V : Valuation τ sig (Elt F)) (c : Dev nD) (t : Fin cfg0.N) (x : S3000x8.Idx) (k : S3000x8.Idx)
    (hk0 : (k 0).val = (x 0).val) (hk1 : (k 1).val = (x 1).val) :
    (iblk0 V c 1 t : Vec F S3000x8 .f32) x = (rd V c main_v55 : S3000x8.Idx → Elt F .f32) k := by
  have hi := idx0_1 t
  unfold iblk0
  rw [View.read_apply]
  show rd V c main_v55 _ = rd V c main_v55 _
  congr 1
  funext a
  apply Fin.ext
  match a with
  | ⟨0, _⟩ => show win0_1.index t 0 * 3000 + 1 * (x 0).val = (k 0).val; rw [hi.1, hk0]; omega
  | ⟨1, _⟩ => show win0_1.index t 1 * 8 + 1 * (x 1).val = (k 1).val; rw [hi.2, hk1]; omega

/-- Its first bias column: rows `200 t … 200 t + 199`. -/
theorem iblk0_2_apply (V : Valuation τ sig (Elt F)) (c : Dev nD) (t : Fin cfg0.N) (x : S200x1.Idx) (k : S3000x1.Idx)
    (hk0 : (k 0).val = 200 * t.val + (x 0).val) (hk1 : (k 1).val = (x 1).val) :
    (iblk0 V c 2 t : Vec F S200x1 .f32) x = (rd V c main_v63 : S3000x1.Idx → Elt F .f32) k := by
  have hi := idx0_2 t
  unfold iblk0
  rw [View.read_apply]
  show rd V c main_v63 _ = rd V c main_v63 _
  congr 1
  funext a
  apply Fin.ext
  match a with
  | ⟨0, _⟩ => show win0_2.index t 0 * 200 + 1 * (x 0).val = (k 0).val; rw [hi.1, hk0]; omega
  | ⟨1, _⟩ => show win0_2.index t 1 * 1 + 1 * (x 1).val = (k 1).val; rw [hi.2, hk1]; omega

/-- Its second bias row: the whole array at every point. -/
theorem iblk0_3_apply (V : Valuation τ sig (Elt F)) (c : Dev nD) (t : Fin cfg0.N) (x : S1x3000.Idx) (k : S1x3000.Idx)
    (hk0 : (k 0).val = (x 0).val) (hk1 : (k 1).val = (x 1).val) :
    (iblk0 V c 3 t : Vec F S1x3000 .f32) x = (rd V c main_v71 : S1x3000.Idx → Elt F .f32) k := by
  have hi := idx0_3 t
  unfold iblk0
  rw [View.read_apply]
  show rd V c main_v71 _ = rd V c main_v71 _
  congr 1
  funext a
  apply Fin.ext
  match a with
  | ⟨0, _⟩ => show win0_3.index t 0 * 1 + 1 * (x 0).val = (k 0).val; rw [hi.1, hk0]; omega
  | ⟨1, _⟩ => show win0_3.index t 1 * 3000 + 1 * (x 1).val = (k 1).val; rw [hi.2, hk1]; omega

/-- The second kernel's four inputs at point `t`: rows `5000 t … 5000 t + 4999` of their arrays. -/
theorem iblk1_0_apply (V : Valuation τ sig (Elt F)) (c : Dev nD) (t : Fin cfg1.N) (x : S5000x8.Idx) (k : S500000x8.Idx)
    (hk0 : (k 0).val = 5000 * t.val + (x 0).val) (hk1 : (k 1).val = (x 1).val) :
    (iblk1 V c 0 t : Vec F S5000x8 .f32) x = (rd V c main_v80 : S500000x8.Idx → Elt F .f32) k := by
  have hi := idx1_0 t
  unfold iblk1
  rw [View.read_apply]
  show rd V c main_v80 _ = rd V c main_v80 _
  congr 1
  funext a
  apply Fin.ext
  match a with
  | ⟨0, _⟩ => show win1_0.index t 0 * 5000 + 1 * (x 0).val = (k 0).val; rw [hi.1, hk0]; omega
  | ⟨1, _⟩ => show win1_0.index t 1 * 8 + 1 * (x 1).val = (k 1).val; rw [hi.2, hk1]; omega

theorem iblk1_1_apply (V : Valuation τ sig (Elt F)) (c : Dev nD) (t : Fin cfg1.N) (x : S5000x8.Idx) (k : S500000x8.Idx)
    (hk0 : (k 0).val = 5000 * t.val + (x 0).val) (hk1 : (k 1).val = (x 1).val) :
    (iblk1 V c 1 t : Vec F S5000x8 .f32) x = (rd V c main_v87 : S500000x8.Idx → Elt F .f32) k := by
  have hi := idx1_1 t
  unfold iblk1
  rw [View.read_apply]
  show rd V c main_v87 _ = rd V c main_v87 _
  congr 1
  funext a
  apply Fin.ext
  match a with
  | ⟨0, _⟩ => show win1_1.index t 0 * 5000 + 1 * (x 0).val = (k 0).val; rw [hi.1, hk0]; omega
  | ⟨1, _⟩ => show win1_1.index t 1 * 8 + 1 * (x 1).val = (k 1).val; rw [hi.2, hk1]; omega

theorem iblk1_2_apply (V : Valuation τ sig (Elt F)) (c : Dev nD) (t : Fin cfg1.N) (x : S5000x1.Idx) (k : S500000x1.Idx)
    (hk0 : (k 0).val = 5000 * t.val + (x 0).val) (hk1 : (k 1).val = (x 1).val) :
    (iblk1 V c 2 t : Vec F S5000x1 .f32) x = (rd V c main_v95 : S500000x1.Idx → Elt F .f32) k := by
  have hi := idx1_2 t
  unfold iblk1
  rw [View.read_apply]
  show rd V c main_v95 _ = rd V c main_v95 _
  congr 1
  funext a
  apply Fin.ext
  match a with
  | ⟨0, _⟩ => show win1_2.index t 0 * 5000 + 1 * (x 0).val = (k 0).val; rw [hi.1, hk0]; omega
  | ⟨1, _⟩ => show win1_2.index t 1 * 1 + 1 * (x 1).val = (k 1).val; rw [hi.2, hk1]; omega

theorem iblk1_3_apply (V : Valuation τ sig (Elt F)) (c : Dev nD) (t : Fin cfg1.N) (x : S5000x1.Idx) (k : S500000x1.Idx)
    (hk0 : (k 0).val = 5000 * t.val + (x 0).val) (hk1 : (k 1).val = (x 1).val) :
    (iblk1 V c 3 t : Vec F S5000x1 .f32) x = (rd V c main_v103 : S500000x1.Idx → Elt F .f32) k := by
  have hi := idx1_3 t
  unfold iblk1
  rw [View.read_apply]
  show rd V c main_v103 _ = rd V c main_v103 _
  congr 1
  funext a
  apply Fin.ext
  match a with
  | ⟨0, _⟩ => show win1_3.index t 0 * 5000 + 1 * (x 0).val = (k 0).val; rw [hi.1, hk0]; omega
  | ⟨1, _⟩ => show win1_3.index t 1 * 1 + 1 * (x 1).val = (k 1).val; rw [hi.2, hk1]; omega

/-! ### The same at explicit coordinates -/

theorem lt0 (t : Fin cfg0.N) (i : Fin 200) : 200 * t.val + i.val < 3000 := by
  have h : cfg0.N = 15 := N_0
  have := t.isLt; have := i.isLt; omega

theorem lt1 (t : Fin cfg1.N) (r : Fin 5000) : 5000 * t.val + r.val < 500000 := by
  have h : cfg1.N = 100 := N_1
  have := t.isLt; have := r.isLt; omega

theorem iblk0_0_ix (V : Valuation τ sig (Elt F)) (c : Dev nD) (t : Fin cfg0.N) (i : Fin 200) (d : Fin 8) :
    (iblk0 V c 0 t : Vec F S200x8 .f32) (ix2 i d)
      = (rd V c main_v48 : S3000x8.Idx → Elt F .f32) (ix2 ⟨200 * t.val + i.val, lt0 t i⟩ d) :=
  iblk0_0_apply V c t _ _ rfl rfl

theorem iblk0_1_ix (V : Valuation τ sig (Elt F)) (c : Dev nD) (t : Fin cfg0.N) (j : Fin 3000) (d : Fin 8) :
    (iblk0 V c 1 t : Vec F S3000x8 .f32) (ix2 j d) = (rd V c main_v55 : S3000x8.Idx → Elt F .f32) (ix2 j d) :=
  iblk0_1_apply V c t _ _ rfl rfl

theorem iblk0_2_ix (V : Valuation τ sig (Elt F)) (c : Dev nD) (t : Fin cfg0.N) (i : Fin 200) :
    (iblk0 V c 2 t : Vec F S200x1 .f32) (ix2 i 0)
      = (rd V c main_v63 : S3000x1.Idx → Elt F .f32) (ix2 ⟨200 * t.val + i.val, lt0 t i⟩ 0) :=
  iblk0_2_apply V c t _ _ rfl rfl

theorem iblk0_3_ix (V : Valuation τ sig (Elt F)) (c : Dev nD) (t : Fin cfg0.N) (j : Fin 3000) :
    (iblk0 V c 3 t : Vec F S1x3000 .f32) (ix2 0 j) = (rd V c main_v71 : S1x3000.Idx → Elt F .f32) (ix2 0 j) :=
  iblk0_3_apply V c t _ _ rfl rfl

theorem iblk1_0_ix (V : Valuation τ sig (Elt F)) (c : Dev nD) (t : Fin cfg1.N) (r : Fin 5000) (d : Fin 8) :
    (iblk1 V c 0 t : Vec F S5000x8 .f32) (ix2 r d)
      = (rd V c main_v80 : S500000x8.Idx → Elt F .f32) (ix2 ⟨5000 * t.val + r.val, lt1 t r⟩ d) :=
  iblk1_0_apply V c t _ _ rfl rfl

theorem iblk1_1_ix (V : Valuation τ sig (Elt F)) (c : Dev nD) (t : Fin cfg1.N) (r : Fin 5000) (d : Fin 8) :
    (iblk1 V c 1 t : Vec F S5000x8 .f32) (ix2 r d)
      = (rd V c main_v87 : S500000x8.Idx → Elt F .f32) (ix2 ⟨5000 * t.val + r.val, lt1 t r⟩ d) :=
  iblk1_1_apply V c t _ _ rfl rfl

theorem iblk1_2_ix (V : Valuation τ sig (Elt F)) (c : Dev nD) (t : Fin cfg1.N) (r : Fin 5000) :
    (iblk1 V c 2 t : Vec F S5000x1 .f32) (ix2 r 0)
      = (rd V c main_v95 : S500000x1.Idx → Elt F .f32) (ix2 ⟨5000 * t.val + r.val, lt1 t r⟩ 0) :=
  iblk1_2_apply V c t _ _ rfl rfl

theorem iblk1_3_ix (V : Valuation τ sig (Elt F)) (c : Dev nD) (t : Fin cfg1.N) (r : Fin 5000) :
    (iblk1 V c 3 t : Vec F S5000x1 .f32) (ix2 r 0)
      = (rd V c main_v103 : S500000x1.Idx → Elt F .f32) (ix2 ⟨5000 * t.val + r.val, lt1 t r⟩ 0) :=
  iblk1_3_apply V c t _ _ rfl rfl

/-! ## The running totals -/

section Totals

variable (V : Valuation τ sig (Elt Ideal)) (c : Dev nD)

/-- The arrays the first kernel reads, as the specification's coordinate functions: the two bias vectors and the two
    families of latent positions. -/
abbrev bs : Fin 3000 → EReal := fun i => (rd V c main_v63 : S3000x1.Idx → EReal) (ix2 i 0)
abbrev gs : Fin 3000 → EReal := fun j => (rd V c main_v71 : S1x3000.Idx → EReal) (ix2 0 j)
abbrev Mi : Fin 3000 → Fin 8 → EReal := fun i d => (rd V c main_v48 : S3000x8.Idx → EReal) (ix2 i d)
abbrev Mj : Fin 3000 → Fin 8 → EReal := fun j d => (rd V c main_v55 : S3000x8.Idx → EReal) (ix2 j d)

/-- The arrays the second kernel reads: the edges' two bias vectors and their endpoints' latent positions. -/
abbrev be : Fin 500000 → EReal := fun r => (rd V c main_v95 : S500000x1.Idx → EReal) (ix2 r 0)
abbrev ge : Fin 500000 → EReal := fun r => (rd V c main_v103 : S500000x1.Idx → EReal) (ix2 r 0)
abbrev P : Fin 500000 → Fin 8 → EReal := fun r d => (rd V c main_v80 : S500000x8.Idx → EReal) (ix2 r d)
abbrev Q : Fin 500000 → Fin 8 → EReal := fun r d => (rd V c main_v87 : S500000x8.Idx → EReal) (ix2 r d)

theorem lt15 (t : Fin cfg0.N) : t.val < 14 + 1 := by
  have h : cfg0.N = 15 := N_0
  have := t.isLt; omega

theorem lt100 (t : Fin cfg1.N) : t.val < 99 + 1 := by
  have h : cfg1.N = 100 := N_1
  have := t.isLt; omega

/-- What one point of the first kernel stores, on any blocks: the previous total plus the blocks' pair terms. -/
def Pay0 : Prop :=
  ∀ (x0 : Vec Ideal S200x8 .f32) (x1 : Vec Ideal S3000x8 .f32) (x2 : Vec Ideal S200x1 .f32) (x3 : Vec Ideal S1x3000 .f32)
    (s : Vec Ideal S1x1 .f32),
    k0_pay1 (F := Ideal) (k0_pay3 x2) (k0_pay4 x3) (k0_pay5 x0 x1) (Scalar.ofBits .f32 0x00000000#32) s (ix2 0 0)
      = s (ix2 0 0) + (0 + ∑ i : Fin 200, ∑ j : Fin 3000,
          Affinity.pairTerm (x2 (ix2 i 0)) (x3 (ix2 0 j))
            (max (Affinity.sqdistExpanded ((Affinity.eightEpsSq : ℝ) : EReal) (fun d => x0 (ix2 i d)) (fun d => x1 (ix2 j d))) 0))

/-- What one point of the second kernel stores, on any blocks: the previous total plus the blocks' edge terms. -/
def Pay1 : Prop :=
  ∀ (x0 x1 : Vec Ideal S5000x8 .f32) (x2 x3 : Vec Ideal S5000x1 .f32) (s : Vec Ideal S1x1 .f32),
    k1_pay2 (F := Ideal) x0 x1 x2 x3 s (ix2 0 0)
      = s (ix2 0 0) + (0 + ∑ r : Fin 5000,
          Affinity.edgeTerm (x2 (ix2 r 0)) (x3 (ix2 r 0)) (fun d => x0 (ix2 r d)) (fun d => x1 (ix2 r d)))

/-- One point of the first kernel on the blocks the pipeline hands it at `t`: the previous total plus block `t`'s
    term of the specification. -/
theorem step0_block (hP : Pay0) (t : Fin cfg0.N) (s : Vec Ideal S1x1 .f32) :
    step0 (F := Ideal) (iblk0 V c 0 t) (iblk0 V c 1 t) (iblk0 V c 2 t) (iblk0 V c 3 t) s (ix2 0 0)
      = s (ix2 0 0)
        + Affinity.sampledBlock ((Affinity.eightEpsSq : ℝ) : EReal) (bs V c) (gs V c) (Mi V c) (Mj V c) ⟨t.val, lt15 t⟩ := by
  refine (hP (iblk0 V c 0 t) (iblk0 V c 1 t) (iblk0 V c 2 t) (iblk0 V c 3 t) s).trans ?_
  refine congrArg (s (ix2 0 0) + ·) ?_
  unfold Affinity.sampledBlock
  refine congrArg (0 + ·) ?_
  refine Finset.sum_congr rfl fun i _ => Finset.sum_congr rfl fun j _ => ?_
  have e2 : (iblk0 V c 2 t : Vec Ideal S200x1 .f32) (ix2 i 0) = bs V c ⟨200 * t.val + i.val, lt0 t i⟩ :=
    iblk0_2_ix V c t i
  have e3 : (iblk0 V c 3 t : Vec Ideal S1x3000 .f32) (ix2 0 j) = gs V c j := iblk0_3_ix V c t j
  have e0 : (fun d => (iblk0 V c 0 t : Vec Ideal S200x8 .f32) (ix2 i d)) = Mi V c ⟨200 * t.val + i.val, lt0 t i⟩ :=
    funext fun d => iblk0_0_ix V c t i d
  have e1 : (fun d => (iblk0 V c 1 t : Vec Ideal S3000x8 .f32) (ix2 j d)) = Mj V c j :=
    funext fun d => iblk0_1_ix V c t j d
  exact congr (congr (congrArg Affinity.pairTerm e2) e3)
    (congrArg (max · 0) (congr (congrArg (Affinity.sqdistExpanded _) e0) e1))

/-- One point of the second kernel on the blocks the pipeline hands it at `t`. -/
theorem step1_block (hP : Pay1) (t : Fin cfg1.N) (s : Vec Ideal S1x1 .f32) :
    step1 (F := Ideal) (iblk1 V c 0 t) (iblk1 V c 1 t) (iblk1 V c 2 t) (iblk1 V c 3 t) s (ix2 0 0)
      = s (ix2 0 0) + Affinity.edgesBlock (be V c) (ge V c) (P V c) (Q V c) ⟨t.val, lt100 t⟩ := by
  refine (hP (iblk1 V c 0 t) (iblk1 V c 1 t) (iblk1 V c 2 t) (iblk1 V c 3 t) s).trans ?_
  refine congrArg (s (ix2 0 0) + ·) ?_
  unfold Affinity.edgesBlock
  refine congrArg (0 + ·) ?_
  refine Finset.sum_congr rfl fun r _ => ?_
  have e2 : (iblk1 V c 2 t : Vec Ideal S5000x1 .f32) (ix2 r 0) = be V c ⟨5000 * t.val + r.val, lt1 t r⟩ :=
    iblk1_2_ix V c t r
  have e3 : (iblk1 V c 3 t : Vec Ideal S5000x1 .f32) (ix2 r 0) = ge V c ⟨5000 * t.val + r.val, lt1 t r⟩ :=
    iblk1_3_ix V c t r
  have e0 : (fun d => (iblk1 V c 0 t : Vec Ideal S5000x8 .f32) (ix2 r d)) = P V c ⟨5000 * t.val + r.val, lt1 t r⟩ :=
    funext fun d => iblk1_0_ix V c t r d
  have e1 : (fun d => (iblk1 V c 1 t : Vec Ideal S5000x8 .f32) (ix2 r d)) = Q V c ⟨5000 * t.val + r.val, lt1 t r⟩ :=
    funext fun d => iblk1_1_ix V c t r d
  exact congr (congr (congr (congrArg Affinity.edgeTerm e2) e3) e0) e1

/-- THE FIRST KERNEL'S RUNNING TOTAL after point `n` is the specification's running total of the sampled blocks. -/
theorem acc0_eq (hP : Pay0) (hz : k0_pay2 (F := Ideal) (ix2 0 0) = 0) : ∀ (n : ℕ) (h : n < cfg0.N),
    acc0 (F := Ideal) V c n h (ix2 0 0)
      = Affinity.running (T := 14)
          (Affinity.sampledBlock ((Affinity.eightEpsSq : ℝ) : EReal) (bs V c) (gs V c) (Mi V c) (Mj V c)) n (lt15 ⟨n, h⟩) := by
  intro n
  induction n with
  | zero =>
    intro h
    refine (step0_block V c hP ⟨0, h⟩ (k0_pay2 (F := Ideal))).trans ?_
    rw [hz]
    rfl
  | succ n ih =>
    intro h
    refine (step0_block V c hP ⟨n + 1, h⟩ (acc0 V c n (Nat.lt_of_succ_lt h))).trans ?_
    rw [ih (Nat.lt_of_succ_lt h)]
    rfl

/-- THE SECOND KERNEL'S RUNNING TOTAL after point `n` is the specification's running total of the edge blocks. -/
theorem acc1_eq (hP : Pay1) (hz : k1_pay1 (F := Ideal) (ix2 0 0) = 0) : ∀ (n : ℕ) (h : n < cfg1.N),
    acc1 (F := Ideal) V c n h (ix2 0 0)
      = Affinity.running (T := 99) (Affinity.edgesBlock (be V c) (ge V c) (P V c) (Q V c)) n (lt100 ⟨n, h⟩) := by
  intro n
  induction n with
  | zero =>
    intro h
    refine (step1_block V c hP ⟨0, h⟩ (k1_pay1 (F := Ideal))).trans ?_
    rw [hz]
    rfl
  | succ n ih =>
    intro h
    refine (step1_block V c hP ⟨n + 1, h⟩ (acc1 V c n (Nat.lt_of_succ_lt h))).trans ?_
    rw [ih (Nat.lt_of_succ_lt h)]
    rfl

end Totals

end Cert.KernelIdeal.TotalValue

end
-- ==== Proof.KernelHostTerms.lean ====
/-
  The host operations of the kernel program's @main, read as values.

  @main runs three stretches of host operations around its two kernel regions. This module names the arrays the
  first stretch computes — two column softmaxes, their join, the gated array and its column sums (the prefix the
  reference program shares), then the 8 × 8 mixing matrix, the latent map and the nodes' latent positions —, the index
  wrap and the gathers, each as the composed term of the operations that write it, at any float instance; and states
  what every stretch leaves in each buffer a kernel region or a later stretch reads, from arbitrary contents of the
  buffers it starts from.
-/
import proofs.«165161_j56453050139080_2_alg».proof.Proof.Gen.KernelIdeal.Launch
import Idealize.ShloMosaic.Lib.StableHlo.Run

-- the host stretches' lists of 89 and 39 operations recurse past the default depth
set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F] [Named F]

/-! ## The shared prefix: the arrays both programs compute first

Every definition below is the composed term of the operations that write one buffer, as a function of the
arguments of the program it depends on, at any float instance. -/

/-- The numerator of a column softmax of an 8 × 50000 array: each entry less its column's maximum, exponentiated. -/
def softNum (x : (⟨S8x50000, .f32⟩ : BufTy).Contents (Elt F)) : (⟨S8x50000, .f32⟩ : BufTy).Contents (Elt F) :=
  Host.exp (subf x
    (broadcastInDim S8x50000 ![0, 1] bcast_S1x50000_S8x50000_0_1
      (broadcastInDim S1x50000 ![1] bcast_S50000_S1x50000_1
        (maximumf (broadcastInDim S50000 ![] bcast_S_S50000 (constant S_ .f32 0xFF800000#32))
          (Host.reduce FloatOps.maximumf x (constant S_ .f32 0xFF800000#32) reducesTo_S8x50000_S50000_d0 h_S_)))))

/-- The column softmax of an 8 × 50000 array: the numerator over its column sums. -/
def colSoftmax (x : (⟨S8x50000, .f32⟩ : BufTy).Contents (Elt F)) : (⟨S8x50000, .f32⟩ : BufTy).Contents (Elt F) :=
  Host.divf (softNum x)
    (broadcastInDim S8x50000 ![0, 1] bcast_S1x50000_S8x50000_0_1
      (broadcastInDim S1x50000 ![1] bcast_S50000_S1x50000_1
        (Host.reduceAdd (softNum x) (constant S_ .f32 0x00000000#32) reducesTo_S8x50000_S50000_d0 h_S_)))

/-- The softmax of the first membership array (`%10`). -/
def preZi (x3 : (⟨S8x50000, .f32⟩ : BufTy).Contents (Elt F)) : (⟨S8x50000, .f32⟩ : BufTy).Contents (Elt F) := colSoftmax x3
/-- The softmax of the second membership array (`%21`). -/
def preZj (x4 : (⟨S8x50000, .f32⟩ : BufTy).Contents (Elt F)) : (⟨S8x50000, .f32⟩ : BufTy).Contents (Elt F) := colSoftmax x4

/-- The two softmaxes side by side, 8 × 100000 (`%22`). -/
def preZ (x3 x4 : (⟨S8x50000, .f32⟩ : BufTy).Contents (Elt F)) : (⟨S8x100000, .f32⟩ : BufTy).Contents (Elt F) :=
  concatenate S8x100000 1 [⟨S8x50000, preZi x3⟩, ⟨S8x50000, preZj x4⟩] concatenates_S8x50000_S8x50000_S8x100000_d1

/-- The logistic function of the gate array, entry by entry: `1 / (1 + exp (-x))` (`%28`). -/
def preGate (x5 : (⟨S100000x8, .f32⟩ : BufTy).Contents (Elt F)) : (⟨S100000x8, .f32⟩ : BufTy).Contents (Elt F) :=
  Host.divf (broadcastInDim S100000x8 ![] bcast_S_S100000x8 (constant S_ .f32 0x3F800000#32))
    (addf (broadcastInDim S100000x8 ![] bcast_S_S100000x8 (constant S_ .f32 0x3F800000#32)) (Host.exp (Host.negf x5)))

/-- The transposed softmaxes times the gates, 100000 × 8 (`%30`). -/
def preZG (x3 x4 : (⟨S8x50000, .f32⟩ : BufTy).Contents (Elt F)) (x5 : (⟨S100000x8, .f32⟩ : BufTy).Contents (Elt F)) :
    (⟨S100000x8, .f32⟩ : BufTy).Contents (Elt F) :=
  mulf (transpose S100000x8 [1, 0] (preZ x3 x4) transposes_S8x100000_S100000x8_1_0) (preGate x5)

/-- Its column sums, 8 long (`%31`). -/
def preCs (x3 x4 : (⟨S8x50000, .f32⟩ : BufTy).Contents (Elt F)) (x5 : (⟨S100000x8, .f32⟩ : BufTy).Contents (Elt F)) :
    (⟨S8, .f32⟩ : BufTy).Contents (Elt F) :=
  Host.reduceAdd (preZG x3 x4 x5) (constant S_ .f32 0x00000000#32) reducesTo_S100000x8_S8_d0 h_S_

/-! ## What follows the prefix in this program -/

/-- The 8 × 8 product of the softmaxes with the gated array, each column then divided by the column sum (`%35`). -/
def mixArr (x3 x4 : (⟨S8x50000, .f32⟩ : BufTy).Contents (Elt F)) (x5 : (⟨S100000x8, .f32⟩ : BufTy).Contents (Elt F)) :
    (⟨S8x8, .f32⟩ : BufTy).Contents (Elt F) :=
  Host.divf (Host.dotGeneral dot_S8x100000_S100000x8_S8x8_1_0_0_1_n_n none (preZ x3 x4) (preZG x3 x4 x5))
    (broadcastInDim S8x8 ![0, 1] bcast_S1x8_S8x8_0_1 (broadcastInDim S1x8 ![1] bcast_S8_S1x8_1 (preCs x3 x4 x5)))

/-- The latent map: the affinity matrix times that product, transposed (`%37`). -/
def latentArr (x2 : (⟨S8x8, .f32⟩ : BufTy).Contents (Elt F)) (x3 x4 : (⟨S8x50000, .f32⟩ : BufTy).Contents (Elt F))
    (x5 : (⟨S100000x8, .f32⟩ : BufTy).Contents (Elt F)) : (⟨S8x8, .f32⟩ : BufTy).Contents (Elt F) :=
  transpose S8x8 [1, 0] (Host.dotGeneral dot_S8x8_S8x8_S8x8_1_0_0_1_n_n none x2 (mixArr x3 x4 x5)) transposes_S8x8_S8x8_1_0

/-- The latent positions of a softmax's 50000 nodes, one row per node: the latent map times the softmax, transposed
    (`%40` from `%10`, `%41` from `%21`). -/
def posArr (L : (⟨S8x8, .f32⟩ : BufTy).Contents (Elt F)) (Zx : (⟨S8x50000, .f32⟩ : BufTy).Contents (Elt F)) :
    (⟨S50000x8, .f32⟩ : BufTy).Contents (Elt F) :=
  transpose S50000x8 [1, 0] (Host.dotGeneral dot_S8x8_S8x50000_S8x50000_1_0_0_1_n_n none L Zx) transposes_S8x50000_S50000x8_1_0

/-! ## The index wrap and the gathers -/

/-- A 3000-long index array with its negative entries moved up by 50000. -/
def wrap3000 (idx : (⟨S3000, .i32⟩ : BufTy).Contents (Elt F)) : (⟨S3000, .i32⟩ : BufTy).Contents (Elt F) :=
  select (cmpi .slt idx (broadcastInDim S3000 ![] bcast_S_S3000 (constantI S_ 32 0#32)))
    (addi idx (broadcastInDim S3000 ![] bcast_S_S3000 (constantI S_ 32 50000#32))) idx

/-- A 500000-long index array with its negative entries moved up by 50000. -/
def wrap500000 (idx : (⟨S500000, .i32⟩ : BufTy).Contents (Elt F)) : (⟨S500000, .i32⟩ : BufTy).Contents (Elt F) :=
  select (cmpi .slt idx (broadcastInDim S500000 ![] bcast_S_S500000 (constantI S_ 32 0#32)))
    (addi idx (broadcastInDim S500000 ![] bcast_S_S500000 (constantI S_ 32 50000#32))) idx

/-- The rows of a 50000 × 8 array at 3000 wrapped indices. -/
def rows3000 (h : (⟨S50000x8, .f32⟩ : BufTy).Contents (Elt F)) (idx : (⟨S3000, .i32⟩ : BufTy).Contents (Elt F)) :
    (⟨S3000x8, .f32⟩ : BufTy).Contents (Elt F) :=
  Host.gather gather_S50000x8_S3000x1_S3000x8_1_0_n_n_0_1_18 h (broadcastInDim S3000x1 ![0] bcast_S3000_S3000x1_0 (wrap3000 (F := F) idx))

/-- The entries of a 50000-long array at 3000 wrapped indices. -/
def elts3000 (v : (⟨S50000, .f32⟩ : BufTy).Contents (Elt F)) (idx : (⟨S3000, .i32⟩ : BufTy).Contents (Elt F)) :
    (⟨S3000, .f32⟩ : BufTy).Contents (Elt F) :=
  Host.gather gather_S50000_S3000x1_S3000_n_0_n_n_0_1_1 v (broadcastInDim S3000x1 ![0] bcast_S3000_S3000x1_0 (wrap3000 (F := F) idx))

/-- The rows of a 50000 × 8 array at 500000 wrapped indices. -/
def rows500000 (h : (⟨S50000x8, .f32⟩ : BufTy).Contents (Elt F)) (idx : (⟨S500000, .i32⟩ : BufTy).Contents (Elt F)) :
    (⟨S500000x8, .f32⟩ : BufTy).Contents (Elt F) :=
  Host.gather gather_S50000x8_S500000x1_S500000x8_1_0_n_n_0_1_18 h (broadcastInDim S500000x1 ![0] bcast_S500000_S500000x1_0 (wrap500000 (F := F) idx))

/-- The entries of a 50000-long array at 500000 wrapped indices. -/
def elts500000 (v : (⟨S50000, .f32⟩ : BufTy).Contents (Elt F)) (idx : (⟨S500000, .i32⟩ : BufTy).Contents (Elt F)) :
    (⟨S500000, .f32⟩ : BufTy).Contents (Elt F) :=
  Host.gather gather_S50000_S500000x1_S500000_n_0_n_n_0_1_1 v (broadcastInDim S500000x1 ![0] bcast_S500000_S500000x1_0 (wrap500000 (F := F) idx))

/-- The latent positions of the first softmax's nodes (`%40`), from the program's arguments. -/
def posI (x2 : (⟨S8x8, .f32⟩ : BufTy).Contents (Elt F)) (x3 x4 : (⟨S8x50000, .f32⟩ : BufTy).Contents (Elt F))
    (x5 : (⟨S100000x8, .f32⟩ : BufTy).Contents (Elt F)) : (⟨S50000x8, .f32⟩ : BufTy).Contents (Elt F) :=
  posArr (latentArr x2 x3 x4 x5) (preZi x3)

/-- The latent positions of the second softmax's nodes (`%41`). -/
def posJ (x2 : (⟨S8x8, .f32⟩ : BufTy).Contents (Elt F)) (x3 x4 : (⟨S8x50000, .f32⟩ : BufTy).Contents (Elt F))
    (x5 : (⟨S100000x8, .f32⟩ : BufTy).Contents (Elt F)) : (⟨S50000x8, .f32⟩ : BufTy).Contents (Elt F) :=
  posArr (latentArr x2 x3 x4 x5) (preZj x4)

/-- A rewriting pass does not look inside a list of shape-tagged arrays, where a joined array keeps its operands: this
    congruence hands it the two operands of the 8 × 100000 join. -/
theorem concatenate_pair_congr {a a' b b' : (⟨S8x50000, .f32⟩ : BufTy).Contents (Elt F)} (ha : a = a') (hb : b = b') :
    concatenate S8x100000 1 [⟨S8x50000, a⟩, ⟨S8x50000, b⟩] concatenates_S8x50000_S8x50000_S8x100000_d1
      = concatenate S8x100000 1 [⟨S8x50000, a'⟩, ⟨S8x50000, b'⟩] concatenates_S8x50000_S8x50000_S8x100000_d1 := by
  subst ha hb; rfl

attribute [local congr] concatenate_pair_congr

/-! ## What each stretch of host operations leaves, from ANY contents `W` of the buffers

Each statement is the composed term of the stretch's operations at one buffer, over `W` at the buffers the stretch
reads and does not write. -/

variable (W : Valuation τ sig (Elt F))

/-! ### The stretch before the first kernel region -/

set_option maxHeartbeats 4000000 in
/-- The first softmax's latent positions. -/
theorem hostOps0_v40 :
    StableHlo.after hostOps0 W (Proc.devRef .tc main_v40) = posI (F := F) (W (Proc.devRef .tc main_arg2)) (W (Proc.devRef .tc main_arg3)) (W (Proc.devRef .tc main_arg4)) (W (Proc.devRef .tc main_arg5)) := by
  after_results_simp; rfl

set_option maxHeartbeats 4000000 in
/-- The second softmax's latent positions. -/
theorem hostOps0_v41 :
    StableHlo.after hostOps0 W (Proc.devRef .tc main_v41) = posJ (F := F) (W (Proc.devRef .tc main_arg2)) (W (Proc.devRef .tc main_arg3)) (W (Proc.devRef .tc main_arg4)) (W (Proc.devRef .tc main_arg5)) := by
  after_results_simp; rfl

set_option maxHeartbeats 4000000 in
/-- The sampled rows' positions: rows of the first positions at the first sample's wrapped indices. -/
theorem hostOps0_v48 :
    StableHlo.after hostOps0 W (Proc.devRef .tc main_v48)
      = rows3000 (F := F) (posI (F := F) (W (Proc.devRef .tc main_arg2)) (W (Proc.devRef .tc main_arg3)) (W (Proc.devRef .tc main_arg4)) (W (Proc.devRef .tc main_arg5))) (W (Proc.devRef .tc main_arg6)) := by
  after_results_simp; rfl

set_option maxHeartbeats 4000000 in
/-- The sampled columns' positions: rows of the second positions at the second sample's wrapped indices. -/
theorem hostOps0_v55 :
    StableHlo.after hostOps0 W (Proc.devRef .tc main_v55)
      = rows3000 (F := F) (posJ (F := F) (W (Proc.devRef .tc main_arg2)) (W (Proc.devRef .tc main_arg3)) (W (Proc.devRef .tc main_arg4)) (W (Proc.devRef .tc main_arg5))) (W (Proc.devRef .tc main_arg7)) := by
  after_results_simp; rfl

set_option maxHeartbeats 4000000 in
/-- The sampled rows' biases, as a column. -/
theorem hostOps0_v63 :
    StableHlo.after hostOps0 W (Proc.devRef .tc main_v63)
      = shapeCast S3000x1 (elts3000 (F := F) (W (Proc.devRef .tc main_arg0)) (W (Proc.devRef .tc main_arg6))) shapeCasts_S3000_S3000x1 := by
  after_results_simp; rfl

set_option maxHeartbeats 4000000 in
/-- The sampled columns' biases, as a row. -/
theorem hostOps0_v71 :
    StableHlo.after hostOps0 W (Proc.devRef .tc main_v71)
      = shapeCast S1x3000 (elts3000 (F := F) (W (Proc.devRef .tc main_arg1)) (W (Proc.devRef .tc main_arg7))) shapeCasts_S3000_S1x3000 := by
  after_results_simp; rfl

set_option maxHeartbeats 4000000 in
theorem hostOps0_arg0 : StableHlo.after hostOps0 W (Proc.devRef .tc main_arg0) = (W (Proc.devRef .tc main_arg0)) := by
  after_results_simp

set_option maxHeartbeats 4000000 in
theorem hostOps0_arg1 : StableHlo.after hostOps0 W (Proc.devRef .tc main_arg1) = (W (Proc.devRef .tc main_arg1)) := by
  after_results_simp

set_option maxHeartbeats 4000000 in
theorem hostOps0_arg2 : StableHlo.after hostOps0 W (Proc.devRef .tc main_arg2) = (W (Proc.devRef .tc main_arg2)) := by
  after_results_simp

set_option maxHeartbeats 4000000 in
theorem hostOps0_arg3 : StableHlo.after hostOps0 W (Proc.devRef .tc main_arg3) = (W (Proc.devRef .tc main_arg3)) := by
  after_results_simp

set_option maxHeartbeats 4000000 in
theorem hostOps0_arg4 : StableHlo.after hostOps0 W (Proc.devRef .tc main_arg4) = (W (Proc.devRef .tc main_arg4)) := by
  after_results_simp

set_option maxHeartbeats 4000000 in
theorem hostOps0_arg5 : StableHlo.after hostOps0 W (Proc.devRef .tc main_arg5) = (W (Proc.devRef .tc main_arg5)) := by
  after_results_simp

set_option maxHeartbeats 4000000 in
theorem hostOps0_arg6 : StableHlo.after hostOps0 W (Proc.devRef .tc main_arg6) = (W (Proc.devRef .tc main_arg6)) := by
  after_results_simp

set_option maxHeartbeats 4000000 in
theorem hostOps0_arg7 : StableHlo.after hostOps0 W (Proc.devRef .tc main_arg7) = (W (Proc.devRef .tc main_arg7)) := by
  after_results_simp

set_option maxHeartbeats 4000000 in
theorem hostOps0_arg8 : StableHlo.after hostOps0 W (Proc.devRef .tc main_arg8) = (W (Proc.devRef .tc main_arg8)) := by
  after_results_simp

set_option maxHeartbeats 4000000 in
theorem hostOps0_arg9 : StableHlo.after hostOps0 W (Proc.devRef .tc main_arg9) = (W (Proc.devRef .tc main_arg9)) := by
  after_results_simp

/-! ### The stretch between the two kernel regions -/

/-- The first region's total, as a scalar. -/
theorem hostOps1_v73 :
    StableHlo.after hostOps1 W (Proc.devRef .tc main_v73) = shapeCast S_ (W (Proc.devRef .tc main_v72)) shapeCasts_S1x1_S_ := by
  after_results_simp; rfl

/-- The edges' source positions. -/
theorem hostOps1_v80 :
    StableHlo.after hostOps1 W (Proc.devRef .tc main_v80) = rows500000 (F := F) (W (Proc.devRef .tc main_v40)) (W (Proc.devRef .tc main_arg8)) := by
  after_results_simp; rfl

/-- The edges' target positions. -/
theorem hostOps1_v87 :
    StableHlo.after hostOps1 W (Proc.devRef .tc main_v87) = rows500000 (F := F) (W (Proc.devRef .tc main_v41)) (W (Proc.devRef .tc main_arg9)) := by
  after_results_simp; rfl

/-- The edges' source biases, as a column. -/
theorem hostOps1_v95 :
    StableHlo.after hostOps1 W (Proc.devRef .tc main_v95)
      = shapeCast S500000x1 (elts500000 (F := F) (W (Proc.devRef .tc main_arg0)) (W (Proc.devRef .tc main_arg8))) shapeCasts_S500000_S500000x1 := by
  after_results_simp; rfl

/-- The edges' target biases, as a column. -/
theorem hostOps1_v103 :
    StableHlo.after hostOps1 W (Proc.devRef .tc main_v103)
      = shapeCast S500000x1 (elts500000 (F := F) (W (Proc.devRef .tc main_arg1)) (W (Proc.devRef .tc main_arg9))) shapeCasts_S500000_S500000x1 := by
  after_results_simp; rfl

theorem hostOps1_arg0 : StableHlo.after hostOps1 W (Proc.devRef .tc main_arg0) = (W (Proc.devRef .tc main_arg0)) := by
  after_results_simp

theorem hostOps1_arg1 : StableHlo.after hostOps1 W (Proc.devRef .tc main_arg1) = (W (Proc.devRef .tc main_arg1)) := by
  after_results_simp

theorem hostOps1_arg2 : StableHlo.after hostOps1 W (Proc.devRef .tc main_arg2) = (W (Proc.devRef .tc main_arg2)) := by
  after_results_simp

theorem hostOps1_arg3 : StableHlo.after hostOps1 W (Proc.devRef .tc main_arg3) = (W (Proc.devRef .tc main_arg3)) := by
  after_results_simp

theorem hostOps1_arg4 : StableHlo.after hostOps1 W (Proc.devRef .tc main_arg4) = (W (Proc.devRef .tc main_arg4)) := by
  after_results_simp

theorem hostOps1_arg5 : StableHlo.after hostOps1 W (Proc.devRef .tc main_arg5) = (W (Proc.devRef .tc main_arg5)) := by
  after_results_simp

theorem hostOps1_arg6 : StableHlo.after hostOps1 W (Proc.devRef .tc main_arg6) = (W (Proc.devRef .tc main_arg6)) := by
  after_results_simp

theorem hostOps1_arg7 : StableHlo.after hostOps1 W (Proc.devRef .tc main_arg7) = (W (Proc.devRef .tc main_arg7)) := by
  after_results_simp

theorem hostOps1_arg8 : StableHlo.after hostOps1 W (Proc.devRef .tc main_arg8) = (W (Proc.devRef .tc main_arg8)) := by
  after_results_simp

theorem hostOps1_arg9 : StableHlo.after hostOps1 W (Proc.devRef .tc main_arg9) = (W (Proc.devRef .tc main_arg9)) := by
  after_results_simp

/-! ### The stretch after the second kernel region -/

/-- The result: the second region's total, as a scalar, less the first's. -/
theorem hostOps2_v106 :
    StableHlo.after hostOps2 W (Proc.devRef .tc main_v106)
      = subf (shapeCast S_ (W (Proc.devRef .tc main_v104)) shapeCasts_S1x1_S_) (W (Proc.devRef .tc main_v73)) := by
  after_results_simp; rfl

theorem hostOps2_arg0 : StableHlo.after hostOps2 W (Proc.devRef .tc main_arg0) = (W (Proc.devRef .tc main_arg0)) := by
  after_results_simp

theorem hostOps2_arg1 : StableHlo.after hostOps2 W (Proc.devRef .tc main_arg1) = (W (Proc.devRef .tc main_arg1)) := by
  after_results_simp

theorem hostOps2_arg2 : StableHlo.after hostOps2 W (Proc.devRef .tc main_arg2) = (W (Proc.devRef .tc main_arg2)) := by
  after_results_simp

theorem hostOps2_arg3 : StableHlo.after hostOps2 W (Proc.devRef .tc main_arg3) = (W (Proc.devRef .tc main_arg3)) := by
  after_results_simp

theorem hostOps2_arg4 : StableHlo.after hostOps2 W (Proc.devRef .tc main_arg4) = (W (Proc.devRef .tc main_arg4)) := by
  after_results_simp

theorem hostOps2_arg5 : StableHlo.after hostOps2 W (Proc.devRef .tc main_arg5) = (W (Proc.devRef .tc main_arg5)) := by
  after_results_simp

theorem hostOps2_arg6 : StableHlo.after hostOps2 W (Proc.devRef .tc main_arg6) = (W (Proc.devRef .tc main_arg6)) := by
  after_results_simp

theorem hostOps2_arg7 : StableHlo.after hostOps2 W (Proc.devRef .tc main_arg7) = (W (Proc.devRef .tc main_arg7)) := by
  after_results_simp

theorem hostOps2_arg8 : StableHlo.after hostOps2 W (Proc.devRef .tc main_arg8) = (W (Proc.devRef .tc main_arg8)) := by
  after_results_simp

theorem hostOps2_arg9 : StableHlo.after hostOps2 W (Proc.devRef .tc main_arg9) = (W (Proc.devRef .tc main_arg9)) := by
  after_results_simp

end Cert.KernelIdeal.HostValue

end
-- ==== Proof.LibEdgeReads.lean ====
/-
  GENERAL LEMMAS: the three host operations of a message-passing layer, READ AT AN INDEX.

  A layer that sends a message along every edge of a graph with N nodes and E edges, features of width C, reads its
  node arrays through a column  idx : [E, 1]  of node numbers (one per edge) and writes its messages back through such
  a column. For ANY extents N, E, C, any index width w and any element type:

  * ROW GATHER  h[idx]  of  h : [N, C]  (stablehlo.gather with offset_dims [1], collapsed_slice_dims [0],
    start_index_map [0], index_vector_dim 1, slice_sizes [1, C]): result entry (e, f) is h at row
    min (idx[e, 0] read signed).toNat (N − 1)  and column f. On operand axis 0 the slice has size 1, so the start
    index is clamped into [0, N − 1], and the axis is collapsed, so nothing is added to it; operand axis 1 is not in
    the start index map, so its start is 0, and it is the one offset axis, read by result axis 1.
  * ELEMENT GATHER  v[idx]  of  v : [N]  (offset_dims [], collapsed_slice_dims [0], start_index_map [0],
    index_vector_dim 1, slice_sizes [1]): result entry e is v at that same clamped row.
  * ROW SCATTER into an [N, C] operand from updates [E, C] (update_window_dims [1], inserted_window_dims [0],
    scatter_dims_to_operand_dims [0], index_vector_dim 1): when update index j lands on operand index i, then
    idx[j 0, 0] read signed IS i 0 — a scatter index is not clamped; an update whose row leaves the operand is
    dropped — and the columns agree, j 1 = i 1: operand axis 0 is inserted (window coordinate 0) and is the axis the
    scatter index names; operand axis 1 is the one window axis (start 0), read by update axis 1.

  In each case the start-indices index the operation reads for edge e is (e, 0): result (update) axis 0 is the one
  batch (scatter) axis and reads start-indices axis 0; axis 1 of the start indices is the index vector's, of size 1.
  Nothing here enumerates an axis: every step is over the variables N, E, C, coordinates by the axis literal.
-/
import Idealize.ShloMosaic.Lib.ValueIdx

noncomputable section

namespace Cert.LibEdgeReads

open Idealize.ShloMosaic Idealize.ShloMosaic.ValueIdx

/-! ## Row gather `h[idx]` of an `[N, C]` operand at an `[E, 1]` column of start indices -/

section RowGather
variable {α : Type}

/-- The dimension numbers of a row gather: operand `[N, C]`, start indices `[E, 1]`, result `[E, C]`; their
    conditions `wf` are decided on a program's literal shapes. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at row `idx[e, 0]`, read signed and clamped into `[0, N − 1]`, and
    column `f`. -/
theorem gather_rows_apply {N E C w : ℕ} (hN : 0 < N)
    (wf : GatherDims.WF ⟨2, ![N, C]⟩ ⟨2, ![E, 1]⟩ ⟨2, ![E, C]⟩ [1] [0] [] [0] [] 1 ![1, C])
    (d : GatherDims ⟨2, ![N, C]⟩ ⟨2, ![E, 1]⟩ ⟨2, ![E, C]⟩) (hd : d = rowGatherDims N E C wf)
    (x : (⟨2, ![N, C]⟩ : Shape).Idx → α) (idx : IVec ⟨2, ![E, 1]⟩ w) (e : Fin E) (f : Fin C) :
    Host.gather d x idx (ix2 e f)
      = x (ix2 ⟨min (idx (ix2 e (0 : Fin 1))).toInt.toNat (N - 1), by omega⟩ f) := by
  subst hd
  unfold Host.gather
  congr 1
  funext a
  refine Fin.ext ?_
  match a with
  | ⟨0, _⟩ =>
    -- axis 0: the clamped start index; no batching coordinate, and no offset (the axis is collapsed)
    show (rowGatherDims N E C wf).start (ix2 e f) idx 0 + (rowGatherDims N E C wf).batchCoord (ix2 e f) 0
      + (rowGatherDims N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e f) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: start 0 (not in the start index map), no batching coordinate; the offset is result coordinate 1
    show (rowGatherDims N E C wf).start (ix2 e f) idx 1 + (rowGatherDims N E C wf).batchCoord (ix2 e f) 1
      + (rowGatherDims N E C wf).offCoord (ix2 e f) 1 = f.val
    rw [GatherDims.batchCoord_eq_zero _ _ _ List.not_mem_nil]
    have hst : (rowGatherDims N E C wf).start (ix2 e f) idx 1 = 0 := by
      unfold GatherDims.start
      rw [dif_neg (fun h => absurd (List.mem_singleton.mp h) (by decide : (1 : Fin 2) ≠ 0))]
    rw [hst]
    simp only [Nat.add_zero, Nat.zero_add]
    have hk : (1 : Fin 2) ∈ (rowGatherDims N E C wf).sKept :=
      (GatherDims.mem_sKept _ _).mpr ⟨fun h => absurd (List.mem_singleton.mp h) (by decide : (1 : Fin 2) ≠ 0), List.not_mem_nil⟩
    unfold GatherDims.offCoord
    rw [dif_pos hk]
    rfl

end RowGather

/-! ## Element gather `v[idx]` of an `[N]` operand at an `[E, 1]` column of start indices -/

section EltGather
variable {α : Type}

/-- The dimension numbers of an element gather: operand `[N]`, start indices `[E, 1]`, result `[E]`. -/
abbrev eltGatherDims (N E : ℕ)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER READ AT `e`: the operand at `idx[e, 0]`, read signed and clamped into `[0, N − 1]`. -/
theorem gather_elts_apply {N E w : ℕ} (hN : 0 < N)
    (wf : GatherDims.WF ⟨1, ![N]⟩ ⟨2, ![E, 1]⟩ ⟨1, ![E]⟩ [] [0] [] [0] [] 1 ![1])
    (d : GatherDims ⟨1, ![N]⟩ ⟨2, ![E, 1]⟩ ⟨1, ![E]⟩) (hd : d = eltGatherDims N E wf)
    (v : (⟨1, ![N]⟩ : Shape).Idx → α) (idx : IVec ⟨2, ![E, 1]⟩ w) (e : Fin E) :
    Host.gather d v idx (ix1 e)
      = v (ix1 ⟨min (idx (ix2 e (0 : Fin 1))).toInt.toNat (N - 1), by omega⟩) := by
  subst hd
  unfold Host.gather
  congr 1
  funext a
  obtain rfl : a = 0 := Subsingleton.elim _ _
  refine Fin.ext ?_
  show (eltGatherDims N E wf).start (ix1 e) idx 0 + (eltGatherDims N E wf).batchCoord (ix1 e) 0
    + (eltGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N E wf).startIndexMap from List.mem_singleton.mpr rfl)]
  have hsi : (eltGatherDims N E wf).siIdx (ix1 e) ⟨List.idxOf (0 : Fin 1) (eltGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end EltGather

/-! ## Row scatter into an `[N, C]` operand from `[E, C]` updates at an `[E, 1]` column of scatter indices -/

section RowScatter

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- WHERE AN UPDATE LANDS: if update index `j` lands on operand index `i`, its scatter index `idx[j 0, 0]`, read
    signed (not clamped), is the row `i 0`, and the columns agree. -/
theorem scatter_rows_lands {N E C w : ℕ}
    (wf : ScatterDims.WF ⟨2, ![N, C]⟩ ⟨2, ![E, 1]⟩ ⟨2, ![E, C]⟩ [1] [0] [0] 1)
    (d : ScatterDims ⟨2, ![N, C]⟩ ⟨2, ![E, 1]⟩ ⟨2, ![E, C]⟩) (hd : d = rowScatterDims N E C wf)
    (idx : IVec ⟨2, ![E, 1]⟩ w) (j : (⟨2, ![E, C]⟩ : Shape).Idx) (i : (⟨2, ![N, C]⟩ : Shape).Idx)
    (h : d.resultIdx? j idx = some i) :
    (idx (ix2 (j 0) (0 : Fin 1))).toInt = ((i 0).val : ℤ) ∧ (j 1).val = (i 1).val := by
  subst hd
  have h0 : (0 : Fin 2) ∈ (rowScatterDims N E C wf).scatterDimsToOperandDims := List.mem_singleton.mpr rfl
  have hst0 : (rowScatterDims N E C wf).start j idx 0 = (idx (ix2 (j 0) (0 : Fin 1))).toInt := by
    unfold ScatterDims.start
    rw [dif_pos h0]
    have hsi : (rowScatterDims N E C wf).siIdx j ⟨List.idxOf (0 : Fin 2) (rowScatterDims N E C wf).scatterDimsToOperandDims,
        List.idxOf_lt_length_iff.2 h0⟩ = ix2 (j 0) (0 : Fin 1) := by
      funext b; refine Fin.ext ?_
      match b with
      | ⟨0, _⟩ => rfl
      | ⟨1, _⟩ => rfl
    rw [hsi]
    rfl
  have hst1 : (rowScatterDims N E C wf).start j idx 1 = 0 := by
    unfold ScatterDims.start
    rw [dif_neg (fun hm => absurd (List.mem_singleton.mp hm) (by decide : (1 : Fin 2) ≠ 0))]
  have hw0 : (rowScatterDims N E C wf).window j 0 = 0 := by
    unfold ScatterDims.window
    rw [dif_neg (fun hm => by
      have := (List.mem_filter.mp hm).2
      simp at this)]
  have hw1 : (rowScatterDims N E C wf).window j 1 = (j 1).val := by
    unfold ScatterDims.window
    rw [dif_pos (show (1 : Fin 2) ∈ (rowScatterDims N E C wf).sKept from
      List.mem_filter.mpr ⟨List.mem_finRange _, by simp⟩)]
    rfl
  -- landing inside the operand: i is start + window on each axis, a natural number there
  unfold ScatterDims.resultIdx? at h
  split at h
  · rename_i hin
    have hi := Option.some.inj h
    subst hi
    have a0 := hin 0
    have a1 := hin 1
    rw [hst0, hw0] at a0
    constructor
    · show _ = (((rowScatterDims N E C wf).start j idx 0 + ((rowScatterDims N E C wf).window j 0 : ℕ)).toNat : ℤ)
      rw [hst0, hw0]
      omega
    · show _ = ((rowScatterDims N E C wf).start j idx 1 + ((rowScatterDims N E C wf).window j 1 : ℕ)).toNat
      rw [hst1, hw1]
      omega
  · exact absurd h (by simp)

end RowScatter

end Cert.LibEdgeReads

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.KernelHostRead.lean ====
/-
  The host operations of the kernel program's @main, read at an entry on the extended reals.

  Each array the first stretch of host operations computes after the shared prefix — the 8 × 8 mixing matrix, the
  latent map, the nodes' latent positions — and each wrapped gather is read at an index into the specification's
  forms: a product is the sum over its contracted axis, a quotient by a broadcast column sum is the quotient by that
  column's sum, a transpose swaps the coordinates, and a gather of rows (or of entries) reads the table at the row its
  start word, read signed and clamped into the table, names. The five arrays of the shared prefix and the wrapped
  index words are never opened.
-/
import proofs.«165161_j56453050139080_2_alg».proof.Proof.KernelHostTerms
import proofs.«165161_j56453050139080_2_alg».proof.Proof.Spec
import proofs.«165161_j56453050139080_2_alg».proof.Proof.LibEdgeReads
import proofs.«165161_j56453050139080_2_alg».proof.Proof.LibKeepdims
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.HostValue

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F] [Named F]

open Cert

/-! ## General readings -/

/-- Entry (r, e) of a plain [M, K] × [K, N] host product on the extended reals is ∑ k, lhs[r, k] · rhs[k, e]: the
    contraction's one-axis index is its one coordinate. The dimension record may be any record equal to the plain one. -/
theorem hostDot_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    Host.dotGeneral d prec lhs rhs (ix2 r e) = ∑ k : Fin K, lhs (ix2 r k) * rhs (ix2 k e) := by
  subst hd
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

/-! ## The arrays after the prefix, read at an entry -/

/-- A node's latent position, coordinate by coordinate: the latent map's row against the softmax's column. -/
theorem posArr_apply (L : (⟨S8x8, .f32⟩ : BufTy).Contents (Elt Ideal)) (Zx : (⟨S8x50000, .f32⟩ : BufTy).Contents (Elt Ideal))
    (n : Fin 50000) (d : Fin 8) :
    posArr (F := Ideal) L Zx (ix2 n d) = Affinity.proj (fun d k => L (ix2 d k)) (fun k n => Zx (ix2 k n)) n d :=
  (transpose_ix2_apply (a := 8) (b := 50000) _ transposes_S8x50000_S50000x8_1_0 n d).trans
    ((hostDot_plain_apply dot_S8x8_S8x50000_S8x50000_1_0_0_1_n_n rfl none L Zx d n).trans (zero_add _).symm)

/-- The latent map's entry (i, j): row j of the affinity matrix against column i of the mixing matrix. -/
theorem latentArr_apply (x2 : (⟨S8x8, .f32⟩ : BufTy).Contents (Elt Ideal)) (x3 x4 : (⟨S8x50000, .f32⟩ : BufTy).Contents (Elt Ideal))
    (x5 : (⟨S100000x8, .f32⟩ : BufTy).Contents (Elt Ideal)) (i j : Fin 8) :
    latentArr (F := Ideal) x2 x3 x4 x5 (ix2 i j)
      = Affinity.latent (fun j k => x2 (ix2 j k)) (fun k i => mixArr (F := Ideal) x3 x4 x5 (ix2 k i)) i j :=
  (transpose_ix2_apply (a := 8) (b := 8) _ transposes_S8x8_S8x8_1_0 i j).trans
    ((hostDot_plain_apply dot_S8x8_S8x8_S8x8_1_0_0_1_n_n rfl none x2 (mixArr (F := Ideal) x3 x4 x5) j i).trans (zero_add _).symm)

/-- The mixing matrix's entry (a, k): the softmaxes' row a against the gated array's column k, over the column sum. -/
theorem mixArr_apply (x3 x4 : (⟨S8x50000, .f32⟩ : BufTy).Contents (Elt Ideal)) (x5 : (⟨S100000x8, .f32⟩ : BufTy).Contents (Elt Ideal))
    (a k : Fin 8) :
    mixArr (F := Ideal) x3 x4 x5 (ix2 a k)
      = Affinity.mixSumThenNorm (fun a n => preZ (F := Ideal) x3 x4 (ix2 a n)) (fun n k => preZG (F := Ideal) x3 x4 x5 (ix2 n k))
          (fun k => preCs (F := Ideal) x3 x4 x5 (ix1 k)) a k := by
  unfold mixArr Affinity.mixSumThenNorm
  show FloatOps.hostDivf _ _ = _
  rw [Ideal.hostDivf_def, hostDot_plain_apply dot_S8x100000_S100000x8_S8x8_1_0_0_1_n_n rfl none, zero_add]
  refine congrArg (Ideal.div _) ?_
  refine (broadcastInDim_apply _ bcast_S1x8_S8x8_0_1 _ (ix2 a k) (ix2 (0 : Fin 1) k) fun ax => ?_).trans
    (broadcastInDim_apply _ bcast_S8_S1x8_1 _ (ix2 (0 : Fin 1) k) (ix1 k) fun ax => ?_)
  · match ax with
    | ⟨0, _⟩ => show 0 = if (1 : ℕ) = 1 then 0 else a.val; rw [if_pos rfl]
    | ⟨1, _⟩ => show k.val = if (8 : ℕ) = 1 then 0 else k.val; rw [if_neg (by decide)]
  · match ax with
    | ⟨0, _⟩ => show k.val = if (8 : ℕ) = 1 then 0 else k.val; rw [if_neg (by decide)]

/-- The first softmax's node positions, read into the specification's forms. -/
theorem posI_apply (x2 : (⟨S8x8, .f32⟩ : BufTy).Contents (Elt Ideal)) (x3 x4 : (⟨S8x50000, .f32⟩ : BufTy).Contents (Elt Ideal))
    (x5 : (⟨S100000x8, .f32⟩ : BufTy).Contents (Elt Ideal)) (n : Fin 50000) (d : Fin 8) :
    posI (F := Ideal) x2 x3 x4 x5 (ix2 n d)
      = Affinity.proj
          (Affinity.latent (fun j k => x2 (ix2 j k))
            (Affinity.mixSumThenNorm (fun a n => preZ (F := Ideal) x3 x4 (ix2 a n)) (fun n k => preZG (F := Ideal) x3 x4 x5 (ix2 n k))
              (fun k => preCs (F := Ideal) x3 x4 x5 (ix1 k))))
          (fun k n => preZi (F := Ideal) x3 (ix2 k n)) n d := by
  unfold posI
  rw [posArr_apply]
  refine congrArg (fun L => Affinity.proj L _ n d) (funext fun i => funext fun j => ?_)
  rw [latentArr_apply]
  exact congrArg (fun M => Affinity.latent _ M i j) (funext fun a => funext fun k => mixArr_apply x3 x4 x5 a k)

/-- The second softmax's node positions, read into the specification's forms. -/
theorem posJ_apply (x2 : (⟨S8x8, .f32⟩ : BufTy).Contents (Elt Ideal)) (x3 x4 : (⟨S8x50000, .f32⟩ : BufTy).Contents (Elt Ideal))
    (x5 : (⟨S100000x8, .f32⟩ : BufTy).Contents (Elt Ideal)) (n : Fin 50000) (d : Fin 8) :
    posJ (F := Ideal) x2 x3 x4 x5 (ix2 n d)
      = Affinity.proj
          (Affinity.latent (fun j k => x2 (ix2 j k))
            (Affinity.mixSumThenNorm (fun a n => preZ (F := Ideal) x3 x4 (ix2 a n)) (fun n k => preZG (F := Ideal) x3 x4 x5 (ix2 n k))
              (fun k => preCs (F := Ideal) x3 x4 x5 (ix1 k))))
          (fun k n => preZj (F := Ideal) x4 (ix2 k n)) n d := by
  unfold posJ
  rw [posArr_apply]
  refine congrArg (fun L => Affinity.proj L _ n d) (funext fun i => funext fun j => ?_)
  rw [latentArr_apply]
  exact congrArg (fun M => Affinity.latent _ M i j) (funext fun a => funext fun k => mixArr_apply x3 x4 x5 a k)

/-! ## The wrapped gathers, read at an entry (at any float instance) -/

/-- Row r, column d of the rows gathered at 3000 wrapped indices: the table at the row the wrapped word starts,
    that word read signed and clamped into the table. -/
theorem rows3000_apply (h : (⟨S50000x8, .f32⟩ : BufTy).Contents (Elt F)) (idx : (⟨S3000, .i32⟩ : BufTy).Contents (Elt F))
    (r : Fin 3000) (d : Fin 8) :
    rows3000 (F := F) h idx (ix2 r d) = h (ix2 (Affinity.startRow (wrap3000 (F := F) idx (ix1 r))) d) := by
  unfold rows3000
  refine (LibEdgeReads.gather_rows_apply (N := 50000) (E := 3000) (C := 8) (by decide)
    gather_S50000x8_S3000x1_S3000x8_1_0_n_n_0_1_18_wf gather_S50000x8_S3000x1_S3000x8_1_0_n_n_0_1_18 rfl h _ r d).trans ?_
  exact congrArg (fun w : BitVec 32 => h (ix2 (Affinity.startRow w) d))
    (broadcastInDim_apply _ bcast_S3000_S3000x1_0 (wrap3000 (F := F) idx) (ix2 r (0 : Fin 1)) (ix1 r) fun ax => match ax with
      | ⟨0, _⟩ => by show r.val = if (3000 : ℕ) = 1 then 0 else r.val; rw [if_neg (by decide)])

/-- Entry r of the entries gathered at 3000 wrapped indices: the array at the row the wrapped word starts. -/
theorem elts3000_apply (v : (⟨S50000, .f32⟩ : BufTy).Contents (Elt F)) (idx : (⟨S3000, .i32⟩ : BufTy).Contents (Elt F))
    (r : Fin 3000) :
    elts3000 (F := F) v idx (ix1 r) = v (ix1 (Affinity.startRow (wrap3000 (F := F) idx (ix1 r)))) := by
  unfold elts3000
  refine (LibEdgeReads.gather_elts_apply (N := 50000) (E := 3000) (by decide)
    gather_S50000_S3000x1_S3000_n_0_n_n_0_1_1_wf gather_S50000_S3000x1_S3000_n_0_n_n_0_1_1 rfl v _ r).trans ?_
  exact congrArg (fun w : BitVec 32 => v (ix1 (Affinity.startRow w)))
    (broadcastInDim_apply _ bcast_S3000_S3000x1_0 (wrap3000 (F := F) idx) (ix2 r (0 : Fin 1)) (ix1 r) fun ax => match ax with
      | ⟨0, _⟩ => by show r.val = if (3000 : ℕ) = 1 then 0 else r.val; rw [if_neg (by decide)])

/-- Row r, column d of the rows gathered at 500000 wrapped indices: the table at the row the wrapped word starts,
    that word read signed and clamped into the table. -/
theorem rows500000_apply (h : (⟨S50000x8, .f32⟩ : BufTy).Contents (Elt F)) (idx : (⟨S500000, .i32⟩ : BufTy).Contents (Elt F))
    (r : Fin 500000) (d : Fin 8) :
    rows500000 (F := F) h idx (ix2 r d) = h (ix2 (Affinity.startRow (wrap500000 (F := F) idx (ix1 r))) d) := by
  unfold rows500000
  refine (LibEdgeReads.gather_rows_apply (N := 50000) (E := 500000) (C := 8) (by decide)
    gather_S50000x8_S500000x1_S500000x8_1_0_n_n_0_1_18_wf gather_S50000x8_S500000x1_S500000x8_1_0_n_n_0_1_18 rfl h _ r d).trans ?_
  exact congrArg (fun w : BitVec 32 => h (ix2 (Affinity.startRow w) d))
    (broadcastInDim_apply _ bcast_S500000_S500000x1_0 (wrap500000 (F := F) idx) (ix2 r (0 : Fin 1)) (ix1 r) fun ax => match ax with
      | ⟨0, _⟩ => by show r.val = if (500000 : ℕ) = 1 then 0 else r.val; rw [if_neg (by decide)])

/-- Entry r of the entries gathered at 500000 wrapped indices: the array at the row the wrapped word starts. -/
theorem elts500000_apply (v : (⟨S50000, .f32⟩ : BufTy).Contents (Elt F)) (idx : (⟨S500000, .i32⟩ : BufTy).Contents (Elt F))
    (r : Fin 500000) :
    elts500000 (F := F) v idx (ix1 r) = v (ix1 (Affinity.startRow (wrap500000 (F := F) idx (ix1 r)))) := by
  unfold elts500000
  refine (LibEdgeReads.gather_elts_apply (N := 50000) (E := 500000) (by decide)
    gather_S50000_S500000x1_S500000_n_0_n_n_0_1_1_wf gather_S50000_S500000x1_S500000_n_0_n_n_0_1_1 rfl v _ r).trans ?_
  exact congrArg (fun w : BitVec 32 => v (ix1 (Affinity.startRow w)))
    (broadcastInDim_apply _ bcast_S500000_S500000x1_0 (wrap500000 (F := F) idx) (ix2 r (0 : Fin 1)) (ix1 r) fun ax => match ax with
      | ⟨0, _⟩ => by show r.val = if (500000 : ℕ) = 1 then 0 else r.val; rw [if_neg (by decide)])

/-! ## The buffers the kernel regions read, at an entry, in the specification's forms

The five arrays of the shared prefix (`preZi`, `preZj`, `preZ`, `preZG`, `preCs`) and the wrapped index words stay
atoms: both programs compute them by the same operations. -/

section Buffers
variable (x0 x1 : (⟨S50000, .f32⟩ : BufTy).Contents (Elt Ideal)) (x2 : (⟨S8x8, .f32⟩ : BufTy).Contents (Elt Ideal))
  (x3 x4 : (⟨S8x50000, .f32⟩ : BufTy).Contents (Elt Ideal)) (x5 : (⟨S100000x8, .f32⟩ : BufTy).Contents (Elt Ideal))
  (x6 x7 : (⟨S3000, .i32⟩ : BufTy).Contents (Elt Ideal)) (x8 x9 : (⟨S500000, .i32⟩ : BufTy).Contents (Elt Ideal))

/-- The sampled rows' positions (`%48`): coordinate d of sampled row r is the latent position of the node the
    wrapped index word of r starts, taken in the first softmax. -/
theorem sampledRows_apply (r : Fin 3000) (d : Fin 8) :
    rows3000 (F := Ideal) (posI (F := Ideal) x2 x3 x4 x5) x6 (ix2 r d)
      = Affinity.proj (Affinity.latent (fun j k => x2 (ix2 j k))
            (Affinity.mixSumThenNorm (fun a n => preZ (F := Ideal) x3 x4 (ix2 a n)) (fun n k => preZG (F := Ideal) x3 x4 x5 (ix2 n k))
              (fun k => preCs (F := Ideal) x3 x4 x5 (ix1 k))))
          (fun k n => preZi (F := Ideal) x3 (ix2 k n)) (Affinity.startRow (wrap3000 (F := Ideal) x6 (ix1 r))) d :=
  (rows3000_apply _ x6 r d).trans (posI_apply x2 x3 x4 x5 _ d)

/-- The sampled columns' positions (`%55`), in the second softmax. -/
theorem sampledCols_apply (r : Fin 3000) (d : Fin 8) :
    rows3000 (F := Ideal) (posJ (F := Ideal) x2 x3 x4 x5) x7 (ix2 r d)
      = Affinity.proj (Affinity.latent (fun j k => x2 (ix2 j k))
            (Affinity.mixSumThenNorm (fun a n => preZ (F := Ideal) x3 x4 (ix2 a n)) (fun n k => preZG (F := Ideal) x3 x4 x5 (ix2 n k))
              (fun k => preCs (F := Ideal) x3 x4 x5 (ix1 k))))
          (fun k n => preZj (F := Ideal) x4 (ix2 k n)) (Affinity.startRow (wrap3000 (F := Ideal) x7 (ix1 r))) d :=
  (rows3000_apply _ x7 r d).trans (posJ_apply x2 x3 x4 x5 _ d)

/-- The sampled rows' biases as a column (`%63`). -/
theorem sampledRowBias_apply (r : Fin 3000) (u : Fin 1) :
    shapeCast S3000x1 (elts3000 (F := Ideal) x0 x6) shapeCasts_S3000_S3000x1 (ix2 r u)
      = x0 (ix1 (Affinity.startRow (wrap3000 (F := Ideal) x6 (ix1 r)))) :=
  (LibKeepdims.shapeCast_a_a1_apply _ shapeCasts_S3000_S3000x1 r u).trans (elts3000_apply x0 x6 r)

/-- The sampled columns' biases as a row (`%71`). -/
theorem sampledColBias_apply (u : Fin 1) (c : Fin 3000) :
    shapeCast S1x3000 (elts3000 (F := Ideal) x1 x7) shapeCasts_S3000_S1x3000 (ix2 u c)
      = x1 (ix1 (Affinity.startRow (wrap3000 (F := Ideal) x7 (ix1 c)))) :=
  (shapeCast_a_1a_apply _ shapeCasts_S3000_S1x3000 u c).trans (elts3000_apply x1 x7 c)

/-- An edge end's bias as a column entry (`%95` from the first bias array and the sources, `%103` from the second and the
    targets). -/
theorem edgeBias_apply (v : (⟨S50000, .f32⟩ : BufTy).Contents (Elt Ideal)) (idx : (⟨S500000, .i32⟩ : BufTy).Contents (Elt Ideal))
    (e : Fin 500000) (u : Fin 1) :
    shapeCast S500000x1 (elts500000 (F := Ideal) v idx) shapeCasts_S500000_S500000x1 (ix2 e u)
      = v (ix1 (Affinity.startRow (wrap500000 (F := Ideal) idx (ix1 e)))) :=
  (LibKeepdims.shapeCast_a_a1_apply _ shapeCasts_S500000_S500000x1 e u).trans (elts500000_apply v idx e)

/-- An edge's source position (`%80`), when the table it gathers from holds the first softmax's positions. -/
theorem edgeSrc_apply (e : Fin 500000) (d : Fin 8) :
    rows500000 (F := Ideal) (posI (F := Ideal) x2 x3 x4 x5) x8 (ix2 e d)
      = Affinity.proj (Affinity.latent (fun j k => x2 (ix2 j k))
            (Affinity.mixSumThenNorm (fun a n => preZ (F := Ideal) x3 x4 (ix2 a n)) (fun n k => preZG (F := Ideal) x3 x4 x5 (ix2 n k))
              (fun k => preCs (F := Ideal) x3 x4 x5 (ix1 k))))
          (fun k n => preZi (F := Ideal) x3 (ix2 k n)) (Affinity.startRow (wrap500000 (F := Ideal) x8 (ix1 e))) d :=
  (rows500000_apply _ x8 e d).trans (posI_apply x2 x3 x4 x5 _ d)

/-- An edge's target position (`%87`), when the table it gathers from holds the second softmax's positions. -/
theorem edgeDst_apply (e : Fin 500000) (d : Fin 8) :
    rows500000 (F := Ideal) (posJ (F := Ideal) x2 x3 x4 x5) x9 (ix2 e d)
      = Affinity.proj (Affinity.latent (fun j k => x2 (ix2 j k))
            (Affinity.mixSumThenNorm (fun a n => preZ (F := Ideal) x3 x4 (ix2 a n)) (fun n k => preZG (F := Ideal) x3 x4 x5 (ix2 n k))
              (fun k => preCs (F := Ideal) x3 x4 x5 (ix1 k))))
          (fun k n => preZj (F := Ideal) x4 (ix2 k n)) (Affinity.startRow (wrap500000 (F := Ideal) x9 (ix1 e))) d :=
  (rows500000_apply _ x9 e d).trans (posJ_apply x2 x3 x4 x5 _ d)

end Buffers

end Cert.KernelIdeal.HostValue
end
-- ==== Proof.KernelArrays.lean ====
/-
  The arrays the two kernels read, in the specification's terms.

  Region 0 is entered from the launch memory after the first stretch of host operations, region 1 from what region 0 and
  the second stretch leave. Each array a kernel reads is then a gather, by a wrapped index array, of the latent
  positions (the 8 × 8 matrix `latent A (mixSumThenNorm Z ZG cs)` applied to a softmax's columns) or of a bias
  vector; the second stretch gathers from the positions the first stretch computed, which region 0 leaves alone.
-/
import proofs.«165161_j56453050139080_2_alg».proof.Proof.KernelTotals
import proofs.«165161_j56453050139080_2_alg».proof.Proof.LaunchStates
import proofs.«165161_j56453050139080_2_alg».proof.Proof.KernelHostTerms
import proofs.«165161_j56453050139080_2_alg».proof.Proof.KernelHostRead

set_option maxRecDepth 16384

noncomputable section

namespace Cert.KernelIdeal.ArrayValue

open Cert.KernelIdeal Cert.KernelIdeal.Gen Cert.KernelIdeal.Hand Cert.KernelIdeal.HostValue Cert.KernelIdeal.TotalValue
open Idealize.ShloMosaic Idealize.ShloMosaic.TcCoe Idealize.SL.Sem Idealize.ShloMosaic.ValueIdx

variable (m : (ℓ : Loc nD τ sig) → Buf (Elt Ideal) ℓ) (c : Dev nD)

/-- The ten argument arrays on core `c`, as the launch memory holds them. -/
abbrev a0 : (⟨S50000, .f32⟩ : BufTy).Contents (Elt Ideal) := V0 m c (Proc.devRef .tc main_arg0)
abbrev a1 : (⟨S50000, .f32⟩ : BufTy).Contents (Elt Ideal) := V0 m c (Proc.devRef .tc main_arg1)
abbrev a2 : (⟨S8x8, .f32⟩ : BufTy).Contents (Elt Ideal) := V0 m c (Proc.devRef .tc main_arg2)
abbrev a3 : (⟨S8x50000, .f32⟩ : BufTy).Contents (Elt Ideal) := V0 m c (Proc.devRef .tc main_arg3)
abbrev a4 : (⟨S8x50000, .f32⟩ : BufTy).Contents (Elt Ideal) := V0 m c (Proc.devRef .tc main_arg4)
abbrev a5 : (⟨S100000x8, .f32⟩ : BufTy).Contents (Elt Ideal) := V0 m c (Proc.devRef .tc main_arg5)
abbrev a6 : (⟨S3000, .i32⟩ : BufTy).Contents (Elt Ideal) := V0 m c (Proc.devRef .tc main_arg6)
abbrev a7 : (⟨S3000, .i32⟩ : BufTy).Contents (Elt Ideal) := V0 m c (Proc.devRef .tc main_arg7)
abbrev a8 : (⟨S500000, .i32⟩ : BufTy).Contents (Elt Ideal) := V0 m c (Proc.devRef .tc main_arg8)
abbrev a9 : (⟨S500000, .i32⟩ : BufTy).Contents (Elt Ideal) := V0 m c (Proc.devRef .tc main_arg9)

/-- The latent matrix the kernel's program forms: contract, normalise, multiply by `A`, transpose. -/
abbrev Lk : Fin 8 → Fin 8 → EReal :=
  Affinity.latent (fun j k => a2 m c (ix2 j k))
    (Affinity.mixSumThenNorm (fun a n => preZ (F := Ideal) (a3 m c) (a4 m c) (ix2 a n))
      (fun n k => preZG (F := Ideal) (a3 m c) (a4 m c) (a5 m c) (ix2 n k)) (fun k => preCs (F := Ideal) (a3 m c) (a4 m c) (a5 m c) (ix1 k)))

/-! ## Region 0's arrays -/

theorem Mi_eq (i : Fin 3000) (d : Fin 8) :
    Mi (V1 m c) c i d = Affinity.proj (Lk m c) (fun k n => preZi (F := Ideal) (a3 m c) (ix2 k n))
      (Affinity.startRow (wrap3000 (F := Ideal) (a6 m c) (ix1 i))) d := by
  show (V1 m c (Proc.devRef .tc main_v48) : S3000x8.Idx → EReal) (ix2 i d) = _
  rw [V1_eq, hostOps0_v48]
  exact sampledRows_apply _ _ _ _ _ i d

theorem Mj_eq (j : Fin 3000) (d : Fin 8) :
    Mj (V1 m c) c j d = Affinity.proj (Lk m c) (fun k n => preZj (F := Ideal) (a4 m c) (ix2 k n))
      (Affinity.startRow (wrap3000 (F := Ideal) (a7 m c) (ix1 j))) d := by
  show (V1 m c (Proc.devRef .tc main_v55) : S3000x8.Idx → EReal) (ix2 j d) = _
  rw [V1_eq, hostOps0_v55]
  exact sampledCols_apply _ _ _ _ _ j d

theorem bs_eq (i : Fin 3000) :
    bs (V1 m c) c i = a0 m c (ix1 (Affinity.startRow (wrap3000 (F := Ideal) (a6 m c) (ix1 i)))) := by
  show (V1 m c (Proc.devRef .tc main_v63) : S3000x1.Idx → EReal) (ix2 i 0) = _
  rw [V1_eq, hostOps0_v63]
  exact sampledRowBias_apply _ _ i 0

theorem gs_eq (j : Fin 3000) :
    gs (V1 m c) c j = a1 m c (ix1 (Affinity.startRow (wrap3000 (F := Ideal) (a7 m c) (ix1 j)))) := by
  show (V1 m c (Proc.devRef .tc main_v71) : S1x3000.Idx → EReal) (ix2 0 j) = _
  rw [V1_eq, hostOps0_v71]
  exact sampledColBias_apply _ _ 0 j

/-! ## Region 1's arrays

The second stretch reads the positions `%40`, `%41` and the arguments, none of which is an array of region 0. -/

theorem P_eq (r : Fin 500000) (d : Fin 8) :
    P (V3 m c) c r d = Affinity.proj (Lk m c) (fun k n => preZi (F := Ideal) (a3 m c) (ix2 k n))
      (Affinity.startRow (wrap500000 (F := Ideal) (a8 m c) (ix1 r))) d := by
  show (V3 m c (Proc.devRef .tc main_v80) : S500000x8.Idx → EReal) (ix2 r d) = _
  rw [V3_eq, hostOps1_v80, V2_of_ne m c main_v40 (by decide), V2_of_ne m c main_arg8 (by decide), V1_eq, hostOps0_v40,
    hostOps0_arg8]
  exact edgeSrc_apply _ _ _ _ _ r d

theorem Q_eq (r : Fin 500000) (d : Fin 8) :
    Q (V3 m c) c r d = Affinity.proj (Lk m c) (fun k n => preZj (F := Ideal) (a4 m c) (ix2 k n))
      (Affinity.startRow (wrap500000 (F := Ideal) (a9 m c) (ix1 r))) d := by
  show (V3 m c (Proc.devRef .tc main_v87) : S500000x8.Idx → EReal) (ix2 r d) = _
  rw [V3_eq, hostOps1_v87, V2_of_ne m c main_v41 (by decide), V2_of_ne m c main_arg9 (by decide), V1_eq, hostOps0_v41,
    hostOps0_arg9]
  exact edgeDst_apply _ _ _ _ _ r d

theorem be_eq (r : Fin 500000) :
    be (V3 m c) c r = a0 m c (ix1 (Affinity.startRow (wrap500000 (F := Ideal) (a8 m c) (ix1 r)))) := by
  show (V3 m c (Proc.devRef .tc main_v95) : S500000x1.Idx → EReal) (ix2 r 0) = _
  rw [V3_eq, hostOps1_v95, V2_of_ne m c main_arg0 (by decide), V2_of_ne m c main_arg8 (by decide), V1_eq, hostOps0_arg0,
    hostOps0_arg8]
  exact edgeBias_apply _ _ r 0

theorem ge_eq (r : Fin 500000) :
    ge (V3 m c) c r = a1 m c (ix1 (Affinity.startRow (wrap500000 (F := Ideal) (a9 m c) (ix1 r)))) := by
  show (V3 m c (Proc.devRef .tc main_v103) : S500000x1.Idx → EReal) (ix2 r 0) = _
  rw [V3_eq, hostOps1_v103, V2_of_ne m c main_arg1 (by decide), V2_of_ne m c main_arg9 (by decide), V1_eq, hostOps0_arg1,
    hostOps0_arg9]
  exact edgeBias_apply _ _ r 0

end Cert.KernelIdeal.ArrayValue

end
-- ==== Proof.KernelOutputs.lean ====
import proofs.«165161_j56453050139080_2_alg».proof.Proof.KernelData
import proofs.«165161_j56453050139080_2_alg».proof.Proof.LaunchStates
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.SL.Sem
open Idealize.ShloMosaic.Pipeline (Dat)
open Cert.KernelIdeal.Gen

variable {F : FTy → Type} [FloatOps F] [Named F]

/-! ## Each region's output array after the run

The output window of either region is one [1,1] block at index (0,0) at every point, written back to its array after
the last point only. So the array ends at what the staging buffer held after the last point: the running total there. -/

/-- The last point of region 0's grid. -/
def tl0 : Fin cfg0.N := ⟨14, by rw [show cfg0.N = 15 from N_0]; decide⟩

theorem lt_last0 : 14 < cfg0.N := by rw [show cfg0.N = 15 from N_0]; decide

/-- The one write-back of region 0's output window, at the last point, writes the running total after that point:
    the window's block is the whole [1,1] array read through zero offsets. -/
theorem flushed0_eq (V : Valuation τ sig (Elt F)) (c : Dev nD) (t : Fin cfg0.N) (hf : (cfg0.win 4).flush t = true) :
    (dat0 V c).flushed 4 t = ((cfg0.win 4).blk t).view.read (Elt F) (acc0 V c 14 lt_last0) := by
  have hN : cfg0.N = 15 := N_0
  have hl : t.val = 14 := by have := (flush0_4 t).mp hf; have := t.isLt; omega
  obtain rfl : t = tl0 := Fin.ext hl
  show (cfg0.win 4).cut (grid0.coords tl0) ((dat0 V c).after 4 tl0) = _
  rw [after0_4]
  have hz' : (fun a => win0_4.index tl0 a * main_v72.ty.shape.size a) = fun _ => 0 := funext fun a => by fin_cases a <;> decide +kernel
  exact (Memref.read_access_unit_zero (Elt F) main_v72 hz' (fun a => by rw [congrFun hz' a]; simp) (acc0 V c 14 lt_last0)).symm

/-- Region 0's output array ends holding the running total after the last point: that point's block covers it. -/
theorem out0_final (V : Valuation τ sig (Elt F)) (c : Dev nD) : (dat0 V c).arrAt 4 cfg0.N = acc0 V c 14 lt_last0 :=
  (dat0 V c).arrAt_eq_of_cover 4 (acc0 V c 14 lt_last0) (flushed0_eq V c) fun i =>
    ⟨tl0, (flush0_4 tl0).mpr rfl, by
      show i ∈ ((View.whole main_v72).slice (win0_4.rect tl0)).set
      rw [View.set_slice_whole, Rect.mem_set_unit]
      intro a
      have h0 : (i 0 : Nat) < 1 := (i 0).isLt
      have h1 : (i 1 : Nat) < 1 := (i 1).isLt
      match a with
      | ⟨0, _⟩ => show win0_4.index tl0 0 * win0_4.size 0 ≤ (i 0 : Nat) ∧ (i 0 : Nat) < win0_4.index tl0 0 * win0_4.size 0 + win0_4.xsize (grid0.coords tl0) 0
                  rw [show win0_4.index tl0 0 * win0_4.size 0 = 0 from by decide +kernel, show win0_4.xsize (grid0.coords tl0) 0 = 1 from by decide +kernel]; omega
      | ⟨1, _⟩ => show win0_4.index tl0 1 * win0_4.size 1 ≤ (i 1 : Nat) ∧ (i 1 : Nat) < win0_4.index tl0 1 * win0_4.size 1 + win0_4.xsize (grid0.coords tl0) 1
                  rw [show win0_4.index tl0 1 * win0_4.size 1 = 0 from by decide +kernel, show win0_4.xsize (grid0.coords tl0) 1 = 1 from by decide +kernel]; omega⟩

/-- The last point of region 1's grid. -/
def tl1 : Fin cfg1.N := ⟨99, by rw [show cfg1.N = 100 from N_1]; decide⟩

theorem lt_last1 : 99 < cfg1.N := by rw [show cfg1.N = 100 from N_1]; decide

/-- The one write-back of region 1's output window, at the last point, writes the running total after that point:
    the window's block is the whole [1,1] array read through zero offsets. -/
theorem flushed1_eq (V : Valuation τ sig (Elt F)) (c : Dev nD) (t : Fin cfg1.N) (hf : (cfg1.win 4).flush t = true) :
    (dat1 V c).flushed 4 t = ((cfg1.win 4).blk t).view.read (Elt F) (acc1 V c 99 lt_last1) := by
  have hN : cfg1.N = 100 := N_1
  have hl : t.val = 99 := by have := (flush1_4 t).mp hf; have := t.isLt; omega
  obtain rfl : t = tl1 := Fin.ext hl
  show (cfg1.win 4).cut (grid1.coords tl1) ((dat1 V c).after 4 tl1) = _
  rw [after1_4]
  have hz' : (fun a => win1_4.index tl1 a * main_v104.ty.shape.size a) = fun _ => 0 := funext fun a => by fin_cases a <;> decide +kernel
  exact (Memref.read_access_unit_zero (Elt F) main_v104 hz' (fun a => by rw [congrFun hz' a]; simp) (acc1 V c 99 lt_last1)).symm

/-- Region 1's output array ends holding the running total after the last point: that point's block covers it. -/
theorem out1_final (V : Valuation τ sig (Elt F)) (c : Dev nD) : (dat1 V c).arrAt 4 cfg1.N = acc1 V c 99 lt_last1 :=
  (dat1 V c).arrAt_eq_of_cover 4 (acc1 V c 99 lt_last1) (flushed1_eq V c) fun i =>
    ⟨tl1, (flush1_4 tl1).mpr rfl, by
      show i ∈ ((View.whole main_v104).slice (win1_4.rect tl1)).set
      rw [View.set_slice_whole, Rect.mem_set_unit]
      intro a
      have h0 : (i 0 : Nat) < 1 := (i 0).isLt
      have h1 : (i 1 : Nat) < 1 := (i 1).isLt
      match a with
      | ⟨0, _⟩ => show win1_4.index tl1 0 * win1_4.size 0 ≤ (i 0 : Nat) ∧ (i 0 : Nat) < win1_4.index tl1 0 * win1_4.size 0 + win1_4.xsize (grid1.coords tl1) 0
                  rw [show win1_4.index tl1 0 * win1_4.size 0 = 0 from by decide +kernel, show win1_4.xsize (grid1.coords tl1) 0 = 1 from by decide +kernel]; omega
      | ⟨1, _⟩ => show win1_4.index tl1 1 * win1_4.size 1 ≤ (i 1 : Nat) ∧ (i 1 : Nat) < win1_4.index tl1 1 * win1_4.size 1 + win1_4.xsize (grid1.coords tl1) 1
                  rw [show win1_4.index tl1 1 * win1_4.size 1 = 0 from by decide +kernel, show win1_4.xsize (grid1.coords tl1) 1 = 1 from by decide +kernel]; omega⟩

/-! ## The two arrays in the fold of boundary contents -/

variable (m : (ℓ : Loc nD τ sig) → Buf (Elt F) ℓ)

/-- After region 0 its result array holds the first running total at its last point, -/
theorem V2_out (c : Dev nD) : V2 m c (Proc.devRef .tc main_v72) = acc0 (V1 m c) c 14 lt_last0 :=
  (V2_arr m c 4).trans (out0_final (V1 m c) c)
/-- and after region 1 its result array holds the second's. -/
theorem V4_out (c : Dev nD) : V4 m c (Proc.devRef .tc main_v104) = acc1 (V3 m c) c 99 lt_last1 :=
  (V4_arr m c 4).trans (out1_final (V3 m c) c)

end Cert.KernelIdeal.Hand

end
-- ==== Proof.KernelResult.lean ====
/-
  The kernel program's result buffer, read down to the two running totals.

  After the second kernel region the last host operations turn that region's one-entry result into a scalar and
  subtract from it the scalar the first region's one-entry result was turned into before the second region ran. Each
  region's result is its running total after its last grid point, and each running total is the specification's
  running total of the per-block terms. So the program returns the running total of the 100 edge blocks less the
  running total of the 15 sampled blocks.
-/
import proofs.«165161_j56453050139080_2_alg».proof.Proof.KernelTotals
import proofs.«165161_j56453050139080_2_alg».proof.Proof.LaunchStates
import proofs.«165161_j56453050139080_2_alg».proof.Proof.KernelOutputs
import proofs.«165161_j56453050139080_2_alg».proof.Proof.KernelHostTerms

set_option maxRecDepth 16384

noncomputable section

open scoped BigOperators

namespace Cert.KernelIdeal.TotalValue

open Cert.KernelIdeal.Gen Cert.KernelIdeal.Hand
open Idealize.ShloMosaic Idealize.ShloMosaic.TcCoe Idealize.ShloMosaic.ValueIdx
open Idealize.SL.Sem

/-- A one-by-one array cast to a scalar: its one entry. Both indices sit at row-major position zero. -/
theorem shapeCast_1x1_scalar {α : Type} (x : S1x1.Idx → α) (h : S1x1.ShapeCasts S_) :
    shapeCast S_ x h ix0 = x (ix2 0 0) := by
  refine shapeCast_apply x h ix0 (ix2 0 0) ?_
  rw [Shape.rowMajor_val_two]
  show _ = (Shape.rowMajorPi S_.size ix0).val
  rw [Shape.rowMajorPi_zero]
  rfl

section Result

variable (m : (ℓ : Loc nD τ sig) → Buf (Elt Ideal) ℓ) (c : Dev nD)

/-! ## Buffers the first region leaves as it found them -/

theorem V2_v40 : V2 m c (Proc.devRef .tc main_v40) = V1 m c (Proc.devRef .tc main_v40) :=
  V2_of_ne m c main_v40 (by decide)
theorem V2_v41 : V2 m c (Proc.devRef .tc main_v41) = V1 m c (Proc.devRef .tc main_v41) :=
  V2_of_ne m c main_v41 (by decide)
theorem V2_arg0 : V2 m c (Proc.devRef .tc main_arg0) = V1 m c (Proc.devRef .tc main_arg0) :=
  V2_of_ne m c main_arg0 (by decide)
theorem V2_arg1 : V2 m c (Proc.devRef .tc main_arg1) = V1 m c (Proc.devRef .tc main_arg1) :=
  V2_of_ne m c main_arg1 (by decide)
theorem V2_arg8 : V2 m c (Proc.devRef .tc main_arg8) = V1 m c (Proc.devRef .tc main_arg8) :=
  V2_of_ne m c main_arg8 (by decide)
theorem V2_arg9 : V2 m c (Proc.devRef .tc main_arg9) = V1 m c (Proc.devRef .tc main_arg9) :=
  V2_of_ne m c main_arg9 (by decide)

/-! ## The result -/

/-- The scalar the first region's result becomes reaches the last subtraction unchanged: the second region does not
    touch it. -/
theorem V4_v73 :
    V4 m c (Proc.devRef .tc main_v73) = shapeCast S_ (V2 m c (Proc.devRef .tc main_v72)) shapeCasts_S1x1_S_ :=
  (V4_of_ne m c main_v73 (by decide)).trans (HostValue.hostOps1_v73 (V2 m c))

/-- THE RESULT: the running total of the edge blocks less the running total of the sampled blocks. -/
theorem kernel_result (hP0 : Pay0) (hz0 : k0_pay2 (F := Ideal) (ix2 0 0) = 0) (hP1 : Pay1)
    (hz1 : k1_pay1 (F := Ideal) (ix2 0 0) = 0) :
    (V5 m c (Proc.devRef .tc main_v106) : S_.Idx → EReal) ix0
      = Affinity.running (T := 99)
            (Affinity.edgesBlock (be (V3 m c) c) (ge (V3 m c) c) (P (V3 m c) c) (Q (V3 m c) c)) 99 (by omega)
        - Affinity.running (T := 14)
            (Affinity.sampledBlock ((Affinity.eightEpsSq : ℝ) : EReal) (bs (V1 m c) c) (gs (V1 m c) c) (Mi (V1 m c) c)
              (Mj (V1 m c) c)) 14 (by omega) := by
  rw [V5_eq, HostValue.hostOps2_v106 (V4 m c), V4_v73, V4_out, V2_out, subf_apply, shapeCast_1x1_scalar, shapeCast_1x1_scalar,
    acc1_eq (V3 m c) c hP1 hz1 99 lt_last1, acc0_eq (V1 m c) c hP0 hz0 14 lt_last0]

end Result

end Cert.KernelIdeal.TotalValue

end
-- ==== Proof.PayloadWords.lean ====
/-
  The real numbers a few words of the sampled and edge kernels denote on the extended reals.

  Three single-precision patterns: `0x40000000` is 2, `0x358637BD` is the offset `e = 8796093 / 2^43` added to a
  coordinate difference before squaring, `0x360637BD` is `2 e`; and the named constant `"d_eps_sq"`, which the
  certificate's table gives the value `8 e²`.
-/
import proofs.«165161_j56453050139080_2_alg».proof.Proof.Gen.KernelIdeal.Skeleton
import proofs.«165161_j56453050139080_2_alg».proof.Proof.Spec
import Idealize.ShloMosaic.PureOps.IdealRules

noncomputable section

namespace Cert.KernelIdeal.PayloadValue

open Idealize.ShloMosaic Cert.KernelIdeal

/-- The word `0x40000000` denotes 2. -/
theorem word_two : Ideal.ofBits .f32 0x40000000#32 = 2 := by
  simp [Ideal.ofBits, Ideal.ieee, -EReal.coe_mul]; norm_num
  norm_cast

/-- The word `0x358637BD` denotes the offset `e`. -/
theorem word_eps : Ideal.ofBits .f32 0x358637BD#32 = ((Affinity.eps : ℝ) : EReal) := by
  unfold Affinity.eps
  simp [Ideal.ofBits, Ideal.ieee, -EReal.coe_mul]; norm_num

/-- The word `0x360637BD` denotes `2 e`. -/
theorem word_two_eps : Ideal.ofBits .f32 0x360637BD#32 = ((2 * Affinity.eps : ℝ) : EReal) := by
  unfold Affinity.eps
  simp [Ideal.ofBits, Ideal.ieee, -EReal.coe_mul]; norm_num

/-- The named constant denotes `8 e²`, by the certificate's table. -/
theorem named_eightEpsSq :
    Named.named (F := Ideal) Cert.KernelIdeal.κ "d_eps_sq" (φ := .f32) 0x2D0CBCCC#32 = ((Affinity.eightEpsSq : ℝ) : EReal) :=
  IdealRules.named_const.ideal_named_scalar _ _ _ _ rfl

end Cert.KernelIdeal.PayloadValue

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.SampledSqdist.lean ====
/-
  The sampled kernel's squared-distance array on the extended reals, read at an entry.

  From a block `x0` of 200 rows and the whole `x1` of 3000 rows (8 coordinates each) the body forms, for every
  pair `(i, j)`, the expansion of `Σ_d ((x0[i, d] - x1[j, d]) + e)²`:
  `(((|x0[i]|² + |x1[j]|²) - 2 x0[i]·x1[j]) + 2e (Σ_d x0[i, d] - Σ_d x1[j, d])) + c`, with `c` the named constant.
  The row quantities of `x0` are sums along a row kept as a column and spread over the 3000 columns; those of `x1`
  are sums along a row kept as a column, transposed into a row and spread over the 200 rows; the dot products are
  one matrix product of `x0` with the transpose of `x1` into a zero accumulator.  Each of these is read at `(i, j)`
  by its own lemma, and the pointwise operations read through by definition.
-/
import proofs.«165161_j56453050139080_2_alg».proof.Proof.Gen.KernelIdeal.Skeleton
import proofs.«165161_j56453050139080_2_alg».proof.Proof.Spec
import proofs.«165161_j56453050139080_2_alg».proof.Proof.PayloadWords
import proofs.«165161_j56453050139080_2_alg».proof.Proof.LibKeepdims
import proofs.«165161_j56453050139080_2_alg».proof.Proof.LibPlainMatmul

noncomputable section

open scoped BigOperators

namespace Cert.KernelIdeal.PayloadValue

open Idealize.ShloMosaic Idealize.ShloMosaic.ValueIdx Cert.KernelIdeal Cert.KernelIdeal.Gen

/-- The row sums of an `[n, m]` matrix, kept as a column `[n, 1]`, transposed into a row `[1, n]` and spread over
    `a` rows, read `Σ_f y[j, f]` at every `(i, j)`: the result does not depend on `i`. -/
theorem rowSum_transposed_broadcast_apply {a n m : ℕ} {φ : FTy} (y : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (hc : (⟨1, ![n]⟩ : Shape).ShapeCasts ⟨2, ![n, 1]⟩) (ht : (⟨2, ![n, 1]⟩ : Shape).Transposes [1, 0] ⟨2, ![1, n]⟩)
    (hb : (⟨2, ![1, n]⟩ : Shape).Broadcasts ⟨2, ![a, n]⟩) (i : Fin a) (j : Fin n) :
    broadcastTo ⟨2, ![a, n]⟩ (transpose ⟨2, ![1, n]⟩ [1, 0]
        (shapeCast ⟨2, ![n, 1]⟩ (multiReduction .add [1] ⟨1, ![n]⟩ y acc h hφ hacc) hc) ht) hb (ix2 i j)
      = ∑ f : Fin m, y (ix2 j f) :=
  (broadcastTo_1b_ab_apply _ hb i j).trans
    ((transpose_ix2_apply _ ht 0 j).trans
      ((Cert.LibKeepdims.shapeCast_a_a1_apply _ hc j 0).trans
        (Cert.LibKeepdims.multiReduction_add_lastAxis_apply y acc h hφ hacc j)))

/-- The kernel's contraction record is the plain `[200, 8] × [8, 3000]` one. -/
theorem dot_eq_plain : dot_S200x8_S8x3000_S200x3000_1_0_0_1_n_n = DotDims.plain 200 8 3000 := rfl

/-- The product of `x0` with the transpose of `x1`, into the zero accumulator, read at `(i, j)`: the dot product of
    row `i` of `x0` with row `j` of `x1`. -/
theorem cross_apply (x0 : FVec Ideal S200x8 .f32) (x1 : FVec Ideal S3000x8 .f32) (i : Fin 200) (j : Fin 3000) :
    matmul dot_S200x8_S8x3000_S200x3000_1_0_0_1_n_n (some .fp32) x0
        (transpose S8x3000 [1, 0] x1 transposes_S3000x8_p1_0_S8x3000) (constant S200x3000 .f32 0x00000000#32) (ix2 i j)
      = ∑ d : Fin 8, x0 (ix2 i d) * x1 (ix2 j d) := by
  refine (matmul_plain_zero_apply _ dot_eq_plain _ _ _ i j).trans ?_
  exact Finset.sum_congr rfl fun d _ =>
    congrArg (x0 (ix2 i d) * ·) (transpose_ix2_apply x1 transposes_S3000x8_p1_0_S8x3000 d j)

/-- The squared-distance array at `(i, j)`: the expansion, associated left to right, of the squared distance between
    row `i` of the block and row `j` of the whole, each coordinate difference offset by `e`. -/
theorem k0_pay5_apply (x0 : Vec Ideal S200x8 .f32) (x1 : Vec Ideal S3000x8 .f32) (i : Fin 200) (j : Fin 3000) :
    k0_pay5 (F := Ideal) x0 x1 (ix2 i j)
      = Affinity.sqdistExpanded ((Affinity.eightEpsSq : ℝ) : EReal) (fun d => x0 (ix2 i d)) (fun d => x1 (ix2 j d)) := by
  unfold k0_pay5
  simp only [shapeCast_self, Affinity.sqdistExpanded]
  refine congrArg₂ (· + ·) (congrArg₂ (· + ·) (congrArg₂ (· - ·) (congrArg₂ (· + ·) ?_ ?_) (congrArg₂ (· * ·) ?_ ?_))
    (congrArg₂ (· * ·) ?_ (congrArg₂ (· - ·) ?_ ?_))) ?_
  · -- |x0[i]|²
    refine (Cert.LibKeepdims.rowSum_keepdims_broadcast_apply _ _ _ _ _ _ _ i j).trans ?_
    exact (zero_add _).symm
  · -- |x1[j]|²
    refine (rowSum_transposed_broadcast_apply _ _ _ _ _ _ _ _ i j).trans ?_
    exact (zero_add _).symm
  · exact word_two
  · -- x0[i] · x1[j]
    refine (cross_apply x0 x1 i j).trans ?_
    exact (zero_add _).symm
  · exact word_two_eps
  · -- Σ_d x0[i, d]
    refine (Cert.LibKeepdims.rowSum_keepdims_broadcast_apply _ _ _ _ _ _ _ i j).trans ?_
    exact (zero_add _).symm
  · -- Σ_d x1[j, d]
    refine (rowSum_transposed_broadcast_apply _ _ _ _ _ _ _ _ i j).trans ?_
    exact (zero_add _).symm
  · exact named_eightEpsSq

end Cert.KernelIdeal.PayloadValue

end
-- ==== Proof.LibBlockTotal.lean ====
/-
  The total of a matrix, taken as one reduction over a stack of one matrix, read as a double sum.

  The sum of all entries of an `[a, b]` matrix `w`, as a kernel body spells it, is four vector operations: a cast `[a, b] → [1, a, b]` that
  makes the matrix a stack of one, a reduction over the last two axes into `[1]`, a cast `[1] → [1, 1, 1]`, and
  the extraction of the one entry.  The reduction's target has only unit axes, so at its one index it sums every
  entry of the stack; the stack's indices are the triples `(0, i, j)`, and the entry there is `w[i, j]`.  Hence the
  extracted scalar is `Σ_i Σ_j w[i, j]`, for any extents `a`, `b` and any element type.
-/
import Idealize.ShloMosaic.Lib.ValueLayout
import Idealize.ShloMosaic.PureOps.Ideal.Laws
import proofs.«165161_j56453050139080_2_alg».proof.Proof.LibBlockSum

noncomputable section

open scoped BigOperators

namespace Cert.LibBlockTotal

open Idealize.ShloMosaic Idealize.ShloMosaic.ValueIdx

/-- On the extended reals, the one entry of the sum of an `[a, b]` matrix over both axes (taken through the stack
    `[1, a, b]`, reduced over axes 1 and 2) is `Σ_i Σ_j w[i, j]`. -/
theorem blockTotal_apply {a b : ℕ} {φ : FTy} (w : FVec Ideal ⟨2, ![a, b]⟩ φ) (acc : BitVec φ.bits)
    (h1 : (⟨2, ![a, b]⟩ : Shape).ShapeCasts ⟨3, ![1, a, b]⟩)
    (h2 : (⟨3, ![1, a, b]⟩ : Shape).Reduces [1, 2] ⟨1, ![1]⟩) (hφ : FKind.Formats φ)
    (hacc : acc = FKind.add.neutral φ hφ)
    (h5 : (⟨1, ![1]⟩ : Shape).ShapeCasts ⟨3, ![1, 1, 1]⟩)
    (h6 : ∀ c, (![0, 0, 0] : Fin 3 → Nat) c < (⟨3, ![1, 1, 1]⟩ : Shape).size c) :
    extractAt ![0, 0, 0] (shapeCast ⟨3, ![1, 1, 1]⟩
        (multiReduction .add [1, 2] ⟨1, ![1]⟩ (shapeCast ⟨3, ![1, a, b]⟩ w h1) acc h2 hφ hacc) h5) h6
      = ∑ i : Fin a, ∑ j : Fin b, w (ix2 i j) := by
  -- at every index of the one-entry target the reduction is the sum over the whole stack
  have key : ∀ q, multiReduction .add [1, 2] ⟨1, ![1]⟩ (shapeCast ⟨3, ![1, a, b]⟩ w h1) acc h2 hφ hacc q
      = ∑ i : Fin a, ∑ j : Fin b, w (ix2 i j) := by
    intro q
    refine (Ideal.multiReduction_add_total _ acc h2 (fun c => by fin_cases c; rfl) hφ hacc q).trans ?_
    rw [sum_idx3, Fin.sum_univ_one]
    exact Finset.sum_congr rfl fun i _ => Finset.sum_congr rfl fun j _ => shapeCast_ab_1ab_apply w h1 0 i j
  exact key _

end Cert.LibBlockTotal

end
-- ==== Proof.SampledBlock.lean ====
/-
  The sampled kernel's body on the extended reals, read at the one entry it stores.

  At a grid point the body holds a block of 200 rows: their bias column `x2` (200 × 1), the bias row `x3` of all
  3000 columns (1 × 3000), the squared-distance array of the block against all 3000 rows, and the running total `s`
  (1 × 1).  It stores `s + Σ_i Σ_j exp ((x2[i] + x3[j]) - sqrt (max sq[i, j] 0))`: the bias column is spread over
  the columns and the bias row over the rows, the pointwise terms are totalled (`LibBlockTotal`) and added to `s`.
  At its first grid point the body stores zero.  The squared-distance array is read by `k0_pay5_apply`.
-/
import proofs.«165161_j56453050139080_2_alg».proof.Proof.SampledSqdist
import proofs.«165161_j56453050139080_2_alg».proof.Proof.LibBlockTotal

noncomputable section

open scoped BigOperators

namespace Cert.KernelIdeal.PayloadValue

open Idealize.ShloMosaic Idealize.ShloMosaic.ValueIdx Cert.KernelIdeal Cert.KernelIdeal.Gen

/-- The value the sampled kernel stores at its first grid point is zero. -/
theorem k0_pay2_apply : k0_pay2 (F := Ideal) (ix2 0 0) = 0 := by
  unfold k0_pay2
  simp only [shapeCast_self]
  exact Ideal.ofBits_zero_f32

/-- The bias column as the body holds it is the loaded one. -/
theorem k0_pay3_eq (x2 : Vec Ideal S200x1 .f32) : k0_pay3 (F := Ideal) x2 = x2 := by
  unfold k0_pay3
  exact shapeCast_self _ _

/-- The bias row as the body holds it is the loaded one. -/
theorem k0_pay4_eq (x3 : Vec Ideal S1x3000 .f32) : k0_pay4 (F := Ideal) x3 = x3 := by
  unfold k0_pay4
  exact shapeCast_self _ _

/-- An exponential at an index is the exponential of the element. -/
theorem exp_apply {t : Shape} {φ : FTy} (a : FVec Ideal t φ) (i : t.Idx) : Idealize.ShloMosaic.exp a i = Ideal.exp (a i) := rfl

/-- A square root at an index is the square root of the element. -/
theorem sqrt_apply {t : Shape} {φ : FTy} (a : FVec Ideal t φ) (i : t.Idx) : Idealize.ShloMosaic.sqrt a i = Ideal.sqrt (a i) := rfl

/-- The zero word, as a scalar, denotes zero. -/
theorem scalar_zero : Scalar.ofBits (F := Ideal) .f32 0x00000000#32 = 0 := Ideal.ofBits_zero_f32

/-- The accumulation step over any squared-distance array `sq`: the running total plus the block's pair terms. -/
theorem k0_pay1_apply_of (x2 : FVec Ideal S200x1 .f32) (x3 : FVec Ideal S1x3000 .f32) (sq : FVec Ideal S200x3000 .f32)
    (s : Vec Ideal S1x1 .f32) :
    k0_pay1 (F := Ideal) x2 x3 sq (Scalar.ofBits .f32 0x00000000#32) s (ix2 0 0)
      = s (ix2 0 0) + (0 + ∑ i : Fin 200, ∑ j : Fin 3000,
          Affinity.pairTerm (x2 (ix2 i 0)) (x3 (ix2 0 j)) (max (sq (ix2 i j)) 0)) := by
  unfold k0_pay1
  simp only [shapeCast_self, Affinity.pairTerm, addf_apply, broadcast_apply]
  -- the array of pair terms, totalled
  refine congrArg (fun t => s (ix2 0 0) + t) ((Cert.LibBlockTotal.blockTotal_apply _ _ _ _ _ _ _ _).trans ?_)
  simp only [exp_apply, sqrt_apply, subf_apply, addf_apply, maximumf_apply, broadcast_apply, zero_add, scalar_zero]
  refine Finset.sum_congr rfl fun i _ => Finset.sum_congr rfl fun j _ => ?_
  -- one pair's term: the bias column spread over the columns, the bias row over the rows
  rw [Cert.LibKeepdims.broadcastTo_a1_ac_apply x2 broadcasts_S200x1_S200x3000 i j,
    broadcastTo_1b_ab_apply x3 broadcasts_S1x3000_S200x3000 i j]

/-- The value the sampled kernel stores at a grid point: the running total plus the block's sampled term, the distance
    through the clamped expansion. -/
theorem k0_pay1_apply (x0 : Vec Ideal S200x8 .f32) (x1 : Vec Ideal S3000x8 .f32) (x2 : Vec Ideal S200x1 .f32)
    (x3 : Vec Ideal S1x3000 .f32) (s : Vec Ideal S1x1 .f32) :
    k0_pay1 (F := Ideal) (k0_pay3 x2) (k0_pay4 x3) (k0_pay5 x0 x1) (Scalar.ofBits .f32 0x00000000#32) s (ix2 0 0)
      = s (ix2 0 0) + (0 + ∑ i : Fin 200, ∑ j : Fin 3000,
          Affinity.pairTerm (x2 (ix2 i 0)) (x3 (ix2 0 j))
            (max (Affinity.sqdistExpanded ((Affinity.eightEpsSq : ℝ) : EReal) (fun d => x0 (ix2 i d)) (fun d => x1 (ix2 j d))) 0)) := by
  rw [k0_pay3_eq, k0_pay4_eq]
  refine (k0_pay1_apply_of x2 x3 (k0_pay5 x0 x1) s).trans ?_
  refine congrArg (fun t => s (ix2 0 0) + (0 + t)) ?_
  refine Finset.sum_congr rfl fun i _ => Finset.sum_congr rfl fun j _ => ?_
  rw [k0_pay5_apply]

end Cert.KernelIdeal.PayloadValue

end
-- ==== Proof.EdgesBlock.lean ====
/-
  The edge kernel's body on the extended reals, read at the one entry it stores.

  At a grid point the body holds a block of 5000 edges: the two endpoints' latent positions `x0`, `x1` (5000 × 8),
  the two bias columns `x2`, `x3` (5000 × 1), and the running total `s` (1 × 1).  It stores
  `s + Σ_r ((x2[r] + x3[r]) - Σ_d ((x0[r, d] - x1[r, d]) + e)²)` with `e` the real the word `0x358637BD`
  denotes: the squares are summed along each row, kept as a column, subtracted from the bias column, and the
  resulting column is totalled (`LibBlockTotal`) and added to `s`.  At its first grid point the body stores zero.
  Each shape operation is read at an index by its own lemma; the pointwise operations read through by definition.
-/
import proofs.«165161_j56453050139080_2_alg».proof.Proof.Gen.KernelIdeal.Skeleton
import proofs.«165161_j56453050139080_2_alg».proof.Proof.Spec
import proofs.«165161_j56453050139080_2_alg».proof.Proof.PayloadWords
import proofs.«165161_j56453050139080_2_alg».proof.Proof.LibKeepdims
import proofs.«165161_j56453050139080_2_alg».proof.Proof.LibBlockTotal

noncomputable section

open scoped BigOperators

namespace Cert.KernelIdeal.PayloadValue

open Idealize.ShloMosaic Idealize.ShloMosaic.ValueIdx Cert.KernelIdeal Cert.KernelIdeal.Gen

/-- The value the edge kernel stores at its first grid point is zero. -/
theorem k1_pay1_apply : k1_pay1 (F := Ideal) (ix2 0 0) = 0 := by
  unfold k1_pay1
  simp only [shapeCast_self]
  exact Ideal.ofBits_zero_f32

/-- The value the edge kernel stores at a grid point: the running total plus the block's edge term. -/
theorem k1_pay2_apply (x0 x1 : Vec Ideal S5000x8 .f32) (x2 x3 : Vec Ideal S5000x1 .f32) (s : Vec Ideal S1x1 .f32) :
    k1_pay2 (F := Ideal) x0 x1 x2 x3 s (ix2 0 0)
      = s (ix2 0 0) + (0 + ∑ r : Fin 5000,
          Affinity.edgeTerm (x2 (ix2 r 0)) (x3 (ix2 r 0)) (fun d => x0 (ix2 r d)) (fun d => x1 (ix2 r d))) := by
  unfold k1_pay2
  simp only [shapeCast_self, Affinity.edgeTerm, Affinity.sqdistDirect, addf_apply, broadcast_apply]
  -- the column of per-edge terms, totalled
  refine congrArg (fun t => s (ix2 0 0) + t) ((Cert.LibBlockTotal.blockTotal_apply _ _ _ _ _ _ _ _).trans ?_)
  simp only [Fin.sum_univ_one, subf_apply, addf_apply, zero_add]
  refine Finset.sum_congr rfl fun r _ => ?_
  refine congrArg (fun t => (x2 (ix2 r 0) + x3 (ix2 r 0)) - t) ?_
  -- the row's sum of squares, kept as a column
  refine (Cert.LibKeepdims.shapeCast_a_a1_apply _ _ r 0).trans ?_
  refine (Cert.LibKeepdims.multiReduction_add_lastAxis_apply _ _ _ _ _ r).trans ?_
  simp only [mulf_apply, addf_apply, subf_apply, broadcast_apply]
  exact Finset.sum_congr rfl fun d _ => by rw [← word_eps]; rfl

end Cert.KernelIdeal.PayloadValue

end
-- ==== Proof.KernelPrefixIsReference.lean ====
/-
  The kernel program's first host operations are the reference's.

  Both programs begin with the same operations — the two column softmaxes, their join, its product with the logistic
  of the gate array and that product's column sums — and wrap their index arrays the same way (a negative index has
  50000 added). Each program spells them over its own copies of the shapes and of the shape facts; the copies are the
  same literals, so the composed terms are equal by unfolding.
-/
import proofs.«165161_j56453050139080_2_alg».proof.Proof.KernelHostTerms
import proofs.«165161_j56453050139080_2_alg».proof.Proof.RefReadPatched

noncomputable section

namespace Cert.KernelIdeal.HostValue

open Idealize.ShloMosaic Idealize.ShloMosaic.TcCoe Idealize.SL.Sem Idealize.ShloMosaic.StableHlo
open Cert.ReferenceIdeal.ReadP

variable {F : FTy → Type} [FloatOps F] [Named F]

abbrev RMat8x50000 (F : FTy → Type) := (⟨Cert.ReferenceIdeal.S8x50000, .f32⟩ : BufTy).Contents (Elt F)
abbrev RMat100000x8 (F : FTy → Type) := (⟨Cert.ReferenceIdeal.S100000x8, .f32⟩ : BufTy).Contents (Elt F)
abbrev RIdx3000 (F : FTy → Type) := (⟨Cert.ReferenceIdeal.S3000, .i32⟩ : BufTy).Contents (Elt F)
abbrev RIdx500000 (F : FTy → Type) := (⟨Cert.ReferenceIdeal.S500000, .i32⟩ : BufTy).Contents (Elt F)

/-- The first column softmax. -/
theorem preZi_eq (x3 : RMat8x50000 F) : preZi (F := F) x3 = val_main_v10 (F := F) x3 := by
  unfold preZi colSoftmax softNum val_main_v10 val_main_v9 val_main_v8 val_main_v7 val_main_v6 val_main_v5 val_main_v4
    val_main_v3 val_main_v2 val_main_v1 val_main_v0 val_main_cst val_main_cst_0 val_main_cst_1
  rfl

/-- The second column softmax. -/
theorem preZj_eq (x4 : RMat8x50000 F) : preZj (F := F) x4 = val_main_v21 (F := F) x4 := by
  unfold preZj colSoftmax softNum val_main_v21 val_main_v20 val_main_v19 val_main_v18 val_main_v17 val_main_v16 val_main_v15
    val_main_v14 val_main_v13 val_main_v12 val_main_v11 val_main_cst_2 val_main_cst_3 val_main_cst_4
  rfl

/-- Their join along the columns. -/
theorem preZ_eq (x3 x4 : RMat8x50000 F) : preZ (F := F) x3 x4 = val_main_v22 (F := F) x3 x4 := by
  unfold preZ val_main_v22
  rw [preZi_eq, preZj_eq]

/-- The logistic of the gate array. -/
theorem preGate_eq (x5 : RMat100000x8 F) : preGate (F := F) x5 = val_main_v28 (F := F) x5 := by
  unfold preGate val_main_v28 val_main_v27 val_main_v26 val_main_v25 val_main_v24 val_main_v23 val_main_cst_5 val_main_cst_6
  rfl

/-- The transposed join times the logistic. -/
theorem preZG_eq (x3 x4 : RMat8x50000 F) (x5 : RMat100000x8 F) :
    preZG (F := F) x3 x4 x5 = val_main_v30 (F := F) x3 x4 x5 := by
  unfold preZG val_main_v30 val_main_v29
  rw [preZ_eq, preGate_eq]

/-- Its column sums. -/
theorem preCs_eq (x3 x4 : RMat8x50000 F) (x5 : RMat100000x8 F) :
    preCs (F := F) x3 x4 x5 = val_main_v31 (F := F) x3 x4 x5 := by
  unfold preCs val_main_v31 val_main_cst_7
  rw [preZG_eq]

/-! ## The index wrap -/

theorem wrap3000_eq_v42 (x6 : RIdx3000 F) : wrap3000 (F := F) x6 = val_main_v42 (F := F) x6 := by
  unfold wrap3000 val_main_v42 val_main_v41 val_main_v40 val_main_v39 val_main_v38 val_main_c val_main_c_8
  rfl

theorem wrap3000_eq_v60 (x6 : RIdx3000 F) : wrap3000 (F := F) x6 = val_main_v60 (F := F) x6 := by
  unfold wrap3000 val_main_v60 val_main_v59 val_main_v58 val_main_v57 val_main_v56 val_main_c_11 val_main_c_12
  rfl

theorem wrap3000_eq_v51 (x7 : RIdx3000 F) : wrap3000 (F := F) x7 = val_main_v51 (F := F) x7 := by
  unfold wrap3000 val_main_v51 val_main_v50 val_main_v49 val_main_v48 val_main_v47 val_main_c_9 val_main_c_10
  rfl

theorem wrap3000_eq_v68 (x7 : RIdx3000 F) : wrap3000 (F := F) x7 = val_main_v68 (F := F) x7 := by
  unfold wrap3000 val_main_v68 val_main_v67 val_main_v66 val_main_v65 val_main_v64 val_main_c_13 val_main_c_14
  rfl

theorem wrap500000_eq_v92 (x8 : RIdx500000 F) : wrap500000 (F := F) x8 = val_main_v92 (F := F) x8 := by
  unfold wrap500000 val_main_v92 val_main_v91 val_main_v90 val_main_v89 val_main_v88 val_main_c_18 val_main_c_19
  rfl

theorem wrap500000_eq_v115 (x8 : RIdx500000 F) : wrap500000 (F := F) x8 = val_main_v115 (F := F) x8 := by
  unfold wrap500000 val_main_v115 val_main_v114 val_main_v113 val_main_v112 val_main_v111 val_main_c_24 val_main_c_25
  rfl

theorem wrap500000_eq_v101 (x9 : RIdx500000 F) : wrap500000 (F := F) x9 = val_main_v101 (F := F) x9 := by
  unfold wrap500000 val_main_v101 val_main_v100 val_main_v99 val_main_v98 val_main_v97 val_main_c_20 val_main_c_21
  rfl

theorem wrap500000_eq_v122 (x9 : RIdx500000 F) : wrap500000 (F := F) x9 = val_main_v122 (F := F) x9 := by
  unfold wrap500000 val_main_v122 val_main_v121 val_main_v120 val_main_v119 val_main_v118 val_main_c_26 val_main_c_27
  rfl

end Cert.KernelIdeal.HostValue

end
-- ==== Proof.KernelSide.lean ====
/-
  The kernel program's result in the specification's terms.

  Its result buffer is the second kernel's running total minus the first's; each running total is the specification's
  running total of blocks over the arrays that kernel reads; those arrays are gathers of the latent positions and the
  bias vectors; and the shared intermediate arrays and wrapped indices are, operation for operation, the reference's.
-/
import proofs.«165161_j56453050139080_2_alg».proof.Proof.KernelArrays
import proofs.«165161_j56453050139080_2_alg».proof.Proof.KernelResult
import proofs.«165161_j56453050139080_2_alg».proof.Proof.SampledBlock
import proofs.«165161_j56453050139080_2_alg».proof.Proof.EdgesBlock
import proofs.«165161_j56453050139080_2_alg».proof.Proof.KernelPrefixIsReference
import proofs.«165161_j56453050139080_2_alg».proof.Proof.AlgebraicFrom

set_option maxRecDepth 16384

noncomputable section

namespace Cert.Proof.KernelSide

open Cert.KernelIdeal Cert.KernelIdeal.Hand Cert.KernelIdeal.HostValue Cert.KernelIdeal.TotalValue Cert.KernelIdeal.ArrayValue
open Cert.KernelIdeal.PayloadValue
open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ) (c : Dev Cert.KernelIdeal.nD)

namespace R
export Cert.ReferenceIdeal.RefValue (be ge bs gs Mik Mjk Pek Qek Lk Zi Zj Z ZG cs Amat)
end R

/-- The latent matrix, in the reference's stage names. -/
theorem Lk_eq : ArrayValue.Lk m c = R.Lk (a2 m c) (a3 m c) (a4 m c) (a5 m c) := by
  unfold ArrayValue.Lk R.Lk R.Amat R.Z R.ZG R.cs
  rw [preZ_eq, preZG_eq, preCs_eq]

theorem bs_fun : TotalValue.bs (V1 m c) c = R.bs (a0 m c) (a6 m c) := by
  funext i; rw [bs_eq, wrap3000_eq_v60]; rfl
theorem gs_fun : TotalValue.gs (V1 m c) c = R.gs (a1 m c) (a7 m c) := by
  funext j; rw [gs_eq, wrap3000_eq_v68]; rfl
theorem Mi_fun : TotalValue.Mi (V1 m c) c = R.Mik (a2 m c) (a3 m c) (a4 m c) (a5 m c) (a6 m c) := by
  funext i d; rw [Mi_eq, Lk_eq, wrap3000_eq_v42, preZi_eq]; rfl
theorem Mj_fun : TotalValue.Mj (V1 m c) c = R.Mjk (a2 m c) (a3 m c) (a4 m c) (a5 m c) (a7 m c) := by
  funext j d; rw [Mj_eq, Lk_eq, wrap3000_eq_v51, preZj_eq]; rfl
theorem be_fun : TotalValue.be (V3 m c) c = R.be (a0 m c) (a8 m c) := by
  funext r; rw [be_eq, wrap500000_eq_v115]; rfl
theorem ge_fun : TotalValue.ge (V3 m c) c = R.ge (a1 m c) (a9 m c) := by
  funext r; rw [ge_eq, wrap500000_eq_v122]; rfl
theorem P_fun : TotalValue.P (V3 m c) c = R.Pek (a2 m c) (a3 m c) (a4 m c) (a5 m c) (a8 m c) := by
  funext r d; rw [P_eq, Lk_eq, wrap500000_eq_v92, preZi_eq]; rfl
theorem Q_fun : TotalValue.Q (V3 m c) c = R.Qek (a2 m c) (a3 m c) (a4 m c) (a5 m c) (a9 m c) := by
  funext r d; rw [Q_eq, Lk_eq, wrap500000_eq_v101, preZj_eq]; rfl

/-- The result buffer holds the specification's block form of the edge term minus the sampled term. -/
theorem kernel_value (_hpre : Cert.Pre_KernelIdeal m) :
    V5 m c (Proc.devRef .tc main_v106) ValueIdx.ix0 = Cert.Proof.Assembly.KSpec m c := by
  rw [kernel_result m c k0_pay1_apply k0_pay2_apply k1_pay2_apply k1_pay1_apply,
    bs_fun, gs_fun, Mi_fun, Mj_fun, be_fun, ge_fun, P_fun, Q_fun]
  rfl

end Cert.Proof.KernelSide

end
-- ==== Proof.lean ====
/-
  The certificate's proof. The kernel program runs two kernels, each accumulating a running total over its grid in a
  scratch buffer, between stretches of host operations; its frame is the several-regions launch over proof data that
  names what the scratch holds after each point, and the run names the result buffer's final contents. The reference's
  run is the fold of its 160 host operations. At the extended reals both results are the edge term minus the sampled
  term of one and the same latent positions: the kernel's expansion of the squared distance, with its constant read as
  `8 e²`, is the reference's sum of squares on real coordinates, and block-by-block accumulation is regrouping a sum.
-/
import proofs.«165161_j56453050139080_2_alg».proof.Defs
import proofs.«165161_j56453050139080_2_alg».proof.Proof.Gen.Kernel
import proofs.«165161_j56453050139080_2_alg».proof.Proof.Gen.KernelIdeal
import proofs.«165161_j56453050139080_2_alg».proof.Proof.Gen.ReferenceIdeal
import proofs.«165161_j56453050139080_2_alg».proof.Proof.Gen.Pre_finite_inputs
import proofs.«165161_j56453050139080_2_alg».proof.Proof.KernelLaunch
import proofs.«165161_j56453050139080_2_alg».proof.Proof.KernelLaunchW
import proofs.«165161_j56453050139080_2_alg».proof.Proof.RefSide
import proofs.«165161_j56453050139080_2_alg».proof.Proof.AlgebraicFrom
import proofs.«165161_j56453050139080_2_alg».proof.Proof.KernelSide
import Idealize.ShloMosaic.Adequacy
import Idealize.ShloMosaic.Init

noncomputable section

namespace Cert.Proof

open Idealize.ShloMosaic Idealize.SL.Sem

/-- The kernel program as printed runs to the end and leaves its arguments alone: its run, the result's value dropped. -/
theorem frame_p : Cert.frame_Kernel := fun m ρ _ =>
  (θ_run (Cert.Kernel.defs (F := Bits)) _ _).mono (fun _ h c => (h c).2) (Cert.Kernel.Hand.run_main (F := Bits) m ρ)

/-- The same of its idealization. -/
theorem frame_pi : Cert.frame_KernelIdeal := fun m ρ _ =>
  (θ_run (Cert.KernelIdeal.defs (F := Ideal)) _ _).mono (fun _ h c => (h c).2) (Cert.KernelIdeal.Hand.run_main (F := Ideal) m ρ)

/-- The one rewrite of the idealization: the sampled kernel's constant term is named, and its name denotes `8 e²`. -/
theorem preserves : Cert.preserves_Kernel_KernelIdeal :=
  IdealRules.named_const.statement Cert.KernelIdeal.κ "d_eps_sq" .f32 0x2D0CBCCC#32
    ((77371252064649 / 9671406556917033397649408 : ℝ) : EReal) rfl

/-- At the extended reals, from memories agreeing on the arguments, both programs end with one result: the kernel's
    result buffer holds the specification's block form, and on finite inputs the reference's result is that same value. -/
theorem algebraic : Cert.algebraic_KernelIdeal_ReferenceIdeal :=
  Cert.Proof.Assembly.algebraic_of fun m hpre c => Cert.Proof.KernelSide.kernel_value m c hpre

theorem claim : Cert.Claim := ⟨Cert.Kernel.Gen.facts, Cert.KernelIdeal.Gen.facts, Cert.ReferenceIdeal.Gen.facts, Cert.Pre_finite_inputs.Gen.facts,
  frame_p, frame_pi, Cert.ReferenceIdeal.RefValue.frame_ri, preserves, algebraic⟩

end Cert.Proof

end
